-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x750 : Shape := ⟨2, ![4096, 750]⟩
abbrev S_ : Shape := ⟨0, ![]⟩

class Facts : Prop where
  bcast_S_S4096x750 : S_.BroadcastsInDim S4096x750 (![] : Fin 0 → Fin S4096x750.rank)
  reducesTo_S4096x750_S_d0_1 : S4096x750.ReducesTo [0, 1] S_
  h_S_ : 0 < S_.numel

variable [Facts]

def fn {F : FTy → Type} [FloatOps F] (main_arg0 : FVec F S4096x750 .f32) (main_arg1 : FVec F S4096x750 .f32) : IVec S_ 1 :=
  let main_v0 : FVec F S4096x750 .f32 := Host.absf main_arg0
  let main_cst : FVec F S_ .f32 := constant S_ .f32 0x7F800000#32
  let main_v1 : FVec F S4096x750 .f32 := broadcastInDim S4096x750 ![] bcast_S_S4096x750 main_cst
  let main_v2 : IVec S4096x750 1 := cmpf .olt main_v0 main_v1
  let main_c : IVec S_ 1 := constantI S_ 1 1#1
  let main_v3 : IVec S_ 1 := (fun x v => Host.reduce IntOp.andi x v reducesTo_S4096x750_S_d0_1 h_S_) main_v2 main_c
  let main_v4 : FVec F S4096x750 .f32 := Host.absf main_arg1
  let main_cst_0 : FVec F S_ .f32 := constant S_ .f32 0x7F800000#32
  let main_v5 : FVec F S4096x750 .f32 := broadcastInDim S4096x750 ![] bcast_S_S4096x750 main_cst_0
  let main_v6 : IVec S4096x750 1 := cmpf .olt main_v4 main_v5
  let main_c_1 : IVec S_ 1 := constantI S_ 1 1#1
  let main_v7 : IVec S_ 1 := (fun x v => Host.reduce IntOp.andi x v reducesTo_S4096x750_S_d0_1 h_S_) main_v6 main_c_1
  let main_v8 : IVec S_ 1 := andi main_v3 main_v7
  main_v8
-- ==== Kernel.lean ====
abbrev S4096x750 : Shape := ⟨2, ![4096, 750]⟩
abbrev S4096 : Shape := ⟨1, ![4096]⟩
abbrev S4096x1 : Shape := ⟨2, ![4096, 1]⟩
abbrev S1x4096 : Shape := ⟨2, ![1, 4096]⟩
abbrev S6x4096 : Shape := ⟨2, ![6, 4096]⟩
abbrev S24576 : Shape := ⟨1, ![24576]⟩
abbrev S4096x6 : Shape := ⟨2, ![4096, 6]⟩
abbrev S4096x5 : Shape := ⟨2, ![4096, 5]⟩
abbrev S4096x761 : Shape := ⟨2, ![4096, 761]⟩
abbrev S_ : Shape := ⟨0, ![]⟩
abbrev S1 : Shape := ⟨1, ![1]⟩
abbrev S1x1 : Shape := ⟨2, ![1, 1]⟩
abbrev S1x4096x750 : Shape := ⟨3, ![1, 4096, 750]⟩
abbrev S11x4096x750 : Shape := ⟨3, ![11, 4096, 750]⟩
abbrev S11x750 : Shape := ⟨2, ![11, 750]⟩
abbrev S128x750 : Shape := ⟨2, ![128, 750]⟩
abbrev S128x761 : Shape := ⟨2, ![128, 761]⟩
abbrev S11x128x750 : Shape := ⟨3, ![11, 128, 750]⟩
abbrev S750 : Shape := ⟨1, ![750]⟩
abbrev S1x750 : Shape := ⟨2, ![1, 750]⟩
abbrev S1x128x750 : Shape := ⟨3, ![1, 128, 750]⟩
abbrev S128 : Shape := ⟨1, ![128]⟩
abbrev S128x1 : Shape := ⟨2, ![128, 1]⟩

abbrev nBuf : Space → Nat
  | .hbm => 321
  | .vmem => 23
  | .smem => 0
  | _ => 0

abbrev hbmTy0_0 (i : Nat) : BufTy := match i % 128 with
  | 0 => ⟨S4096x750, .f32⟩
  | 1 => ⟨S4096x750, .f32⟩
  | 2 => ⟨S4096, .i32⟩
  | 3 => ⟨S4096, .i32⟩
  | 4 => ⟨S4096, .i32⟩
  | 5 => ⟨S4096, .i32⟩
  | 6 => ⟨S4096, .i32⟩
  | 7 => ⟨S4096, .i32⟩
  | 8 => ⟨S4096, .i32⟩
  | 9 => ⟨S4096, .i32⟩
  | 10 => ⟨S4096, .i32⟩
  | 11 => ⟨S4096, .i32⟩
  | 12 => ⟨S4096, .i32⟩
  | 13 => ⟨S4096x1, .f32⟩
  | 14 => ⟨S4096, .f32⟩
  | 15 => ⟨S1x4096, .f32⟩
  | 16 => ⟨S6x4096, .f32⟩
  | 17 => ⟨S24576, .f32⟩
  | 18 => ⟨S4096x6, .f32⟩
  | 19 => ⟨S4096x1, .f32⟩
  | 20 => ⟨S4096, .f32⟩
  | 21 => ⟨S1x4096, .f32⟩
  | 22 => ⟨S6x4096, .f32⟩
  | 23 => ⟨S24576, .f32⟩
  | 24 => ⟨S4096x6, .f32⟩
  | 25 => ⟨S4096x5, .f32⟩
  | 26 => ⟨S4096x761, .f32⟩
  | 27 => ⟨S4096x1, .f32⟩
  | 28 => ⟨S4096, .f32⟩
  | 29 => ⟨S1x4096, .f32⟩
  | 30 => ⟨S6x4096, .f32⟩
  | 31 => ⟨S24576, .f32⟩
  | 32 => ⟨S4096x6, .f32⟩
  | 33 => ⟨S4096x1, .f32⟩
  | 34 => ⟨S4096, .f32⟩
  | 35 => ⟨S1x4096, .f32⟩
  | 36 => ⟨S6x4096, .f32⟩
  | 37 => ⟨S24576, .f32⟩
  | 38 => ⟨S4096x6, .f32⟩
  | 39 => ⟨S4096x5, .f32⟩
  | 40 => ⟨S4096x761, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S1, .i32⟩
  | 50 => ⟨S_, .i32⟩
  | 51 => ⟨S4096x1, .i32⟩
  | 52 => ⟨S4096x1, .i1⟩
  | 53 => ⟨S1x1, .i32⟩
  | 54 => ⟨S4096x1, .i32⟩
  | 55 => ⟨S4096x1, .i1⟩
  | 56 => ⟨S4096x1, .i1⟩
  | 57 => ⟨S_, .i1⟩
  | 58 => ⟨S4096, .i1⟩
  | 59 => ⟨S4096x750, .f32⟩
  | 60 => ⟨S4096x750, .i1⟩
  | 61 => ⟨S_, .f32⟩
  | 62 => ⟨S4096x750, .f32⟩
  | 63 => ⟨S4096x750, .f32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S1, .i32⟩
  | 73 => ⟨S_, .i32⟩
  | 74 => ⟨S4096x1, .i32⟩
  | 75 => ⟨S4096x1, .i1⟩
  | 76 => ⟨S1x1, .i32⟩
  | 77 => ⟨S4096x1, .i32⟩
  | 78 => ⟨S4096x1, .i1⟩
  | 79 => ⟨S4096x1, .i1⟩
  | 80 => ⟨S_, .i1⟩
  | 81 => ⟨S4096, .i1⟩
  | 82 => ⟨S4096x750, .f32⟩
  | 83 => ⟨S4096x750, .i1⟩
  | 84 => ⟨S_, .f32⟩
  | 85 => ⟨S4096x750, .f32⟩
  | 86 => ⟨S4096x750, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S1, .i32⟩
  | 96 => ⟨S_, .i32⟩
  | 97 => ⟨S4096x1, .i32⟩
  | 98 => ⟨S4096x1, .i1⟩
  | 99 => ⟨S1x1, .i32⟩
  | 100 => ⟨S4096x1, .i32⟩
  | 101 => ⟨S4096x1, .i1⟩
  | 102 => ⟨S4096x1, .i1⟩
  | 103 => ⟨S_, .i1⟩
  | 104 => ⟨S4096, .i1⟩
  | 105 => ⟨S4096x750, .f32⟩
  | 106 => ⟨S4096x750, .i1⟩
  | 107 => ⟨S_, .f32⟩
  | 108 => ⟨S4096x750, .f32⟩
  | 109 => ⟨S4096x750, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S1, .i32⟩
  | 119 => ⟨S_, .i32⟩
  | 120 => ⟨S4096x1, .i32⟩
  | 121 => ⟨S4096x1, .i1⟩
  | 122 => ⟨S1x1, .i32⟩
  | 123 => ⟨S4096x1, .i32⟩
  | 124 => ⟨S4096x1, .i1⟩
  | 125 => ⟨S4096x1, .i1⟩
  | 126 => ⟨S_, .i1⟩
  | 127 => ⟨S4096, .i1⟩
  | _ => ⟨S4096x750, .f32⟩

abbrev hbmTy0_1 (i : Nat) : BufTy := match i % 128 with
  | 0 => ⟨S4096x750, .f32⟩
  | 1 => ⟨S4096x750, .i1⟩
  | 2 => ⟨S_, .f32⟩
  | 3 => ⟨S4096x750, .f32⟩
  | 4 => ⟨S4096x750, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S1, .i32⟩
  | 14 => ⟨S_, .i32⟩
  | 15 => ⟨S4096x1, .i32⟩
  | 16 => ⟨S4096x1, .i1⟩
  | 17 => ⟨S1x1, .i32⟩
  | 18 => ⟨S4096x1, .i32⟩
  | 19 => ⟨S4096x1, .i1⟩
  | 20 => ⟨S4096x1, .i1⟩
  | 21 => ⟨S_, .i1⟩
  | 22 => ⟨S4096, .i1⟩
  | 23 => ⟨S4096x750, .f32⟩
  | 24 => ⟨S4096x750, .i1⟩
  | 25 => ⟨S_, .f32⟩
  | 26 => ⟨S4096x750, .f32⟩
  | 27 => ⟨S4096x750, .f32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S1, .i32⟩
  | 37 => ⟨S_, .i32⟩
  | 38 => ⟨S4096x1, .i32⟩
  | 39 => ⟨S4096x1, .i1⟩
  | 40 => ⟨S1x1, .i32⟩
  | 41 => ⟨S4096x1, .i32⟩
  | 42 => ⟨S4096x1, .i1⟩
  | 43 => ⟨S4096x1, .i1⟩
  | 44 => ⟨S_, .i1⟩
  | 45 => ⟨S4096, .i1⟩
  | 46 => ⟨S4096x750, .f32⟩
  | 47 => ⟨S4096x750, .i1⟩
  | 48 => ⟨S_, .f32⟩
  | 49 => ⟨S4096x750, .f32⟩
  | 50 => ⟨S4096x750, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S1, .i32⟩
  | 60 => ⟨S_, .i32⟩
  | 61 => ⟨S4096x1, .i32⟩
  | 62 => ⟨S4096x1, .i1⟩
  | 63 => ⟨S1x1, .i32⟩
  | 64 => ⟨S4096x1, .i32⟩
  | 65 => ⟨S4096x1, .i1⟩
  | 66 => ⟨S4096x1, .i1⟩
  | 67 => ⟨S_, .i1⟩
  | 68 => ⟨S4096, .i1⟩
  | 69 => ⟨S4096x750, .f32⟩
  | 70 => ⟨S4096x750, .i1⟩
  | 71 => ⟨S_, .f32⟩
  | 72 => ⟨S4096x750, .f32⟩
  | 73 => ⟨S4096x750, .f32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S1, .i32⟩
  | 83 => ⟨S_, .i32⟩
  | 84 => ⟨S4096x1, .i32⟩
  | 85 => ⟨S4096x1, .i1⟩
  | 86 => ⟨S1x1, .i32⟩
  | 87 => ⟨S4096x1, .i32⟩
  | 88 => ⟨S4096x1, .i1⟩
  | 89 => ⟨S4096x1, .i1⟩
  | 90 => ⟨S_, .i1⟩
  | 91 => ⟨S4096, .i1⟩
  | 92 => ⟨S4096x750, .f32⟩
  | 93 => ⟨S4096x750, .i1⟩
  | 94 => ⟨S_, .f32⟩
  | 95 => ⟨S4096x750, .f32⟩
  | 96 => ⟨S4096x750, .f32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S1, .i32⟩
  | 106 => ⟨S_, .i32⟩
  | 107 => ⟨S4096x1, .i32⟩
  | 108 => ⟨S4096x1, .i1⟩
  | 109 => ⟨S1x1, .i32⟩
  | 110 => ⟨S4096x1, .i32⟩
  | 111 => ⟨S4096x1, .i1⟩
  | 112 => ⟨S4096x1, .i1⟩
  | 113 => ⟨S_, .i1⟩
  | 114 => ⟨S4096, .i1⟩
  | 115 => ⟨S4096x750, .f32⟩
  | 116 => ⟨S4096x750, .i1⟩
  | 117 => ⟨S_, .f32⟩
  | 118 => ⟨S4096x750, .f32⟩
  | 119 => ⟨S4096x750, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S4096x750, .f32⟩

abbrev hbmTy0_2 (i : Nat) : BufTy := match i % 128 with
  | 0 => ⟨S1, .i32⟩
  | 1 => ⟨S_, .i32⟩
  | 2 => ⟨S4096x1, .i32⟩
  | 3 => ⟨S4096x1, .i1⟩
  | 4 => ⟨S1x1, .i32⟩
  | 5 => ⟨S4096x1, .i32⟩
  | 6 => ⟨S4096x1, .i1⟩
  | 7 => ⟨S4096x1, .i1⟩
  | 8 => ⟨S_, .i1⟩
  | 9 => ⟨S4096, .i1⟩
  | 10 => ⟨S4096x750, .f32⟩
  | 11 => ⟨S4096x750, .i1⟩
  | 12 => ⟨S_, .f32⟩
  | 13 => ⟨S4096x750, .f32⟩
  | 14 => ⟨S4096x750, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S1, .i32⟩
  | 24 => ⟨S_, .i32⟩
  | 25 => ⟨S4096x1, .i32⟩
  | 26 => ⟨S4096x1, .i1⟩
  | 27 => ⟨S1x1, .i32⟩
  | 28 => ⟨S4096x1, .i32⟩
  | 29 => ⟨S4096x1, .i1⟩
  | 30 => ⟨S4096x1, .i1⟩
  | 31 => ⟨S_, .i1⟩
  | 32 => ⟨S4096, .i1⟩
  | 33 => ⟨S4096x750, .f32⟩
  | 34 => ⟨S4096x750, .i1⟩
  | 35 => ⟨S_, .f32⟩
  | 36 => ⟨S4096x750, .f32⟩
  | 37 => ⟨S4096x750, .f32⟩
  | 38 => ⟨S1x4096x750, .f32⟩
  | 39 => ⟨S1x4096x750, .f32⟩
  | 40 => ⟨S1x4096x750, .f32⟩
  | 41 => ⟨S1x4096x750, .f32⟩
  | 42 => ⟨S1x4096x750, .f32⟩
  | 43 => ⟨S1x4096x750, .f32⟩
  | 44 => ⟨S1x4096x750, .f32⟩
  | 45 => ⟨S1x4096x750, .f32⟩
  | 46 => ⟨S1x4096x750, .f32⟩
  | 47 => ⟨S1x4096x750, .f32⟩
  | 48 => ⟨S1x4096x750, .f32⟩
  | 49 => ⟨S11x4096x750, .f32⟩
  | 50 => ⟨S4096x750, .f32⟩
  | 51 => ⟨S11x750, .f32⟩
  | 52 => ⟨S1x1, .f32⟩
  | 53 => ⟨S1x1, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | _ => ⟨S4096x750, .f32⟩

abbrev hbmTy (i : Nat) : BufTy := match i / 128 with
  | 0 => hbmTy0_0 i
  | 1 => hbmTy0_1 i
  | 2 => hbmTy0_2 i
  | _ => ⟨S4096x750, .f32⟩

abbrev bufTy : (tb : Table) → Fin (tcTables nBuf tb) → BufTy
  | .hbm, ⟨i, _⟩ => hbmTy i
  | .local _ .vmem, ⟨0, _⟩ => ⟨S128x750, .f32⟩
  | .local _ .vmem, ⟨1, _⟩ => ⟨S128x750, .f32⟩
  | .local _ .vmem, ⟨2, _⟩ => ⟨S128x750, .f32⟩
  | .local _ .vmem, ⟨3, _⟩ => ⟨S128x750, .f32⟩
  | .local _ .vmem, ⟨4, _⟩ => ⟨S128x761, .f32⟩
  | .local _ .vmem, ⟨5, _⟩ => ⟨S128x761, .f32⟩
  | .local _ .vmem, ⟨6, _⟩ => ⟨S11x128x750, .f32⟩
  | .local _ .vmem, ⟨7, _⟩ => ⟨S11x128x750, .f32⟩
  | .local _ .vmem, ⟨8, _⟩ => ⟨S128x750, .f32⟩
  | .local _ .vmem, ⟨9, _⟩ => ⟨S128x750, .f32⟩
  | .local _ .vmem, ⟨10, _⟩ => ⟨S11x750, .f32⟩
  | .local _ .vmem, ⟨11, _⟩ => ⟨S1x1, .f32⟩
  | .local _ .vmem, ⟨12, _⟩ => ⟨S11x750, .f32⟩
  | .local _ .vmem, ⟨13, _⟩ => ⟨S1x1, .f32⟩
  | .local _ .vmem, ⟨14, _⟩ => ⟨S128x750, .f32⟩
  | .local _ .vmem, ⟨15, _⟩ => ⟨S128x750, .f32⟩
  | .local _ .vmem, ⟨16, _⟩ => ⟨S128x761, .f32⟩
  | .local _ .vmem, ⟨17, _⟩ => ⟨S128x761, .f32⟩
  | .local _ .vmem, ⟨18, _⟩ => ⟨S128x750, .f32⟩
  | .local _ .vmem, ⟨19, _⟩ => ⟨S128x750, .f32⟩
  | .local _ .vmem, ⟨20, _⟩ => ⟨S11x750, .f32⟩
  | .local _ .vmem, ⟨21, _⟩ => ⟨S1x1, .f32⟩
  | .local _ .vmem, ⟨22, _⟩ => ⟨S1x1, .f32⟩
  | _, _ => ⟨S4096x750, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_call0_cst : Ref sig .tc := ⟨.hbm, 61, rfl⟩
abbrev main_call0_v15 : Ref sig .tc := ⟨.hbm, 62, rfl⟩
abbrev main_v28 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v29 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v30 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v31 : Ref sig .tc := ⟨.hbm, 132, rfl⟩
abbrev main_call4_c : Ref sig .tc := ⟨.hbm, 133, rfl⟩
abbrev main_call4_v0 : Ref sig .tc := ⟨.hbm, 134, rfl⟩
abbrev main_call4_v1 : Ref sig .tc := ⟨.hbm, 135, rfl⟩
abbrev main_call4_c_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_c_1 : Ref sig .tc := ⟨.hbm, 141, rfl⟩
abbrev main_call4_c_2 : Ref sig .tc := ⟨.hbm, 142, rfl⟩
abbrev main_call4_v6 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_c_3 : Ref sig .tc := ⟨.hbm, 149, rfl⟩
abbrev main_call4_v12 : Ref sig .tc := ⟨.hbm, 150, rfl⟩
abbrev main_call4_v13 : Ref sig .tc := ⟨.hbm, 151, rfl⟩
abbrev main_call4_v14 : Ref sig .tc := ⟨.hbm, 152, rfl⟩
abbrev main_call4_cst : Ref sig .tc := ⟨.hbm, 153, rfl⟩
abbrev main_call4_v15 : Ref sig .tc := ⟨.hbm, 154, rfl⟩
abbrev main_v32 : Ref sig .tc := ⟨.hbm, 155, rfl⟩
abbrev main_call5_c : Ref sig .tc := ⟨.hbm, 156, rfl⟩
abbrev main_call5_v0 : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_c_1 : Ref sig .tc := ⟨.hbm, 164, rfl⟩
abbrev main_call5_c_2 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_3 : Ref sig .tc := ⟨.hbm, 172, rfl⟩
abbrev main_call5_v12 : Ref sig .tc := ⟨.hbm, 173, rfl⟩
abbrev main_call5_v13 : Ref sig .tc := ⟨.hbm, 174, rfl⟩
abbrev main_call5_v14 : Ref sig .tc := ⟨.hbm, 175, rfl⟩
abbrev main_call5_cst : Ref sig .tc := ⟨.hbm, 176, rfl⟩
abbrev main_call5_v15 : Ref sig .tc := ⟨.hbm, 177, rfl⟩
abbrev main_v33 : Ref sig .tc := ⟨.hbm, 178, rfl⟩
abbrev main_call6_c : Ref sig .tc := ⟨.hbm, 179, rfl⟩
abbrev main_call6_v0 : Ref sig .tc := ⟨.hbm, 180, rfl⟩
abbrev main_call6_v1 : Ref sig .tc := ⟨.hbm, 181, rfl⟩
abbrev main_call6_c_0 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_call6_v5 : Ref sig .tc := ⟨.hbm, 186, rfl⟩
abbrev main_call6_c_1 : Ref sig .tc := ⟨.hbm, 187, rfl⟩
abbrev main_call6_c_2 : Ref sig .tc := ⟨.hbm, 188, rfl⟩
abbrev main_call6_v6 : Ref sig .tc := ⟨.hbm, 189, rfl⟩
abbrev main_call6_v7 : Ref sig .tc := ⟨.hbm, 190, rfl⟩
abbrev main_call6_v8 : Ref sig .tc := ⟨.hbm, 191, rfl⟩
abbrev main_call6_v9 : Ref sig .tc := ⟨.hbm, 192, rfl⟩
abbrev main_call6_v10 : Ref sig .tc := ⟨.hbm, 193, rfl⟩
abbrev main_call6_v11 : Ref sig .tc := ⟨.hbm, 194, rfl⟩
abbrev main_call6_c_3 : Ref sig .tc := ⟨.hbm, 195, rfl⟩
abbrev main_call6_v12 : Ref sig .tc := ⟨.hbm, 196, rfl⟩
abbrev main_call6_v13 : Ref sig .tc := ⟨.hbm, 197, rfl⟩
abbrev main_call6_v14 : Ref sig .tc := ⟨.hbm, 198, rfl⟩
abbrev main_call6_cst : Ref sig .tc := ⟨.hbm, 199, rfl⟩
abbrev main_call6_v15 : Ref sig .tc := ⟨.hbm, 200, rfl⟩
abbrev main_v34 : Ref sig .tc := ⟨.hbm, 201, rfl⟩
abbrev main_call7_c : Ref sig .tc := ⟨.hbm, 202, rfl⟩
abbrev main_call7_v0 : Ref sig .tc := ⟨.hbm, 203, rfl⟩
abbrev main_call7_v1 : Ref sig .tc := ⟨.hbm, 204, rfl⟩
abbrev main_call7_c_0 : Ref sig .tc := ⟨.hbm, 205, rfl⟩
abbrev main_call7_v2 : Ref sig .tc := ⟨.hbm, 206, rfl⟩
abbrev main_call7_v3 : Ref sig .tc := ⟨.hbm, 207, rfl⟩
abbrev main_call7_v4 : Ref sig .tc := ⟨.hbm, 208, rfl⟩
abbrev main_call7_v5 : Ref sig .tc := ⟨.hbm, 209, rfl⟩
abbrev main_call7_c_1 : Ref sig .tc := ⟨.hbm, 210, rfl⟩
abbrev main_call7_c_2 : Ref sig .tc := ⟨.hbm, 211, rfl⟩
abbrev main_call7_v6 : Ref sig .tc := ⟨.hbm, 212, rfl⟩
abbrev main_call7_v7 : Ref sig .tc := ⟨.hbm, 213, rfl⟩
abbrev main_call7_v8 : Ref sig .tc := ⟨.hbm, 214, rfl⟩
abbrev main_call7_v9 : Ref sig .tc := ⟨.hbm, 215, rfl⟩
abbrev main_call7_v10 : Ref sig .tc := ⟨.hbm, 216, rfl⟩
abbrev main_call7_v11 : Ref sig .tc := ⟨.hbm, 217, rfl⟩
abbrev main_call7_c_3 : Ref sig .tc := ⟨.hbm, 218, rfl⟩
abbrev main_call7_v12 : Ref sig .tc := ⟨.hbm, 219, rfl⟩
abbrev main_call7_v13 : Ref sig .tc := ⟨.hbm, 220, rfl⟩
abbrev main_call7_v14 : Ref sig .tc := ⟨.hbm, 221, rfl⟩
abbrev main_call7_cst : Ref sig .tc := ⟨.hbm, 222, rfl⟩
abbrev main_call7_v15 : Ref sig .tc := ⟨.hbm, 223, rfl⟩
abbrev main_v35 : Ref sig .tc := ⟨.hbm, 224, rfl⟩
abbrev main_call8_c : Ref sig .tc := ⟨.hbm, 225, rfl⟩
abbrev main_call8_v0 : Ref sig .tc := ⟨.hbm, 226, rfl⟩
abbrev main_call8_v1 : Ref sig .tc := ⟨.hbm, 227, rfl⟩
abbrev main_call8_c_0 : Ref sig .tc := ⟨.hbm, 228, rfl⟩
abbrev main_call8_v2 : Ref sig .tc := ⟨.hbm, 229, rfl⟩
abbrev main_call8_v3 : Ref sig .tc := ⟨.hbm, 230, rfl⟩
abbrev main_call8_v4 : Ref sig .tc := ⟨.hbm, 231, rfl⟩
abbrev main_call8_v5 : Ref sig .tc := ⟨.hbm, 232, rfl⟩
abbrev main_call8_c_1 : Ref sig .tc := ⟨.hbm, 233, rfl⟩
abbrev main_call8_c_2 : Ref sig .tc := ⟨.hbm, 234, rfl⟩
abbrev main_call8_v6 : Ref sig .tc := ⟨.hbm, 235, rfl⟩
abbrev main_call8_v7 : Ref sig .tc := ⟨.hbm, 236, rfl⟩
abbrev main_call8_v8 : Ref sig .tc := ⟨.hbm, 237, rfl⟩
abbrev main_call8_v9 : Ref sig .tc := ⟨.hbm, 238, rfl⟩
abbrev main_call8_v10 : Ref sig .tc := ⟨.hbm, 239, rfl⟩
abbrev main_call8_v11 : Ref sig .tc := ⟨.hbm, 240, rfl⟩
abbrev main_call8_c_3 : Ref sig .tc := ⟨.hbm, 241, rfl⟩
abbrev main_call8_v12 : Ref sig .tc := ⟨.hbm, 242, rfl⟩
abbrev main_call8_v13 : Ref sig .tc := ⟨.hbm, 243, rfl⟩
abbrev main_call8_v14 : Ref sig .tc := ⟨.hbm, 244, rfl⟩
abbrev main_call8_cst : Ref sig .tc := ⟨.hbm, 245, rfl⟩
abbrev main_call8_v15 : Ref sig .tc := ⟨.hbm, 246, rfl⟩
abbrev main_v36 : Ref sig .tc := ⟨.hbm, 247, rfl⟩
abbrev main_call9_c : Ref sig .tc := ⟨.hbm, 248, rfl⟩
abbrev main_call9_v0 : Ref sig .tc := ⟨.hbm, 249, rfl⟩
abbrev main_call9_v1 : Ref sig .tc := ⟨.hbm, 250, rfl⟩
abbrev main_call9_c_0 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_call9_v5 : Ref sig .tc := ⟨.hbm, 255, rfl⟩
abbrev main_call9_c_1 : Ref sig .tc := ⟨.hbm, 256, rfl⟩
abbrev main_call9_c_2 : Ref sig .tc := ⟨.hbm, 257, rfl⟩
abbrev main_call9_v6 : Ref sig .tc := ⟨.hbm, 258, rfl⟩
abbrev main_call9_v7 : Ref sig .tc := ⟨.hbm, 259, rfl⟩
abbrev main_call9_v8 : Ref sig .tc := ⟨.hbm, 260, rfl⟩
abbrev main_call9_v9 : Ref sig .tc := ⟨.hbm, 261, rfl⟩
abbrev main_call9_v10 : Ref sig .tc := ⟨.hbm, 262, rfl⟩
abbrev main_call9_v11 : Ref sig .tc := ⟨.hbm, 263, rfl⟩
abbrev main_call9_c_3 : Ref sig .tc := ⟨.hbm, 264, rfl⟩
abbrev main_call9_v12 : Ref sig .tc := ⟨.hbm, 265, rfl⟩
abbrev main_call9_v13 : Ref sig .tc := ⟨.hbm, 266, rfl⟩
abbrev main_call9_v14 : Ref sig .tc := ⟨.hbm, 267, rfl⟩
abbrev main_call9_cst : Ref sig .tc := ⟨.hbm, 268, rfl⟩
abbrev main_call9_v15 : Ref sig .tc := ⟨.hbm, 269, rfl⟩
abbrev main_v37 : Ref sig .tc := ⟨.hbm, 270, rfl⟩
abbrev main_call10_c : Ref sig .tc := ⟨.hbm, 271, rfl⟩
abbrev main_call10_v0 : Ref sig .tc := ⟨.hbm, 272, rfl⟩
abbrev main_call10_v1 : Ref sig .tc := ⟨.hbm, 273, rfl⟩
abbrev main_call10_c_0 : Ref sig .tc := ⟨.hbm, 274, rfl⟩
abbrev main_call10_v2 : Ref sig .tc := ⟨.hbm, 275, rfl⟩
abbrev main_call10_v3 : Ref sig .tc := ⟨.hbm, 276, rfl⟩
abbrev main_call10_v4 : Ref sig .tc := ⟨.hbm, 277, rfl⟩
abbrev main_call10_v5 : Ref sig .tc := ⟨.hbm, 278, rfl⟩
abbrev main_call10_c_1 : Ref sig .tc := ⟨.hbm, 279, rfl⟩
abbrev main_call10_c_2 : Ref sig .tc := ⟨.hbm, 280, rfl⟩
abbrev main_call10_v6 : Ref sig .tc := ⟨.hbm, 281, rfl⟩
abbrev main_call10_v7 : Ref sig .tc := ⟨.hbm, 282, rfl⟩
abbrev main_call10_v8 : Ref sig .tc := ⟨.hbm, 283, rfl⟩
abbrev main_call10_v9 : Ref sig .tc := ⟨.hbm, 284, rfl⟩
abbrev main_call10_v10 : Ref sig .tc := ⟨.hbm, 285, rfl⟩
abbrev main_call10_v11 : Ref sig .tc := ⟨.hbm, 286, rfl⟩
abbrev main_call10_c_3 : Ref sig .tc := ⟨.hbm, 287, rfl⟩
abbrev main_call10_v12 : Ref sig .tc := ⟨.hbm, 288, rfl⟩
abbrev main_call10_v13 : Ref sig .tc := ⟨.hbm, 289, rfl⟩
abbrev main_call10_v14 : Ref sig .tc := ⟨.hbm, 290, rfl⟩
abbrev main_call10_cst : Ref sig .tc := ⟨.hbm, 291, rfl⟩
abbrev main_call10_v15 : Ref sig .tc := ⟨.hbm, 292, rfl⟩
abbrev main_v38 : Ref sig .tc := ⟨.hbm, 293, rfl⟩
abbrev main_v39 : Ref sig .tc := ⟨.hbm, 294, rfl⟩
abbrev main_v40 : Ref sig .tc := ⟨.hbm, 295, rfl⟩
abbrev main_v41 : Ref sig .tc := ⟨.hbm, 296, rfl⟩
abbrev main_v42 : Ref sig .tc := ⟨.hbm, 297, rfl⟩
abbrev main_v43 : Ref sig .tc := ⟨.hbm, 298, rfl⟩
abbrev main_v44 : Ref sig .tc := ⟨.hbm, 299, rfl⟩
abbrev main_v45 : Ref sig .tc := ⟨.hbm, 300, rfl⟩
abbrev main_v46 : Ref sig .tc := ⟨.hbm, 301, rfl⟩
abbrev main_v47 : Ref sig .tc := ⟨.hbm, 302, rfl⟩
abbrev main_v48 : Ref sig .tc := ⟨.hbm, 303, rfl⟩
abbrev main_v49 : Ref sig .tc := ⟨.hbm, 304, rfl⟩
abbrev main_v50 : Ref sig .tc := ⟨.hbm, 305, rfl⟩
abbrev main_v51_0 : Ref sig .tc := ⟨.hbm, 306, rfl⟩
abbrev main_v51_1 : Ref sig .tc := ⟨.hbm, 307, rfl⟩
abbrev main_v51_2 : Ref sig .tc := ⟨.hbm, 308, rfl⟩
abbrev main_v52 : Ref sig .tc := ⟨.hbm, 309, rfl⟩
abbrev main_v53 : Ref sig .tc := ⟨.hbm, 310, rfl⟩
abbrev main_cst : Ref sig .tc := ⟨.hbm, 311, rfl⟩
abbrev main_v54 : Ref sig .tc := ⟨.hbm, 312, rfl⟩
abbrev main_v55 : Ref sig .tc := ⟨.hbm, 313, rfl⟩
abbrev main_cst_10 : Ref sig .tc := ⟨.hbm, 314, rfl⟩
abbrev main_v56 : Ref sig .tc := ⟨.hbm, 315, rfl⟩
abbrev main_cst_11 : Ref sig .tc := ⟨.hbm, 316, rfl⟩
abbrev main_v57 : Ref sig .tc := ⟨.hbm, 317, rfl⟩
abbrev main_v58 : Ref sig .tc := ⟨.hbm, 318, rfl⟩
abbrev main_cst_12 : Ref sig .tc := ⟨.hbm, 319, rfl⟩
abbrev main_v59 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v125 : BitVec 1 := Scalar.cmpi .eq arg0 c31_i32
  let v126 : BitVec 32 := Scalar.extui v125
  let c0_i32_52 : BitVec 32 := 0#32
  let v127 : BitVec 1 := Scalar.cmpi .ne v126 c0_i32_52
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x750 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x750 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x761 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S11x128x750 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x750 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S11x750 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v261 : BitVec 1 := Scalar.cmpi .eq arg0 c31_i32
  let v262 : BitVec 32 := Scalar.extui v261
  let c0_i32_68 : BitVec 32 := 0#32
  let v263 : BitVec 1 := Scalar.cmpi .ne v262 c0_i32_68
  v263

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x750 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x761 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x750 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S11x750 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  slices_S4096x750_S4096x1_0_0 : S4096x750.Slices ![0, 0] S4096x1
  shapeCasts_S4096x1_S4096 : S4096x1.ShapeCasts S4096
  shapeCasts_S4096_S1x4096 : S4096.ShapeCasts S1x4096
  bcast_S1x4096_S6x4096_0_1 : S1x4096.BroadcastsInDim S6x4096 (![0, 1] : Fin 2 → Fin S6x4096.rank)
  shapeCasts_S6x4096_S24576 : S6x4096.ShapeCasts S24576
  shapeCasts_S24576_S4096x6 : S24576.ShapeCasts S4096x6
  slices_S4096x750_S4096x1_0_749 : S4096x750.Slices ![0, 749] S4096x1
  slices_S4096x6_S4096x5_0_1 : S4096x6.Slices ![0, 1] S4096x5
  concatenates_S4096x6_S4096x750_S4096x5_S4096x761_d1 : Shape.Concatenates [S4096x6, S4096x750, S4096x5] S4096x761 1
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x750_0 : S4096.BroadcastsInDim S4096x750 (![0] : Fin 1 → Fin S4096x750.rank)
  bcast_S_S4096x750 : S_.BroadcastsInDim S4096x750 (![] : Fin 0 → Fin S4096x750.rank)
  bcast_S4096x750_S1x4096x750_1_2 : S4096x750.BroadcastsInDim S1x4096x750 (![1, 2] : Fin 2 → Fin S1x4096x750.rank)
  concatenates_S1x4096x750_S1x4096x750_S1x4096x750_S1x4096x750_S1x4096x750_S1x4096x750_S1x4096x750_S1x4096x750_S1x4096x750_S1x4096x750_S1x4096x750_S11x4096x750_d0 : Shape.Concatenates [S1x4096x750, S1x4096x750, S1x4096x750, S1x4096x750, S1x4096x750, S1x4096x750, S1x4096x750, S1x4096x750, S1x4096x750, S1x4096x750, S1x4096x750] S11x4096x750 0
  inb_S11x750_S11x750_0_0 : ∀ a, (![0, 0] : Fin 2 → Nat) a + S11x750.size a ≤ S11x750.size a
  h_S11x750 : 0 < S11x750.numel
  shapeCasts_S11x750_S11x750 : S11x750.ShapeCasts S11x750
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x750_S128x750_0_0 : ∀ a, (![0, 0] : Fin 2 → Nat) a + S128x750.size a ≤ S128x750.size a
  h_S128x750 : 0 < S128x750.numel
  inb_S128x761_S128x761_0_0 : ∀ a, (![0, 0] : Fin 2 → Nat) a + S128x761.size a ≤ S128x761.size a
  h_S128x761 : 0 < S128x761.numel
  shapeCasts_S128x761_S128x761 : S128x761.ShapeCasts S128x761
  slices_S128x761_o0_0_S128x750 : S128x761.Slices ![0, 0] S128x750
  reduces_S128x750_S750 : S128x750.Reduces [0] S750
  shapeCasts_S750_S1x750 : S750.ShapeCasts S1x750
  inb_S11x128x750_S1x128x750_0_0_0 : ∀ a, (![0, 0, 0] : Fin 3 → Nat) a + S1x128x750.size a ≤ S11x128x750.size a
  h_S1x128x750 : 0 < S1x128x750.numel
  shapeCasts_S1x128x750_S128x750 : S1x128x750.ShapeCasts S128x750
  slices_S128x761_o0_1_S128x750 : S128x761.Slices ![0, 1] S128x750
  inb_S11x128x750_S1x128x750_1_0_0 : ∀ a, (![1, 0, 0] : Fin 3 → Nat) a + S1x128x750.size a ≤ S11x128x750.size a
  slices_S128x761_o0_2_S128x750 : S128x761.Slices ![0, 2] S128x750
  inb_S11x128x750_S1x128x750_2_0_0 : ∀ a, (![2, 0, 0] : Fin 3 → Nat) a + S1x128x750.size a ≤ S11x128x750.size a
  slices_S128x761_o0_3_S128x750 : S128x761.Slices ![0, 3] S128x750
  inb_S11x128x750_S1x128x750_3_0_0 : ∀ a, (![3, 0, 0] : Fin 3 → Nat) a + S1x128x750.size a ≤ S11x128x750.size a
  slices_S128x761_o0_4_S128x750 : S128x761.Slices ![0, 4] S128x750
  inb_S11x128x750_S1x128x750_4_0_0 : ∀ a, (![4, 0, 0] : Fin 3 → Nat) a + S1x128x750.size a ≤ S11x128x750.size a
  slices_S128x761_o0_5_S128x750 : S128x761.Slices ![0, 5] S128x750
  inb_S11x128x750_S1x128x750_5_0_0 : ∀ a, (![5, 0, 0] : Fin 3 → Nat) a + S1x128x750.size a ≤ S11x128x750.size a
  slices_S128x761_o0_6_S128x750 : S128x761.Slices ![0, 6] S128x750
  inb_S11x128x750_S1x128x750_6_0_0 : ∀ a, (![6, 0, 0] : Fin 3 → Nat) a + S1x128x750.size a ≤ S11x128x750.size a
  slices_S128x761_o0_7_S128x750 : S128x761.Slices ![0, 7] S128x750
  inb_S11x128x750_S1x128x750_7_0_0 : ∀ a, (![7, 0, 0] : Fin 3 → Nat) a + S1x128x750.size a ≤ S11x128x750.size a
  slices_S128x761_o0_8_S128x750 : S128x761.Slices ![0, 8] S128x750
  inb_S11x128x750_S1x128x750_8_0_0 : ∀ a, (![8, 0, 0] : Fin 3 → Nat) a + S1x128x750.size a ≤ S11x128x750.size a
  slices_S128x761_o0_9_S128x750 : S128x761.Slices ![0, 9] S128x750
  inb_S11x128x750_S1x128x750_9_0_0 : ∀ a, (![9, 0, 0] : Fin 3 → Nat) a + S1x128x750.size a ≤ S11x128x750.size a
  slices_S128x761_o0_10_S128x750 : S128x761.Slices ![0, 10] S128x750
  inb_S11x128x750_S1x128x750_10_0_0 : ∀ a, (![10, 0, 0] : Fin 3 → Nat) a + S1x128x750.size a ≤ S11x128x750.size a
  concatenates_S1x750_S1x750_S1x750_S1x750_S1x750_S1x750_S1x750_S1x750_S1x750_S1x750_S1x750_S11x750_d0 : Shape.Concatenates [S1x750, S1x750, S1x750, S1x750, S1x750, S1x750, S1x750, S1x750, S1x750, S1x750, S1x750] S11x750 0
  reduces_S128x750_S128 : S128x750.Reduces [1] S128
  shapeCasts_S128_S128x1 : S128.ShapeCasts S128x1
  reduces_S128x1_S1 : S128x1.Reduces [0] S1
  shapeCasts_S1_S1x1 : S1.ShapeCasts S1x1
  shapeCasts_S128x750_S128x750 : S128x750.ShapeCasts S128x750
  slices_S11x750_o0_0_S1x750 : S11x750.Slices ![0, 0] S1x750
  shapeCasts_S1x750_S750 : S1x750.ShapeCasts S750
  broadcasts_S1x750_S128x750 : S1x750.Broadcasts S128x750
  slices_S11x750_o1_0_S1x750 : S11x750.Slices ![1, 0] S1x750
  slices_S11x750_o2_0_S1x750 : S11x750.Slices ![2, 0] S1x750
  slices_S11x750_o3_0_S1x750 : S11x750.Slices ![3, 0] S1x750
  slices_S11x750_o4_0_S1x750 : S11x750.Slices ![4, 0] S1x750
  slices_S11x750_o5_0_S1x750 : S11x750.Slices ![5, 0] S1x750
  slices_S11x750_o6_0_S1x750 : S11x750.Slices ![6, 0] S1x750
  slices_S11x750_o7_0_S1x750 : S11x750.Slices ![7, 0] S1x750
  slices_S11x750_o8_0_S1x750 : S11x750.Slices ![8, 0] S1x750
  slices_S11x750_o9_0_S1x750 : S11x750.Slices ![9, 0] S1x750
  slices_S11x750_o10_0_S1x750 : S11x750.Slices ![10, 0] S1x750
  shapeCasts_S1x1_S_ : S1x1.ShapeCasts S_
  gather_S4096x750_S4096x1_S4096x750_1_0_n_n_0_1_1750_wf : GatherDims.WF S4096x750 S4096x1 S4096x750 [1] [0] [] [0] [] 1 ![1, 750]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x750.size a ≤ S4096x750.size a
  hwx0_0 : ∀ i : grid0.Coords, EltTy.bits .f32 = 32 ∨ (Rect.block (s := S4096x750) S128x750.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x750.size a ≤ S4096x750.size a
  hwx0_1 : ∀ i : grid0.Coords, EltTy.bits .f32 = 32 ∨ (Rect.block (s := S4096x750) S128x750.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x761.size a ≤ S4096x761.size a
  hwx0_2 : ∀ i : grid0.Coords, EltTy.bits .f32 = 32 ∨ (Rect.block (s := S4096x761) S128x761.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S11x128x750.size a ≤ S11x4096x750.size a
  hwx0_3 : ∀ i : grid0.Coords, EltTy.bits .f32 = 32 ∨ (Rect.block (s := S11x4096x750) S11x128x750.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x750.size a ≤ S4096x750.size a
  hwx0_4 : ∀ i : grid0.Coords, EltTy.bits .f32 = 32 ∨ (Rect.block (s := S4096x750) S128x750.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11x750.size a ≤ S11x750.size a
  hwx0_5 : ∀ i : grid0.Coords, EltTy.bits .f32 = 32 ∨ (Rect.block (s := S11x750) S11x750.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x750.size a ≤ S4096x750.size a
  hwx1_0 : ∀ i : grid1.Coords, EltTy.bits .f32 = 32 ∨ (Rect.block (s := S4096x750) S128x750.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x761.size a ≤ S4096x761.size a
  hwx1_1 : ∀ i : grid1.Coords, EltTy.bits .f32 = 32 ∨ (Rect.block (s := S4096x761) S128x761.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x750.size a ≤ S4096x750.size a
  hwx1_2 : ∀ i : grid1.Coords, EltTy.bits .f32 = 32 ∨ (Rect.block (s := S4096x750) S128x750.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S11x750.size a ≤ S11x750.size a
  hwx1_3 : ∀ i : grid1.Coords, EltTy.bits .f32 = 32 ∨ (Rect.block (s := S11x750) S11x750.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S4096x750_S4096x1_S4096x750_1_0_n_n_0_1_1750 : GatherDims S4096x750 S4096x1 S4096x750 where
  offsetDims := [1]
  collapsedSliceDims := [0]
  operandBatchingDims := []
  startIndicesBatchingDims := []
  startIndexMap := [0]
  indexVectorDim := 1
  sliceSizes := ![1, 750]
  wf := gather_S4096x750_S4096x1_S4096x750_1_0_n_n_0_1_1750_wf

abbrev win0_0 : Pipeline.Window sig grid0 :=
  Pipeline.Window.ofSpec (Memref.whole main_arg0) S128x750.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x750.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x761.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S11x128x750.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51_0) S128x750.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v51_1) S11x750.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v51_0) S128x750.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S128x761.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x750.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S11x750.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x750 : Shape := ⟨2, ![4096, 750]⟩
abbrev S4096x1 : Shape := ⟨2, ![4096, 1]⟩
abbrev S4096 : Shape := ⟨1, ![4096]⟩
abbrev S1x4096 : Shape := ⟨2, ![1, 4096]⟩
abbrev S6x4096 : Shape := ⟨2, ![6, 4096]⟩
abbrev S24576 : Shape := ⟨1, ![24576]⟩
abbrev S4096x6 : Shape := ⟨2, ![4096, 6]⟩
abbrev S4096x5 : Shape := ⟨2, ![4096, 5]⟩
abbrev S4096x761 : Shape := ⟨2, ![4096, 761]⟩
abbrev S750 : Shape := ⟨1, ![750]⟩
abbrev S750x1 : Shape := ⟨2, ![750, 1]⟩
abbrev S11 : Shape := ⟨1, ![11]⟩
abbrev S1x11 : Shape := ⟨2, ![1, 11]⟩
abbrev S750x11 : Shape := ⟨2, ![750, 11]⟩
abbrev S_ : Shape := ⟨0, ![]⟩
abbrev S750x11x1 : Shape := ⟨3, ![750, 11, 1]⟩
abbrev S4096x750x11 : Shape := ⟨3, ![4096, 750, 11]⟩
abbrev S4096x11 : Shape := ⟨2, ![4096, 11]⟩
abbrev S4096x11x1 : Shape := ⟨3, ![4096, 11, 1]⟩
abbrev S4096x11x750 : Shape := ⟨3, ![4096, 11, 750]⟩
abbrev S4096x750x1 : Shape := ⟨3, ![4096, 750, 1]⟩
abbrev S1x750x11 : Shape := ⟨3, ![1, 750, 11]⟩

abbrev nBuf : Space → Nat
  | .hbm => 148
  | .vmem => 0
  | .smem => 0
  | _ => 0

abbrev hbmTy0_0 (i : Nat) : BufTy := match i % 128 with
  | 0 => ⟨S4096x750, .f32⟩
  | 1 => ⟨S4096x750, .f32⟩
  | 2 => ⟨S4096x1, .f32⟩
  | 3 => ⟨S4096, .f32⟩
  | 4 => ⟨S1x4096, .f32⟩
  | 5 => ⟨S6x4096, .f32⟩
  | 6 => ⟨S24576, .f32⟩
  | 7 => ⟨S4096x6, .f32⟩
  | 8 => ⟨S4096x1, .f32⟩
  | 9 => ⟨S4096, .f32⟩
  | 10 => ⟨S1x4096, .f32⟩
  | 11 => ⟨S6x4096, .f32⟩
  | 12 => ⟨S24576, .f32⟩
  | 13 => ⟨S4096x6, .f32⟩
  | 14 => ⟨S4096x5, .f32⟩
  | 15 => ⟨S4096x761, .f32⟩
  | 16 => ⟨S4096x1, .f32⟩
  | 17 => ⟨S4096, .f32⟩
  | 18 => ⟨S1x4096, .f32⟩
  | 19 => ⟨S6x4096, .f32⟩
  | 20 => ⟨S24576, .f32⟩
  | 21 => ⟨S4096x6, .f32⟩
  | 22 => ⟨S4096x1, .f32⟩
  | 23 => ⟨S4096, .f32⟩
  | 24 => ⟨S1x4096, .f32⟩
  | 25 => ⟨S6x4096, .f32⟩
  | 26 => ⟨S24576, .f32⟩
  | 27 => ⟨S4096x6, .f32⟩
  | 28 => ⟨S4096x5, .f32⟩
  | 29 => ⟨S4096x761, .f32⟩
  | 30 => ⟨S750, .i32⟩
  | 31 => ⟨S750x1, .i32⟩
  | 32 => ⟨S11, .i32⟩
  | 33 => ⟨S1x11, .i32⟩
  | 34 => ⟨S750x11, .i32⟩
  | 35 => ⟨S750x11, .i32⟩
  | 36 => ⟨S750x11, .i32⟩
  | 37 => ⟨S_, .i32⟩
  | 38 => ⟨S750x11, .i32⟩
  | 39 => ⟨S750x11, .i1⟩
  | 40 => ⟨S_, .i32⟩
  | 41 => ⟨S750x11, .i32⟩
  | 42 => ⟨S750x11, .i32⟩
  | 43 => ⟨S750x11, .i32⟩
  | 44 => ⟨S750x11x1, .i32⟩
  | 45 => ⟨S4096x750x11, .f32⟩
  | 46 => ⟨S_, .i32⟩
  | 47 => ⟨S750x11, .i32⟩
  | 48 => ⟨S750x11, .i1⟩
  | 49 => ⟨S_, .i32⟩
  | 50 => ⟨S750x11, .i32⟩
  | 51 => ⟨S750x11, .i32⟩
  | 52 => ⟨S750x11, .i32⟩
  | 53 => ⟨S750x11x1, .i32⟩
  | 54 => ⟨S4096x750x11, .f32⟩
  | 55 => ⟨S4096, .i32⟩
  | 56 => ⟨S4096x1, .i32⟩
  | 57 => ⟨S_, .i32⟩
  | 58 => ⟨S4096x1, .i32⟩
  | 59 => ⟨S4096x1, .i32⟩
  | 60 => ⟨S11, .i32⟩
  | 61 => ⟨S1x11, .i32⟩
  | 62 => ⟨S4096x11, .i32⟩
  | 63 => ⟨S4096x11, .i32⟩
  | 64 => ⟨S4096x11, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S4096x11, .i32⟩
  | 72 => ⟨S4096x11, .i32⟩
  | 73 => ⟨S_, .i32⟩
  | 74 => ⟨S4096x11, .i32⟩
  | 75 => ⟨S4096x11, .i1⟩
  | 76 => ⟨S_, .i32⟩
  | 77 => ⟨S4096x11, .i32⟩
  | 78 => ⟨S4096x11, .i1⟩
  | 79 => ⟨S_, .i32⟩
  | 80 => ⟨S_, .i1⟩
  | 81 => ⟨S4096x11, .i1⟩
  | 82 => ⟨S4096x11, .i1⟩
  | 83 => ⟨S4096x11, .i1⟩
  | 84 => ⟨S4096x11, .i32⟩
  | 85 => ⟨S4096x11, .i32⟩
  | 86 => ⟨S4096x11, .i32⟩
  | 87 => ⟨S_, .i32⟩
  | 88 => ⟨S4096x11, .i32⟩
  | 89 => ⟨S4096x11, .i1⟩
  | 90 => ⟨S_, .i32⟩
  | 91 => ⟨S4096x11, .i32⟩
  | 92 => ⟨S4096x11, .i32⟩
  | 93 => ⟨S4096x11, .i32⟩
  | 94 => ⟨S4096x11x1, .i32⟩
  | 95 => ⟨S4096x11x750, .f32⟩
  | 96 => ⟨S4096x750x11, .f32⟩
  | 97 => ⟨S4096x750x11, .f32⟩
  | 98 => ⟨S_, .f32⟩
  | 99 => ⟨S4096x750, .f32⟩
  | 100 => ⟨S4096x750x1, .f32⟩
  | 101 => ⟨S4096x750x11, .f32⟩
  | 102 => ⟨S4096x750x11, .f32⟩
  | 103 => ⟨S4096x750x11, .f32⟩
  | 104 => ⟨S_, .f32⟩
  | 105 => ⟨S750x11, .f32⟩
  | 106 => ⟨S_, .f32⟩
  | 107 => ⟨S4096x750, .f32⟩
  | 108 => ⟨S4096x750, .f32⟩
  | 109 => ⟨S4096x750, .f32⟩
  | 110 => ⟨S1x750x11, .f32⟩
  | 111 => ⟨S4096x750x1, .f32⟩
  | 112 => ⟨S4096x750x11, .f32⟩
  | 113 => ⟨S4096x750x11, .f32⟩
  | 114 => ⟨S4096x750x11, .f32⟩
  | 115 => ⟨S_, .f32⟩
  | 116 => ⟨S4096x750x11, .f32⟩
  | 117 => ⟨S4096x750x11, .f32⟩
  | 118 => ⟨S4096x750x1, .f32⟩
  | 119 => ⟨S4096x750x11, .f32⟩
  | 120 => ⟨S4096x750x11, .f32⟩
  | 121 => ⟨S4096x750x11, .f32⟩
  | 122 => ⟨S_, .f32⟩
  | 123 => ⟨S4096x750x11, .f32⟩
  | 124 => ⟨S4096x750x11, .f32⟩
  | 125 => ⟨S4096x750x11, .f32⟩
  | 126 => ⟨S4096x750x1, .f32⟩
  | 127 => ⟨S4096x750x11, .f32⟩
  | _ => ⟨S4096x750, .f32⟩

abbrev hbmTy0_1 (i : Nat) : BufTy := match i % 128 with
  | 0 => ⟨S4096x750x11, .f32⟩
  | 1 => ⟨S4096x750x11, .f32⟩
  | 2 => ⟨S4096x750x11, .f32⟩
  | 3 => ⟨S_, .f32⟩
  | 4 => ⟨S_, .f32⟩
  | 5 => ⟨S_, .f32⟩
  | 6 => ⟨S_, .f32⟩
  | 7 => ⟨S4096x750, .f32⟩
  | 8 => ⟨S4096x750, .f32⟩
  | 9 => ⟨S_, .f32⟩
  | 10 => ⟨S4096, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S4096x750, .f32⟩

abbrev hbmTy (i : Nat) : BufTy := match i / 128 with
  | 0 => hbmTy0_0 i
  | 1 => hbmTy0_1 i
  | _ => ⟨S4096x750, .f32⟩

abbrev bufTy : (tb : Table) → Fin (tcTables nBuf tb) → BufTy
  | .hbm, ⟨i, _⟩ => hbmTy i
  | _, _ => ⟨S4096x750, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_c : Ref sig .tc := ⟨.hbm, 37, rfl⟩
abbrev main_v35 : Ref sig .tc := ⟨.hbm, 38, rfl⟩
abbrev main_v36 : Ref sig .tc := ⟨.hbm, 39, rfl⟩
abbrev main_c_0 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_c_1 : Ref sig .tc := ⟨.hbm, 46, rfl⟩
abbrev main_v42 : Ref sig .tc := ⟨.hbm, 47, rfl⟩
abbrev main_v43 : Ref sig .tc := ⟨.hbm, 48, rfl⟩
abbrev main_c_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_c_3 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_c_4 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_1 : Ref sig .tc := ⟨.hbm, 73, rfl⟩
abbrev main_call0_v5 : Ref sig .tc := ⟨.hbm, 74, rfl⟩
abbrev main_call0_v6 : Ref sig .tc := ⟨.hbm, 75, rfl⟩
abbrev main_call0_c_2 : Ref sig .tc := ⟨.hbm, 76, rfl⟩
abbrev main_call0_v7 : Ref sig .tc := ⟨.hbm, 77, rfl⟩
abbrev main_call0_v8 : Ref sig .tc := ⟨.hbm, 78, rfl⟩
abbrev main_call0_c_3 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_v12 : Ref sig .tc := ⟨.hbm, 83, rfl⟩
abbrev main_call0_v13 : Ref sig .tc := ⟨.hbm, 84, rfl⟩
abbrev main_call0_v14 : Ref sig .tc := ⟨.hbm, 85, rfl⟩
abbrev main_v58 : Ref sig .tc := ⟨.hbm, 86, rfl⟩
abbrev main_c_5 : Ref sig .tc := ⟨.hbm, 87, rfl⟩
abbrev main_v59 : Ref sig .tc := ⟨.hbm, 88, rfl⟩
abbrev main_v60 : Ref sig .tc := ⟨.hbm, 89, rfl⟩
abbrev main_c_6 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_7 : Ref sig .tc := ⟨.hbm, 104, rfl⟩
abbrev main_v73 : Ref sig .tc := ⟨.hbm, 105, rfl⟩
abbrev main_cst_8 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call1_cst : Ref sig .tc := ⟨.hbm, 115, rfl⟩
abbrev main_call1_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_9 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_10 : Ref sig .tc := ⟨.hbm, 131, rfl⟩
abbrev main_v95 : Ref sig .tc := ⟨.hbm, 132, rfl⟩
abbrev main_cst_11 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_12 : Ref sig .tc := ⟨.hbm, 137, rfl⟩
abbrev main_v99 : Ref sig .tc := ⟨.hbm, 138, rfl⟩
abbrev main_cst_13 : Ref sig .tc := ⟨.hbm, 139, rfl⟩
abbrev main_v100 : Ref sig .tc := ⟨.hbm, 140, rfl⟩
abbrev main_cst_14 : Ref sig .tc := ⟨.hbm, 141, rfl⟩
abbrev main_v101 : Ref sig .tc := ⟨.hbm, 142, rfl⟩
abbrev main_cst_15 : Ref sig .tc := ⟨.hbm, 143, rfl⟩
abbrev main_v102 : Ref sig .tc := ⟨.hbm, 144, rfl⟩
abbrev main_v103 : Ref sig .tc := ⟨.hbm, 145, rfl⟩
abbrev main_cst_16 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  slices_S4096x750_S4096x1_0_0 : S4096x750.Slices ![0, 0] S4096x1
  shapeCasts_S4096x1_S4096 : S4096x1.ShapeCasts S4096
  shapeCasts_S4096_S1x4096 : S4096.ShapeCasts S1x4096
  bcast_S1x4096_S6x4096_0_1 : S1x4096.BroadcastsInDim S6x4096 (![0, 1] : Fin 2 → Fin S6x4096.rank)
  shapeCasts_S6x4096_S24576 : S6x4096.ShapeCasts S24576
  shapeCasts_S24576_S4096x6 : S24576.ShapeCasts S4096x6
  slices_S4096x750_S4096x1_0_749 : S4096x750.Slices ![0, 749] S4096x1
  slices_S4096x6_S4096x5_0_1 : S4096x6.Slices ![0, 1] S4096x5
  concatenates_S4096x6_S4096x750_S4096x5_S4096x761_d1 : Shape.Concatenates [S4096x6, S4096x750, S4096x5] S4096x761 1
  bcast_S750_S750x1_0 : S750.BroadcastsInDim S750x1 (![0] : Fin 1 → Fin S750x1.rank)
  bcast_S11_S1x11_1 : S11.BroadcastsInDim S1x11 (![1] : Fin 1 → Fin S1x11.rank)
  bcast_S750x1_S750x11_0_1 : S750x1.BroadcastsInDim S750x11 (![0, 1] : Fin 2 → Fin S750x11.rank)
  bcast_S1x11_S750x11_0_1 : S1x11.BroadcastsInDim S750x11 (![0, 1] : Fin 2 → Fin S750x11.rank)
  bcast_S_S750x11 : S_.BroadcastsInDim S750x11 (![] : Fin 0 → Fin S750x11.rank)
  bcast_S750x11_S750x11x1_0_1 : S750x11.BroadcastsInDim S750x11x1 (![0, 1] : Fin 2 → Fin S750x11x1.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x11_0_1 : S4096x1.BroadcastsInDim S4096x11 (![0, 1] : Fin 2 → Fin S4096x11.rank)
  bcast_S1x11_S4096x11_0_1 : S1x11.BroadcastsInDim S4096x11 (![0, 1] : Fin 2 → Fin S4096x11.rank)
  bcast_S_S4096x11 : S_.BroadcastsInDim S4096x11 (![] : Fin 0 → Fin S4096x11.rank)
  bcast_S4096x11_S4096x11x1_0_1 : S4096x11.BroadcastsInDim S4096x11x1 (![0, 1] : Fin 2 → Fin S4096x11x1.rank)
  transposes_S4096x11x750_S4096x750x11_0_2_1 : S4096x11x750.Transposes [0, 2, 1] S4096x750x11
  reducesTo_S4096x750x11_S4096x750_d2 : S4096x750x11.ReducesTo [2] S4096x750
  h_S_ : 0 < S_.numel
  bcast_S4096x750_S4096x750x1_0_1 : S4096x750.BroadcastsInDim S4096x750x1 (![0, 1] : Fin 2 → Fin S4096x750x1.rank)
  bcast_S4096x750x1_S4096x750x11_0_1_2 : S4096x750x1.BroadcastsInDim S4096x750x11 (![0, 1, 2] : Fin 3 → Fin S4096x750x11.rank)
  reducesTo_S4096x750x11_S750x11_d0 : S4096x750x11.ReducesTo [0] S750x11
  bcast_S_S4096x750 : S_.BroadcastsInDim S4096x750 (![] : Fin 0 → Fin S4096x750.rank)
  bcast_S750x11_S1x750x11_1_2 : S750x11.BroadcastsInDim S1x750x11 (![1, 2] : Fin 2 → Fin S1x750x11.rank)
  bcast_S1x750x11_S4096x750x11_0_1_2 : S1x750x11.BroadcastsInDim S4096x750x11 (![0, 1, 2] : Fin 3 → Fin S4096x750x11.rank)
  bcast_S_S4096x750x11 : S_.BroadcastsInDim S4096x750x11 (![] : Fin 0 → Fin S4096x750x11.rank)
  reducesTo_S4096x750x11_S_d0_1_2 : S4096x750x11.ReducesTo [0, 1, 2] S_
  reducesTo_S4096x750_S4096_d1 : S4096x750.ReducesTo [1] S4096
  reducesTo_S4096_S_d0 : S4096.ReducesTo [0] S_
  gather_S4096x761_S750x11x1_S4096x750x11_0_1_n_n_1_2_40961_wf : GatherDims.WF S4096x761 S750x11x1 S4096x750x11 [0] [1] [] [1] [] 2 ![4096, 1]
  gather_S4096x750_S4096x11x1_S4096x11x750_2_0_n_n_0_2_1750_wf : GatherDims.WF S4096x750 S4096x11x1 S4096x11x750 [2] [0] [] [0] [] 2 ![1, 750]

variable [Facts₀]

def gather_S4096x761_S750x11x1_S4096x750x11_0_1_n_n_1_2_40961 : GatherDims S4096x761 S750x11x1 S4096x750x11 where
  offsetDims := [0]
  collapsedSliceDims := [1]
  operandBatchingDims := []
  startIndicesBatchingDims := []
  startIndexMap := [1]
  indexVectorDim := 2
  sliceSizes := ![4096, 1]
  wf := gather_S4096x761_S750x11x1_S4096x750x11_0_1_n_n_1_2_40961_wf
def gather_S4096x750_S4096x11x1_S4096x11x750_2_0_n_n_0_2_1750 : GatherDims S4096x750 S4096x11x1 S4096x11x750 where
  offsetDims := [2]
  collapsedSliceDims := [0]
  operandBatchingDims := []
  startIndicesBatchingDims := []
  startIndexMap := [0]
  indexVectorDim := 2
  sliceSizes := ![1, 750]
  wf := gather_S4096x750_S4096x11x1_S4096x11x750_2_0_n_n_0_2_1750_wf

class Facts : Prop extends Facts₀ where

variable [Facts]
-- ==== Proof.WKRun.lean ====
/-
  The kernel program's run with its result named, from one proof-data family per region.

  @main is thirteen stretches of host operations, the first kernel region, the second kernel region, and a last
  stretch of host operations. Between two of these items every unscoped buffer of a core is held whole at a
  valuation: the launch memory, then the fold of each host stretch over it; after a region, the same valuation
  with the region's arrays replaced by what its write-backs leave (the proof data's `arrAt` at the last point).
  Given, per region, proof data whose arrays are the region's entry contents, its body obligation, and the
  passage of the pipeline library's region invariant into the first point's and out of the last point's, every weakly fair
  execution of @main terminates, faulting nowhere, and the final memory holds the result buffer at the last
  valuation's contents and both argument arrays as launched.
-/
import proofs.«124353_j3959959847205_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Data
variable (F)

/-- A core's unscoped buffers as a function of TensorCore references. -/
abbrev RefVal : Type :=
  (c : Dev nD) → (b : Ref sig .tc) → Buf (Elt F) ((c : Thread nD τ).loc b)

/-- What a proof of region 0 supplies at entry contents `V`. -/
structure Reg0 where
  dat : RefVal F → (c : Dev nD) → Dat τ (Elt F) Unit ℕ (UR sig nD τ) ℕ cfg0 c
  A_eq : ∀ V c (w : Fin cfg0.W), (dat V c).A w = V c (Pipeline.arrRef spec0 w)
  share : ∀ V c (w : Fin cfg0.W), (dat V c).share w = fullShare
  owed : ∀ V c t, (dat V c).owed t = 0
  recorded : ∀ V c t, (dat V c).recorded t = Set.univ
  body : ∀ V c, BodyObligation (dat V c) (defs₀ (F := F)) Variants.none () Set.univ
  hin : ∀ V c, (Pipeline.ΦA spec0 c : sProp 𝕄) ⊢ (dat V c).Φ 0
  hout : ∀ V c, (dat V c).Φ (Fin.last cfg0.N) ⊢ (Pipeline.ΦA spec0 c : sProp 𝕄)

/-- What a proof of region 1 supplies at entry contents `V`. -/
structure Reg1 where
  dat : RefVal F → (c : Dev nD) → Dat τ (Elt F) Unit ℕ (UR sig nD τ) ℕ cfg1 c
  A_eq : ∀ V c (w : Fin cfg1.W), (dat V c).A w = V c (Pipeline.arrRef spec1 w)
  share : ∀ V c (w : Fin cfg1.W), (dat V c).share w = fullShare
  owed : ∀ V c t, (dat V c).owed t = 0
  recorded : ∀ V c t, (dat V c).recorded t = Set.univ
  body : ∀ V c, BodyObligation (dat V c) (defs₀ (F := F)) Variants.none () Set.univ
  hin : ∀ V c, (Pipeline.ΦA spec1 c : sProp 𝕄) ⊢ (dat V c).Φ 0
  hout : ∀ V c, (dat V c).Φ (Fin.last cfg1.N) ⊢ (Pipeline.ΦA spec1 c : sProp 𝕄)

end Data

section Assembly

variable (R0 : Reg0 F) (R1 : Reg1 F)
variable (m : (ℓ : Loc nD τ sig) → Buf (Elt F) ℓ) (ρ : Dev nD → PrngReg)

/-! ## The buffers' contents at the regions' boundaries -/

/-- Region 0's entry contents: the launch memory after the thirteen host stretches. -/
abbrev Ve0 : RefVal F := fun c b => V13 m c b

/-- After region 0: its arrays at what the write-backs leave, every other buffer as entered. -/
def W14 (c : Dev nD) : Valuation τ sig (Elt F) :=
  Pipeline.withArrays spec0 c (V13 m c) fun w => (R0.dat (Ve0 m) c).arrAt w cfg0.N

theorem W14_arr (c : Dev nD) (w : Fin cfg0.W) :
    W14 R0 m c (Proc.devRef .tc (Pipeline.arrRef spec0 w)) = (R0.dat (Ve0 m) c).arrAt w cfg0.N := by
  unfold W14; exact Pipeline.withArrays_arr spec0 launch0.win.arr_inj c _ _ w

theorem W14_of_ne (c : Dev nD) (b : Ref sig .tc) (hb : ∀ w, Pipeline.arrRef spec0 w ≠ b) :
    W14 R0 m c (Proc.devRef .tc b) = V13 m c (Proc.devRef .tc b) := by
  unfold W14; exact Pipeline.withArrays_of_ne spec0 c _ _ b hb

/-- Region 1's entry contents. -/
abbrev Ve1 : RefVal F := fun c b => W14 R0 m c b

/-- After region 1. -/
def W15 (c : Dev nD) : Valuation τ sig (Elt F) :=
  Pipeline.withArrays spec1 c (W14 R0 m c) fun w => (R1.dat (Ve1 R0 m) c).arrAt w cfg1.N

theorem W15_arr (c : Dev nD) (w : Fin cfg1.W) :
    W15 R0 R1 m c (Proc.devRef .tc (Pipeline.arrRef spec1 w)) = (R1.dat (Ve1 R0 m) c).arrAt w cfg1.N := by
  unfold W15; exact Pipeline.withArrays_arr spec1 launch1.win.arr_inj c _ _ w

theorem W15_of_ne (c : Dev nD) (b : Ref sig .tc) (hb : ∀ w, Pipeline.arrRef spec1 w ≠ b) :
    W15 R0 R1 m c (Proc.devRef .tc b) = W14 R0 m c (Proc.devRef .tc b) := by
  unfold W15; exact Pipeline.withArrays_of_ne spec1 c _ _ b hb

/-- The contents after region 1, at the TensorCore's references. -/
abbrev Ve2 : RefVal F := fun c b => W15 R0 R1 m c b

/-- After the last host stretch: the final contents. -/
abbrev W16 (c : Dev nD) : Valuation τ sig (Elt F) := StableHlo.after hostOps2 (W15 R0 R1 m c)

theorem hF0 (c : Dev nD) (w : Fin cfg0.W) : (R0.dat (Ve0 m) c).arrAt w cfg0.N = Ve1 R0 m c (Pipeline.arrRef spec0 w) :=
  (W14_arr R0 m c w).symm
theorem hrest0 (c : Dev nD) : ∀ b, b ∉ Finset.univ.image (Pipeline.arrRef spec0) → Ve1 R0 m c b = Ve0 m c b :=
  fun b hb => W14_of_ne R0 m c b fun w e => hb (Finset.mem_image.mpr ⟨w, Finset.mem_univ _, e⟩)
theorem hF1 (c : Dev nD) (w : Fin cfg1.W) : (R1.dat (Ve1 R0 m) c).arrAt w cfg1.N = Ve2 R0 R1 m c (Pipeline.arrRef spec1 w) :=
  (W15_arr R0 R1 m c w).symm
theorem hrest1 (c : Dev nD) : ∀ b, b ∉ Finset.univ.image (Pipeline.arrRef spec1) → Ve2 R0 R1 m c b = Ve1 R0 m c b :=
  fun b hb => W15_of_ne R0 R1 m c b fun w e => hb (Finset.mem_image.mpr ⟨w, Finset.mem_univ _, e⟩)

/-! ## The proof data family and the thread state -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => R0.dat (Ve0 m) c
  | ⟨1, _⟩ => fun c => R1.dat (Ve1 R0 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state and the core owing
    nothing. -/
abbrev Rd (c : Dev nD) : sProp 𝕄 := iprop((∃ r, prngReg c r) ∗ ∃ W, owes (c : Thread nD τ) (0 : CellTallies nD τ sig Unit) W)
abbrev Ed : Fin 3 → Dev nD → sProp 𝕄 := fun _ c => Rd c

/-- The last host stretch as a segment, from the contents region 1 leaves. -/
def seg15 : HostSeg (Name := ℕ) (U := UR sig nD τ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W15 R0 R1 m) Rd

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered with every unscoped buffer at the thirteenth valuation, left with them at `W14`. Its arrays
    are split out of the unscoped buffers and put back at their exit contents; the generator register passes
    through the region invariant; nothing is owed; the kernel has no semaphore of its own. -/
def reg0 : RegionSeg (pcfgs (F := F)) adm (pdats R0 R1 m) () defs₀ 𝒱₀ L lv 0 where
  win := launch0.win.to₀
  block_pos := launch0.block_pos
  stage_whole := launch0.stage_whole
  K := PEmpty
  osem k := k.elim
  ho := Pipeline.OwnSemFacts.none _
  hbody c := (R0.body (Ve0 m) c).loose
  hwaits := Pipeline.hwaits_of_owed_zero _ _ _ _ L lv 0 fun c t => R0.owed (Ve0 m) c t
  pre c := iprop(StableHlo.held (c : Thread nD τ) (Pipeline.ucRefs τ sig) (V13 m c) ∗ Rd c)
  post c := iprop(StableHlo.held (c : Thread nD τ) (Pipeline.ucRefs τ sig) (W14 R0 m c) ∗ Rd c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats R0 R1 m) launch0.win launch0.arr_whole c
      (fun w => R0.share (Ve0 m) c w) (Ve0 m c) fun w => R0.A_eq (Ve0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m 0 c).owed 0 = 0 from R0.owed (Ve0 m) c 0]
      icases HO with ⟨%W, HO⟩; iexists W; isplitr
      · ipureintro
        exact fun _ _ => Or.inl ((R0.recorded (Ve0 m) c 0).symm ▸ Set.mem_univ _)
      iexact HO
    isplitl [Hp]; · iexact Hp
    iexact Hrest
  hin c := by
    refine BIBase.Entails.trans ?_ (R0.hin (Ve0 m) c)
    unfold Pipeline.ΦA
    iintro ⟨Hp, -, Hr⟩
    isplitl [Hr]; · iexact Hr
    iexact Hp
  hout c := by
    rw [Pipeline.ownSems0_none]
    refine BIBase.Entails.trans (R0.hout (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m) (fun w => R0.share (Ve0 m) c w)
      (Ve0 m c) (Ve1 R0 m c) ((pdats R0 R1 m 0 c).arrAt · cfg0.N) (hF0 R0 m c) (hrest0 R0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats R0 R1 m 0 c).owed (Fin.last _) = 0 from R0.owed (Ve0 m) c _]
    iexists W; iexact HO

set_option backward.isDefEq.respectTransparency.types false in
/-- Region 1: entered with every unscoped buffer at `W14`, left with them at `W15`; otherwise as region 0. -/
def reg1 : RegionSeg (pcfgs (F := F)) adm (pdats R0 R1 m) () defs₀ 𝒱₀ L lv 1 where
  win := launch1.win.to₀
  block_pos := launch1.block_pos
  stage_whole := launch1.stage_whole
  K := PEmpty
  osem k := k.elim
  ho := Pipeline.OwnSemFacts.none _
  hbody c := (R1.body (Ve1 R0 m) c).loose
  hwaits := Pipeline.hwaits_of_owed_zero _ _ _ _ L lv 1 fun c t => R1.owed (Ve1 R0 m) c t
  pre c := iprop(StableHlo.held (c : Thread nD τ) (Pipeline.ucRefs τ sig) (W14 R0 m c) ∗ Rd c)
  post c := iprop(StableHlo.held (c : Thread nD τ) (Pipeline.ucRefs τ sig) (W15 R0 R1 m c) ∗ Rd c)
  X c := iprop(∃ r, prngReg c r)
  Y c := iprop(∃ r, prngReg c r)
  Z c := Pipeline.unscopedRest (Ix := Unit) (Name := ℕ) (U := UR sig nD τ) (Lvl := ℕ) spec1 c (Ve1 R0 m c)
  hentry c := by
    rw [Pipeline.ownSems0_none]
    have hsplit := Pipeline.arrays_of_unscopedBufs (p := 1) (pcfgs (F := F)) adm (pdats R0 R1 m) launch1.win launch1.arr_whole c
      (fun w => R1.share (Ve1 R0 m) c w) (Ve1 R0 m c) fun w => R1.A_eq (Ve1 R0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m 1 c).owed 0 = 0 from R1.owed (Ve1 R0 m) c 0]
      icases HO with ⟨%W, HO⟩; iexists W; isplitr
      · ipureintro
        exact fun _ _ => Or.inl ((R1.recorded (Ve1 R0 m) c 0).symm ▸ Set.mem_univ _)
      iexact HO
    isplitl [Hp]; · iexact Hp
    iexact Hrest
  hin c := by
    refine BIBase.Entails.trans ?_ (R1.hin (Ve1 R0 m) c)
    unfold Pipeline.ΦA
    iintro ⟨Hp, -, Hr⟩
    isplitl [Hr]; · iexact Hr
    iexact Hp
  hout c := by
    rw [Pipeline.ownSems0_none]
    refine BIBase.Entails.trans (R1.hout (Ve1 R0 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m) (fun w => R1.share (Ve1 R0 m) c w)
      (Ve1 R0 m c) (Ve2 R0 R1 m c) ((pdats R0 R1 m 1 c).arrAt · cfg1.N) (hF1 R0 R1 m c) (hrest1 R0 R1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats R0 R1 m 1 c).owed (Fin.last _) = 0 from R1.owed (Ve1 R0 m) c _]
    iexists W; iexact HO

/-! ## @main as segments, and the run -/

/-- @main's sixteen items in order: thirteen host stretches, the two regions, the last host stretch. -/
abbrev segs : List (Seg (pcfgs (F := F)) adm (pdats R0 R1 m) () defs₀ 𝒱₀ L lv) :=
  [.host (seg0 m 𝒱₀ L lv Ed), .host (seg1 m 𝒱₀ L lv Ed), .host (seg2 m 𝒱₀ L lv Ed), .host (seg3 m 𝒱₀ L lv Ed),
   .host (seg4 m 𝒱₀ L lv Ed), .host (seg5 m 𝒱₀ L lv Ed), .host (seg6 m 𝒱₀ L lv Ed), .host (seg7 m 𝒱₀ L lv Ed),
   .host (seg8 m 𝒱₀ L lv Ed), .host (seg9 m 𝒱₀ L lv Ed), .host (seg10 m 𝒱₀ L lv Ed), .host (seg11 m 𝒱₀ L lv Ed),
   .host (seg12 m 𝒱₀ L lv Ed), .region (reg0 R0 R1 m), .region (reg1 R0 R1 m), .host (seg15 R0 R1 m)]

/-- The last thread state: every unscoped buffer at the final contents. -/
abbrev Tₙ (c : Dev nD) : sProp 𝕄 := StableHlo.held (c : Thread nD τ) (Pipeline.ucRefs τ sig) (W16 R0 R1 m c)

set_option backward.isDefEq.respectTransparency.types false in
/-- THE RUN. From any memory with zero counters every weakly fair execution of @main terminates, nothing
    faulting, and the final memory holds every unscoped buffer at the last valuation's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W16 R0 R1 m c b) :=
  Pipeline.θ_run_regions_kit (pcfgs (F := F)) adm (pdats R0 R1 m) () cellOf_inj emb₁ defs₀ 𝒱₀ L lv m ρ main (segs R0 R1 m)
    (fun c Q => by
      rewrite [main_chain c, Seg.run_eq_chain,
        show (segs R0 R1 m).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells (Pipeline.pin (pcfgs (F := F)) adm) cellOf_inj)
              (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rd c)) (Tₙ := Tₙ R0 R1 m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 R0 R1 m c b)
    (hfin := fun c s' => by
      show iprop(StableHlo.held (c : Thread nD τ) (Pipeline.ucRefs τ sig) (W16 R0 R1 m c) ∗ SI s') ⊢ _
      unfold StableHlo.held
      iintro ⟨Hh, HSI⟩
      imodintro
      iapply (pointsTo_read_all (Pipeline.ucRefs τ sig) (fun b => (((c : Thread nD τ)).1, b)) (W16 R0 R1 m c) s')
      isplitl [Hh] <;> iassumption)
    (hQ := fun s h c => h c)

end Assembly

end Cert.Kernel.Run

end
-- ==== Proof.WKHost.lean ====
/-
  What the kernel program's host operations leave in the buffers the two regions read, and what the last host
  stretch makes of the regions' results.

  Before the first region @main pads each argument array (six columns in front taken from the first column,
  five behind taken from the last, both through a tile-then-reshape that mixes rows), and gathers eleven
  row-permuted copies of the first argument through literal index tables. Here each of those buffers is read
  back as a pure function of the argument arrays; the padding is kept as one opaque function, since the
  reference pads by the very same operations.
-/
import proofs.«124353_j3959959847205_1_alg».proof.Proof.WKRun
import Idealize.ShloMosaic.Lib.StableHlo.Run

set_option maxRecDepth 16384

noncomputable section

namespace Cert.Kernel.Host

open Cert.Kernel Cert.Kernel.Gen Cert.Kernel.Run
open Idealize.ShloMosaic Idealize.ShloMosaic.TcCoe Idealize.SL.Sem

variable {F : FTy → Type} [FloatOps F]
variable (m : (ℓ : Loc nD τ sig) → Buf (Elt F) ℓ)

/-! ## The arguments reach both regions as launched -/

theorem V13_arg0 (c : Dev nD) : V13 m c main_arg0 = m ((c : Thread nD τ).loc main_arg0) :=
  (V13_of m c main_arg0 (by decide)).trans <| (V12_of m c main_arg0 (by decide)).trans <| (V11_of m c main_arg0 (by decide)).trans <|
  (V10_of m c main_arg0 (by decide)).trans <| (V9_of m c main_arg0 (by decide)).trans <| (V8_of m c main_arg0 (by decide)).trans <|
  (V7_of m c main_arg0 (by decide)).trans <| (V6_of m c main_arg0 (by decide)).trans <| (V5_of m c main_arg0 (by decide)).trans <|
  (V4_of m c main_arg0 (by decide)).trans <| (V3_of m c main_arg0 (by decide)).trans <| (V2_of m c main_arg0 (by decide)).trans <|
  (V1_of m c main_arg0 (by decide))

theorem V13_arg1 (c : Dev nD) : V13 m c main_arg1 = m ((c : Thread nD τ).loc main_arg1) :=
  (V13_of m c main_arg1 (by decide)).trans <| (V12_of m c main_arg1 (by decide)).trans <| (V11_of m c main_arg1 (by decide)).trans <|
  (V10_of m c main_arg1 (by decide)).trans <| (V9_of m c main_arg1 (by decide)).trans <| (V8_of m c main_arg1 (by decide)).trans <|
  (V7_of m c main_arg1 (by decide)).trans <| (V6_of m c main_arg1 (by decide)).trans <| (V5_of m c main_arg1 (by decide)).trans <|
  (V4_of m c main_arg1 (by decide)).trans <| (V3_of m c main_arg1 (by decide)).trans <| (V2_of m c main_arg1 (by decide)).trans <|
  (V1_of m c main_arg1 (by decide))

/-! ## The padded arrays -/

/-- A column of `x`, tiled six times and reshaped to six columns: entry (b, j) is entry (6b + j) mod 4096 of the
    column. -/
def tiledCol (col : Fin 2 → Nat) (hs : S4096x750.Slices col S4096x1) (x : FVec F S4096x750 .f32) : FVec F S4096x6 .f32 :=
  shapeCast S4096x6 (shapeCast S24576 (broadcastInDim S6x4096 ![0, 1] Gen.bcast_S1x4096_S6x4096_0_1
    (shapeCast S1x4096 (shapeCast S4096 (extractStridedSlice S4096x1 col x hs) Gen.shapeCasts_S4096x1_S4096) Gen.shapeCasts_S4096_S1x4096))
    Gen.shapeCasts_S6x4096_S24576) Gen.shapeCasts_S24576_S4096x6

/-- The padding: six tiled copies of the first column, the array, the last five of six tiled copies of the last
    column. -/
def padded (x : FVec F S4096x750 .f32) : FVec F S4096x761 .f32 :=
  concatenate S4096x761 1 [⟨S4096x6, tiledCol ![0, 0] Gen.slices_S4096x750_S4096x1_0_0 x⟩, ⟨S4096x750, x⟩,
    ⟨S4096x5, extractStridedSlice S4096x5 ![0, 1] (tiledCol ![0, 749] Gen.slices_S4096x750_S4096x1_0_749 x) Gen.slices_S4096x6_S4096x5_0_1⟩]
    Gen.concatenates_S4096x6_S4096x750_S4096x5_S4096x761_d1

theorem V1_v27 (c : Dev nD) :
    (V1 m c main_v27 : FVec F S4096x761 .f32) = padded (m ((c : Thread nD τ).loc main_arg0)) := by
  show StableHlo.after hostOps0 (V0 m c) (Proc.devRef .tc main_v27) = _
  after_results_simp
  rfl

theorem V13_v27 (c : Dev nD) :
    (V13 m c main_v27 : FVec F S4096x761 .f32) = padded (m ((c : Thread nD τ).loc main_arg0)) :=
  ((V13_of m c main_v27 (by decide)).trans <| (V12_of m c main_v27 (by decide)).trans <| (V11_of m c main_v27 (by decide)).trans <|
  (V10_of m c main_v27 (by decide)).trans <| (V9_of m c main_v27 (by decide)).trans <| (V8_of m c main_v27 (by decide)).trans <|
  (V7_of m c main_v27 (by decide)).trans <| (V6_of m c main_v27 (by decide)).trans <| (V5_of m c main_v27 (by decide)).trans <|
  (V4_of m c main_v27 (by decide)).trans <| (V3_of m c main_v27 (by decide)).trans <| (V2_of m c main_v27 (by decide))).trans (V1_v27 m c)

theorem V1_v13 (c : Dev nD) :
    (V1 m c main_v13 : FVec F S4096x761 .f32) = padded (m ((c : Thread nD τ).loc main_arg1)) := by
  show StableHlo.after hostOps0 (V0 m c) (Proc.devRef .tc main_v13) = _
  after_results_simp
  rfl

theorem V13_v13 (c : Dev nD) :
    (V13 m c main_v13 : FVec F S4096x761 .f32) = padded (m ((c : Thread nD τ).loc main_arg1)) :=
  ((V13_of m c main_v13 (by decide)).trans <| (V12_of m c main_v13 (by decide)).trans <| (V11_of m c main_v13 (by decide)).trans <|
  (V10_of m c main_v13 (by decide)).trans <| (V9_of m c main_v13 (by decide)).trans <| (V8_of m c main_v13 (by decide)).trans <|
  (V7_of m c main_v13 (by decide)).trans <| (V6_of m c main_v13 (by decide)).trans <| (V5_of m c main_v13 (by decide)).trans <|
  (V4_of m c main_v13 (by decide)).trans <| (V3_of m c main_v13 (by decide)).trans <| (V2_of m c main_v13 (by decide))).trans (V1_v13 m c)

/-! ## The eleven row gathers -/

/-- `jnp.take` of rows of `x` at the index words `ix`: a negative word is wrapped by the extent, the rows are
    gathered (the gather clamps its start into the rows), and where the wrapped word is outside the rows the
    result is filled with the float word 0x7FC00000. -/
def takeRows (x : FVec F S4096x750 .f32) (ix : IVec S4096 32) : FVec F S4096x750 .f32 :=
  let wrapped : IVec S4096 32 :=
    select (cmpi .slt ix (broadcastInDim S4096 ![] Gen.bcast_S_S4096 (constantI S_ 32 0#32)))
      (addi ix (broadcastInDim S4096 ![] Gen.bcast_S_S4096 (constantI S_ 32 4096#32))) ix
  let col : IVec S4096x1 32 := broadcastInDim S4096x1 ![0] Gen.bcast_S4096_S4096x1_0 wrapped
  let inRows : IVec S4096 1 :=
    Host.reduce IntOp.andi
      (andi (cmpi .sge col (broadcastInDim S4096x1 ![] Gen.bcast_S_S4096x1 (constantI S_ 32 0#32)))
        (cmpi .sle col (broadcastInDim S4096x1 ![0, 1] Gen.bcast_S1x1_S4096x1_0_1 (broadcastInDim S1x1 ![1] Gen.bcast_S1_S1x1_1 (constantI S1 32 4095#32)))))
      (constantI S_ 1 1#1) Gen.reducesTo_S4096x1_S4096_d1 Gen.h_S_
  select (broadcastInDim S4096x750 ![0] Gen.bcast_S4096_S4096x750_0 inRows)
    (Host.gather gather_S4096x750_S4096x1_S4096x750_1_0_n_n_0_1_1750 x col)
    (broadcastInDim S4096x750 ![] Gen.bcast_S_S4096x750 (constant S_ .f32 0x7FC00000#32))

end Cert.Kernel.Host

end
-- ==== Proof.WKTail.lean ====
/-
  The end of the kernel program's run: the last host stretch divides the second region's total and the first
  region's squared-difference total by the batch size, scales the latter by the literal 0.1, adds, and
  multiplies by the literal 1; and both argument arrays are read back as launched.
-/
import proofs.«124353_j3959959847205_1_alg».proof.Proof.WKHost

set_option maxRecDepth 16384

noncomputable section

namespace Cert.Kernel.Host

open Cert.Kernel Cert.Kernel.Gen Cert.Kernel.Run
open Idealize.ShloMosaic Idealize.ShloMosaic.TcCoe Idealize.SL.Sem
open Idealize.ShloMosaic.Pipeline (Dat)

variable {F : FTy → Type} [FloatOps F]
variable (R0 : Reg0 F) (R1 : Reg1 F)
variable (m : (ℓ : Loc nD τ sig) → Buf (Elt F) ℓ)

/-- The last host stretch as one function of the two totals. -/
def lossTail (total dsq : FVec F S1x1 .f32) : FVec F S_ .f32 :=
  mulf (addf (Host.divf (shapeCast S_ total Gen.shapeCasts_S1x1_S_) (constant S_ .f32 0x45800000#32))
      (mulf (constant S_ .f32 0x3DCCCCCD#32) (Host.divf (shapeCast S_ dsq Gen.shapeCasts_S1x1_S_) (constant S_ .f32 0x45800000#32))))
    (constant S_ .f32 0x3F800000#32)

/-- The result buffer at the end: the tail of the second region's result and the first region's third. -/
theorem W16_v59 (c : Dev nD) :
    (W16 R0 R1 m c main_v59 : FVec F S_ .f32)
      = lossTail ((R1.dat (Ve1 R0 m) c).arrAt 4 cfg1.N) ((R0.dat (Ve0 m) c).arrAt 6 cfg0.N) := by
  have e52 : W15 R0 R1 m c (Proc.devRef .tc main_v52) = (R1.dat (Ve1 R0 m) c).arrAt 4 cfg1.N := W15_arr R0 R1 m c 4
  have e512 : W15 R0 R1 m c (Proc.devRef .tc main_v51_2) = (R0.dat (Ve0 m) c).arrAt 6 cfg0.N :=
    (W15_of_ne R0 R1 m c main_v51_2 (by decide)).trans (W14_arr R0 m c 6)
  show StableHlo.after hostOps2 (W15 R0 R1 m c) (Proc.devRef .tc main_v59) = _
  after_results
  rw [e52, e512]
  rfl

/-- The first argument at the end. -/
theorem W16_arg0 (c : Dev nD) : W16 R0 R1 m c main_arg0 = m ((c : Thread nD τ).loc main_arg0) :=
  calc W16 R0 R1 m c (Proc.devRef .tc main_arg0)
    _ = W15 R0 R1 m c (Proc.devRef .tc main_arg0) := StableHlo.after_of_writes_sub hostOps2 _ hostOps2_writes (by decide)
    _ = W14 R0 m c (Proc.devRef .tc main_arg0) := W15_of_ne R0 R1 m c main_arg0 (by decide)
    _ = V13 m c (Proc.devRef .tc main_arg0) :=
        (W14_arr R0 m c 0).trans (((R0.dat (Ve0 m) c).arrAt_in 0 rfl _).trans (R0.A_eq (Ve0 m) c 0))
    _ = m ((c : Thread nD τ).loc main_arg0) := V13_arg0 m c

/-- The second argument at the end. -/
theorem W16_arg1 (c : Dev nD) : W16 R0 R1 m c main_arg1 = m ((c : Thread nD τ).loc main_arg1) :=
  calc W16 R0 R1 m c (Proc.devRef .tc main_arg1)
    _ = W15 R0 R1 m c (Proc.devRef .tc main_arg1) := StableHlo.after_of_writes_sub hostOps2 _ hostOps2_writes (by decide)
    _ = W14 R0 m c (Proc.devRef .tc main_arg1) :=
        (W15_arr R0 R1 m c 2).trans (((R1.dat (Ve1 R0 m) c).arrAt_in 2 rfl _).trans (R1.A_eq (Ve1 R0 m) c 2))
    _ = V13 m c (Proc.devRef .tc main_arg1) :=
        (W14_arr R0 m c 1).trans (((R0.dat (Ve0 m) c).arrAt_in 1 rfl _).trans (R0.A_eq (Ve0 m) c 1))
    _ = m ((c : Thread nD τ).loc main_arg1) := V13_arg1 m c

/-- THE RUN WITH ITS RESULT NAMED: the result buffer ends at the tail of the regions' totals, both arguments as
    launched. -/
theorem run_result (ρ : Dev nD → PrngReg) :
    θ_run defs (onTc (τ := τ) (main (F := F))) ⟨m, fun _ => 0, ρ⟩ (fun r => ∀ c : Dev nD,
      r.2.mem ((c.tc : Thread nD τ).loc main_v59) = lossTail ((R1.dat (Ve1 R0 m) c).arrAt 4 cfg1.N) ((R0.dat (Ve0 m) c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v59 (by decide))).trans (W16_v59 R0 R1 m c),
     (h c _ (mem_uc main_arg0 (by decide))).trans (W16_arg0 R0 R1 m c),
     (h c _ (mem_uc main_arg1 (by decide))).trans (W16_arg1 R0 R1 m c)⟩) (run_held R0 R1 m ρ)

end Cert.Kernel.Host

end
-- ==== Proof.WR0Runs.lean ====
import proofs.«124353_j3959959847205_1_alg».proof.Proof.Gen.Kernel.Launch
import proofs.«124353_j3959959847205_1_alg».proof.Proof.Gen.Kernel.Skeleton
import proofs.«124353_j3959959847205_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option pp.maxSteps 4000
set_option pp.deepTerms false

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's runs

The body of the first kernel, at one grid point, on whole staging buffers holding the point's blocks
`x0` (the activations' rows), `x1` (the second activations' rows), `x2` (the padded rows, 761 columns) and
`x3` (the eleven row-permuted copies), and on the two accumulators carried across the grid:

* it leaves in the result block the running maximum over the eleven shifts `c` of `x3[c] - x2[:, c : c + 750]`
  (`maxw`);
* it adds to the first accumulator, row `c`, the column sums over the block's rows of
  `(x0 - x2[:, c : c + 750])²` (`nsStep`);
* it adds to the second accumulator the sum over the block of `(x0 - x1)²` (`dsqStep`);
* at the first point it zeroes both accumulators first; at the last it copies them to the two small results.

Three control cases, one run each. -/

theorem hz2 : (![0, 0] : Fin 2 → Nat) = fun _ => 0 := funext fun a => by fin_cases a <;> rfl

/-- One store through the whole-buffer rectangle leaves its payload, whatever the buffer held. -/
theorem read_one_store {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- The first point's test `i == 0`, as the body computes it. -/
abbrev cond1 (i : grid0.Coords) : Prop := (Scalar.cmpi .ne (Scalar.extui (Scalar.cmpi .eq (BitVec.ofNat 32 (i 0).val) 0#32)) 0#32) = 1#1
/-- The last point's test `i == 31`. -/
abbrev cond2 (i : grid0.Coords) : Prop := k0_cond2 i = 1#1

/-! ## The rectangles the body loads and stores through -/

abbrev rA : Rect S128x750 := Rect.unit (s := S128x750) ![0, 0] S128x750.size inb_S128x750_S128x750_0_0
abbrev rP : Rect S128x761 := Rect.unit (s := S128x761) ![0, 0] S128x761.size inb_S128x761_S128x761_0_0
abbrev rS : Rect S11x750 := Rect.unit (s := S11x750) ![0, 0] S11x750.size inb_S11x750_S11x750_0_0
abbrev rU : Rect S1x1 := Rect.unit (s := S1x1) ![0, 0] S1x1.size inb_S1x1_S1x1_0_0
abbrev rT0 : Rect S11x128x750 := Rect.unit (s := S11x128x750) ![0, 0, 0] S1x128x750.size inb_S11x128x750_S1x128x750_0_0_0
abbrev rT1 : Rect S11x128x750 := Rect.unit (s := S11x128x750) ![1, 0, 0] S1x128x750.size inb_S11x128x750_S1x128x750_1_0_0
abbrev rT2 : Rect S11x128x750 := Rect.unit (s := S11x128x750) ![2, 0, 0] S1x128x750.size inb_S11x128x750_S1x128x750_2_0_0
abbrev rT3 : Rect S11x128x750 := Rect.unit (s := S11x128x750) ![3, 0, 0] S1x128x750.size inb_S11x128x750_S1x128x750_3_0_0
abbrev rT4 : Rect S11x128x750 := Rect.unit (s := S11x128x750) ![4, 0, 0] S1x128x750.size inb_S11x128x750_S1x128x750_4_0_0
abbrev rT5 : Rect S11x128x750 := Rect.unit (s := S11x128x750) ![5, 0, 0] S1x128x750.size inb_S11x128x750_S1x128x750_5_0_0
abbrev rT6 : Rect S11x128x750 := Rect.unit (s := S11x128x750) ![6, 0, 0] S1x128x750.size inb_S11x128x750_S1x128x750_6_0_0
abbrev rT7 : Rect S11x128x750 := Rect.unit (s := S11x128x750) ![7, 0, 0] S1x128x750.size inb_S11x128x750_S1x128x750_7_0_0
abbrev rT8 : Rect S11x128x750 := Rect.unit (s := S11x128x750) ![8, 0, 0] S1x128x750.size inb_S11x128x750_S1x128x750_8_0_0
abbrev rT9 : Rect S11x128x750 := Rect.unit (s := S11x128x750) ![9, 0, 0] S1x128x750.size inb_S11x128x750_S1x128x750_9_0_0
abbrev rT10 : Rect S11x128x750 := Rect.unit (s := S11x128x750) ![10, 0, 0] S1x128x750.size inb_S11x128x750_S1x128x750_10_0_0

/-! ## What one point computes, from the blocks -/

/-- The result block: the running maximum, from `-∞`, over the eleven shifts. -/
def maxw (x2 : Vec F S128x761 .f32) (x3 : Vec F S11x128x750 .f32) : Vec F S128x750 .f32 :=
  k0_pay27 (k0_pay4 (View.ld x2 rP))
    (k0_pay23 (k0_pay4 (View.ld x2 rP))
      (k0_pay11 (View.ld x2 rP) (View.ld x3 rT0) (View.ld x3 rT1) (View.ld x3 rT2))
      (k0_pay12 (View.ld x2 rP))
      (View.ld x3 rT3) (View.ld x3 rT4) (View.ld x3 rT5) (View.ld x3 rT6) (View.ld x3 rT7))
    (View.ld x3 rT8) (View.ld x3 rT9) (View.ld x3 rT10)

/-- The first accumulator after the point, from its contents `s` before: `s` plus, in row `c`, the column sums of the
    squared differences at shift `c`. -/
def nsStep (x0 : Vec F S128x750 .f32) (x2 : Vec F S128x761 .f32) (s : Vec F S11x750 .f32) : Vec F S11x750 .f32 :=
  k0_pay28 (View.ld x0 rA) (k0_pay4 (View.ld x2 rP))
    (k0_pay6 (View.ld x0 rA) (View.ld x2 rP)) (k0_pay8 (View.ld x0 rA) (View.ld x2 rP)) (k0_pay10 (View.ld x0 rA) (View.ld x2 rP))
    (k0_pay14 (k0_pay13 (View.ld x0 rA) (View.ld x2 rP)))
    (k0_pay16 (View.ld x0 rA) (k0_pay4 (View.ld x2 rP))) (k0_pay18 (View.ld x0 rA) (k0_pay4 (View.ld x2 rP)))
    (k0_pay20 (View.ld x0 rA) (k0_pay4 (View.ld x2 rP))) (k0_pay22 (View.ld x0 rA) (k0_pay4 (View.ld x2 rP))) (View.ld s rS)

/-- The second accumulator after the point: its contents before plus the block's sum of `(x0 - x1)²`. -/
def dsqStep (x0 x1 : Vec F S128x750 .f32) (s : Vec F S1x1 .f32) : Vec F S1x1 .f32 :=
  k0_pay1 (k0_pay29 (View.ld x0 rA) (View.ld x1 rA)) (View.ld s rU)

/-! ## The three runs -/

set_option maxHeartbeats 4000000 in
/-- A point that is neither first nor last: the accumulators go from `s0`, `s1` to their steps; the two small
    results' buffers are not touched. -/
theorem runB (c : Dev nD) (E : Set ℕ) (i : grid0.Coords)
    (arg1 : Memref sig .tc .vmem S128x750 .f32) (harg1 : arg1.IsWhole) (arg2 : Memref sig .tc .vmem S128x750 .f32) (harg2 : arg2.IsWhole)
    (arg3 : Memref sig .tc .vmem S128x761 .f32) (harg3 : arg3.IsWhole) (arg4 : Memref sig .tc .vmem S11x128x750 .f32) (harg4 : arg4.IsWhole)
    (arg5 : Memref sig .tc .vmem S128x750 .f32) (harg5 : arg5.IsWhole) (arg6 : Memref sig .tc .vmem S11x750 .f32) (harg6 : arg6.IsWhole)
    (arg7 : Memref sig .tc .vmem S1x1 .f32) (harg7 : arg7.IsWhole) (arg8 : Memref sig .tc .vmem S11x750 .f32) (harg8 : arg8.IsWhole)
    (arg9 : Memref sig .tc .vmem S1x1 .f32) (harg9 : arg9.IsWhole)
    (hc1 : ¬cond1 i) (hc2 : ¬cond2 i)
    (x0 : Vec F S128x750 .f32) (x1 : Vec F S128x750 .f32) (x2 : Vec F S128x761 .f32) (x3 : Vec F S11x128x750 .f32)
    (y5 : Vec F S11x750 .f32) (y6 : Vec F S1x1 .f32) (s0 : Vec F S11x750 .f32) (s1 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare y5 ∗ owns (c : Thread nD τ) arg7 fullShare y6
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (maxw x2 x3)
            ∗ owns (c : Thread nD τ) arg6 fullShare y5 ∗ owns (c : Thread nD τ) arg7 fullShare y6
            ∗ owns (c : Thread nD τ) arg8 fullShare (nsStep x0 x2 s0) ∗ owns (c : Thread nD τ) arg9 fullShare (dsqStep x0 x1 s1)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0 hf1 hf2 hf3 hf5 hf6 hf8 hf9
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact read_one_store (S := S128x750) _ _ hz2 inb_S128x750_S128x750_0_0 _
  isplitl [H5]; · iexists f5; isplitr; · ipureintro; rfl
                  iexact H5
  isplitl [H6]; · iexists f6; isplitr; · ipureintro; rfl
                  iexact H6
  isplitl [H8]
  · iexists _; isplitr
    swap; · iexact H8
    ipureintro
    exact read_one_store (S := S11x750) _ _ hz2 inb_S11x750_S11x750_0_0 _
  · iexists _; isplitr
    swap; · iexact H9
    ipureintro
    exact read_one_store (S := S1x1) _ _ hz2 inb_S1x1_S1x1_0_0 _

/-- A whole-buffer load of what one whole-buffer store left reads the store's payload. -/
theorem readCov_one {sig' : RefSig} {κ : Kind} {sp : Space} {S : Shape} {e : EltTy} (v : View sig' κ sp S e)
    {off : Fin S.rank → Nat} (h : off = fun _ => 0) (inb : ∀ a, off a + S.size a ≤ S.size a) (w : S.Idx → Elt F e) :
    v.readCov [(⟨Rect.unit off S.size inb, w⟩ : View.Piece (Elt F) S e)] (Rect.unit off S.size inb).toLoadRect
      = View.ld w (Rect.unit off S.size inb) :=
  (View.readCov_unit_zero v h inb w).trans (View.ld_unit_zero h inb w).symm

/-- A second whole-buffer store leaves its payload, whatever the first was. -/
theorem read_two_stores {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

set_option maxHeartbeats 4000000 in
/-- The first point: both accumulators, whatever they held, are zeroed and then stepped; the two small results'
    buffers are not touched. -/
theorem runA (c : Dev nD) (E : Set ℕ) (i : grid0.Coords)
    (arg1 : Memref sig .tc .vmem S128x750 .f32) (harg1 : arg1.IsWhole) (arg2 : Memref sig .tc .vmem S128x750 .f32) (harg2 : arg2.IsWhole)
    (arg3 : Memref sig .tc .vmem S128x761 .f32) (harg3 : arg3.IsWhole) (arg4 : Memref sig .tc .vmem S11x128x750 .f32) (harg4 : arg4.IsWhole)
    (arg5 : Memref sig .tc .vmem S128x750 .f32) (harg5 : arg5.IsWhole) (arg6 : Memref sig .tc .vmem S11x750 .f32) (harg6 : arg6.IsWhole)
    (arg7 : Memref sig .tc .vmem S1x1 .f32) (harg7 : arg7.IsWhole) (arg8 : Memref sig .tc .vmem S11x750 .f32) (harg8 : arg8.IsWhole)
    (arg9 : Memref sig .tc .vmem S1x1 .f32) (harg9 : arg9.IsWhole)
    (hc1 : cond1 i) (hc2 : ¬cond2 i)
    (x0 : Vec F S128x750 .f32) (x1 : Vec F S128x750 .f32) (x2 : Vec F S128x761 .f32) (x3 : Vec F S11x128x750 .f32)
    (y5 : Vec F S11x750 .f32) (y6 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (maxw x2 x3)
            ∗ owns (c : Thread nD τ) arg6 fullShare y5 ∗ owns (c : Thread nD τ) arg7 fullShare y6
            ∗ owns (c : Thread nD τ) arg8 fullShare (nsStep x0 x2 (k0_pay2 (F := F))) ∗ owns (c : Thread nD τ) arg9 fullShare (dsqStep x0 x1 (k0_pay3 (F := F)))) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0 hf1 hf2 hf3 hf5 hf6
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact read_one_store (S := S128x750) _ _ hz2 inb_S128x750_S128x750_0_0 _
  isplitl [H5]; · iexists f5; isplitr; · ipureintro; rfl
                  iexact H5
  isplitl [H6]; · iexists f6; isplitr; · ipureintro; rfl
                  iexact H6
  isplitl [H8]
  · iexists _; isplitr
    swap; · iexact H8
    ipureintro
    sl_unfold_words
    refine (read_two_stores (S := S11x750) _ _ hz2 inb_S11x750_S11x750_0_0 _ _).trans ?_
    rw [readCov_one (S := S11x750) _ hz2 inb_S11x750_S11x750_0_0]
    rfl
  · iexists _; isplitr
    swap; · iexact H9
    ipureintro
    sl_unfold_words
    refine (read_two_stores (S := S1x1) _ _ hz2 inb_S1x1_S1x1_0_0 _ _).trans ?_
    rw [readCov_one (S := S1x1) _ hz2 inb_S1x1_S1x1_0_0]
    rfl

set_option maxHeartbeats 4000000 in
/-- The last point: the accumulators are stepped from `s0`, `s1` and copied into the two small results' buffers. -/
theorem runC (c : Dev nD) (E : Set ℕ) (i : grid0.Coords)
    (arg1 : Memref sig .tc .vmem S128x750 .f32) (harg1 : arg1.IsWhole) (arg2 : Memref sig .tc .vmem S128x750 .f32) (harg2 : arg2.IsWhole)
    (arg3 : Memref sig .tc .vmem S128x761 .f32) (harg3 : arg3.IsWhole) (arg4 : Memref sig .tc .vmem S11x128x750 .f32) (harg4 : arg4.IsWhole)
    (arg5 : Memref sig .tc .vmem S128x750 .f32) (harg5 : arg5.IsWhole) (arg6 : Memref sig .tc .vmem S11x750 .f32) (harg6 : arg6.IsWhole)
    (arg7 : Memref sig .tc .vmem S1x1 .f32) (harg7 : arg7.IsWhole) (arg8 : Memref sig .tc .vmem S11x750 .f32) (harg8 : arg8.IsWhole)
    (arg9 : Memref sig .tc .vmem S1x1 .f32) (harg9 : arg9.IsWhole)
    (hc1 : ¬cond1 i) (hc2 : cond2 i)
    (x0 : Vec F S128x750 .f32) (x1 : Vec F S128x750 .f32) (x2 : Vec F S128x761 .f32) (x3 : Vec F S11x128x750 .f32)
    (s0 : Vec F S11x750 .f32) (s1 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (maxw x2 x3)
            ∗ owns (c : Thread nD τ) arg6 fullShare (nsStep x0 x2 s0) ∗ owns (c : Thread nD τ) arg7 fullShare (dsqStep x0 x1 s1)
            ∗ owns (c : Thread nD τ) arg8 fullShare (nsStep x0 x2 s0) ∗ owns (c : Thread nD τ) arg9 fullShare (dsqStep x0 x1 s1)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0 hf1 hf2 hf3 hf8 hf9
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact read_one_store (S := S128x750) _ _ hz2 inb_S128x750_S128x750_0_0 _
  isplitl [H5]
  · iexists _; isplitr
    swap; · iexact H5
    ipureintro
    sl_unfold_words
    refine (read_one_store (S := S11x750) _ _ hz2 inb_S11x750_S11x750_0_0 _).trans ?_
    exact View.readCov_unit_zero (S := S11x750) _ hz2 inb_S11x750_S11x750_0_0 _
  isplitl [H6]
  · iexists _; isplitr
    swap; · iexact H6
    ipureintro
    sl_unfold_words
    refine (read_one_store (S := S1x1) _ _ hz2 inb_S1x1_S1x1_0_0 _).trans ?_
    exact View.readCov_unit_zero (S := S1x1) _ hz2 inb_S1x1_S1x1_0_0 _
  isplitl [H8]
  · iexists _; isplitr
    swap; · iexact H8
    ipureintro
    sl_unfold_words
    exact read_one_store (S := S11x750) _ _ hz2 inb_S11x750_S11x750_0_0 _
  · iexists _; isplitr
    swap; · iexact H9
    ipureintro
    sl_unfold_words
    exact read_one_store (S := S1x1) _ _ hz2 inb_S1x1_S1x1_0_0 _

end Cert.Kernel.R0

end
-- ==== Proof.WR0Body.lean ====
import proofs.«124353_j3959959847205_1_alg».proof.Proof.WR0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the proof data and the body obligation

The first kernel runs over 32 grid points, 128 rows each. Its four inputs are fetched at every point; its result
block is written back at every point; its two small results are written back after the last point only, and their
staging buffers are untouched before it. Two accumulators are carried from point to point: after point `n` they hold
the sums, over the points up to `n`, of that point's column sums and of that point's block sum (`acc`). -/

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s and
    whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is `V`'s and
    whose body leaves the block in place. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is `V`'s and
    whose body leaves the block in place. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is `V`'s and
    whose body leaves the block in place. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions over the grid -/

/-- The first test holds at point 0 only. -/
theorem hcond1 : ∀ t : Fin cfg0.N, cond1 (grid0.coords t) ↔ t.val = 0 :=
  (by decide +kernel : ∀ t : Fin grid0.N, cond1 (grid0.coords t) ↔ t.val = 0)
/-- The second holds at point 31 only. -/
theorem hcond2 : ∀ t : Fin cfg0.N, cond2 (grid0.coords t) ↔ t.val = 31 :=
  (by decide +kernel : ∀ t : Fin grid0.N, cond2 (grid0.coords t) ↔ t.val = 31)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Before the last point the small result 5 is idle and not written back; at the last point it is live. -/
theorem idleAt5 : ∀ t : Fin cfg0.N, ¬cond2 (grid0.coords t) → cfg0.idle 5 (grid0.coords t) = true := by decide +kernel
theorem noFlush5 : ∀ t : Fin cfg0.N, ¬cond2 (grid0.coords t) → (cfg0.win 5).flush t = false := by decide +kernel
theorem liveAt5 : ∀ t : Fin cfg0.N, cond2 (grid0.coords t) → cfg0.idle 5 (grid0.coords t) = false := by decide +kernel
/-- Before the last point the small result 6 is idle and not written back; at the last point it is live. -/
theorem idleAt6 : ∀ t : Fin cfg0.N, ¬cond2 (grid0.coords t) → cfg0.idle 6 (grid0.coords t) = true := by decide +kernel
theorem noFlush6 : ∀ t : Fin cfg0.N, ¬cond2 (grid0.coords t) → (cfg0.win 6).flush t = false := by decide +kernel
theorem liveAt6 : ∀ t : Fin cfg0.N, cond2 (grid0.coords t) → cfg0.idle 6 (grid0.coords t) = false := by decide +kernel

/-! ## The accumulators, point by point -/

/-- The two accumulators after the body at position `n`: at the first point the step from the zero blocks the reset
    stores; afterwards the step from what the point before left. -/
def acc (c : Dev nD) : (n : ℕ) → n < cfg0.N → Vec F S11x750 .f32 × Vec F S1x1 .f32
  | 0, hn => (nsStep (iblk V c 0 ⟨0, hn⟩) (iblk V c 2 ⟨0, hn⟩) (k0_pay2 (F := F)),
      dsqStep (iblk V c 0 ⟨0, hn⟩) (iblk V c 1 ⟨0, hn⟩) (k0_pay3 (F := F)))
  | n + 1, hn => (nsStep (iblk V c 0 ⟨n + 1, hn⟩) (iblk V c 2 ⟨n + 1, hn⟩) (acc c n (Nat.lt_of_succ_lt hn)).1,
      dsqStep (iblk V c 0 ⟨n + 1, hn⟩) (iblk V c 1 ⟨n + 1, hn⟩) (acc c n (Nat.lt_of_succ_lt hn)).2)

/-- `acc` at the first point. -/
theorem acc_first (c : Dev nD) (t : Fin cfg0.N) (h0 : t.val = 0) :
    acc V c t.val t.isLt = (nsStep (iblk V c 0 t) (iblk V c 2 t) (k0_pay2 (F := F)), dsqStep (iblk V c 0 t) (iblk V c 1 t) (k0_pay3 (F := F))) := by
  obtain ⟨n, hn⟩ := t
  cases n with
  | zero => rfl
  | succ n => exact absurd h0 (Nat.succ_ne_zero n)

/-- `acc` at a later point: the step from what the point before left. -/
theorem acc_later (c : Dev nD) (t : Fin cfg0.N) (h0 : t.val ≠ 0) :
    acc V c t.val t.isLt = (nsStep (iblk V c 0 t) (iblk V c 2 t) (acc V c (t.val - 1) (Nat.lt_of_le_of_lt (Nat.sub_le _ _) t.isLt)).1,
      dsqStep (iblk V c 0 t) (iblk V c 1 t) (acc V c (t.val - 1) (Nat.lt_of_le_of_lt (Nat.sub_le _ _) t.isLt)).2) := by
  obtain ⟨n, hn⟩ := t
  cases n with
  | zero => exact absurd rfl h0
  | succ n => rfl

/-! ## The invariant between points -/

/-- The two accumulators, whole scoped buffers of the kernel's own. -/
abbrev scM0 : Memref sig .tc .vmem S11x750 .f32 := Memref.whole cc0_scratch0
abbrev scM1 : Memref sig .tc .vmem S1x1 .f32 := Memref.whole cc0_scratch1

/-- The core's other scoped buffers that are no staging buffer of this region (the second kernel's), each at some
    contents: they ride along untouched. -/
def rest9 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The launch's invariant, with the accumulators as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest9 c) ∗ (∃ r, prngReg c r)) := by
  unfold Pipeline.ΦA rest9; rw [scopedRest0_eq]; simp only [scM0, scM1, owns_whole]; try rfl

/-- The region invariant before position `n`: before the first point the launch's (every scoped buffer at anything);
    afterwards the two accumulators at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0 fullShare (acc V c n hn).1 ∗ owns (c : Thread nD τ) scM1 fullShare (acc V c n hn).2 ∗ rest9 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc V c n hn).1 ∗ owns (c : Thread nD τ) scM1 fullShare (acc V c n hn).2 ∗ rest9 c) ∗ (∃ r, prngReg c r)) := rfl

theorem PhiS_pos (c : Dev nD) (n : ℕ) (h : n ≤ cfg0.N) (hz : n ≠ 0) :
    PhiS V c n h = iprop(iprop(owns (c : Thread nD τ) scM0 fullShare (acc V c (n - 1) (by omega)).1 ∗ owns (c : Thread nD τ) scM1 fullShare (acc V c (n - 1) (by omega)).2 ∗ rest9 c) ∗ (∃ r, prngReg c r)) := by
  cases n with
  | zero => exact absurd rfl hz
  | succ n => rfl

/-! ## The proof data -/

/-- The proof data of region 0 on core `c`, the region entered at contents `V`: after the body at point `t` each input's
    buffer at its block, the result block at the running maximum of the point's blocks, the two small results' at the
    accumulators after the point (read at the last point only); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => maxw (iblk V c 2 t) (iblk V c 3 t)
    | ⟨5, _⟩ => (acc V c t.val t.isLt).1
    | ⟨6, _⟩ => (acc V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem recorded0 (c : Dev nD) (t : Fin (cfg0.N + 1)) : (dat0 V c).recorded t = Set.univ := rfl
theorem share0 (c : Dev nD) (w : Fin cfg0.W) : (dat0 V c).share w = fullShare := (dat0 V c).share_full (fun _ => rfl) w

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = maxw (iblk V c 2 t) (iblk V c 3 t) := by dsimp only [dat0]
theorem after0_5 (c : Dev nD) (t : Fin cfg0.N) : (dat0 V c).after 5 t = (acc V c t.val t.isLt).1 := by dsimp only [dat0]
theorem after0_6 (c : Dev nD) (t : Fin cfg0.N) : (dat0 V c).after 6 t = (acc V c t.val t.isLt).2 := by dsimp only [dat0]

theorem before0_0 (c : Dev nD) (t : Fin cfg0.N) (d) : (dat0 V c).before 0 t d = iblk V c 0 t :=
  before0_of V (dat0 V c) (A_eq0 V c 0) (after0_0 V c) t d
theorem before0_1 (c : Dev nD) (t : Fin cfg0.N) (d) : (dat0 V c).before 1 t d = iblk V c 1 t :=
  before1_of V (dat0 V c) (A_eq0 V c 1) (after0_1 V c) t d
theorem before0_2 (c : Dev nD) (t : Fin cfg0.N) (d) : (dat0 V c).before 2 t d = iblk V c 2 t :=
  before2_of V (dat0 V c) (A_eq0 V c 2) (after0_2 V c) t d
theorem before0_3 (c : Dev nD) (t : Fin cfg0.N) (d) : (dat0 V c).before 3 t d = iblk V c 3 t :=
  before3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the closed forms of the two tests say which of the
    three cases the point is in, and that case's run applies: the invariant hands it the accumulators (at anything at
    the first point, else at what the point before left) and takes them back at this point's; the small results'
    buffers pass through untouched before the last point and receive the accumulators at it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (st0_0 t) fullShare ((dat0 V c).after 0 t) from by
    unfold Dat.leavesExact; rw [liveAt0 t], after0_0]
  rw [show (dat0 V c).leavesExact 1 t = owns (c : Thread nD τ) (st0_1 t) fullShare ((dat0 V c).after 1 t) from by
    unfold Dat.leavesExact; rw [liveAt1 t], after0_1]
  rw [show (dat0 V c).leavesExact 2 t = owns (c : Thread nD τ) (st0_2 t) fullShare ((dat0 V c).after 2 t) from by
    unfold Dat.leavesExact; rw [liveAt2 t], after0_2]
  rw [show (dat0 V c).leavesExact 3 t = owns (c : Thread nD τ) (st0_3 t) fullShare ((dat0 V c).after 3 t) from by
    unfold Dat.leavesExact; rw [liveAt3 t], after0_3]
  rw [show (dat0 V c).leavesExact 4 t = owns (c : Thread nD τ) (st0_4 t) fullShare ((dat0 V c).after 4 t) from by
    unfold Dat.leavesExact; rw [liveAt4 t], after0_4]
  by_cases h0 : t.val = 0
  · have h1 : cond1 (grid0.coords t) := (hcond1 t).mpr h0
    have h2 : ¬cond2 (grid0.coords t) := fun h => by have := (hcond2 t).mp h; omega
    rw [Dat.leavesExact_idle (dat0 V c) 5 t (idleAt5 t h2) (noFlush5 t h2),
      Dat.leavesExact_idle (dat0 V c) 6 t (idleAt6 t h2) (noFlush6 t h2)]
    rw [acc_first V c t h0]; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply (runA c Set.univ (grid0.coords t) _ _ _ _ _ _ _ _ _ _ _ _ _ _ _ _ _ _ h1 h2 (iblk V c 0 t) (iblk V c 1 t) (iblk V c 2 t) (iblk V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitr [Hg]
      · isplitl [HS0]; · iexact HS0
        isplitl [HS1]; · iexact HS1
        iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have h1 : ¬cond1 (grid0.coords t) := fun h => h0 ((hcond1 t).mp h)
    by_cases h31 : t.val = 31
    · have h2 : cond2 (grid0.coords t) := (hcond2 t).mpr h31
      rw [show (dat0 V c).leavesExact 5 t = owns (c : Thread nD τ) (st0_5 t) fullShare ((dat0 V c).after 5 t) from by
        unfold Dat.leavesExact; rw [liveAt5 t h2], after0_5]
      rw [show (dat0 V c).leavesExact 6 t = owns (c : Thread nD τ) (st0_6 t) fullShare ((dat0 V c).after 6 t) from by
        unfold Dat.leavesExact; rw [liveAt6 t h2], after0_6]
      rw [acc_later V c t h0]; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply (runC c Set.univ (grid0.coords t) _ _ _ _ _ _ _ _ _ _ _ _ _ _ _ _ _ _ h1 h2 (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h2 : ¬cond2 (grid0.coords t) := fun h => h31 ((hcond2 t).mp h)
      rw [Dat.leavesExact_idle (dat0 V c) 5 t (idleAt5 t h2) (noFlush5 t h2),
        Dat.leavesExact_idle (dat0 V c) 6 t (idleAt6 t h2) (noFlush6 t h2)]
      rw [acc_later V c t h0]; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply (runB c Set.univ (grid0.coords t) _ _ _ _ _ _ _ _ _ _ _ _ _ _ _ _ _ _ h1 h2 (iblk V c 0 t) (iblk V c 1 t) (iblk V c 2 t) (iblk V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the invariant -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.R0

end
-- ==== Proof.WR1Runs.lean ====
import proofs.«124353_j3959959847205_1_alg».proof.Proof.Gen.Kernel.Launch
import proofs.«124353_j3959959847205_1_alg».proof.Proof.Gen.Kernel.Skeleton
import proofs.«124353_j3959959847205_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's test (is this the first grid point?), from the grid coordinates. -/
abbrev cond1_0 (i : grid1.Coords) : Prop := (Scalar.cmpi .ne (Scalar.extui (Scalar.cmpi .eq (BitVec.ofNat 32 (i 0).val) 0#32)) 0#32) = 1#1
/-- It holds exactly at point 0. -/
theorem hcond1_0 : ∀ t : Fin cfg1.N, cond1_0 (grid1.coords t) ↔ t.val % 32 = 0 :=
  (by decide +kernel : ∀ t : Fin grid1.N, cond1_0 (grid1.coords t) ↔ t.val % 32 = 0)

/-- The second conditional's test (is this the last grid point?). -/
abbrev cond1_1 (i : grid1.Coords) : Prop := k1_cond2 i = 1#1
/-- It holds exactly at point 31. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point nothing is stored into the result window: it is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last point the result window is live. -/
theorem liveAt1_4 : ∀ t : Fin cfg1.N, cond1_1 (grid1.coords t) → cfg1.idle 4 (grid1.coords t) = false := by decide +kernel

/-! ## The staging memrefs and the scratch -/

abbrev ms1_0 (t : Fin cfg1.N) : Memref sig .tc .vmem S128x750 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x761 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x750 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S11x750 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S1x1 .f32 := Memref.whole cc1_scratch0
/-- The view through which the accumulator's contents are stated. -/
abbrev VS1_0 : View sig .tc .vmem S1x1 .f32 := scM1_0.view
/-- The view through which the result window's staging contents are stated. -/
abbrev VO1_4 : View sig .tc .vmem S1x1 .f32 := (Memref.whole cc1_stg4_0 : Memref sig .tc .vmem S1x1 .f32).view

/-! ## The body, run once per case -/

set_option maxHeartbeats 4000000 in
/-- FIRST POINT (first test holds, second fails): the accumulator, found at anything, is zeroed and then
    receives this point's partial sum; the inputs and the untouched result buffer are handed back as found.
    The witness is the list of writes the accumulator ends with. -/
noncomputable def kernelRun1_A (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S128x750 .f32) (x1 : Vec F S128x761 .f32) (x2 : Vec F S128x750 .f32) (x3 : Vec F S11x750 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__kernelB i arg1 harg1 arg2 harg2 arg3 harg3 arg4 harg4 arg5 harg5 arg6 harg6) K } := by
  refine ⟨?_, fun xi4 E K => ?run⟩
  case run =>
    simp only [cc1__kernelB_eq_skeleton]; unfold cc1__kernelB_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 4000000 in
/-- A MIDDLE POINT (both tests fail): the accumulator, found at `xs0`, receives this point's partial sum. -/
noncomputable def kernelRun1_B (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S128x750 .f32) (x1 : Vec F S128x761 .f32) (x2 : Vec F S128x750 .f32) (x3 : Vec F S11x750 .f32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__kernelB i arg1 harg1 arg2 harg2 arg3 harg3 arg4 harg4 arg5 harg5 arg6 harg6) K } := by
  refine ⟨?_, fun xi4 E K => ?run⟩
  case run =>
    simp only [cc1__kernelB_eq_skeleton]; unfold cc1__kernelB_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 4000000 in
/-- THE LAST POINT (first test fails, second holds): the accumulator, found at `xs0`, receives this point's
    partial sum and is then copied into the result window's buffer, found at anything. -/
noncomputable def kernelRun1_C (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S128x750 .f32) (x1 : Vec F S128x761 .f32) (x2 : Vec F S128x750 .f32) (x3 : Vec F S11x750 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__kernelB i arg1 harg1 arg2 harg2 arg3 harg3 arg4 harg4 arg5 harg5 arg6 harg6) K } := by
  refine ⟨?_, ?_, fun E K => ?run⟩
  case run =>
    simp only [cc1__kernelB_eq_skeleton]; unfold cc1__kernelB_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.R1

end
-- ==== Proof.WR1Body.lean ====
import proofs.«124353_j3959959847205_1_alg».proof.Proof.WR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The invariant's shape -/

/-- The core's scoped buffers other than the accumulator (the earlier region's staging buffers and scratch), each whole
    at some contents, beside a resource `X` standing for the accumulator. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- The class's region invariant: the scoped rest with the accumulator owned at some contents, and the generator
    register at some state. -/
theorem PhiA1_eq (c : Dev nD) :
    (Pipeline.ΦA spec1 c : sProp 𝕄)
      = iprop(rest1 c (iprop(∃ d, owns (c : Thread nD τ) scM1_0 fullShare d)) ∗ (∃ r, prngReg c r)) := by
  unfold Pipeline.ΦA rest1; rw [scopedRest1_eq]; simp only [scM1_0, owns_whole]; try rfl

/-! ## What each case leaves -/

/-- First point: the accumulator's writes cover it. -/
theorem scover1_A_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i) (x0 : Vec F S128x750 .f32) (x1 : Vec F S128x761 .f32) (x2 : Vec F S128x750 .f32) (x3 : Vec F S11x750 .f32) (y : S1x1.Idx) :
    ∃ pc ∈ (kernelRun1_A c i arg1 harg1 arg2 harg2 arg3 harg3 arg4 harg4 arg5 harg5 arg6 harg6 hc0 hc1 x0 x1 x2 x3).1, y ∈ pc.1.set :=
  View.cover_of_tiledL (kernelRun1_A c i arg1 harg1 arg2 harg2 arg3 harg3 arg4 harg4 arg5 harg5 arg6 harg6 hc0 hc1 x0 x1 x2 x3).1 S1x1.size (by sl_kernel_rfl) y
/-- What the first point leaves in the accumulator: its writes read back. -/
def sout1_A_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i) (x0 : Vec F S128x750 .f32) (x1 : Vec F S128x761 .f32) (x2 : Vec F S128x750 .f32) (x3 : Vec F S11x750 .f32) : Vec F S1x1 .f32 :=
  VS1_0.read (Elt F) (VS1_0.writes (Elt F) VS1_0.junk (kernelRun1_A c i arg1 harg1 arg2 harg2 arg3 harg3 arg4 harg4 arg5 harg5 arg6 harg6 hc0 hc1 x0 x1 x2 x3).1)

/-- A middle point: the accumulator's writes cover it. -/
theorem scover1_B_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i) (x0 : Vec F S128x750 .f32) (x1 : Vec F S128x761 .f32) (x2 : Vec F S128x750 .f32) (x3 : Vec F S11x750 .f32) (xs0 : Vec F S1x1 .f32) (y : S1x1.Idx) :
    ∃ pc ∈ (kernelRun1_B c i arg1 harg1 arg2 harg2 arg3 harg3 arg4 harg4 arg5 harg5 arg6 harg6 hc0 hc1 x0 x1 x2 x3 xs0).1, y ∈ pc.1.set :=
  View.cover_of_tiledL (kernelRun1_B c i arg1 harg1 arg2 harg2 arg3 harg3 arg4 harg4 arg5 harg5 arg6 harg6 hc0 hc1 x0 x1 x2 x3 xs0).1 S1x1.size (by sl_kernel_rfl) y
/-- What a middle point leaves in the accumulator. -/
def sout1_B_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i) (x0 : Vec F S128x750 .f32) (x1 : Vec F S128x761 .f32) (x2 : Vec F S128x750 .f32) (x3 : Vec F S11x750 .f32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 arg6 harg6 hc0 hc1 x0 x1 x2 x3 xs0).1)

/-- The last point: the result buffer's writes cover it, -/
theorem cover1_C_4 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) (y : S1x1.Idx) :
    ∃ pc ∈ (kernelRun1_C c i arg1 harg1 arg2 harg2 arg3 harg3 arg4 harg4 arg5 harg5 arg6 harg6 hc0 hc1 x0 x1 x2 x3 xs0).1, y ∈ pc.1.set :=
  View.cover_of_tiledL (kernelRun1_C c i arg1 harg1 arg2 harg2 arg3 harg3 arg4 harg4 arg5 harg5 arg6 harg6 hc0 hc1 x0 x1 x2 x3 xs0).1 S1x1.size (by sl_kernel_rfl) y
/-- and this is what they leave there. -/
def out1_C_4 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) : Vec F S1x1 .f32 :=
  VO1_4.read (Elt F) (VO1_4.writes (Elt F) VO1_4.junk (kernelRun1_C c i arg1 harg1 arg2 harg2 arg3 harg3 arg4 harg4 arg5 harg5 arg6 harg6 hc0 hc1 x0 x1 x2 x3 xs0).1)
/-- The last point: the accumulator's writes cover it, -/
theorem scover1_C_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) (y : S1x1.Idx) :
    ∃ pc ∈ (kernelRun1_C c i arg1 harg1 arg2 harg2 arg3 harg3 arg4 harg4 arg5 harg5 arg6 harg6 hc0 hc1 x0 x1 x2 x3 xs0).2.1, y ∈ pc.1.set :=
  View.cover_of_tiledL (kernelRun1_C c i arg1 harg1 arg2 harg2 arg3 harg3 arg4 harg4 arg5 harg5 arg6 harg6 hc0 hc1 x0 x1 x2 x3 xs0).2.1 S1x1.size (by sl_kernel_rfl) y
/-- and this is what they leave there. -/
def sout1_C_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) : Vec F S1x1 .f32 :=
  VS1_0.read (Elt F) (VS1_0.writes (Elt F) VS1_0.junk (kernelRun1_C c i arg1 harg1 arg2 harg2 arg3 harg3 arg4 harg4 arg5 harg5 arg6 harg6 hc0 hc1 x0 x1 x2 x3 xs0).2.1)

/-! ## The accumulation, point by point -/

theorem N1 : cfg1.N = 32 := N_1

/-- After the first point the first test fails. -/
theorem ncond0_succ (n : ℕ) (hn : n + 1 < cfg1.N) : ¬cond1_0 (grid1.coords ⟨n + 1, hn⟩) := fun h => by
  have h' := (hcond1_0 ⟨n + 1, hn⟩).mp h
  have hN : n + 1 < 32 := lt_of_lt_of_eq hn N1
  dsimp only at h'; omega

/-- At the first point the second test fails. -/
theorem ncond1_zero (hn : 0 < cfg1.N) : ¬cond1_1 (grid1.coords ⟨0, hn⟩) := fun h => by
  have h' := (hcond1_1 ⟨0, hn⟩).mp h
  dsimp only at h'; omega

/-- THE ACCUMULATION: what the accumulator holds after the body at position `n` — the case the closed forms select
    there, run at the point's memrefs and input blocks over what position `n - 1` left. -/
def accAt (c : Dev nD) : (n : ℕ) → n < cfg1.N → Vec F S1x1 .f32
  | 0, hn => sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (ncond1_zero hn) (iblk1 V c 0 ⟨0, hn⟩) (iblk1 V c 1 ⟨0, hn⟩) (iblk1 V c 2 ⟨0, hn⟩) (iblk1 V c 3 ⟨0, hn⟩)
  | n + 1, hn =>
    if h1 : (n + 1) % 32 = 31 then
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (ncond0_succ n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))
    else
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (ncond0_succ n hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))

/-- What the result window's staging buffer holds after the body at position `n`: at the last point the copy of the
    accumulator; elsewhere the window is idle and the value is a placeholder nothing reads. -/
def out4At (c : Dev nD) : (n : ℕ) → n < cfg1.N → Vec F S1x1 .f32
  | 0, hn => accAt V c 0 hn
  | n + 1, hn =>
    if h1 : (n + 1) % 32 = 31 then
      out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (ncond0_succ n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt V c n (Nat.lt_of_succ_lt hn))
    else accAt V c (n + 1) hn

theorem accAt_A (c : Dev nD) (t : Fin cfg1.N) (h0 : t.val % 32 = 0) (h1 : ¬t.val % 32 = 31) :
    accAt V c t.val t.isLt = sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (by exfalso; have hN : n + 1 < 32 := lt_of_lt_of_eq hn N1; dsimp only at h0; omega)

theorem accAt_B (c : Dev nD) (t : Fin cfg1.N) (h0 : ¬t.val % 32 = 0) (h1 : ¬t.val % 32 = 31) :
    accAt V c t.val t.isLt = sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt_C (c : Dev nD) (t : Fin cfg1.N) (h0 : ¬t.val % 32 = 0) (h1 : t.val % 32 = 31) :
    accAt V c t.val t.isLt = sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

theorem out4At_C (c : Dev nD) (t : Fin cfg1.N) (h0 : ¬t.val % 32 = 0) (h1 : t.val % 32 = 31) :
    out4At V c t.val t.isLt = out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- The region invariant before position `n`: before the first point the class's (every scoped buffer at anything);
    afterwards the same with the accumulator at what the point before left in it. -/
def PhiS1 (c : Dev nD) : (n : ℕ) → n ≤ cfg1.N → sProp 𝕄
  | 0, _ => Pipeline.ΦA spec1 c
  | n + 1, hn => iprop(rest1 c (owns (c : Thread nD τ) scM1_0 fullShare (accAt V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) scM1_0 fullShare (accAt V c n hn)) ∗ (∃ r, prngReg c r)) := rfl

theorem PhiS1_pos (c : Dev nD) (n : ℕ) (h : n ≤ cfg1.N) (hz : n ≠ 0) :
    PhiS1 V c n h = iprop(rest1 c (owns (c : Thread nD τ) scM1_0 fullShare (accAt V c (n - 1) (by omega))) ∗ (∃ r, prngReg c r)) := by
  cases n with
  | zero => exact absurd rfl hz
  | succ n => rfl

/-! ## The proof data -/

/-- The proof data of the region on core `c` entered at contents `V`: the arrays as found; after the body at point `t`
    each input's buffer at its block and the result window's at `out4At`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out4At V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl

theorem recorded1 (c : Dev nD) (t : Fin (cfg1.N + 1)) : (dat1 V c).recorded t = Set.univ := rfl

theorem share1 (c : Dev nD) (w : Fin cfg1.W) : (dat1 V c).share w = fullShare :=
  (dat1 V c).share_full (fun _ => rfl) w

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out4At V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms say which case the point is in; the
    invariant hands the body the accumulator at what the point before left (at anything at the first point) and takes
    it back at this point's contents; away from the last point the result buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt N1
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 32 = 31
  · have h0 : ¬t.val % 32 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [accAt_C V c t h0 h1, out4At_C V c t h0 h1]
    unfold out1_C_4 sout1_C_0; (try dsimp only)
    rw [PhiS1_castSucc V c t, PhiS1_pos V c _ _ hz]
    unfold rest1
    iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
    iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HR0 HR1 HR2 HR3 HR4 HR5 HR6 HR7 HR8 HR9 HR10 HR11 HR12 HR13 HS0 Hg]
    · isplitl [HR0 HR1 HR2 HR3 HR4 HR5 HR6 HR7 HR8 HR9 HR10 HR11 HR12 HR13 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        unfold owns; iexists _; isplitr
        swap; · iexact HS0
        ipureintro; exact View.read_writes_of_cover _ _ _ _ _ (scover1_C_0 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C_4 c _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val % 32 = 0
    · have hz : t.val = 0 := by omega
      rw [accAt_A V c t h0 h1]
      unfold sout1_A_0; (try dsimp only)
      rw [PhiS1_castSucc V c t, PhiS1_zero V c _ _ hz, PhiA1_eq]
      unfold rest1
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by omega
      rw [accAt_B V c t h0 h1]
      unfold sout1_B_0; (try dsimp only)
      rw [PhiS1_castSucc V c t, PhiS1_pos V c _ _ hz]
      unfold rest1
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N1; omega)

end Region

end Cert.Kernel.R1

end
-- ==== Proof.WKFrame.lean ====
/-
  The kernel program's two regions as records for the run, and its frame: every weakly fair execution
  terminates, faulting nowhere, and leaves both argument arrays as launched. Generic in the float instance.
-/
import proofs.«124353_j3959959847205_1_alg».proof.Proof.WKTail
import proofs.«124353_j3959959847205_1_alg».proof.Proof.WR0Body
import proofs.«124353_j3959959847205_1_alg».proof.Proof.WR1Body

set_option maxRecDepth 16384

noncomputable section

namespace Cert.Kernel.Host

open Cert.Kernel Cert.Kernel.Gen Cert.Kernel.Run
open Idealize.ShloMosaic Idealize.ShloMosaic.TcCoe Idealize.SL.Sem

variable {F : FTy → Type} [FloatOps F]

/-- Region 0's record: its proof data, body obligation and the invariant's passage in and out. -/
def reg0Data : Reg0 F where
  dat V c := R0.dat0 V c
  A_eq V c w := R0.A_eq0 V c w
  share V c w := R0.share0 V c w
  owed V c t := R0.owed0 V c t
  recorded V c t := R0.recorded0 V c t
  body V c := R0.body_obligation0 V c
  hin V c := R0.hin0 V c
  hout V c := R0.hout0 V c

/-- Region 1's record. -/
def reg1Data : Reg1 F where
  dat V c := R1.dat1 V c
  A_eq V c w := R1.A_eq1 V c w
  share V c w := R1.share1 V c w
  owed V c t := R1.owed1 V c t
  recorded V c t := R1.recorded1 V c t
  body V c := R1.body_obligation1 V c
  hin V c := R1.hin1 V c
  hout V c := R1.hout1 V c

variable (m : (ℓ : Loc nD τ sig) → Buf (Elt F) ℓ) (ρ : Dev nD → PrngReg)

/-- THE FRAME of the kernel program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result reg0Data reg1Data m ρ)

end Cert.Kernel.Host

end
-- ==== Proof.KRun.lean ====
/-
  The kernel program's run with its result named, from one proof-data family per region.

  @main is thirteen stretches of host operations, the first kernel region, the second kernel region, and a last
  stretch of host operations. Between two of these items every unscoped buffer of a core is held whole at a
  valuation: the launch memory, then the fold of each host stretch over it; after a region, the same valuation
  with the region's arrays replaced by what its write-backs leave (the proof data's `arrAt` at the last point).
  Given, per region, proof data whose arrays are the region's entry contents, its body obligation, and the
  passage of the pipeline library's region invariant into the first point's and out of the last point's, every weakly fair
  execution of @main terminates, faulting nowhere, and the final memory holds the result buffer at the last
  valuation's contents and both argument arrays as launched.
-/
import proofs.«124353_j3959959847205_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Data
variable (F)

/-- A core's unscoped buffers as a function of TensorCore references. -/
abbrev RefVal : Type :=
  (c : Dev nD) → (b : Ref sig .tc) → Buf (Elt F) ((c : Thread nD τ).loc b)

/-- What a proof of region 0 supplies at entry contents `V`. -/
structure Reg0 where
  dat : RefVal F → (c : Dev nD) → Dat τ (Elt F) Unit ℕ (UR sig nD τ) ℕ cfg0 c
  A_eq : ∀ V c (w : Fin cfg0.W), (dat V c).A w = V c (Pipeline.arrRef spec0 w)
  share : ∀ V c (w : Fin cfg0.W), (dat V c).share w = fullShare
  owed : ∀ V c t, (dat V c).owed t = 0
  recorded : ∀ V c t, (dat V c).recorded t = Set.univ
  body : ∀ V c, BodyObligation (dat V c) (defs₀ (F := F)) Variants.none () Set.univ
  hin : ∀ V c, (Pipeline.ΦA spec0 c : sProp 𝕄) ⊢ (dat V c).Φ 0
  hout : ∀ V c, (dat V c).Φ (Fin.last cfg0.N) ⊢ (Pipeline.ΦA spec0 c : sProp 𝕄)

/-- What a proof of region 1 supplies at entry contents `V`. -/
structure Reg1 where
  dat : RefVal F → (c : Dev nD) → Dat τ (Elt F) Unit ℕ (UR sig nD τ) ℕ cfg1 c
  A_eq : ∀ V c (w : Fin cfg1.W), (dat V c).A w = V c (Pipeline.arrRef spec1 w)
  share : ∀ V c (w : Fin cfg1.W), (dat V c).share w = fullShare
  owed : ∀ V c t, (dat V c).owed t = 0
  recorded : ∀ V c t, (dat V c).recorded t = Set.univ
  body : ∀ V c, BodyObligation (dat V c) (defs₀ (F := F)) Variants.none () Set.univ
  hin : ∀ V c, (Pipeline.ΦA spec1 c : sProp 𝕄) ⊢ (dat V c).Φ 0
  hout : ∀ V c, (dat V c).Φ (Fin.last cfg1.N) ⊢ (Pipeline.ΦA spec1 c : sProp 𝕄)

end Data

section Assembly

variable (R0 : Reg0 F) (R1 : Reg1 F)
variable (m : (ℓ : Loc nD τ sig) → Buf (Elt F) ℓ) (ρ : Dev nD → PrngReg)

/-! ## The buffers' contents at the regions' boundaries -/

/-- Region 0's entry contents: the launch memory after the thirteen host stretches. -/
abbrev Ve0 : RefVal F := fun c b => V13 m c b

/-- After region 0: its arrays at what the write-backs leave, every other buffer as entered. -/
def W14 (c : Dev nD) : Valuation τ sig (Elt F) :=
  Pipeline.withArrays spec0 c (V13 m c) fun w => (R0.dat (Ve0 m) c).arrAt w cfg0.N

theorem W14_arr (c : Dev nD) (w : Fin cfg0.W) :
    W14 R0 m c (Proc.devRef .tc (Pipeline.arrRef spec0 w)) = (R0.dat (Ve0 m) c).arrAt w cfg0.N := by
  unfold W14; exact Pipeline.withArrays_arr spec0 launch0.win.arr_inj c _ _ w

theorem W14_of_ne (c : Dev nD) (b : Ref sig .tc) (hb : ∀ w, Pipeline.arrRef spec0 w ≠ b) :
    W14 R0 m c (Proc.devRef .tc b) = V13 m c (Proc.devRef .tc b) := by
  unfold W14; exact Pipeline.withArrays_of_ne spec0 c _ _ b hb

/-- Region 1's entry contents. -/
abbrev Ve1 : RefVal F := fun c b => W14 R0 m c b

/-- After region 1. -/
def W15 (c : Dev nD) : Valuation τ sig (Elt F) :=
  Pipeline.withArrays spec1 c (W14 R0 m c) fun w => (R1.dat (Ve1 R0 m) c).arrAt w cfg1.N

theorem W15_arr (c : Dev nD) (w : Fin cfg1.W) :
    W15 R0 R1 m c (Proc.devRef .tc (Pipeline.arrRef spec1 w)) = (R1.dat (Ve1 R0 m) c).arrAt w cfg1.N := by
  unfold W15; exact Pipeline.withArrays_arr spec1 launch1.win.arr_inj c _ _ w

theorem W15_of_ne (c : Dev nD) (b : Ref sig .tc) (hb : ∀ w, Pipeline.arrRef spec1 w ≠ b) :
    W15 R0 R1 m c (Proc.devRef .tc b) = W14 R0 m c (Proc.devRef .tc b) := by
  unfold W15; exact Pipeline.withArrays_of_ne spec1 c _ _ b hb

/-- The contents after region 1, at the TensorCore's references. -/
abbrev Ve2 : RefVal F := fun c b => W15 R0 R1 m c b

/-- After the last host stretch: the final contents. -/
abbrev W16 (c : Dev nD) : Valuation τ sig (Elt F) := StableHlo.after hostOps2 (W15 R0 R1 m c)

theorem hF0 (c : Dev nD) (w : Fin cfg0.W) : (R0.dat (Ve0 m) c).arrAt w cfg0.N = Ve1 R0 m c (Pipeline.arrRef spec0 w) :=
  (W14_arr R0 m c w).symm
theorem hrest0 (c : Dev nD) : ∀ b, b ∉ Finset.univ.image (Pipeline.arrRef spec0) → Ve1 R0 m c b = Ve0 m c b :=
  fun b hb => W14_of_ne R0 m c b fun w e => hb (Finset.mem_image.mpr ⟨w, Finset.mem_univ _, e⟩)
theorem hF1 (c : Dev nD) (w : Fin cfg1.W) : (R1.dat (Ve1 R0 m) c).arrAt w cfg1.N = Ve2 R0 R1 m c (Pipeline.arrRef spec1 w) :=
  (W15_arr R0 R1 m c w).symm
theorem hrest1 (c : Dev nD) : ∀ b, b ∉ Finset.univ.image (Pipeline.arrRef spec1) → Ve2 R0 R1 m c b = Ve1 R0 m c b :=
  fun b hb => W15_of_ne R0 R1 m c b fun w e => hb (Finset.mem_image.mpr ⟨w, Finset.mem_univ _, e⟩)

/-! ## The proof data family and the thread state -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => R0.dat (Ve0 m) c
  | ⟨1, _⟩ => fun c => R1.dat (Ve1 R0 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state and the core owing
    nothing. -/
abbrev Rd (c : Dev nD) : sProp 𝕄 := iprop((∃ r, prngReg c r) ∗ ∃ W, owes (c : Thread nD τ) (0 : CellTallies nD τ sig Unit) W)
abbrev Ed : Fin 3 → Dev nD → sProp 𝕄 := fun _ c => Rd c

/-- The last host stretch as a segment, from the contents region 1 leaves. -/
def seg15 : HostSeg (Name := ℕ) (U := UR sig nD τ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W15 R0 R1 m) Rd

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered with every unscoped buffer at the thirteenth valuation, left with them at `W14`. Its arrays
    are split out of the unscoped buffers and put back at their exit contents; the generator register passes
    through the region invariant; nothing is owed; the kernel has no semaphore of its own. -/
def reg0 : RegionSeg (pcfgs (F := F)) adm (pdats R0 R1 m) () defs₀ 𝒱₀ L lv 0 where
  win := launch0.win.to₀
  block_pos := launch0.block_pos
  stage_whole := launch0.stage_whole
  K := PEmpty
  osem k := k.elim
  ho := Pipeline.OwnSemFacts.none _
  hbody c := (R0.body (Ve0 m) c).loose
  hwaits := Pipeline.hwaits_of_owed_zero _ _ _ _ L lv 0 fun c t => R0.owed (Ve0 m) c t
  pre c := iprop(StableHlo.held (c : Thread nD τ) (Pipeline.ucRefs τ sig) (V13 m c) ∗ Rd c)
  post c := iprop(StableHlo.held (c : Thread nD τ) (Pipeline.ucRefs τ sig) (W14 R0 m c) ∗ Rd c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats R0 R1 m) launch0.win launch0.arr_whole c
      (fun w => R0.share (Ve0 m) c w) (Ve0 m c) fun w => R0.A_eq (Ve0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m 0 c).owed 0 = 0 from R0.owed (Ve0 m) c 0]
      icases HO with ⟨%W, HO⟩; iexists W; isplitr
      · ipureintro
        exact fun _ _ => Or.inl ((R0.recorded (Ve0 m) c 0).symm ▸ Set.mem_univ _)
      iexact HO
    isplitl [Hp]; · iexact Hp
    iexact Hrest
  hin c := by
    refine BIBase.Entails.trans ?_ (R0.hin (Ve0 m) c)
    unfold Pipeline.ΦA
    iintro ⟨Hp, -, Hr⟩
    isplitl [Hr]; · iexact Hr
    iexact Hp
  hout c := by
    rw [Pipeline.ownSems0_none]
    refine BIBase.Entails.trans (R0.hout (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m) (fun w => R0.share (Ve0 m) c w)
      (Ve0 m c) (Ve1 R0 m c) ((pdats R0 R1 m 0 c).arrAt · cfg0.N) (hF0 R0 m c) (hrest0 R0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats R0 R1 m 0 c).owed (Fin.last _) = 0 from R0.owed (Ve0 m) c _]
    iexists W; iexact HO

set_option backward.isDefEq.respectTransparency.types false in
/-- Region 1: entered with every unscoped buffer at `W14`, left with them at `W15`; otherwise as region 0. -/
def reg1 : RegionSeg (pcfgs (F := F)) adm (pdats R0 R1 m) () defs₀ 𝒱₀ L lv 1 where
  win := launch1.win.to₀
  block_pos := launch1.block_pos
  stage_whole := launch1.stage_whole
  K := PEmpty
  osem k := k.elim
  ho := Pipeline.OwnSemFacts.none _
  hbody c := (R1.body (Ve1 R0 m) c).loose
  hwaits := Pipeline.hwaits_of_owed_zero _ _ _ _ L lv 1 fun c t => R1.owed (Ve1 R0 m) c t
  pre c := iprop(StableHlo.held (c : Thread nD τ) (Pipeline.ucRefs τ sig) (W14 R0 m c) ∗ Rd c)
  post c := iprop(StableHlo.held (c : Thread nD τ) (Pipeline.ucRefs τ sig) (W15 R0 R1 m c) ∗ Rd c)
  X c := iprop(∃ r, prngReg c r)
  Y c := iprop(∃ r, prngReg c r)
  Z c := Pipeline.unscopedRest (Ix := Unit) (Name := ℕ) (U := UR sig nD τ) (Lvl := ℕ) spec1 c (Ve1 R0 m c)
  hentry c := by
    rw [Pipeline.ownSems0_none]
    have hsplit := Pipeline.arrays_of_unscopedBufs (p := 1) (pcfgs (F := F)) adm (pdats R0 R1 m) launch1.win launch1.arr_whole c
      (fun w => R1.share (Ve1 R0 m) c w) (Ve1 R0 m c) fun w => R1.A_eq (Ve1 R0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m 1 c).owed 0 = 0 from R1.owed (Ve1 R0 m) c 0]
      icases HO with ⟨%W, HO⟩; iexists W; isplitr
      · ipureintro
        exact fun _ _ => Or.inl ((R1.recorded (Ve1 R0 m) c 0).symm ▸ Set.mem_univ _)
      iexact HO
    isplitl [Hp]; · iexact Hp
    iexact Hrest
  hin c := by
    refine BIBase.Entails.trans ?_ (R1.hin (Ve1 R0 m) c)
    unfold Pipeline.ΦA
    iintro ⟨Hp, -, Hr⟩
    isplitl [Hr]; · iexact Hr
    iexact Hp
  hout c := by
    rw [Pipeline.ownSems0_none]
    refine BIBase.Entails.trans (R1.hout (Ve1 R0 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m) (fun w => R1.share (Ve1 R0 m) c w)
      (Ve1 R0 m c) (Ve2 R0 R1 m c) ((pdats R0 R1 m 1 c).arrAt · cfg1.N) (hF1 R0 R1 m c) (hrest1 R0 R1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats R0 R1 m 1 c).owed (Fin.last _) = 0 from R1.owed (Ve1 R0 m) c _]
    iexists W; iexact HO

/-! ## @main as segments, and the run -/

/-- @main's sixteen items in order: thirteen host stretches, the two regions, the last host stretch. -/
abbrev segs : List (Seg (pcfgs (F := F)) adm (pdats R0 R1 m) () defs₀ 𝒱₀ L lv) :=
  [.host (seg0 m 𝒱₀ L lv Ed), .host (seg1 m 𝒱₀ L lv Ed), .host (seg2 m 𝒱₀ L lv Ed), .host (seg3 m 𝒱₀ L lv Ed),
   .host (seg4 m 𝒱₀ L lv Ed), .host (seg5 m 𝒱₀ L lv Ed), .host (seg6 m 𝒱₀ L lv Ed), .host (seg7 m 𝒱₀ L lv Ed),
   .host (seg8 m 𝒱₀ L lv Ed), .host (seg9 m 𝒱₀ L lv Ed), .host (seg10 m 𝒱₀ L lv Ed), .host (seg11 m 𝒱₀ L lv Ed),
   .host (seg12 m 𝒱₀ L lv Ed), .region (reg0 R0 R1 m), .region (reg1 R0 R1 m), .host (seg15 R0 R1 m)]

/-- The last thread state: every unscoped buffer at the final contents. -/
abbrev Tₙ (c : Dev nD) : sProp 𝕄 := StableHlo.held (c : Thread nD τ) (Pipeline.ucRefs τ sig) (W16 R0 R1 m c)

set_option backward.isDefEq.respectTransparency.types false in
/-- THE RUN. From any memory with zero counters every weakly fair execution of @main terminates, nothing
    faulting, and the final memory holds every unscoped buffer at the last valuation's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W16 R0 R1 m c b) :=
  Pipeline.θ_run_regions_kit (pcfgs (F := F)) adm (pdats R0 R1 m) () cellOf_inj emb₁ defs₀ 𝒱₀ L lv m ρ main (segs R0 R1 m)
    (fun c Q => by
      rewrite [main_chain c, Seg.run_eq_chain,
        show (segs R0 R1 m).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells (Pipeline.pin (pcfgs (F := F)) adm) cellOf_inj)
              (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rd c)) (Tₙ := Tₙ R0 R1 m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 R0 R1 m c b)
    (hfin := fun c s' => by
      show iprop(StableHlo.held (c : Thread nD τ) (Pipeline.ucRefs τ sig) (W16 R0 R1 m c) ∗ SI s') ⊢ _
      unfold StableHlo.held
      iintro ⟨Hh, HSI⟩
      imodintro
      iapply (pointsTo_read_all (Pipeline.ucRefs τ sig) (fun b => (((c : Thread nD τ)).1, b)) (W16 R0 R1 m c) s')
      isplitl [Hh] <;> iassumption)
    (hQ := fun s h c => h c)

end Assembly

end Cert.KernelIdeal.Run

end
-- ==== Proof.KHost.lean ====
/-
  What the kernel program's host operations leave in the buffers the two regions read, and what the last host
  stretch makes of the regions' results.

  Before the first region @main pads each argument array (six columns in front taken from the first column,
  five behind taken from the last, both through a tile-then-reshape that mixes rows), and gathers eleven
  row-permuted copies of the first argument through literal index tables. Here each of those buffers is read
  back as a pure function of the argument arrays; the padding is kept as one opaque function, since the
  reference pads by the very same operations.
-/
import proofs.«124353_j3959959847205_1_alg».proof.Proof.KRun
import Idealize.ShloMosaic.Lib.StableHlo.Run

set_option maxRecDepth 16384

noncomputable section

namespace Cert.KernelIdeal.Host

open Cert.KernelIdeal Cert.KernelIdeal.Gen Cert.KernelIdeal.Run
open Idealize.ShloMosaic Idealize.ShloMosaic.TcCoe Idealize.SL.Sem

variable {F : FTy → Type} [FloatOps F]
variable (m : (ℓ : Loc nD τ sig) → Buf (Elt F) ℓ)

/-! ## The arguments reach both regions as launched -/

theorem V13_arg0 (c : Dev nD) : V13 m c main_arg0 = m ((c : Thread nD τ).loc main_arg0) :=
  (V13_of m c main_arg0 (by decide)).trans <| (V12_of m c main_arg0 (by decide)).trans <| (V11_of m c main_arg0 (by decide)).trans <|
  (V10_of m c main_arg0 (by decide)).trans <| (V9_of m c main_arg0 (by decide)).trans <| (V8_of m c main_arg0 (by decide)).trans <|
  (V7_of m c main_arg0 (by decide)).trans <| (V6_of m c main_arg0 (by decide)).trans <| (V5_of m c main_arg0 (by decide)).trans <|
  (V4_of m c main_arg0 (by decide)).trans <| (V3_of m c main_arg0 (by decide)).trans <| (V2_of m c main_arg0 (by decide)).trans <|
  (V1_of m c main_arg0 (by decide))

theorem V13_arg1 (c : Dev nD) : V13 m c main_arg1 = m ((c : Thread nD τ).loc main_arg1) :=
  (V13_of m c main_arg1 (by decide)).trans <| (V12_of m c main_arg1 (by decide)).trans <| (V11_of m c main_arg1 (by decide)).trans <|
  (V10_of m c main_arg1 (by decide)).trans <| (V9_of m c main_arg1 (by decide)).trans <| (V8_of m c main_arg1 (by decide)).trans <|
  (V7_of m c main_arg1 (by decide)).trans <| (V6_of m c main_arg1 (by decide)).trans <| (V5_of m c main_arg1 (by decide)).trans <|
  (V4_of m c main_arg1 (by decide)).trans <| (V3_of m c main_arg1 (by decide)).trans <| (V2_of m c main_arg1 (by decide)).trans <|
  (V1_of m c main_arg1 (by decide))

/-! ## The padded arrays -/

/-- A column of `x`, tiled six times and reshaped to six columns: entry (b, j) is entry (6b + j) mod 4096 of the
    column. -/
def tiledCol (col : Fin 2 → Nat) (hs : S4096x750.Slices col S4096x1) (x : FVec F S4096x750 .f32) : FVec F S4096x6 .f32 :=
  shapeCast S4096x6 (shapeCast S24576 (broadcastInDim S6x4096 ![0, 1] Gen.bcast_S1x4096_S6x4096_0_1
    (shapeCast S1x4096 (shapeCast S4096 (extractStridedSlice S4096x1 col x hs) Gen.shapeCasts_S4096x1_S4096) Gen.shapeCasts_S4096_S1x4096))
    Gen.shapeCasts_S6x4096_S24576) Gen.shapeCasts_S24576_S4096x6

/-- The padding: six tiled copies of the first column, the array, the last five of six tiled copies of the last
    column. -/
def padded (x : FVec F S4096x750 .f32) : FVec F S4096x761 .f32 :=
  concatenate S4096x761 1 [⟨S4096x6, tiledCol ![0, 0] Gen.slices_S4096x750_S4096x1_0_0 x⟩, ⟨S4096x750, x⟩,
    ⟨S4096x5, extractStridedSlice S4096x5 ![0, 1] (tiledCol ![0, 749] Gen.slices_S4096x750_S4096x1_0_749 x) Gen.slices_S4096x6_S4096x5_0_1⟩]
    Gen.concatenates_S4096x6_S4096x750_S4096x5_S4096x761_d1

theorem V1_v27 (c : Dev nD) :
    (V1 m c main_v27 : FVec F S4096x761 .f32) = padded (m ((c : Thread nD τ).loc main_arg0)) := by
  show StableHlo.after hostOps0 (V0 m c) (Proc.devRef .tc main_v27) = _
  after_results_simp
  rfl

theorem V13_v27 (c : Dev nD) :
    (V13 m c main_v27 : FVec F S4096x761 .f32) = padded (m ((c : Thread nD τ).loc main_arg0)) :=
  ((V13_of m c main_v27 (by decide)).trans <| (V12_of m c main_v27 (by decide)).trans <| (V11_of m c main_v27 (by decide)).trans <|
  (V10_of m c main_v27 (by decide)).trans <| (V9_of m c main_v27 (by decide)).trans <| (V8_of m c main_v27 (by decide)).trans <|
  (V7_of m c main_v27 (by decide)).trans <| (V6_of m c main_v27 (by decide)).trans <| (V5_of m c main_v27 (by decide)).trans <|
  (V4_of m c main_v27 (by decide)).trans <| (V3_of m c main_v27 (by decide)).trans <| (V2_of m c main_v27 (by decide))).trans (V1_v27 m c)

theorem V1_v13 (c : Dev nD) :
    (V1 m c main_v13 : FVec F S4096x761 .f32) = padded (m ((c : Thread nD τ).loc main_arg1)) := by
  show StableHlo.after hostOps0 (V0 m c) (Proc.devRef .tc main_v13) = _
  after_results_simp
  rfl

theorem V13_v13 (c : Dev nD) :
    (V13 m c main_v13 : FVec F S4096x761 .f32) = padded (m ((c : Thread nD τ).loc main_arg1)) :=
  ((V13_of m c main_v13 (by decide)).trans <| (V12_of m c main_v13 (by decide)).trans <| (V11_of m c main_v13 (by decide)).trans <|
  (V10_of m c main_v13 (by decide)).trans <| (V9_of m c main_v13 (by decide)).trans <| (V8_of m c main_v13 (by decide)).trans <|
  (V7_of m c main_v13 (by decide)).trans <| (V6_of m c main_v13 (by decide)).trans <| (V5_of m c main_v13 (by decide)).trans <|
  (V4_of m c main_v13 (by decide)).trans <| (V3_of m c main_v13 (by decide)).trans <| (V2_of m c main_v13 (by decide))).trans (V1_v13 m c)

/-! ## The eleven row gathers -/

/-- `jnp.take` of rows of `x` at the index words `ix`: a negative word is wrapped by the extent, the rows are
    gathered (the gather clamps its start into the rows), and where the wrapped word is outside the rows the
    result is filled with the float word 0x7FC00000. -/
def takeRows (x : FVec F S4096x750 .f32) (ix : IVec S4096 32) : FVec F S4096x750 .f32 :=
  let wrapped : IVec S4096 32 :=
    select (cmpi .slt ix (broadcastInDim S4096 ![] Gen.bcast_S_S4096 (constantI S_ 32 0#32)))
      (addi ix (broadcastInDim S4096 ![] Gen.bcast_S_S4096 (constantI S_ 32 4096#32))) ix
  let col : IVec S4096x1 32 := broadcastInDim S4096x1 ![0] Gen.bcast_S4096_S4096x1_0 wrapped
  let inRows : IVec S4096 1 :=
    Host.reduce IntOp.andi
      (andi (cmpi .sge col (broadcastInDim S4096x1 ![] Gen.bcast_S_S4096x1 (constantI S_ 32 0#32)))
        (cmpi .sle col (broadcastInDim S4096x1 ![0, 1] Gen.bcast_S1x1_S4096x1_0_1 (broadcastInDim S1x1 ![1] Gen.bcast_S1_S1x1_1 (constantI S1 32 4095#32)))))
      (constantI S_ 1 1#1) Gen.reducesTo_S4096x1_S4096_d1 Gen.h_S_
  select (broadcastInDim S4096x750 ![0] Gen.bcast_S4096_S4096x750_0 inRows)
    (Host.gather gather_S4096x750_S4096x1_S4096x750_1_0_n_n_0_1_1750 x col)
    (broadcastInDim S4096x750 ![] Gen.bcast_S_S4096x750 (constant S_ .f32 0x7FC00000#32))

end Cert.KernelIdeal.Host

end
-- ==== Proof.KTail.lean ====
/-
  The end of the kernel program's run: the last host stretch divides the second region's total and the first
  region's squared-difference total by the batch size, scales the latter by the literal 0.1, adds, and
  multiplies by the literal 1; and both argument arrays are read back as launched.
-/
import proofs.«124353_j3959959847205_1_alg».proof.Proof.KHost

set_option maxRecDepth 16384

noncomputable section

namespace Cert.KernelIdeal.Host

open Cert.KernelIdeal Cert.KernelIdeal.Gen Cert.KernelIdeal.Run
open Idealize.ShloMosaic Idealize.ShloMosaic.TcCoe Idealize.SL.Sem
open Idealize.ShloMosaic.Pipeline (Dat)

variable {F : FTy → Type} [FloatOps F]
variable (R0 : Reg0 F) (R1 : Reg1 F)
variable (m : (ℓ : Loc nD τ sig) → Buf (Elt F) ℓ)

/-- The last host stretch as one function of the two totals. -/
def lossTail (total dsq : FVec F S1x1 .f32) : FVec F S_ .f32 :=
  mulf (addf (Host.divf (shapeCast S_ total Gen.shapeCasts_S1x1_S_) (constant S_ .f32 0x45800000#32))
      (mulf (constant S_ .f32 0x3DCCCCCD#32) (Host.divf (shapeCast S_ dsq Gen.shapeCasts_S1x1_S_) (constant S_ .f32 0x45800000#32))))
    (constant S_ .f32 0x3F800000#32)

/-- The result buffer at the end: the tail of the second region's result and the first region's third. -/
theorem W16_v59 (c : Dev nD) :
    (W16 R0 R1 m c main_v59 : FVec F S_ .f32)
      = lossTail ((R1.dat (Ve1 R0 m) c).arrAt 4 cfg1.N) ((R0.dat (Ve0 m) c).arrAt 6 cfg0.N) := by
  have e52 : W15 R0 R1 m c (Proc.devRef .tc main_v52) = (R1.dat (Ve1 R0 m) c).arrAt 4 cfg1.N := W15_arr R0 R1 m c 4
  have e512 : W15 R0 R1 m c (Proc.devRef .tc main_v51_2) = (R0.dat (Ve0 m) c).arrAt 6 cfg0.N :=
    (W15_of_ne R0 R1 m c main_v51_2 (by decide)).trans (W14_arr R0 m c 6)
  show StableHlo.after hostOps2 (W15 R0 R1 m c) (Proc.devRef .tc main_v59) = _
  after_results
  rw [e52, e512]
  rfl

/-- The first argument at the end. -/
theorem W16_arg0 (c : Dev nD) : W16 R0 R1 m c main_arg0 = m ((c : Thread nD τ).loc main_arg0) :=
  calc W16 R0 R1 m c (Proc.devRef .tc main_arg0)
    _ = W15 R0 R1 m c (Proc.devRef .tc main_arg0) := StableHlo.after_of_writes_sub hostOps2 _ hostOps2_writes (by decide)
    _ = W14 R0 m c (Proc.devRef .tc main_arg0) := W15_of_ne R0 R1 m c main_arg0 (by decide)
    _ = V13 m c (Proc.devRef .tc main_arg0) :=
        (W14_arr R0 m c 0).trans (((R0.dat (Ve0 m) c).arrAt_in 0 rfl _).trans (R0.A_eq (Ve0 m) c 0))
    _ = m ((c : Thread nD τ).loc main_arg0) := V13_arg0 m c

/-- The second argument at the end. -/
theorem W16_arg1 (c : Dev nD) : W16 R0 R1 m c main_arg1 = m ((c : Thread nD τ).loc main_arg1) :=
  calc W16 R0 R1 m c (Proc.devRef .tc main_arg1)
    _ = W15 R0 R1 m c (Proc.devRef .tc main_arg1) := StableHlo.after_of_writes_sub hostOps2 _ hostOps2_writes (by decide)
    _ = W14 R0 m c (Proc.devRef .tc main_arg1) :=
        (W15_arr R0 R1 m c 2).trans (((R1.dat (Ve1 R0 m) c).arrAt_in 2 rfl _).trans (R1.A_eq (Ve1 R0 m) c 2))
    _ = V13 m c (Proc.devRef .tc main_arg1) :=
        (W14_arr R0 m c 1).trans (((R0.dat (Ve0 m) c).arrAt_in 1 rfl _).trans (R0.A_eq (Ve0 m) c 1))
    _ = m ((c : Thread nD τ).loc main_arg1) := V13_arg1 m c

/-- THE RUN WITH ITS RESULT NAMED: the result buffer ends at the tail of the regions' totals, both arguments as
    launched. -/
theorem run_result (ρ : Dev nD → PrngReg) :
    θ_run defs (onTc (τ := τ) (main (F := F))) ⟨m, fun _ => 0, ρ⟩ (fun r => ∀ c : Dev nD,
      r.2.mem ((c.tc : Thread nD τ).loc main_v59) = lossTail ((R1.dat (Ve1 R0 m) c).arrAt 4 cfg1.N) ((R0.dat (Ve0 m) c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v59 (by decide))).trans (W16_v59 R0 R1 m c),
     (h c _ (mem_uc main_arg0 (by decide))).trans (W16_arg0 R0 R1 m c),
     (h c _ (mem_uc main_arg1 (by decide))).trans (W16_arg1 R0 R1 m c)⟩) (run_held R0 R1 m ρ)

end Cert.KernelIdeal.Host

end
-- ==== Proof.R0Runs.lean ====
import proofs.«124353_j3959959847205_1_alg».proof.Proof.Gen.KernelIdeal.Launch
import proofs.«124353_j3959959847205_1_alg».proof.Proof.Gen.KernelIdeal.Skeleton
import proofs.«124353_j3959959847205_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384
set_option pp.maxSteps 4000
set_option pp.deepTerms false

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's runs

The body of the first kernel, at one grid point, on whole staging buffers holding the point's blocks
`x0` (the activations' rows), `x1` (the second activations' rows), `x2` (the padded rows, 761 columns) and
`x3` (the eleven row-permuted copies), and on the two accumulators carried across the grid:

* it leaves in the result block the running maximum over the eleven shifts `c` of `x3[c] - x2[:, c : c + 750]`
  (`maxw`);
* it adds to the first accumulator, row `c`, the column sums over the block's rows of
  `(x0 - x2[:, c : c + 750])²` (`nsStep`);
* it adds to the second accumulator the sum over the block of `(x0 - x1)²` (`dsqStep`);
* at the first point it zeroes both accumulators first; at the last it copies them to the two small results.

Three control cases, one run each. -/

theorem hz2 : (![0, 0] : Fin 2 → Nat) = fun _ => 0 := funext fun a => by fin_cases a <;> rfl

/-- One store through the whole-buffer rectangle leaves its payload, whatever the buffer held. -/
theorem read_one_store {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- The first point's test `i == 0`, as the body computes it. -/
abbrev cond1 (i : grid0.Coords) : Prop := (Scalar.cmpi .ne (Scalar.extui (Scalar.cmpi .eq (BitVec.ofNat 32 (i 0).val) 0#32)) 0#32) = 1#1
/-- The last point's test `i == 31`. -/
abbrev cond2 (i : grid0.Coords) : Prop := k0_cond2 i = 1#1

/-! ## The rectangles the body loads and stores through -/

abbrev rA : Rect S128x750 := Rect.unit (s := S128x750) ![0, 0] S128x750.size inb_S128x750_S128x750_0_0
abbrev rP : Rect S128x761 := Rect.unit (s := S128x761) ![0, 0] S128x761.size inb_S128x761_S128x761_0_0
abbrev rS : Rect S11x750 := Rect.unit (s := S11x750) ![0, 0] S11x750.size inb_S11x750_S11x750_0_0
abbrev rU : Rect S1x1 := Rect.unit (s := S1x1) ![0, 0] S1x1.size inb_S1x1_S1x1_0_0
abbrev rT0 : Rect S11x128x750 := Rect.unit (s := S11x128x750) ![0, 0, 0] S1x128x750.size inb_S11x128x750_S1x128x750_0_0_0
abbrev rT1 : Rect S11x128x750 := Rect.unit (s := S11x128x750) ![1, 0, 0] S1x128x750.size inb_S11x128x750_S1x128x750_1_0_0
abbrev rT2 : Rect S11x128x750 := Rect.unit (s := S11x128x750) ![2, 0, 0] S1x128x750.size inb_S11x128x750_S1x128x750_2_0_0
abbrev rT3 : Rect S11x128x750 := Rect.unit (s := S11x128x750) ![3, 0, 0] S1x128x750.size inb_S11x128x750_S1x128x750_3_0_0
abbrev rT4 : Rect S11x128x750 := Rect.unit (s := S11x128x750) ![4, 0, 0] S1x128x750.size inb_S11x128x750_S1x128x750_4_0_0
abbrev rT5 : Rect S11x128x750 := Rect.unit (s := S11x128x750) ![5, 0, 0] S1x128x750.size inb_S11x128x750_S1x128x750_5_0_0
abbrev rT6 : Rect S11x128x750 := Rect.unit (s := S11x128x750) ![6, 0, 0] S1x128x750.size inb_S11x128x750_S1x128x750_6_0_0
abbrev rT7 : Rect S11x128x750 := Rect.unit (s := S11x128x750) ![7, 0, 0] S1x128x750.size inb_S11x128x750_S1x128x750_7_0_0
abbrev rT8 : Rect S11x128x750 := Rect.unit (s := S11x128x750) ![8, 0, 0] S1x128x750.size inb_S11x128x750_S1x128x750_8_0_0
abbrev rT9 : Rect S11x128x750 := Rect.unit (s := S11x128x750) ![9, 0, 0] S1x128x750.size inb_S11x128x750_S1x128x750_9_0_0
abbrev rT10 : Rect S11x128x750 := Rect.unit (s := S11x128x750) ![10, 0, 0] S1x128x750.size inb_S11x128x750_S1x128x750_10_0_0

/-! ## What one point computes, from the blocks -/

/-- The result block: the running maximum, from `-∞`, over the eleven shifts. -/
def maxw (x2 : Vec F S128x761 .f32) (x3 : Vec F S11x128x750 .f32) : Vec F S128x750 .f32 :=
  k0_pay27 (k0_pay4 (View.ld x2 rP))
    (k0_pay23 (k0_pay4 (View.ld x2 rP))
      (k0_pay11 (View.ld x2 rP) (View.ld x3 rT0) (View.ld x3 rT1) (View.ld x3 rT2))
      (k0_pay12 (View.ld x2 rP))
      (View.ld x3 rT3) (View.ld x3 rT4) (View.ld x3 rT5) (View.ld x3 rT6) (View.ld x3 rT7))
    (View.ld x3 rT8) (View.ld x3 rT9) (View.ld x3 rT10)

/-- The first accumulator after the point, from its contents `s` before: `s` plus, in row `c`, the column sums of the
    squared differences at shift `c`. -/
def nsStep (x0 : Vec F S128x750 .f32) (x2 : Vec F S128x761 .f32) (s : Vec F S11x750 .f32) : Vec F S11x750 .f32 :=
  k0_pay28 (View.ld x0 rA) (k0_pay4 (View.ld x2 rP))
    (k0_pay6 (View.ld x0 rA) (View.ld x2 rP)) (k0_pay8 (View.ld x0 rA) (View.ld x2 rP)) (k0_pay10 (View.ld x0 rA) (View.ld x2 rP))
    (k0_pay14 (k0_pay13 (View.ld x0 rA) (View.ld x2 rP)))
    (k0_pay16 (View.ld x0 rA) (k0_pay4 (View.ld x2 rP))) (k0_pay18 (View.ld x0 rA) (k0_pay4 (View.ld x2 rP)))
    (k0_pay20 (View.ld x0 rA) (k0_pay4 (View.ld x2 rP))) (k0_pay22 (View.ld x0 rA) (k0_pay4 (View.ld x2 rP))) (View.ld s rS)

/-- The second accumulator after the point: its contents before plus the block's sum of `(x0 - x1)²`. -/
def dsqStep (x0 x1 : Vec F S128x750 .f32) (s : Vec F S1x1 .f32) : Vec F S1x1 .f32 :=
  k0_pay1 (k0_pay29 (View.ld x0 rA) (View.ld x1 rA)) (View.ld s rU)

/-! ## The three runs -/

set_option maxHeartbeats 4000000 in
/-- A point that is neither first nor last: the accumulators go from `s0`, `s1` to their steps; the two small
    results' buffers are not touched. -/
theorem runB (c : Dev nD) (E : Set ℕ) (i : grid0.Coords)
    (arg1 : Memref sig .tc .vmem S128x750 .f32) (harg1 : arg1.IsWhole) (arg2 : Memref sig .tc .vmem S128x750 .f32) (harg2 : arg2.IsWhole)
    (arg3 : Memref sig .tc .vmem S128x761 .f32) (harg3 : arg3.IsWhole) (arg4 : Memref sig .tc .vmem S11x128x750 .f32) (harg4 : arg4.IsWhole)
    (arg5 : Memref sig .tc .vmem S128x750 .f32) (harg5 : arg5.IsWhole) (arg6 : Memref sig .tc .vmem S11x750 .f32) (harg6 : arg6.IsWhole)
    (arg7 : Memref sig .tc .vmem S1x1 .f32) (harg7 : arg7.IsWhole) (arg8 : Memref sig .tc .vmem S11x750 .f32) (harg8 : arg8.IsWhole)
    (arg9 : Memref sig .tc .vmem S1x1 .f32) (harg9 : arg9.IsWhole)
    (hc1 : ¬cond1 i) (hc2 : ¬cond2 i)
    (x0 : Vec F S128x750 .f32) (x1 : Vec F S128x750 .f32) (x2 : Vec F S128x761 .f32) (x3 : Vec F S11x128x750 .f32)
    (y5 : Vec F S11x750 .f32) (y6 : Vec F S1x1 .f32) (s0 : Vec F S11x750 .f32) (s1 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare y5 ∗ owns (c : Thread nD τ) arg7 fullShare y6
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (maxw x2 x3)
            ∗ owns (c : Thread nD τ) arg6 fullShare y5 ∗ owns (c : Thread nD τ) arg7 fullShare y6
            ∗ owns (c : Thread nD τ) arg8 fullShare (nsStep x0 x2 s0) ∗ owns (c : Thread nD τ) arg9 fullShare (dsqStep x0 x1 s1)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0 hf1 hf2 hf3 hf5 hf6 hf8 hf9
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact read_one_store (S := S128x750) _ _ hz2 inb_S128x750_S128x750_0_0 _
  isplitl [H5]; · iexists f5; isplitr; · ipureintro; rfl
                  iexact H5
  isplitl [H6]; · iexists f6; isplitr; · ipureintro; rfl
                  iexact H6
  isplitl [H8]
  · iexists _; isplitr
    swap; · iexact H8
    ipureintro
    exact read_one_store (S := S11x750) _ _ hz2 inb_S11x750_S11x750_0_0 _
  · iexists _; isplitr
    swap; · iexact H9
    ipureintro
    exact read_one_store (S := S1x1) _ _ hz2 inb_S1x1_S1x1_0_0 _

/-- A whole-buffer load of what one whole-buffer store left reads the store's payload. -/
theorem readCov_one {sig' : RefSig} {κ : Kind} {sp : Space} {S : Shape} {e : EltTy} (v : View sig' κ sp S e)
    {off : Fin S.rank → Nat} (h : off = fun _ => 0) (inb : ∀ a, off a + S.size a ≤ S.size a) (w : S.Idx → Elt F e) :
    v.readCov [(⟨Rect.unit off S.size inb, w⟩ : View.Piece (Elt F) S e)] (Rect.unit off S.size inb).toLoadRect
      = View.ld w (Rect.unit off S.size inb) :=
  (View.readCov_unit_zero v h inb w).trans (View.ld_unit_zero h inb w).symm

/-- A second whole-buffer store leaves its payload, whatever the first was. -/
theorem read_two_stores {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

set_option maxHeartbeats 4000000 in
/-- The first point: both accumulators, whatever they held, are zeroed and then stepped; the two small results'
    buffers are not touched. -/
theorem runA (c : Dev nD) (E : Set ℕ) (i : grid0.Coords)
    (arg1 : Memref sig .tc .vmem S128x750 .f32) (harg1 : arg1.IsWhole) (arg2 : Memref sig .tc .vmem S128x750 .f32) (harg2 : arg2.IsWhole)
    (arg3 : Memref sig .tc .vmem S128x761 .f32) (harg3 : arg3.IsWhole) (arg4 : Memref sig .tc .vmem S11x128x750 .f32) (harg4 : arg4.IsWhole)
    (arg5 : Memref sig .tc .vmem S128x750 .f32) (harg5 : arg5.IsWhole) (arg6 : Memref sig .tc .vmem S11x750 .f32) (harg6 : arg6.IsWhole)
    (arg7 : Memref sig .tc .vmem S1x1 .f32) (harg7 : arg7.IsWhole) (arg8 : Memref sig .tc .vmem S11x750 .f32) (harg8 : arg8.IsWhole)
    (arg9 : Memref sig .tc .vmem S1x1 .f32) (harg9 : arg9.IsWhole)
    (hc1 : cond1 i) (hc2 : ¬cond2 i)
    (x0 : Vec F S128x750 .f32) (x1 : Vec F S128x750 .f32) (x2 : Vec F S128x761 .f32) (x3 : Vec F S11x128x750 .f32)
    (y5 : Vec F S11x750 .f32) (y6 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (maxw x2 x3)
            ∗ owns (c : Thread nD τ) arg6 fullShare y5 ∗ owns (c : Thread nD τ) arg7 fullShare y6
            ∗ owns (c : Thread nD τ) arg8 fullShare (nsStep x0 x2 (k0_pay2 (F := F))) ∗ owns (c : Thread nD τ) arg9 fullShare (dsqStep x0 x1 (k0_pay3 (F := F)))) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0 hf1 hf2 hf3 hf5 hf6
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact read_one_store (S := S128x750) _ _ hz2 inb_S128x750_S128x750_0_0 _
  isplitl [H5]; · iexists f5; isplitr; · ipureintro; rfl
                  iexact H5
  isplitl [H6]; · iexists f6; isplitr; · ipureintro; rfl
                  iexact H6
  isplitl [H8]
  · iexists _; isplitr
    swap; · iexact H8
    ipureintro
    sl_unfold_words
    refine (read_two_stores (S := S11x750) _ _ hz2 inb_S11x750_S11x750_0_0 _ _).trans ?_
    rw [readCov_one (S := S11x750) _ hz2 inb_S11x750_S11x750_0_0]
    rfl
  · iexists _; isplitr
    swap; · iexact H9
    ipureintro
    sl_unfold_words
    refine (read_two_stores (S := S1x1) _ _ hz2 inb_S1x1_S1x1_0_0 _ _).trans ?_
    rw [readCov_one (S := S1x1) _ hz2 inb_S1x1_S1x1_0_0]
    rfl

set_option maxHeartbeats 4000000 in
/-- The last point: the accumulators are stepped from `s0`, `s1` and copied into the two small results' buffers. -/
theorem runC (c : Dev nD) (E : Set ℕ) (i : grid0.Coords)
    (arg1 : Memref sig .tc .vmem S128x750 .f32) (harg1 : arg1.IsWhole) (arg2 : Memref sig .tc .vmem S128x750 .f32) (harg2 : arg2.IsWhole)
    (arg3 : Memref sig .tc .vmem S128x761 .f32) (harg3 : arg3.IsWhole) (arg4 : Memref sig .tc .vmem S11x128x750 .f32) (harg4 : arg4.IsWhole)
    (arg5 : Memref sig .tc .vmem S128x750 .f32) (harg5 : arg5.IsWhole) (arg6 : Memref sig .tc .vmem S11x750 .f32) (harg6 : arg6.IsWhole)
    (arg7 : Memref sig .tc .vmem S1x1 .f32) (harg7 : arg7.IsWhole) (arg8 : Memref sig .tc .vmem S11x750 .f32) (harg8 : arg8.IsWhole)
    (arg9 : Memref sig .tc .vmem S1x1 .f32) (harg9 : arg9.IsWhole)
    (hc1 : ¬cond1 i) (hc2 : cond2 i)
    (x0 : Vec F S128x750 .f32) (x1 : Vec F S128x750 .f32) (x2 : Vec F S128x761 .f32) (x3 : Vec F S11x128x750 .f32)
    (s0 : Vec F S11x750 .f32) (s1 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (maxw x2 x3)
            ∗ owns (c : Thread nD τ) arg6 fullShare (nsStep x0 x2 s0) ∗ owns (c : Thread nD τ) arg7 fullShare (dsqStep x0 x1 s1)
            ∗ owns (c : Thread nD τ) arg8 fullShare (nsStep x0 x2 s0) ∗ owns (c : Thread nD τ) arg9 fullShare (dsqStep x0 x1 s1)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0 hf1 hf2 hf3 hf8 hf9
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact read_one_store (S := S128x750) _ _ hz2 inb_S128x750_S128x750_0_0 _
  isplitl [H5]
  · iexists _; isplitr
    swap; · iexact H5
    ipureintro
    sl_unfold_words
    refine (read_one_store (S := S11x750) _ _ hz2 inb_S11x750_S11x750_0_0 _).trans ?_
    exact View.readCov_unit_zero (S := S11x750) _ hz2 inb_S11x750_S11x750_0_0 _
  isplitl [H6]
  · iexists _; isplitr
    swap; · iexact H6
    ipureintro
    sl_unfold_words
    refine (read_one_store (S := S1x1) _ _ hz2 inb_S1x1_S1x1_0_0 _).trans ?_
    exact View.readCov_unit_zero (S := S1x1) _ hz2 inb_S1x1_S1x1_0_0 _
  isplitl [H8]
  · iexists _; isplitr
    swap; · iexact H8
    ipureintro
    sl_unfold_words
    exact read_one_store (S := S11x750) _ _ hz2 inb_S11x750_S11x750_0_0 _
  · iexists _; isplitr
    swap; · iexact H9
    ipureintro
    sl_unfold_words
    exact read_one_store (S := S1x1) _ _ hz2 inb_S1x1_S1x1_0_0 _

end Cert.KernelIdeal.R0

end
-- ==== Proof.R0Body.lean ====
import proofs.«124353_j3959959847205_1_alg».proof.Proof.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the proof data and the body obligation

The first kernel runs over 32 grid points, 128 rows each. Its four inputs are fetched at every point; its result
block is written back at every point; its two small results are written back after the last point only, and their
staging buffers are untouched before it. Two accumulators are carried from point to point: after point `n` they hold
the sums, over the points up to `n`, of that point's column sums and of that point's block sum (`acc`). -/

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s and
    whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is `V`'s and
    whose body leaves the block in place. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is `V`'s and
    whose body leaves the block in place. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is `V`'s and
    whose body leaves the block in place. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions over the grid -/

/-- The first test holds at point 0 only. -/
theorem hcond1 : ∀ t : Fin cfg0.N, cond1 (grid0.coords t) ↔ t.val = 0 :=
  (by decide +kernel : ∀ t : Fin grid0.N, cond1 (grid0.coords t) ↔ t.val = 0)
/-- The second holds at point 31 only. -/
theorem hcond2 : ∀ t : Fin cfg0.N, cond2 (grid0.coords t) ↔ t.val = 31 :=
  (by decide +kernel : ∀ t : Fin grid0.N, cond2 (grid0.coords t) ↔ t.val = 31)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Before the last point the small result 5 is idle and not written back; at the last point it is live. -/
theorem idleAt5 : ∀ t : Fin cfg0.N, ¬cond2 (grid0.coords t) → cfg0.idle 5 (grid0.coords t) = true := by decide +kernel
theorem noFlush5 : ∀ t : Fin cfg0.N, ¬cond2 (grid0.coords t) → (cfg0.win 5).flush t = false := by decide +kernel
theorem liveAt5 : ∀ t : Fin cfg0.N, cond2 (grid0.coords t) → cfg0.idle 5 (grid0.coords t) = false := by decide +kernel
/-- Before the last point the small result 6 is idle and not written back; at the last point it is live. -/
theorem idleAt6 : ∀ t : Fin cfg0.N, ¬cond2 (grid0.coords t) → cfg0.idle 6 (grid0.coords t) = true := by decide +kernel
theorem noFlush6 : ∀ t : Fin cfg0.N, ¬cond2 (grid0.coords t) → (cfg0.win 6).flush t = false := by decide +kernel
theorem liveAt6 : ∀ t : Fin cfg0.N, cond2 (grid0.coords t) → cfg0.idle 6 (grid0.coords t) = false := by decide +kernel

/-! ## The accumulators, point by point -/

/-- The two accumulators after the body at position `n`: at the first point the step from the zero blocks the reset
    stores; afterwards the step from what the point before left. -/
def acc (c : Dev nD) : (n : ℕ) → n < cfg0.N → Vec F S11x750 .f32 × Vec F S1x1 .f32
  | 0, hn => (nsStep (iblk V c 0 ⟨0, hn⟩) (iblk V c 2 ⟨0, hn⟩) (k0_pay2 (F := F)),
      dsqStep (iblk V c 0 ⟨0, hn⟩) (iblk V c 1 ⟨0, hn⟩) (k0_pay3 (F := F)))
  | n + 1, hn => (nsStep (iblk V c 0 ⟨n + 1, hn⟩) (iblk V c 2 ⟨n + 1, hn⟩) (acc c n (Nat.lt_of_succ_lt hn)).1,
      dsqStep (iblk V c 0 ⟨n + 1, hn⟩) (iblk V c 1 ⟨n + 1, hn⟩) (acc c n (Nat.lt_of_succ_lt hn)).2)

/-- `acc` at the first point. -/
theorem acc_first (c : Dev nD) (t : Fin cfg0.N) (h0 : t.val = 0) :
    acc V c t.val t.isLt = (nsStep (iblk V c 0 t) (iblk V c 2 t) (k0_pay2 (F := F)), dsqStep (iblk V c 0 t) (iblk V c 1 t) (k0_pay3 (F := F))) := by
  obtain ⟨n, hn⟩ := t
  cases n with
  | zero => rfl
  | succ n => exact absurd h0 (Nat.succ_ne_zero n)

/-- `acc` at a later point: the step from what the point before left. -/
theorem acc_later (c : Dev nD) (t : Fin cfg0.N) (h0 : t.val ≠ 0) :
    acc V c t.val t.isLt = (nsStep (iblk V c 0 t) (iblk V c 2 t) (acc V c (t.val - 1) (Nat.lt_of_le_of_lt (Nat.sub_le _ _) t.isLt)).1,
      dsqStep (iblk V c 0 t) (iblk V c 1 t) (acc V c (t.val - 1) (Nat.lt_of_le_of_lt (Nat.sub_le _ _) t.isLt)).2) := by
  obtain ⟨n, hn⟩ := t
  cases n with
  | zero => exact absurd rfl h0
  | succ n => rfl

/-! ## The invariant between points -/

/-- The two accumulators, whole scoped buffers of the kernel's own. -/
abbrev scM0 : Memref sig .tc .vmem S11x750 .f32 := Memref.whole cc0_scratch0
abbrev scM1 : Memref sig .tc .vmem S1x1 .f32 := Memref.whole cc0_scratch1

/-- The core's other scoped buffers that are no staging buffer of this region (the second kernel's), each at some
    contents: they ride along untouched. -/
def rest9 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The launch's invariant, with the accumulators as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest9 c) ∗ (∃ r, prngReg c r)) := by
  unfold Pipeline.ΦA rest9; rw [scopedRest0_eq]; simp only [scM0, scM1, owns_whole]; try rfl

/-- The region invariant before position `n`: before the first point the launch's (every scoped buffer at anything);
    afterwards the two accumulators at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0 fullShare (acc V c n hn).1 ∗ owns (c : Thread nD τ) scM1 fullShare (acc V c n hn).2 ∗ rest9 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc V c n hn).1 ∗ owns (c : Thread nD τ) scM1 fullShare (acc V c n hn).2 ∗ rest9 c) ∗ (∃ r, prngReg c r)) := rfl

theorem PhiS_pos (c : Dev nD) (n : ℕ) (h : n ≤ cfg0.N) (hz : n ≠ 0) :
    PhiS V c n h = iprop(iprop(owns (c : Thread nD τ) scM0 fullShare (acc V c (n - 1) (by omega)).1 ∗ owns (c : Thread nD τ) scM1 fullShare (acc V c (n - 1) (by omega)).2 ∗ rest9 c) ∗ (∃ r, prngReg c r)) := by
  cases n with
  | zero => exact absurd rfl hz
  | succ n => rfl

/-! ## The proof data -/

/-- The proof data of region 0 on core `c`, the region entered at contents `V`: after the body at point `t` each input's
    buffer at its block, the result block at the running maximum of the point's blocks, the two small results' at the
    accumulators after the point (read at the last point only); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => maxw (iblk V c 2 t) (iblk V c 3 t)
    | ⟨5, _⟩ => (acc V c t.val t.isLt).1
    | ⟨6, _⟩ => (acc V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem recorded0 (c : Dev nD) (t : Fin (cfg0.N + 1)) : (dat0 V c).recorded t = Set.univ := rfl
theorem share0 (c : Dev nD) (w : Fin cfg0.W) : (dat0 V c).share w = fullShare := (dat0 V c).share_full (fun _ => rfl) w

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = maxw (iblk V c 2 t) (iblk V c 3 t) := by dsimp only [dat0]
theorem after0_5 (c : Dev nD) (t : Fin cfg0.N) : (dat0 V c).after 5 t = (acc V c t.val t.isLt).1 := by dsimp only [dat0]
theorem after0_6 (c : Dev nD) (t : Fin cfg0.N) : (dat0 V c).after 6 t = (acc V c t.val t.isLt).2 := by dsimp only [dat0]

theorem before0_0 (c : Dev nD) (t : Fin cfg0.N) (d) : (dat0 V c).before 0 t d = iblk V c 0 t :=
  before0_of V (dat0 V c) (A_eq0 V c 0) (after0_0 V c) t d
theorem before0_1 (c : Dev nD) (t : Fin cfg0.N) (d) : (dat0 V c).before 1 t d = iblk V c 1 t :=
  before1_of V (dat0 V c) (A_eq0 V c 1) (after0_1 V c) t d
theorem before0_2 (c : Dev nD) (t : Fin cfg0.N) (d) : (dat0 V c).before 2 t d = iblk V c 2 t :=
  before2_of V (dat0 V c) (A_eq0 V c 2) (after0_2 V c) t d
theorem before0_3 (c : Dev nD) (t : Fin cfg0.N) (d) : (dat0 V c).before 3 t d = iblk V c 3 t :=
  before3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the closed forms of the two tests say which of the
    three cases the point is in, and that case's run applies: the invariant hands it the accumulators (at anything at
    the first point, else at what the point before left) and takes them back at this point's; the small results'
    buffers pass through untouched before the last point and receive the accumulators at it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (st0_0 t) fullShare ((dat0 V c).after 0 t) from by
    unfold Dat.leavesExact; rw [liveAt0 t], after0_0]
  rw [show (dat0 V c).leavesExact 1 t = owns (c : Thread nD τ) (st0_1 t) fullShare ((dat0 V c).after 1 t) from by
    unfold Dat.leavesExact; rw [liveAt1 t], after0_1]
  rw [show (dat0 V c).leavesExact 2 t = owns (c : Thread nD τ) (st0_2 t) fullShare ((dat0 V c).after 2 t) from by
    unfold Dat.leavesExact; rw [liveAt2 t], after0_2]
  rw [show (dat0 V c).leavesExact 3 t = owns (c : Thread nD τ) (st0_3 t) fullShare ((dat0 V c).after 3 t) from by
    unfold Dat.leavesExact; rw [liveAt3 t], after0_3]
  rw [show (dat0 V c).leavesExact 4 t = owns (c : Thread nD τ) (st0_4 t) fullShare ((dat0 V c).after 4 t) from by
    unfold Dat.leavesExact; rw [liveAt4 t], after0_4]
  by_cases h0 : t.val = 0
  · have h1 : cond1 (grid0.coords t) := (hcond1 t).mpr h0
    have h2 : ¬cond2 (grid0.coords t) := fun h => by have := (hcond2 t).mp h; omega
    rw [Dat.leavesExact_idle (dat0 V c) 5 t (idleAt5 t h2) (noFlush5 t h2),
      Dat.leavesExact_idle (dat0 V c) 6 t (idleAt6 t h2) (noFlush6 t h2)]
    rw [acc_first V c t h0]; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply (runA c Set.univ (grid0.coords t) _ _ _ _ _ _ _ _ _ _ _ _ _ _ _ _ _ _ h1 h2 (iblk V c 0 t) (iblk V c 1 t) (iblk V c 2 t) (iblk V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitr [Hg]
      · isplitl [HS0]; · iexact HS0
        isplitl [HS1]; · iexact HS1
        iexact HR
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have h1 : ¬cond1 (grid0.coords t) := fun h => h0 ((hcond1 t).mp h)
    by_cases h31 : t.val = 31
    · have h2 : cond2 (grid0.coords t) := (hcond2 t).mpr h31
      rw [show (dat0 V c).leavesExact 5 t = owns (c : Thread nD τ) (st0_5 t) fullShare ((dat0 V c).after 5 t) from by
        unfold Dat.leavesExact; rw [liveAt5 t h2], after0_5]
      rw [show (dat0 V c).leavesExact 6 t = owns (c : Thread nD τ) (st0_6 t) fullShare ((dat0 V c).after 6 t) from by
        unfold Dat.leavesExact; rw [liveAt6 t h2], after0_6]
      rw [acc_later V c t h0]; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply (runC c Set.univ (grid0.coords t) _ _ _ _ _ _ _ _ _ _ _ _ _ _ _ _ _ _ h1 h2 (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h2 : ¬cond2 (grid0.coords t) := fun h => h31 ((hcond2 t).mp h)
      rw [Dat.leavesExact_idle (dat0 V c) 5 t (idleAt5 t h2) (noFlush5 t h2),
        Dat.leavesExact_idle (dat0 V c) 6 t (idleAt6 t h2) (noFlush6 t h2)]
      rw [acc_later V c t h0]; (try dsimp only)
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply (runB c Set.univ (grid0.coords t) _ _ _ _ _ _ _ _ _ _ _ _ _ _ _ _ _ _ h1 h2 (iblk V c 0 t) (iblk V c 1 t) (iblk V c 2 t) (iblk V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the invariant -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.R0

end
-- ==== Proof.R1Runs.lean ====
import proofs.«124353_j3959959847205_1_alg».proof.Proof.Gen.KernelIdeal.Launch
import proofs.«124353_j3959959847205_1_alg».proof.Proof.Gen.KernelIdeal.Skeleton
import proofs.«124353_j3959959847205_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's test (is this the first grid point?), from the grid coordinates. -/
abbrev cond1_0 (i : grid1.Coords) : Prop := (Scalar.cmpi .ne (Scalar.extui (Scalar.cmpi .eq (BitVec.ofNat 32 (i 0).val) 0#32)) 0#32) = 1#1
/-- It holds exactly at point 0. -/
theorem hcond1_0 : ∀ t : Fin cfg1.N, cond1_0 (grid1.coords t) ↔ t.val % 32 = 0 :=
  (by decide +kernel : ∀ t : Fin grid1.N, cond1_0 (grid1.coords t) ↔ t.val % 32 = 0)

/-- The second conditional's test (is this the last grid point?). -/
abbrev cond1_1 (i : grid1.Coords) : Prop := k1_cond2 i = 1#1
/-- It holds exactly at point 31. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point nothing is stored into the result window: it is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last point the result window is live. -/
theorem liveAt1_4 : ∀ t : Fin cfg1.N, cond1_1 (grid1.coords t) → cfg1.idle 4 (grid1.coords t) = false := by decide +kernel

/-! ## The staging memrefs and the scratch -/

abbrev ms1_0 (t : Fin cfg1.N) : Memref sig .tc .vmem S128x750 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x761 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x750 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S11x750 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S1x1 .f32 := Memref.whole cc1_scratch0
/-- The view through which the accumulator's contents are stated. -/
abbrev VS1_0 : View sig .tc .vmem S1x1 .f32 := scM1_0.view
/-- The view through which the result window's staging contents are stated. -/
abbrev VO1_4 : View sig .tc .vmem S1x1 .f32 := (Memref.whole cc1_stg4_0 : Memref sig .tc .vmem S1x1 .f32).view

/-! ## The body, run once per case -/

set_option maxHeartbeats 4000000 in
/-- FIRST POINT (first test holds, second fails): the accumulator, found at anything, is zeroed and then
    receives this point's partial sum; the inputs and the untouched result buffer are handed back as found.
    The witness is the list of writes the accumulator ends with. -/
noncomputable def kernelRun1_A (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S128x750 .f32) (x1 : Vec F S128x761 .f32) (x2 : Vec F S128x750 .f32) (x3 : Vec F S11x750 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__kernelB i arg1 harg1 arg2 harg2 arg3 harg3 arg4 harg4 arg5 harg5 arg6 harg6) K } := by
  refine ⟨?_, fun xi4 E K => ?run⟩
  case run =>
    simp only [cc1__kernelB_eq_skeleton]; unfold cc1__kernelB_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 4000000 in
/-- A MIDDLE POINT (both tests fail): the accumulator, found at `xs0`, receives this point's partial sum. -/
noncomputable def kernelRun1_B (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S128x750 .f32) (x1 : Vec F S128x761 .f32) (x2 : Vec F S128x750 .f32) (x3 : Vec F S11x750 .f32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__kernelB i arg1 harg1 arg2 harg2 arg3 harg3 arg4 harg4 arg5 harg5 arg6 harg6) K } := by
  refine ⟨?_, fun xi4 E K => ?run⟩
  case run =>
    simp only [cc1__kernelB_eq_skeleton]; unfold cc1__kernelB_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 4000000 in
/-- THE LAST POINT (first test fails, second holds): the accumulator, found at `xs0`, receives this point's
    partial sum and is then copied into the result window's buffer, found at anything. -/
noncomputable def kernelRun1_C (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S128x750 .f32) (x1 : Vec F S128x761 .f32) (x2 : Vec F S128x750 .f32) (x3 : Vec F S11x750 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__kernelB i arg1 harg1 arg2 harg2 arg3 harg3 arg4 harg4 arg5 harg5 arg6 harg6) K } := by
  refine ⟨?_, ?_, fun E K => ?run⟩
  case run =>
    simp only [cc1__kernelB_eq_skeleton]; unfold cc1__kernelB_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.R1

end
-- ==== Proof.R1Body.lean ====
import proofs.«124353_j3959959847205_1_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The invariant's shape -/

/-- The core's scoped buffers other than the accumulator (the earlier region's staging buffers and scratch), each whole
    at some contents, beside a resource `X` standing for the accumulator. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- The class's region invariant: the scoped rest with the accumulator owned at some contents, and the generator
    register at some state. -/
theorem PhiA1_eq (c : Dev nD) :
    (Pipeline.ΦA spec1 c : sProp 𝕄)
      = iprop(rest1 c (iprop(∃ d, owns (c : Thread nD τ) scM1_0 fullShare d)) ∗ (∃ r, prngReg c r)) := by
  unfold Pipeline.ΦA rest1; rw [scopedRest1_eq]; simp only [scM1_0, owns_whole]; try rfl

/-! ## What each case leaves -/

/-- First point: the accumulator's writes cover it. -/
theorem scover1_A_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i) (x0 : Vec F S128x750 .f32) (x1 : Vec F S128x761 .f32) (x2 : Vec F S128x750 .f32) (x3 : Vec F S11x750 .f32) (y : S1x1.Idx) :
    ∃ pc ∈ (kernelRun1_A c i arg1 harg1 arg2 harg2 arg3 harg3 arg4 harg4 arg5 harg5 arg6 harg6 hc0 hc1 x0 x1 x2 x3).1, y ∈ pc.1.set :=
  View.cover_of_tiledL (kernelRun1_A c i arg1 harg1 arg2 harg2 arg3 harg3 arg4 harg4 arg5 harg5 arg6 harg6 hc0 hc1 x0 x1 x2 x3).1 S1x1.size (by sl_kernel_rfl) y
/-- What the first point leaves in the accumulator: its writes read back. -/
def sout1_A_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i) (x0 : Vec F S128x750 .f32) (x1 : Vec F S128x761 .f32) (x2 : Vec F S128x750 .f32) (x3 : Vec F S11x750 .f32) : Vec F S1x1 .f32 :=
  VS1_0.read (Elt F) (VS1_0.writes (Elt F) VS1_0.junk (kernelRun1_A c i arg1 harg1 arg2 harg2 arg3 harg3 arg4 harg4 arg5 harg5 arg6 harg6 hc0 hc1 x0 x1 x2 x3).1)

/-- A middle point: the accumulator's writes cover it. -/
theorem scover1_B_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i) (x0 : Vec F S128x750 .f32) (x1 : Vec F S128x761 .f32) (x2 : Vec F S128x750 .f32) (x3 : Vec F S11x750 .f32) (xs0 : Vec F S1x1 .f32) (y : S1x1.Idx) :
    ∃ pc ∈ (kernelRun1_B c i arg1 harg1 arg2 harg2 arg3 harg3 arg4 harg4 arg5 harg5 arg6 harg6 hc0 hc1 x0 x1 x2 x3 xs0).1, y ∈ pc.1.set :=
  View.cover_of_tiledL (kernelRun1_B c i arg1 harg1 arg2 harg2 arg3 harg3 arg4 harg4 arg5 harg5 arg6 harg6 hc0 hc1 x0 x1 x2 x3 xs0).1 S1x1.size (by sl_kernel_rfl) y
/-- What a middle point leaves in the accumulator. -/
def sout1_B_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i) (x0 : Vec F S128x750 .f32) (x1 : Vec F S128x761 .f32) (x2 : Vec F S128x750 .f32) (x3 : Vec F S11x750 .f32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 arg6 harg6 hc0 hc1 x0 x1 x2 x3 xs0).1)

/-- The last point: the result buffer's writes cover it, -/
theorem cover1_C_4 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) (y : S1x1.Idx) :
    ∃ pc ∈ (kernelRun1_C c i arg1 harg1 arg2 harg2 arg3 harg3 arg4 harg4 arg5 harg5 arg6 harg6 hc0 hc1 x0 x1 x2 x3 xs0).1, y ∈ pc.1.set :=
  View.cover_of_tiledL (kernelRun1_C c i arg1 harg1 arg2 harg2 arg3 harg3 arg4 harg4 arg5 harg5 arg6 harg6 hc0 hc1 x0 x1 x2 x3 xs0).1 S1x1.size (by sl_kernel_rfl) y
/-- and this is what they leave there. -/
def out1_C_4 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) : Vec F S1x1 .f32 :=
  VO1_4.read (Elt F) (VO1_4.writes (Elt F) VO1_4.junk (kernelRun1_C c i arg1 harg1 arg2 harg2 arg3 harg3 arg4 harg4 arg5 harg5 arg6 harg6 hc0 hc1 x0 x1 x2 x3 xs0).1)
/-- The last point: the accumulator's writes cover it, -/
theorem scover1_C_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) (y : S1x1.Idx) :
    ∃ pc ∈ (kernelRun1_C c i arg1 harg1 arg2 harg2 arg3 harg3 arg4 harg4 arg5 harg5 arg6 harg6 hc0 hc1 x0 x1 x2 x3 xs0).2.1, y ∈ pc.1.set :=
  View.cover_of_tiledL (kernelRun1_C c i arg1 harg1 arg2 harg2 arg3 harg3 arg4 harg4 arg5 harg5 arg6 harg6 hc0 hc1 x0 x1 x2 x3 xs0).2.1 S1x1.size (by sl_kernel_rfl) y
/-- and this is what they leave there. -/
def sout1_C_0 (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) : Vec F S1x1 .f32 :=
  VS1_0.read (Elt F) (VS1_0.writes (Elt F) VS1_0.junk (kernelRun1_C c i arg1 harg1 arg2 harg2 arg3 harg3 arg4 harg4 arg5 harg5 arg6 harg6 hc0 hc1 x0 x1 x2 x3 xs0).2.1)

/-! ## The accumulation, point by point -/

theorem N1 : cfg1.N = 32 := N_1

/-- After the first point the first test fails. -/
theorem ncond0_succ (n : ℕ) (hn : n + 1 < cfg1.N) : ¬cond1_0 (grid1.coords ⟨n + 1, hn⟩) := fun h => by
  have h' := (hcond1_0 ⟨n + 1, hn⟩).mp h
  have hN : n + 1 < 32 := lt_of_lt_of_eq hn N1
  dsimp only at h'; omega

/-- At the first point the second test fails. -/
theorem ncond1_zero (hn : 0 < cfg1.N) : ¬cond1_1 (grid1.coords ⟨0, hn⟩) := fun h => by
  have h' := (hcond1_1 ⟨0, hn⟩).mp h
  dsimp only at h'; omega

/-- THE ACCUMULATION: what the accumulator holds after the body at position `n` — the case the closed forms select
    there, run at the point's memrefs and input blocks over what position `n - 1` left. -/
def accAt (c : Dev nD) : (n : ℕ) → n < cfg1.N → Vec F S1x1 .f32
  | 0, hn => sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (ncond1_zero hn) (iblk1 V c 0 ⟨0, hn⟩) (iblk1 V c 1 ⟨0, hn⟩) (iblk1 V c 2 ⟨0, hn⟩) (iblk1 V c 3 ⟨0, hn⟩)
  | n + 1, hn =>
    if h1 : (n + 1) % 32 = 31 then
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (ncond0_succ n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))
    else
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (ncond0_succ n hn) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))

/-- What the result window's staging buffer holds after the body at position `n`: at the last point the copy of the
    accumulator; elsewhere the window is idle and the value is a placeholder nothing reads. -/
def out4At (c : Dev nD) : (n : ℕ) → n < cfg1.N → Vec F S1x1 .f32
  | 0, hn => accAt V c 0 hn
  | n + 1, hn =>
    if h1 : (n + 1) % 32 = 31 then
      out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (ncond0_succ n hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt V c n (Nat.lt_of_succ_lt hn))
    else accAt V c (n + 1) hn

theorem accAt_A (c : Dev nD) (t : Fin cfg1.N) (h0 : t.val % 32 = 0) (h1 : ¬t.val % 32 = 31) :
    accAt V c t.val t.isLt = sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (by exfalso; have hN : n + 1 < 32 := lt_of_lt_of_eq hn N1; dsimp only at h0; omega)

theorem accAt_B (c : Dev nD) (t : Fin cfg1.N) (h0 : ¬t.val % 32 = 0) (h1 : ¬t.val % 32 = 31) :
    accAt V c t.val t.isLt = sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt_C (c : Dev nD) (t : Fin cfg1.N) (h0 : ¬t.val % 32 = 0) (h1 : t.val % 32 = 31) :
    accAt V c t.val t.isLt = sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

theorem out4At_C (c : Dev nD) (t : Fin cfg1.N) (h0 : ¬t.val % 32 = 0) (h1 : t.val % 32 = 31) :
    out4At V c t.val t.isLt = out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- The region invariant before position `n`: before the first point the class's (every scoped buffer at anything);
    afterwards the same with the accumulator at what the point before left in it. -/
def PhiS1 (c : Dev nD) : (n : ℕ) → n ≤ cfg1.N → sProp 𝕄
  | 0, _ => Pipeline.ΦA spec1 c
  | n + 1, hn => iprop(rest1 c (owns (c : Thread nD τ) scM1_0 fullShare (accAt V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) scM1_0 fullShare (accAt V c n hn)) ∗ (∃ r, prngReg c r)) := rfl

theorem PhiS1_pos (c : Dev nD) (n : ℕ) (h : n ≤ cfg1.N) (hz : n ≠ 0) :
    PhiS1 V c n h = iprop(rest1 c (owns (c : Thread nD τ) scM1_0 fullShare (accAt V c (n - 1) (by omega))) ∗ (∃ r, prngReg c r)) := by
  cases n with
  | zero => exact absurd rfl hz
  | succ n => rfl

/-! ## The proof data -/

/-- The proof data of the region on core `c` entered at contents `V`: the arrays as found; after the body at point `t`
    each input's buffer at its block and the result window's at `out4At`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out4At V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl

theorem recorded1 (c : Dev nD) (t : Fin (cfg1.N + 1)) : (dat1 V c).recorded t = Set.univ := rfl

theorem share1 (c : Dev nD) (w : Fin cfg1.W) : (dat1 V c).share w = fullShare :=
  (dat1 V c).share_full (fun _ => rfl) w

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out4At V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms say which case the point is in; the
    invariant hands the body the accumulator at what the point before left (at anything at the first point) and takes
    it back at this point's contents; away from the last point the result buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt N1
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 32 = 31
  · have h0 : ¬t.val % 32 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [accAt_C V c t h0 h1, out4At_C V c t h0 h1]
    unfold out1_C_4 sout1_C_0; (try dsimp only)
    rw [PhiS1_castSucc V c t, PhiS1_pos V c _ _ hz]
    unfold rest1
    iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
    iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HR0 HR1 HR2 HR3 HR4 HR5 HR6 HR7 HR8 HR9 HR10 HR11 HR12 HR13 HS0 Hg]
    · isplitl [HR0 HR1 HR2 HR3 HR4 HR5 HR6 HR7 HR8 HR9 HR10 HR11 HR12 HR13 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        unfold owns; iexists _; isplitr
        swap; · iexact HS0
        ipureintro; exact View.read_writes_of_cover _ _ _ _ _ (scover1_C_0 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C_4 c _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val % 32 = 0
    · have hz : t.val = 0 := by omega
      rw [accAt_A V c t h0 h1]
      unfold sout1_A_0; (try dsimp only)
      rw [PhiS1_castSucc V c t, PhiS1_zero V c _ _ hz, PhiA1_eq]
      unfold rest1
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by omega
      rw [accAt_B V c t h0 h1]
      unfold sout1_B_0; (try dsimp only)
      rw [PhiS1_castSucc V c t, PhiS1_pos V c _ _ hz]
      unfold rest1
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N1; omega)

end Region

end Cert.KernelIdeal.R1

end
-- ==== Proof.KFrame.lean ====
/-
  The kernel program's two regions as records for the run, and its frame: every weakly fair execution
  terminates, faulting nowhere, and leaves both argument arrays as launched. Generic in the float instance.
-/
import proofs.«124353_j3959959847205_1_alg».proof.Proof.KTail
import proofs.«124353_j3959959847205_1_alg».proof.Proof.R0Body
import proofs.«124353_j3959959847205_1_alg».proof.Proof.R1Body

set_option maxRecDepth 16384

noncomputable section

namespace Cert.KernelIdeal.Host

open Cert.KernelIdeal Cert.KernelIdeal.Gen Cert.KernelIdeal.Run
open Idealize.ShloMosaic Idealize.ShloMosaic.TcCoe Idealize.SL.Sem

variable {F : FTy → Type} [FloatOps F]

/-- Region 0's record: its proof data, body obligation and the invariant's passage in and out. -/
def reg0Data : Reg0 F where
  dat V c := R0.dat0 V c
  A_eq V c w := R0.A_eq0 V c w
  share V c w := R0.share0 V c w
  owed V c t := R0.owed0 V c t
  recorded V c t := R0.recorded0 V c t
  body V c := R0.body_obligation0 V c
  hin V c := R0.hin0 V c
  hout V c := R0.hout0 V c

/-- Region 1's record. -/
def reg1Data : Reg1 F where
  dat V c := R1.dat1 V c
  A_eq V c w := R1.A_eq1 V c w
  share V c w := R1.share1 V c w
  owed V c t := R1.owed1 V c t
  recorded V c t := R1.recorded1 V c t
  body V c := R1.body_obligation1 V c
  hin V c := R1.hin1 V c
  hout V c := R1.hout1 V c

variable (m : (ℓ : Loc nD τ sig) → Buf (Elt F) ℓ) (ρ : Dev nD → PrngReg)

/-- THE FRAME of the kernel program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result reg0Data reg1Data m ρ)

end Cert.KernelIdeal.Host

end
-- ==== Proof.RefStages.lean ====
import proofs.«124353_j3959959847205_1_alg».proof.ReferenceIdeal
import proofs.«124353_j3959959847205_1_alg».proof.Proof.Gen.ReferenceIdeal

noncomputable section

namespace Cert.ReferenceIdeal.Hand

/-! The reference program's value as a composition of small named stages. Each stage is the composed
    term of a consecutive group of the program's operations, in the operations' own spelling, over
    the values the group reads. -/

open Cert.ReferenceIdeal Cert.ReferenceIdeal.Gen Idealize.ShloMosaic Idealize.SL.Sem

variable {F : FTy → Type} [FloatOps F]

/-- The padded array: six leading columns read off the first column tiled six times and reshaped, the array itself, and five trailing columns read off the last column tiled and reshaped, its first dropped. -/
def padded (x0 : (⟨S4096x750, .f32⟩ : BufTy).Contents (Elt F)) :
    (⟨S4096x761, .f32⟩ : BufTy).Contents (Elt F) :=
  (concatenate S4096x761 1 [⟨S4096x6, (shapeCast S4096x6 (shapeCast S24576 ((broadcastInDim S6x4096 ![0, 1] bcast_S1x4096_S6x4096_0_1 : (⟨S1x4096, .f32⟩ : BufTy).Contents (Elt F) → (⟨S6x4096, .f32⟩ : BufTy).Contents (Elt F)) (shapeCast S1x4096 (shapeCast S4096 (((extractStridedSlice S4096x1 ![0, 0] · slices_S4096x750_S4096x1_0_0) : (⟨S4096x750, .f32⟩ : BufTy).Contents (Elt F) → (⟨S4096x1, .f32⟩ : BufTy).Contents (Elt F)) x0) shapeCasts_S4096x1_S4096 : (⟨S4096, .f32⟩ : BufTy).Contents (Elt F)) shapeCasts_S4096_S1x4096 : (⟨S1x4096, .f32⟩ : BufTy).Contents (Elt F))) shapeCasts_S6x4096_S24576 : (⟨S24576, .f32⟩ : BufTy).Contents (Elt F)) shapeCasts_S24576_S4096x6 : (⟨S4096x6, .f32⟩ : BufTy).Contents (Elt F))⟩, ⟨S4096x750, x0⟩, ⟨S4096x5, (((extractStridedSlice S4096x5 ![0, 1] · slices_S4096x6_S4096x5_0_1) : (⟨S4096x6, .f32⟩ : BufTy).Contents (Elt F) → (⟨S4096x5, .f32⟩ : BufTy).Contents (Elt F)) (shapeCast S4096x6 (shapeCast S24576 ((broadcastInDim S6x4096 ![0, 1] bcast_S1x4096_S6x4096_0_1 : (⟨S1x4096, .f32⟩ : BufTy).Contents (Elt F) → (⟨S6x4096, .f32⟩ : BufTy).Contents (Elt F)) (shapeCast S1x4096 (shapeCast S4096 (((extractStridedSlice S4096x1 ![0, 749] · slices_S4096x750_S4096x1_0_749) : (⟨S4096x750, .f32⟩ : BufTy).Contents (Elt F) → (⟨S4096x1, .f32⟩ : BufTy).Contents (Elt F)) x0) shapeCasts_S4096x1_S4096 : (⟨S4096, .f32⟩ : BufTy).Contents (Elt F)) shapeCasts_S4096_S1x4096 : (⟨S1x4096, .f32⟩ : BufTy).Contents (Elt F))) shapeCasts_S6x4096_S24576 : (⟨S24576, .f32⟩ : BufTy).Contents (Elt F)) shapeCasts_S24576_S4096x6 : (⟨S4096x6, .f32⟩ : BufTy).Contents (Elt F)))⟩] concatenates_S4096x6_S4096x750_S4096x5_S4096x761_d1 : (⟨S4096x761, .f32⟩ : BufTy).Contents (Elt F))

/-- The window positions before wrapping: at (t, c) the 32-bit sum t + c. -/
def winSum :
    (⟨S750x11, .i32⟩ : BufTy).Contents (Elt F) :=
  ((addi : (⟨S750x11, .i32⟩ : BufTy).Contents (Elt F) → (⟨S750x11, .i32⟩ : BufTy).Contents (Elt F) → (⟨S750x11, .i32⟩ : BufTy).Contents (Elt F)) ((broadcastInDim S750x11 ![0, 1] bcast_S750x1_S750x11_0_1 : (⟨S750x1, .i32⟩ : BufTy).Contents (Elt F) → (⟨S750x11, .i32⟩ : BufTy).Contents (Elt F)) ((broadcastInDim S750x1 ![0] bcast_S750_S750x1_0 : (⟨S750, .i32⟩ : BufTy).Contents (Elt F) → (⟨S750x1, .i32⟩ : BufTy).Contents (Elt F)) ((iotaInDim S750 32 0) : (⟨S750, .i32⟩ : BufTy).Contents (Elt F)))) ((broadcastInDim S750x11 ![0, 1] bcast_S1x11_S750x11_0_1 : (⟨S1x11, .i32⟩ : BufTy).Contents (Elt F) → (⟨S750x11, .i32⟩ : BufTy).Contents (Elt F)) ((broadcastInDim S1x11 ![1] bcast_S11_S1x11_1 : (⟨S11, .i32⟩ : BufTy).Contents (Elt F) → (⟨S1x11, .i32⟩ : BufTy).Contents (Elt F)) ((iotaInDim S11 32 0) : (⟨S11, .i32⟩ : BufTy).Contents (Elt F)))))

/-- The window gather's start indices: a negative position moved up by the padded width 761, then a trailing unit axis. -/
def winIdx (x0 : (⟨S750x11, .i32⟩ : BufTy).Contents (Elt F)) :
    (⟨S750x11x1, .i32⟩ : BufTy).Contents (Elt F) :=
  ((broadcastInDim S750x11x1 ![0, 1] bcast_S750x11_S750x11x1_0_1 : (⟨S750x11, .i32⟩ : BufTy).Contents (Elt F) → (⟨S750x11x1, .i32⟩ : BufTy).Contents (Elt F)) ((select : (⟨S750x11, .i1⟩ : BufTy).Contents (Elt F) → (⟨S750x11, .i32⟩ : BufTy).Contents (Elt F) → (⟨S750x11, .i32⟩ : BufTy).Contents (Elt F) → (⟨S750x11, .i32⟩ : BufTy).Contents (Elt F)) ((cmpi .slt : (⟨S750x11, .i32⟩ : BufTy).Contents (Elt F) → (⟨S750x11, .i32⟩ : BufTy).Contents (Elt F) → (⟨S750x11, .i1⟩ : BufTy).Contents (Elt F)) x0 ((broadcastInDim S750x11 ![] bcast_S_S750x11 : (⟨S_, .i32⟩ : BufTy).Contents (Elt F) → (⟨S750x11, .i32⟩ : BufTy).Contents (Elt F)) ((constantI S_ 32 0#32) : (⟨S_, .i32⟩ : BufTy).Contents (Elt F)))) ((addi : (⟨S750x11, .i32⟩ : BufTy).Contents (Elt F) → (⟨S750x11, .i32⟩ : BufTy).Contents (Elt F) → (⟨S750x11, .i32⟩ : BufTy).Contents (Elt F)) x0 ((broadcastInDim S750x11 ![] bcast_S_S750x11 : (⟨S_, .i32⟩ : BufTy).Contents (Elt F) → (⟨S750x11, .i32⟩ : BufTy).Contents (Elt F)) ((constantI S_ 32 761#32) : (⟨S_, .i32⟩ : BufTy).Contents (Elt F)))) x0))

/-- The windows of a padded array: at (b, t, c) the padded array's row b at the gathered column. -/
def windows (x0 : (⟨S4096x761, .f32⟩ : BufTy).Contents (Elt F)) (x1 : (⟨S750x11x1, .i32⟩ : BufTy).Contents (Elt F)) :
    (⟨S4096x750x11, .f32⟩ : BufTy).Contents (Elt F) :=
  (((fun x i => Host.gather gather_S4096x761_S750x11x1_S4096x750x11_0_1_n_n_1_2_40961 x i) : (⟨S4096x761, .f32⟩ : BufTy).Contents (Elt F) → (⟨S750x11x1, .i32⟩ : BufTy).Contents (Elt F) → (⟨S4096x750x11, .f32⟩ : BufTy).Contents (Elt F)) x0 x1)

/-- The row positions before reduction: at (b, c) the 32-bit value 11 b + c. -/
def rowSum :
    (⟨S4096x11, .i32⟩ : BufTy).Contents (Elt F) :=
  ((addi : (⟨S4096x11, .i32⟩ : BufTy).Contents (Elt F) → (⟨S4096x11, .i32⟩ : BufTy).Contents (Elt F) → (⟨S4096x11, .i32⟩ : BufTy).Contents (Elt F)) ((broadcastInDim S4096x11 ![0, 1] bcast_S4096x1_S4096x11_0_1 : (⟨S4096x1, .i32⟩ : BufTy).Contents (Elt F) → (⟨S4096x11, .i32⟩ : BufTy).Contents (Elt F)) ((muli : (⟨S4096x1, .i32⟩ : BufTy).Contents (Elt F) → (⟨S4096x1, .i32⟩ : BufTy).Contents (Elt F) → (⟨S4096x1, .i32⟩ : BufTy).Contents (Elt F)) ((broadcastInDim S4096x1 ![] bcast_S_S4096x1 : (⟨S_, .i32⟩ : BufTy).Contents (Elt F) → (⟨S4096x1, .i32⟩ : BufTy).Contents (Elt F)) ((constantI S_ 32 11#32) : (⟨S_, .i32⟩ : BufTy).Contents (Elt F))) ((broadcastInDim S4096x1 ![0] bcast_S4096_S4096x1_0 : (⟨S4096, .i32⟩ : BufTy).Contents (Elt F) → (⟨S4096x1, .i32⟩ : BufTy).Contents (Elt F)) ((iotaInDim S4096 32 0) : (⟨S4096, .i32⟩ : BufTy).Contents (Elt F))))) ((broadcastInDim S4096x11 ![0, 1] bcast_S1x11_S4096x11_0_1 : (⟨S1x11, .i32⟩ : BufTy).Contents (Elt F) → (⟨S4096x11, .i32⟩ : BufTy).Contents (Elt F)) ((broadcastInDim S1x11 ![1] bcast_S11_S1x11_1 : (⟨S11, .i32⟩ : BufTy).Contents (Elt F) → (⟨S1x11, .i32⟩ : BufTy).Contents (Elt F)) ((iotaInDim S11 32 0) : (⟨S11, .i32⟩ : BufTy).Contents (Elt F)))))

/-- The remainder of the row positions by 4096 with the sign of the divisor (the truncated remainder, moved up by the divisor where the signs differ and it is not zero). -/
def rowRem (x0 : (⟨S4096x11, .i32⟩ : BufTy).Contents (Elt F)) :
    (⟨S4096x11, .i32⟩ : BufTy).Contents (Elt F) :=
  ((select : (⟨S4096x11, .i1⟩ : BufTy).Contents (Elt F) → (⟨S4096x11, .i32⟩ : BufTy).Contents (Elt F) → (⟨S4096x11, .i32⟩ : BufTy).Contents (Elt F) → (⟨S4096x11, .i32⟩ : BufTy).Contents (Elt F)) ((andi : (⟨S4096x11, .i1⟩ : BufTy).Contents (Elt F) → (⟨S4096x11, .i1⟩ : BufTy).Contents (Elt F) → (⟨S4096x11, .i1⟩ : BufTy).Contents (Elt F)) (((cmpi .ne) : (⟨S4096x11, .i1⟩ : BufTy).Contents (Elt F) → (⟨S4096x11, .i1⟩ : BufTy).Contents (Elt F) → (⟨S4096x11, .i1⟩ : BufTy).Contents (Elt F)) (((cmpi .slt) : (⟨S4096x11, .i32⟩ : BufTy).Contents (Elt F) → (⟨S4096x11, .i32⟩ : BufTy).Contents (Elt F) → (⟨S4096x11, .i1⟩ : BufTy).Contents (Elt F)) ((Host.remsi : (⟨S4096x11, .i32⟩ : BufTy).Contents (Elt F) → (⟨S4096x11, .i32⟩ : BufTy).Contents (Elt F) → (⟨S4096x11, .i32⟩ : BufTy).Contents (Elt F)) x0 (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))) (((broadcastInDim S4096x11 ![] bcast_S_S4096x11) : (⟨S_, .i32⟩ : BufTy).Contents (Elt F) → (⟨S4096x11, .i32⟩ : BufTy).Contents (Elt F)) ((constantI S_ 32 0#32) : (⟨S_, .i32⟩ : BufTy).Contents (Elt F)))) (((broadcastInDim S4096x11 ![] bcast_S_S4096x11) : (⟨S_, .i1⟩ : BufTy).Contents (Elt F) → (⟨S4096x11, .i1⟩ : BufTy).Contents (Elt F)) (((cmpi .slt) : (⟨S_, .i32⟩ : BufTy).Contents (Elt F) → (⟨S_, .i32⟩ : BufTy).Contents (Elt F) → (⟨S_, .i1⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))) ((constantI S_ 32 0#32) : (⟨S_, .i32⟩ : BufTy).Contents (Elt F))))) (((cmpi .ne) : (⟨S4096x11, .i32⟩ : BufTy).Contents (Elt F) → (⟨S4096x11, .i32⟩ : BufTy).Contents (Elt F) → (⟨S4096x11, .i1⟩ : BufTy).Contents (Elt F)) ((Host.remsi : (⟨S4096x11, .i32⟩ : BufTy).Contents (Elt F) → (⟨S4096x11, .i32⟩ : BufTy).Contents (Elt F) → (⟨S4096x11, .i32⟩ : BufTy).Contents (Elt F)) x0 (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))) (((broadcastInDim S4096x11 ![] bcast_S_S4096x11) : (⟨S_, .i32⟩ : BufTy).Contents (Elt F) → (⟨S4096x11, .i32⟩ : BufTy).Contents (Elt F)) ((constantI S_ 32 0#32) : (⟨S_, .i32⟩ : BufTy).Contents (Elt F))))) ((addi : (⟨S4096x11, .i32⟩ : BufTy).Contents (Elt F) → (⟨S4096x11, .i32⟩ : BufTy).Contents (Elt F) → (⟨S4096x11, .i32⟩ : BufTy).Contents (Elt F)) ((Host.remsi : (⟨S4096x11, .i32⟩ : BufTy).Contents (Elt F) → (⟨S4096x11, .i32⟩ : BufTy).Contents (Elt F) → (⟨S4096x11, .i32⟩ : BufTy).Contents (Elt F)) x0 (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))) (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))) ((Host.remsi : (⟨S4096x11, .i32⟩ : BufTy).Contents (Elt F) → (⟨S4096x11, .i32⟩ : BufTy).Contents (Elt F) → (⟨S4096x11, .i32⟩ : BufTy).Contents (Elt F)) x0 (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))))

/-- The row gather's start indices: a negative row moved up by 4096, then a trailing unit axis. -/
def rowIdx (x0 : (⟨S4096x11, .i32⟩ : BufTy).Contents (Elt F)) :
    (⟨S4096x11x1, .i32⟩ : BufTy).Contents (Elt F) :=
  ((broadcastInDim S4096x11x1 ![0, 1] bcast_S4096x11_S4096x11x1_0_1 : (⟨S4096x11, .i32⟩ : BufTy).Contents (Elt F) → (⟨S4096x11x1, .i32⟩ : BufTy).Contents (Elt F)) ((select : (⟨S4096x11, .i1⟩ : BufTy).Contents (Elt F) → (⟨S4096x11, .i32⟩ : BufTy).Contents (Elt F) → (⟨S4096x11, .i32⟩ : BufTy).Contents (Elt F) → (⟨S4096x11, .i32⟩ : BufTy).Contents (Elt F)) ((cmpi .slt : (⟨S4096x11, .i32⟩ : BufTy).Contents (Elt F) → (⟨S4096x11, .i32⟩ : BufTy).Contents (Elt F) → (⟨S4096x11, .i1⟩ : BufTy).Contents (Elt F)) x0 ((broadcastInDim S4096x11 ![] bcast_S_S4096x11 : (⟨S_, .i32⟩ : BufTy).Contents (Elt F) → (⟨S4096x11, .i32⟩ : BufTy).Contents (Elt F)) ((constantI S_ 32 0#32) : (⟨S_, .i32⟩ : BufTy).Contents (Elt F)))) ((addi : (⟨S4096x11, .i32⟩ : BufTy).Contents (Elt F) → (⟨S4096x11, .i32⟩ : BufTy).Contents (Elt F) → (⟨S4096x11, .i32⟩ : BufTy).Contents (Elt F)) x0 ((broadcastInDim S4096x11 ![] bcast_S_S4096x11 : (⟨S_, .i32⟩ : BufTy).Contents (Elt F) → (⟨S4096x11, .i32⟩ : BufTy).Contents (Elt F)) ((constantI S_ 32 4096#32) : (⟨S_, .i32⟩ : BufTy).Contents (Elt F)))) x0))

/-- The gathered rows, transposed to (b, t, c). -/
def tiled (x0 : (⟨S4096x750, .f32⟩ : BufTy).Contents (Elt F)) (x1 : (⟨S4096x11x1, .i32⟩ : BufTy).Contents (Elt F)) :
    (⟨S4096x750x11, .f32⟩ : BufTy).Contents (Elt F) :=
  (((transpose S4096x750x11 [0, 2, 1] · transposes_S4096x11x750_S4096x750x11_0_2_1) : (⟨S4096x11x750, .f32⟩ : BufTy).Contents (Elt F) → (⟨S4096x750x11, .f32⟩ : BufTy).Contents (Elt F)) (((fun x i => Host.gather gather_S4096x750_S4096x11x1_S4096x11x750_2_0_n_n_0_2_1750 x i) : (⟨S4096x750, .f32⟩ : BufTy).Contents (Elt F) → (⟨S4096x11x1, .i32⟩ : BufTy).Contents (Elt F) → (⟨S4096x11x750, .f32⟩ : BufTy).Contents (Elt F)) x0 x1))

/-- The running maximum over the window axis of the gathered rows minus the windows, from minus infinity. -/
def maxW (x0 : (⟨S4096x750x11, .f32⟩ : BufTy).Contents (Elt F)) (x1 : (⟨S4096x750x11, .f32⟩ : BufTy).Contents (Elt F)) :
    (⟨S4096x750, .f32⟩ : BufTy).Contents (Elt F) :=
  (((fun x v => Host.reduce FloatOps.maximumf x v reducesTo_S4096x750x11_S4096x750_d2 h_S_) : (⟨S4096x750x11, .f32⟩ : BufTy).Contents (Elt F) → (⟨S_, .f32⟩ : BufTy).Contents (Elt F) → (⟨S4096x750, .f32⟩ : BufTy).Contents (Elt F)) ((subf : (⟨S4096x750x11, .f32⟩ : BufTy).Contents (Elt F) → (⟨S4096x750x11, .f32⟩ : BufTy).Contents (Elt F) → (⟨S4096x750x11, .f32⟩ : BufTy).Contents (Elt F)) x0 x1) ((constant S_ .f32 0xFF800000#32) : (⟨S_, .f32⟩ : BufTy).Contents (Elt F)))

/-- The squared distance summed over the batch axis, per (t, c), from zero. -/
def normSq (x0 : (⟨S4096x750, .f32⟩ : BufTy).Contents (Elt F)) (x1 : (⟨S4096x750x11, .f32⟩ : BufTy).Contents (Elt F)) :
    (⟨S750x11, .f32⟩ : BufTy).Contents (Elt F) :=
  (((fun x v => Host.reduceAdd x v reducesTo_S4096x750x11_S750x11_d0 h_S_) : (⟨S4096x750x11, .f32⟩ : BufTy).Contents (Elt F) → (⟨S_, .f32⟩ : BufTy).Contents (Elt F) → (⟨S750x11, .f32⟩ : BufTy).Contents (Elt F)) ((mulf : (⟨S4096x750x11, .f32⟩ : BufTy).Contents (Elt F) → (⟨S4096x750x11, .f32⟩ : BufTy).Contents (Elt F) → (⟨S4096x750x11, .f32⟩ : BufTy).Contents (Elt F)) ((subf : (⟨S4096x750x11, .f32⟩ : BufTy).Contents (Elt F) → (⟨S4096x750x11, .f32⟩ : BufTy).Contents (Elt F) → (⟨S4096x750x11, .f32⟩ : BufTy).Contents (Elt F)) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) x0)) x1) ((subf : (⟨S4096x750x11, .f32⟩ : BufTy).Contents (Elt F) → (⟨S4096x750x11, .f32⟩ : BufTy).Contents (Elt F) → (⟨S4096x750x11, .f32⟩ : BufTy).Contents (Elt F)) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) x0)) x1)) ((constant S_ .f32 0x00000000#32) : (⟨S_, .f32⟩ : BufTy).Contents (Elt F)))

/-- One times the maximum, times the maximum. -/
def gMaxSq (x0 : (⟨S4096x750, .f32⟩ : BufTy).Contents (Elt F)) :
    (⟨S4096x750, .f32⟩ : BufTy).Contents (Elt F) :=
  ((mulf : (⟨S4096x750, .f32⟩ : BufTy).Contents (Elt F) → (⟨S4096x750, .f32⟩ : BufTy).Contents (Elt F) → (⟨S4096x750, .f32⟩ : BufTy).Contents (Elt F)) ((mulf : (⟨S4096x750, .f32⟩ : BufTy).Contents (Elt F) → (⟨S4096x750, .f32⟩ : BufTy).Contents (Elt F) → (⟨S4096x750, .f32⟩ : BufTy).Contents (Elt F)) ((broadcastInDim S4096x750 ![] bcast_S_S4096x750 : (⟨S_, .f32⟩ : BufTy).Contents (Elt F) → (⟨S4096x750, .f32⟩ : BufTy).Contents (Elt F)) ((constant S_ .f32 0x3F800000#32) : (⟨S_, .f32⟩ : BufTy).Contents (Elt F))) x0) x0)

/-- The exponent: the positive part of the squared distance minus the scaled square, plus the scaled square. -/
def expo (x0 : (⟨S750x11, .f32⟩ : BufTy).Contents (Elt F)) (x1 : (⟨S4096x750, .f32⟩ : BufTy).Contents (Elt F)) :
    (⟨S4096x750x11, .f32⟩ : BufTy).Contents (Elt F) :=
  ((addf : (⟨S4096x750x11, .f32⟩ : BufTy).Contents (Elt F) → (⟨S4096x750x11, .f32⟩ : BufTy).Contents (Elt F) → (⟨S4096x750x11, .f32⟩ : BufTy).Contents (Elt F)) ((maximumf : (⟨S4096x750x11, .f32⟩ : BufTy).Contents (Elt F) → (⟨S4096x750x11, .f32⟩ : BufTy).Contents (Elt F) → (⟨S4096x750x11, .f32⟩ : BufTy).Contents (Elt F)) ((subf : (⟨S4096x750x11, .f32⟩ : BufTy).Contents (Elt F) → (⟨S4096x750x11, .f32⟩ : BufTy).Contents (Elt F) → (⟨S4096x750x11, .f32⟩ : BufTy).Contents (Elt F)) ((broadcastInDim S4096x750x11 ![0, 1, 2] bcast_S1x750x11_S4096x750x11_0_1_2 : (⟨S1x750x11, .f32⟩ : BufTy).Contents (Elt F) → (⟨S4096x750x11, .f32⟩ : BufTy).Contents (Elt F)) ((broadcastInDim S1x750x11 ![1, 2] bcast_S750x11_S1x750x11_1_2 : (⟨S750x11, .f32⟩ : BufTy).Contents (Elt F) → (⟨S1x750x11, .f32⟩ : BufTy).Contents (Elt F)) x0)) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) x1))) (((broadcastInDim S4096x750x11 ![] bcast_S_S4096x750x11) : (⟨S_, .f32⟩ : BufTy).Contents (Elt F) → (⟨S4096x750x11, .f32⟩ : BufTy).Contents (Elt F)) ((constant S_ .f32 0x00000000#32) : (⟨S_, .f32⟩ : BufTy).Contents (Elt F)))) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) x1)))

/-- The weights: the exponential of minus the exponent over two. -/
def weights (x0 : (⟨S4096x750x11, .f32⟩ : BufTy).Contents (Elt F)) :
    (⟨S4096x750x11, .f32⟩ : BufTy).Contents (Elt F) :=
  ((Host.exp : (⟨S4096x750x11, .f32⟩ : BufTy).Contents (Elt F) → (⟨S4096x750x11, .f32⟩ : BufTy).Contents (Elt F)) ((Host.divf : (⟨S4096x750x11, .f32⟩ : BufTy).Contents (Elt F) → (⟨S4096x750x11, .f32⟩ : BufTy).Contents (Elt F) → (⟨S4096x750x11, .f32⟩ : BufTy).Contents (Elt F)) ((Host.negf : (⟨S4096x750x11, .f32⟩ : BufTy).Contents (Elt F) → (⟨S4096x750x11, .f32⟩ : BufTy).Contents (Elt F)) x0) ((broadcastInDim S4096x750x11 ![] bcast_S_S4096x750x11 : (⟨S_, .f32⟩ : BufTy).Contents (Elt F) → (⟨S4096x750x11, .f32⟩ : BufTy).Contents (Elt F)) ((constant S_ .f32 0x40000000#32) : (⟨S_, .f32⟩ : BufTy).Contents (Elt F)))))

/-- The absolute difference of the second argument and its windows. -/
def absDiff (x0 : (⟨S4096x750, .f32⟩ : BufTy).Contents (Elt F)) (x1 : (⟨S4096x750x11, .f32⟩ : BufTy).Contents (Elt F)) :
    (⟨S4096x750x11, .f32⟩ : BufTy).Contents (Elt F) :=
  ((Host.absf : (⟨S4096x750x11, .f32⟩ : BufTy).Contents (Elt F) → (⟨S4096x750x11, .f32⟩ : BufTy).Contents (Elt F)) ((subf : (⟨S4096x750x11, .f32⟩ : BufTy).Contents (Elt F) → (⟨S4096x750x11, .f32⟩ : BufTy).Contents (Elt F) → (⟨S4096x750x11, .f32⟩ : BufTy).Contents (Elt F)) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) x0)) x1))

/-- The weighted absolute differences summed over all three axes, from zero, over 4096. -/
def lossMain (x0 : (⟨S4096x750x11, .f32⟩ : BufTy).Contents (Elt F)) (x1 : (⟨S4096x750x11, .f32⟩ : BufTy).Contents (Elt F)) :
    (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S4096x750x11_S_d0_1_2 h_S_) : (⟨S4096x750x11, .f32⟩ : BufTy).Contents (Elt F) → (⟨S_, .f32⟩ : BufTy).Contents (Elt F) → (⟨S_, .f32⟩ : BufTy).Contents (Elt F)) ((mulf : (⟨S4096x750x11, .f32⟩ : BufTy).Contents (Elt F) → (⟨S4096x750x11, .f32⟩ : BufTy).Contents (Elt F) → (⟨S4096x750x11, .f32⟩ : BufTy).Contents (Elt F)) x0 x1) ((constant S_ .f32 0x00000000#32) : (⟨S_, .f32⟩ : BufTy).Contents (Elt F))) ((constant S_ .f32 0x45800000#32) : (⟨S_, .f32⟩ : BufTy).Contents (Elt F)))

/-- The squared difference of the two arguments summed over columns, then over rows, each from zero, over 4096. -/
def diffMean (x0 : (⟨S4096x750, .f32⟩ : BufTy).Contents (Elt F)) (x1 : (⟨S4096x750, .f32⟩ : BufTy).Contents (Elt F)) :
    (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (((fun x v => Host.reduceAdd x v reducesTo_S4096x750_S4096_d1 h_S_) : (⟨S4096x750, .f32⟩ : BufTy).Contents (Elt F) → (⟨S_, .f32⟩ : BufTy).Contents (Elt F) → (⟨S4096, .f32⟩ : BufTy).Contents (Elt F)) ((mulf : (⟨S4096x750, .f32⟩ : BufTy).Contents (Elt F) → (⟨S4096x750, .f32⟩ : BufTy).Contents (Elt F) → (⟨S4096x750, .f32⟩ : BufTy).Contents (Elt F)) ((subf : (⟨S4096x750, .f32⟩ : BufTy).Contents (Elt F) → (⟨S4096x750, .f32⟩ : BufTy).Contents (Elt F) → (⟨S4096x750, .f32⟩ : BufTy).Contents (Elt F)) x0 x1) ((subf : (⟨S4096x750, .f32⟩ : BufTy).Contents (Elt F) → (⟨S4096x750, .f32⟩ : BufTy).Contents (Elt F) → (⟨S4096x750, .f32⟩ : BufTy).Contents (Elt F)) x0 x1)) ((constant S_ .f32 0x00000000#32) : (⟨S_, .f32⟩ : BufTy).Contents (Elt F))) ((constant S_ .f32 0x00000000#32) : (⟨S_, .f32⟩ : BufTy).Contents (Elt F))) ((constant S_ .f32 0x45800000#32) : (⟨S_, .f32⟩ : BufTy).Contents (Elt F)))

/-- The two totals combined: the first plus a tenth of the second, times one. -/
def lossTail (x0 : (⟨S_, .f32⟩ : BufTy).Contents (Elt F)) (x1 : (⟨S_, .f32⟩ : BufTy).Contents (Elt F)) :
    (⟨S_, .f32⟩ : BufTy).Contents (Elt F) :=
  ((mulf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) x0 ((mulf : (⟨S_, .f32⟩ : BufTy).Contents (Elt F) → (⟨S_, .f32⟩ : BufTy).Contents (Elt F) → (⟨S_, .f32⟩ : BufTy).Contents (Elt F)) ((constant S_ .f32 0x3DCCCCCD#32) : (⟨S_, .f32⟩ : BufTy).Contents (Elt F)) x1)) ((constant S_ .f32 0x3F800000#32) : (⟨S_, .f32⟩ : BufTy).Contents (Elt F)))

/-- The reference's result as a function of its two arguments: the stages composed. -/
def refTerm (a0 a1 : FVec F S4096x750 .f32) : FVec F S_ .f32 :=
  (lossTail (F := F) (lossMain (F := F) (weights (F := F) (expo (F := F) (normSq (F := F) a0 (windows (F := F) (padded (F := F) a0) (winIdx (F := F) (winSum (F := F))))) (gMaxSq (F := F) (maxW (F := F) (tiled (F := F) a0 (rowIdx (F := F) (rowRem (F := F) (rowSum (F := F))))) (windows (F := F) (padded (F := F) a0) (winIdx (F := F) (winSum (F := F)))))))) (absDiff (F := F) a1 (windows (F := F) (padded (F := F) a1) (winIdx (F := F) (winSum (F := F)))))) (diffMean (F := F) a0 a1))

end Cert.ReferenceIdeal.Hand

end
-- ==== Proof.RefRun.lean ====
import proofs.«124353_j3959959847205_1_alg».proof.Proof.RefStages
import Idealize.ShloMosaic.Lib.StableHlo.Run

noncomputable section

namespace Cert.ReferenceIdeal.Hand

/-! The reference program's run. Its operations, with the three outlined functions' operations listed
    at their call sites over the calls' buffer records, are cut into thirteen consecutive groups;
    each group's results are read as composed terms of what the group reads, and the groups are
    joined into the staged term `refTerm` of the two arguments. -/

open Cert.ReferenceIdeal Cert.ReferenceIdeal.Gen Idealize.ShloMosaic Idealize.ShloMosaic.TcCoe Idealize.SL.Sem
open Idealize.ShloMosaic.StableHlo

variable {F : FTy → Type} [FloatOps F]

/-- The contents after two lines run one after the other are those after their concatenation. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

section Three
variable {τ : Topo} {sig : RefSig} {Val : EltTy → Type} {x a b y : Ref sig .tc}

/-- An operation over a literal family of three operands: its result with each operand's contents at
    its own reference. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- A result reference among a list is among the list's device buffers. -/
theorem single_sub_of_mem {W : List (Ref sig .tc)} {r : Ref sig .tc} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map_of_mem h))

end Three

/-- Reads a line of operations at a reference in one rewriting pass: each operation's result at its own
    reference is its function's value, at another reference what was there. -/
macro "hand_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-- The operations of group 1 (1 … 14 of 146). -/
abbrev ops1 : List (HloOp τ sig (Elt F)) :=
  [ unary main_arg1 main_v0 ((extractStridedSlice S4096x1 ![0, 0] · slices_S4096x750_S4096x1_0_0) : (⟨S4096x750, .f32⟩ : BufTy).Contents (Elt F) → (⟨S4096x1, .f32⟩ : BufTy).Contents (Elt F)),
    reshape main_v0 main_v1 rfl shapeCasts_S4096x1_S4096,
    reshape main_v1 main_v2 rfl shapeCasts_S4096_S1x4096,
    unary main_v2 main_v3 (broadcastInDim S6x4096 ![0, 1] bcast_S1x4096_S6x4096_0_1 : (⟨S1x4096, .f32⟩ : BufTy).Contents (Elt F) → (⟨S6x4096, .f32⟩ : BufTy).Contents (Elt F)),
    reshape main_v3 main_v4 rfl shapeCasts_S6x4096_S24576,
    reshape main_v4 main_v5 rfl shapeCasts_S24576_S4096x6,
    unary main_arg1 main_v6 ((extractStridedSlice S4096x1 ![0, 749] · slices_S4096x750_S4096x1_0_749) : (⟨S4096x750, .f32⟩ : BufTy).Contents (Elt F) → (⟨S4096x1, .f32⟩ : BufTy).Contents (Elt F)),
    reshape main_v6 main_v7 rfl shapeCasts_S4096x1_S4096,
    reshape main_v7 main_v8 rfl shapeCasts_S4096_S1x4096,
    unary main_v8 main_v9 (broadcastInDim S6x4096 ![0, 1] bcast_S1x4096_S6x4096_0_1 : (⟨S1x4096, .f32⟩ : BufTy).Contents (Elt F) → (⟨S6x4096, .f32⟩ : BufTy).Contents (Elt F)),
    reshape main_v9 main_v10 rfl shapeCasts_S6x4096_S24576,
    reshape main_v10 main_v11 rfl shapeCasts_S24576_S4096x6,
    unary main_v11 main_v12 ((extractStridedSlice S4096x5 ![0, 1] · slices_S4096x6_S4096x5_0_1) : (⟨S4096x6, .f32⟩ : BufTy).Contents (Elt F) → (⟨S4096x5, .f32⟩ : BufTy).Contents (Elt F)),
    nary ![main_v5, main_arg1, main_v12] main_v13 (fun u => concatenate S4096x761 1 [⟨S4096x6, u 0⟩, ⟨S4096x750, u 1⟩, ⟨S4096x5, u 2⟩] concatenates_S4096x6_S4096x750_S4096x5_S4096x761_d1) ]

/-- The operations of group 2 (15 … 28 of 146). -/
abbrev ops2 : List (HloOp τ sig (Elt F)) :=
  [ unary main_arg0 main_v14 ((extractStridedSlice S4096x1 ![0, 0] · slices_S4096x750_S4096x1_0_0) : (⟨S4096x750, .f32⟩ : BufTy).Contents (Elt F) → (⟨S4096x1, .f32⟩ : BufTy).Contents (Elt F)),
    reshape main_v14 main_v15 rfl shapeCasts_S4096x1_S4096,
    reshape main_v15 main_v16 rfl shapeCasts_S4096_S1x4096,
    unary main_v16 main_v17 (broadcastInDim S6x4096 ![0, 1] bcast_S1x4096_S6x4096_0_1 : (⟨S1x4096, .f32⟩ : BufTy).Contents (Elt F) → (⟨S6x4096, .f32⟩ : BufTy).Contents (Elt F)),
    reshape main_v17 main_v18 rfl shapeCasts_S6x4096_S24576,
    reshape main_v18 main_v19 rfl shapeCasts_S24576_S4096x6,
    unary main_arg0 main_v20 ((extractStridedSlice S4096x1 ![0, 749] · slices_S4096x750_S4096x1_0_749) : (⟨S4096x750, .f32⟩ : BufTy).Contents (Elt F) → (⟨S4096x1, .f32⟩ : BufTy).Contents (Elt F)),
    reshape main_v20 main_v21 rfl shapeCasts_S4096x1_S4096,
    reshape main_v21 main_v22 rfl shapeCasts_S4096_S1x4096,
    unary main_v22 main_v23 (broadcastInDim S6x4096 ![0, 1] bcast_S1x4096_S6x4096_0_1 : (⟨S1x4096, .f32⟩ : BufTy).Contents (Elt F) → (⟨S6x4096, .f32⟩ : BufTy).Contents (Elt F)),
    reshape main_v23 main_v24 rfl shapeCasts_S6x4096_S24576,
    reshape main_v24 main_v25 rfl shapeCasts_S24576_S4096x6,
    unary main_v25 main_v26 ((extractStridedSlice S4096x5 ![0, 1] · slices_S4096x6_S4096x5_0_1) : (⟨S4096x6, .f32⟩ : BufTy).Contents (Elt F) → (⟨S4096x5, .f32⟩ : BufTy).Contents (Elt F)),
    nary ![main_v19, main_arg0, main_v26] main_v27 (fun u => concatenate S4096x761 1 [⟨S4096x6, u 0⟩, ⟨S4096x750, u 1⟩, ⟨S4096x5, u 2⟩] concatenates_S4096x6_S4096x750_S4096x5_S4096x761_d1) ]

/-- The operations of group 3 (29 … 43 of 146). -/
abbrev ops3 : List (HloOp τ sig (Elt F)) :=
  [ nullary main_v28 (iotaInDim S750 32 0),
    unary main_v28 main_v29 (broadcastInDim S750x1 ![0] bcast_S750_S750x1_0 : (⟨S750, .i32⟩ : BufTy).Contents (Elt F) → (⟨S750x1, .i32⟩ : BufTy).Contents (Elt F)),
    nullary main_v30 (iotaInDim S11 32 0),
    unary main_v30 main_v31 (broadcastInDim S1x11 ![1] bcast_S11_S1x11_1 : (⟨S11, .i32⟩ : BufTy).Contents (Elt F) → (⟨S1x11, .i32⟩ : BufTy).Contents (Elt F)),
    unary main_v29 main_v32 (broadcastInDim S750x11 ![0, 1] bcast_S750x1_S750x11_0_1 : (⟨S750x1, .i32⟩ : BufTy).Contents (Elt F) → (⟨S750x11, .i32⟩ : BufTy).Contents (Elt F)),
    unary main_v31 main_v33 (broadcastInDim S750x11 ![0, 1] bcast_S1x11_S750x11_0_1 : (⟨S1x11, .i32⟩ : BufTy).Contents (Elt F) → (⟨S750x11, .i32⟩ : BufTy).Contents (Elt F)),
    binary main_v32 main_v33 main_v34 (addi : (⟨S750x11, .i32⟩ : BufTy).Contents (Elt F) → (⟨S750x11, .i32⟩ : BufTy).Contents (Elt F) → (⟨S750x11, .i32⟩ : BufTy).Contents (Elt F)),
    nullary main_c (constantI S_ 32 0#32),
    unary main_c main_v35 (broadcastInDim S750x11 ![] bcast_S_S750x11 : (⟨S_, .i32⟩ : BufTy).Contents (Elt F) → (⟨S750x11, .i32⟩ : BufTy).Contents (Elt F)),
    binary main_v34 main_v35 main_v36 (cmpi .slt : (⟨S750x11, .i32⟩ : BufTy).Contents (Elt F) → (⟨S750x11, .i32⟩ : BufTy).Contents (Elt F) → (⟨S750x11, .i1⟩ : BufTy).Contents (Elt F)),
    nullary main_c_0 (constantI S_ 32 761#32),
    unary main_c_0 main_v37 (broadcastInDim S750x11 ![] bcast_S_S750x11 : (⟨S_, .i32⟩ : BufTy).Contents (Elt F) → (⟨S750x11, .i32⟩ : BufTy).Contents (Elt F)),
    binary main_v34 main_v37 main_v38 (addi : (⟨S750x11, .i32⟩ : BufTy).Contents (Elt F) → (⟨S750x11, .i32⟩ : BufTy).Contents (Elt F) → (⟨S750x11, .i32⟩ : BufTy).Contents (Elt F)),
    ternary main_v36 main_v38 main_v34 main_v39 (select : (⟨S750x11, .i1⟩ : BufTy).Contents (Elt F) → (⟨S750x11, .i32⟩ : BufTy).Contents (Elt F) → (⟨S750x11, .i32⟩ : BufTy).Contents (Elt F) → (⟨S750x11, .i32⟩ : BufTy).Contents (Elt F)),
    unary main_v39 main_v40 (broadcastInDim S750x11x1 ![0, 1] bcast_S750x11_S750x11x1_0_1 : (⟨S750x11, .i32⟩ : BufTy).Contents (Elt F) → (⟨S750x11x1, .i32⟩ : BufTy).Contents (Elt F)) ]

/-- The operations of group 4 (44 … 53 of 146). -/
abbrev ops4 : List (HloOp τ sig (Elt F)) :=
  [ binary main_v27 main_v40 main_v41 ((fun x i => Host.gather gather_S4096x761_S750x11x1_S4096x750x11_0_1_n_n_1_2_40961 x i) : (⟨S4096x761, .f32⟩ : BufTy).Contents (Elt F) → (⟨S750x11x1, .i32⟩ : BufTy).Contents (Elt F) → (⟨S4096x750x11, .f32⟩ : BufTy).Contents (Elt F)),
    nullary main_c_1 (constantI S_ 32 0#32),
    unary main_c_1 main_v42 (broadcastInDim S750x11 ![] bcast_S_S750x11 : (⟨S_, .i32⟩ : BufTy).Contents (Elt F) → (⟨S750x11, .i32⟩ : BufTy).Contents (Elt F)),
    binary main_v34 main_v42 main_v43 (cmpi .slt : (⟨S750x11, .i32⟩ : BufTy).Contents (Elt F) → (⟨S750x11, .i32⟩ : BufTy).Contents (Elt F) → (⟨S750x11, .i1⟩ : BufTy).Contents (Elt F)),
    nullary main_c_2 (constantI S_ 32 761#32),
    unary main_c_2 main_v44 (broadcastInDim S750x11 ![] bcast_S_S750x11 : (⟨S_, .i32⟩ : BufTy).Contents (Elt F) → (⟨S750x11, .i32⟩ : BufTy).Contents (Elt F)),
    binary main_v34 main_v44 main_v45 (addi : (⟨S750x11, .i32⟩ : BufTy).Contents (Elt F) → (⟨S750x11, .i32⟩ : BufTy).Contents (Elt F) → (⟨S750x11, .i32⟩ : BufTy).Contents (Elt F)),
    ternary main_v43 main_v45 main_v34 main_v46 (select : (⟨S750x11, .i1⟩ : BufTy).Contents (Elt F) → (⟨S750x11, .i32⟩ : BufTy).Contents (Elt F) → (⟨S750x11, .i32⟩ : BufTy).Contents (Elt F) → (⟨S750x11, .i32⟩ : BufTy).Contents (Elt F)),
    unary main_v46 main_v47 (broadcastInDim S750x11x1 ![0, 1] bcast_S750x11_S750x11x1_0_1 : (⟨S750x11, .i32⟩ : BufTy).Contents (Elt F) → (⟨S750x11x1, .i32⟩ : BufTy).Contents (Elt F)),
    binary main_v13 main_v47 main_v48 ((fun x i => Host.gather gather_S4096x761_S750x11x1_S4096x750x11_0_1_n_n_1_2_40961 x i) : (⟨S4096x761, .f32⟩ : BufTy).Contents (Elt F) → (⟨S750x11x1, .i32⟩ : BufTy).Contents (Elt F) → (⟨S4096x750x11, .f32⟩ : BufTy).Contents (Elt F)) ]

/-- The operations of group 5 (54 … 60 of 146). -/
abbrev ops5 : List (HloOp τ sig (Elt F)) :=
  [ nullary main_v49 (iotaInDim S4096 32 0),
    unary main_v49 main_v50 (broadcastInDim S4096x1 ![0] bcast_S4096_S4096x1_0 : (⟨S4096, .i32⟩ : BufTy).Contents (Elt F) → (⟨S4096x1, .i32⟩ : BufTy).Contents (Elt F)),
    nullary main_c_3 (constantI S_ 32 11#32),
    unary main_c_3 main_v51 (broadcastInDim S4096x1 ![] bcast_S_S4096x1 : (⟨S_, .i32⟩ : BufTy).Contents (Elt F) → (⟨S4096x1, .i32⟩ : BufTy).Contents (Elt F)),
    binary main_v51 main_v50 main_v52 (muli : (⟨S4096x1, .i32⟩ : BufTy).Contents (Elt F) → (⟨S4096x1, .i32⟩ : BufTy).Contents (Elt F) → (⟨S4096x1, .i32⟩ : BufTy).Contents (Elt F)),
    nullary main_v53 (iotaInDim S11 32 0),
    unary main_v53 main_v54 (broadcastInDim S1x11 ![1] bcast_S11_S1x11_1 : (⟨S11, .i32⟩ : BufTy).Contents (Elt F) → (⟨S1x11, .i32⟩ : BufTy).Contents (Elt F)) ]

/-- The operations of group 6 (61 … 85 of 146). -/
abbrev ops6 : List (HloOp τ sig (Elt F)) :=
  [ unary main_v52 main_v55 (broadcastInDim S4096x11 ![0, 1] bcast_S4096x1_S4096x11_0_1 : (⟨S4096x1, .i32⟩ : BufTy).Contents (Elt F) → (⟨S4096x11, .i32⟩ : BufTy).Contents (Elt F)),
    unary main_v54 main_v56 (broadcastInDim S4096x11 ![0, 1] bcast_S1x11_S4096x11_0_1 : (⟨S1x11, .i32⟩ : BufTy).Contents (Elt F) → (⟨S4096x11, .i32⟩ : BufTy).Contents (Elt F)),
    binary main_v55 main_v56 main_v57 (addi : (⟨S4096x11, .i32⟩ : BufTy).Contents (Elt F) → (⟨S4096x11, .i32⟩ : BufTy).Contents (Elt F) → (⟨S4096x11, .i32⟩ : BufTy).Contents (Elt F)),
    nullary main_c_4 (constantI S_ 32 4096#32),
    TRef.unary (.of main_c_4) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096x11 ![] bcast_S_S4096x11),
    TRef.binary (.of main_v57) main_call0.v3 main_call0.v4 Host.remsi,
    TRef.nullary main_call0.c_1 (constantI S_ 32 0#32),
    TRef.unary main_call0.c_1 main_call0.v5 (broadcastInDim S4096x11 ![] bcast_S_S4096x11),
    TRef.binary main_call0.v4 main_call0.v5 main_call0.v6 (cmpi .ne),
    TRef.nullary main_call0.c_2 (constantI S_ 32 0#32),
    TRef.unary main_call0.c_2 main_call0.v7 (broadcastInDim S4096x11 ![] bcast_S_S4096x11),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096x11 ![] bcast_S_S4096x11),
    TRef.binary main_call0.v8 main_call0.v10 main_call0.v11 (cmpi .ne),
    TRef.binary main_call0.v11 main_call0.v6 main_call0.v12 andi,
    TRef.unary main_call0.call0.v0 main_call0.v13 (broadcastInDim S4096x11 ![] bcast_S_S4096x11),
    TRef.binary main_call0.v4 main_call0.v13 main_call0.v14 addi,
    TRef.ternary main_call0.v12 main_call0.v14 main_call0.v4 main_call0.v15 select ]

/-- The operations of group 7 (86 … 93 of 146). -/
abbrev ops7 : List (HloOp τ sig (Elt F)) :=
  [ nullary main_c_5 (constantI S_ 32 0#32),
    unary main_c_5 main_v59 (broadcastInDim S4096x11 ![] bcast_S_S4096x11 : (⟨S_, .i32⟩ : BufTy).Contents (Elt F) → (⟨S4096x11, .i32⟩ : BufTy).Contents (Elt F)),
    binary main_v58 main_v59 main_v60 (cmpi .slt : (⟨S4096x11, .i32⟩ : BufTy).Contents (Elt F) → (⟨S4096x11, .i32⟩ : BufTy).Contents (Elt F) → (⟨S4096x11, .i1⟩ : BufTy).Contents (Elt F)),
    nullary main_c_6 (constantI S_ 32 4096#32),
    unary main_c_6 main_v61 (broadcastInDim S4096x11 ![] bcast_S_S4096x11 : (⟨S_, .i32⟩ : BufTy).Contents (Elt F) → (⟨S4096x11, .i32⟩ : BufTy).Contents (Elt F)),
    binary main_v58 main_v61 main_v62 (addi : (⟨S4096x11, .i32⟩ : BufTy).Contents (Elt F) → (⟨S4096x11, .i32⟩ : BufTy).Contents (Elt F) → (⟨S4096x11, .i32⟩ : BufTy).Contents (Elt F)),
    ternary main_v60 main_v62 main_v58 main_v63 (select : (⟨S4096x11, .i1⟩ : BufTy).Contents (Elt F) → (⟨S4096x11, .i32⟩ : BufTy).Contents (Elt F) → (⟨S4096x11, .i32⟩ : BufTy).Contents (Elt F) → (⟨S4096x11, .i32⟩ : BufTy).Contents (Elt F)),
    unary main_v63 main_v64 (broadcastInDim S4096x11x1 ![0, 1] bcast_S4096x11_S4096x11x1_0_1 : (⟨S4096x11, .i32⟩ : BufTy).Contents (Elt F) → (⟨S4096x11x1, .i32⟩ : BufTy).Contents (Elt F)) ]

/-- The operations of group 8 (94 … 98 of 146). -/
abbrev ops8 : List (HloOp τ sig (Elt F)) :=
  [ binary main_arg0 main_v64 main_v65 ((fun x i => Host.gather gather_S4096x750_S4096x11x1_S4096x11x750_2_0_n_n_0_2_1750 x i) : (⟨S4096x750, .f32⟩ : BufTy).Contents (Elt F) → (⟨S4096x11x1, .i32⟩ : BufTy).Contents (Elt F) → (⟨S4096x11x750, .f32⟩ : BufTy).Contents (Elt F)),
    unary main_v65 main_v66 ((transpose S4096x750x11 [0, 2, 1] · transposes_S4096x11x750_S4096x750x11_0_2_1) : (⟨S4096x11x750, .f32⟩ : BufTy).Contents (Elt F) → (⟨S4096x750x11, .f32⟩ : BufTy).Contents (Elt F)),
    binary main_v66 main_v41 main_v67 (subf : (⟨S4096x750x11, .f32⟩ : BufTy).Contents (Elt F) → (⟨S4096x750x11, .f32⟩ : BufTy).Contents (Elt F) → (⟨S4096x750x11, .f32⟩ : BufTy).Contents (Elt F)),
    nullary main_cst (constant S_ .f32 0xFF800000#32),
    binary main_v67 main_cst main_v68 ((fun x v => Host.reduce FloatOps.maximumf x v reducesTo_S4096x750x11_S4096x750_d2 h_S_) : (⟨S4096x750x11, .f32⟩ : BufTy).Contents (Elt F) → (⟨S_, .f32⟩ : BufTy).Contents (Elt F) → (⟨S4096x750, .f32⟩ : BufTy).Contents (Elt F)) ]

/-- The operations of group 9 (99 … 104 of 146). -/
abbrev ops9 : List (HloOp τ sig (Elt F)) :=
  [ unary main_arg0 main_v69 (broadcastInDim S4096x750x1 ![0, 1] bcast_S4096x750_S4096x750x1_0_1 : (⟨S4096x750, .f32⟩ : BufTy).Contents (Elt F) → (⟨S4096x750x1, .f32⟩ : BufTy).Contents (Elt F)),
    unary main_v69 main_v70 (broadcastInDim S4096x750x11 ![0, 1, 2] bcast_S4096x750x1_S4096x750x11_0_1_2 : (⟨S4096x750x1, .f32⟩ : BufTy).Contents (Elt F) → (⟨S4096x750x11, .f32⟩ : BufTy).Contents (Elt F)),
    binary main_v70 main_v41 main_v71 (subf : (⟨S4096x750x11, .f32⟩ : BufTy).Contents (Elt F) → (⟨S4096x750x11, .f32⟩ : BufTy).Contents (Elt F) → (⟨S4096x750x11, .f32⟩ : BufTy).Contents (Elt F)),
    binary main_v71 main_v71 main_v72 (mulf : (⟨S4096x750x11, .f32⟩ : BufTy).Contents (Elt F) → (⟨S4096x750x11, .f32⟩ : BufTy).Contents (Elt F) → (⟨S4096x750x11, .f32⟩ : BufTy).Contents (Elt F)),
    nullary main_cst_7 (constant S_ .f32 0x00000000#32),
    binary main_v72 main_cst_7 main_v73 ((fun x v => Host.reduceAdd x v reducesTo_S4096x750x11_S750x11_d0 h_S_) : (⟨S4096x750x11, .f32⟩ : BufTy).Contents (Elt F) → (⟨S_, .f32⟩ : BufTy).Contents (Elt F) → (⟨S750x11, .f32⟩ : BufTy).Contents (Elt F)) ]

/-- The operations of group 10 (105 … 124 of 146). -/
abbrev ops10 : List (HloOp τ sig (Elt F)) :=
  [ nullary main_cst_8 (constant S_ .f32 0x3F800000#32),
    unary main_cst_8 main_v74 (broadcastInDim S4096x750 ![] bcast_S_S4096x750 : (⟨S_, .f32⟩ : BufTy).Contents (Elt F) → (⟨S4096x750, .f32⟩ : BufTy).Contents (Elt F)),
    binary main_v74 main_v68 main_v75 (mulf : (⟨S4096x750, .f32⟩ : BufTy).Contents (Elt F) → (⟨S4096x750, .f32⟩ : BufTy).Contents (Elt F) → (⟨S4096x750, .f32⟩ : BufTy).Contents (Elt F)),
    binary main_v75 main_v68 main_v76 (mulf : (⟨S4096x750, .f32⟩ : BufTy).Contents (Elt F) → (⟨S4096x750, .f32⟩ : BufTy).Contents (Elt F) → (⟨S4096x750, .f32⟩ : BufTy).Contents (Elt F)),
    unary main_v73 main_v77 (broadcastInDim S1x750x11 ![1, 2] bcast_S750x11_S1x750x11_1_2 : (⟨S750x11, .f32⟩ : BufTy).Contents (Elt F) → (⟨S1x750x11, .f32⟩ : BufTy).Contents (Elt F)),
    unary main_v76 main_v78 (broadcastInDim S4096x750x1 ![0, 1] bcast_S4096x750_S4096x750x1_0_1 : (⟨S4096x750, .f32⟩ : BufTy).Contents (Elt F) → (⟨S4096x750x1, .f32⟩ : BufTy).Contents (Elt F)),
    unary main_v77 main_v79 (broadcastInDim S4096x750x11 ![0, 1, 2] bcast_S1x750x11_S4096x750x11_0_1_2 : (⟨S1x750x11, .f32⟩ : BufTy).Contents (Elt F) → (⟨S4096x750x11, .f32⟩ : BufTy).Contents (Elt F)),
    unary main_v78 main_v80 (broadcastInDim S4096x750x11 ![0, 1, 2] bcast_S4096x750x1_S4096x750x11_0_1_2 : (⟨S4096x750x1, .f32⟩ : BufTy).Contents (Elt F) → (⟨S4096x750x11, .f32⟩ : BufTy).Contents (Elt F)),
    binary main_v79 main_v80 main_v81 (subf : (⟨S4096x750x11, .f32⟩ : BufTy).Contents (Elt F) → (⟨S4096x750x11, .f32⟩ : BufTy).Contents (Elt F) → (⟨S4096x750x11, .f32⟩ : BufTy).Contents (Elt F)),
    TRef.nullary main_call1.cst (constant S_ .f32 0x00000000#32),
    TRef.unary main_call1.cst main_call1.v0 (broadcastInDim S4096x750x11 ![] bcast_S_S4096x750x11),
    TRef.binary (.of main_v81) main_call1.v0 main_call1.v1 maximumf,
    unary main_v76 main_v83 (broadcastInDim S4096x750x1 ![0, 1] bcast_S4096x750_S4096x750x1_0_1 : (⟨S4096x750, .f32⟩ : BufTy).Contents (Elt F) → (⟨S4096x750x1, .f32⟩ : BufTy).Contents (Elt F)),
    unary main_v83 main_v84 (broadcastInDim S4096x750x11 ![0, 1, 2] bcast_S4096x750x1_S4096x750x11_0_1_2 : (⟨S4096x750x1, .f32⟩ : BufTy).Contents (Elt F) → (⟨S4096x750x11, .f32⟩ : BufTy).Contents (Elt F)),
    binary main_v82 main_v84 main_v85 (addf : (⟨S4096x750x11, .f32⟩ : BufTy).Contents (Elt F) → (⟨S4096x750x11, .f32⟩ : BufTy).Contents (Elt F) → (⟨S4096x750x11, .f32⟩ : BufTy).Contents (Elt F)),
    unary main_v85 main_v86 (Host.negf : (⟨S4096x750x11, .f32⟩ : BufTy).Contents (Elt F) → (⟨S4096x750x11, .f32⟩ : BufTy).Contents (Elt F)),
    nullary main_cst_9 (constant S_ .f32 0x40000000#32),
    unary main_cst_9 main_v87 (broadcastInDim S4096x750x11 ![] bcast_S_S4096x750x11 : (⟨S_, .f32⟩ : BufTy).Contents (Elt F) → (⟨S4096x750x11, .f32⟩ : BufTy).Contents (Elt F)),
    binary main_v86 main_v87 main_v88 (Host.divf : (⟨S4096x750x11, .f32⟩ : BufTy).Contents (Elt F) → (⟨S4096x750x11, .f32⟩ : BufTy).Contents (Elt F) → (⟨S4096x750x11, .f32⟩ : BufTy).Contents (Elt F)),
    unary main_v88 main_v89 (Host.exp : (⟨S4096x750x11, .f32⟩ : BufTy).Contents (Elt F) → (⟨S4096x750x11, .f32⟩ : BufTy).Contents (Elt F)) ]

/-- The operations of group 11 (125 … 133 of 146). -/
abbrev ops11 : List (HloOp τ sig (Elt F)) :=
  [ unary main_arg1 main_v90 (broadcastInDim S4096x750x1 ![0, 1] bcast_S4096x750_S4096x750x1_0_1 : (⟨S4096x750, .f32⟩ : BufTy).Contents (Elt F) → (⟨S4096x750x1, .f32⟩ : BufTy).Contents (Elt F)),
    unary main_v90 main_v91 (broadcastInDim S4096x750x11 ![0, 1, 2] bcast_S4096x750x1_S4096x750x11_0_1_2 : (⟨S4096x750x1, .f32⟩ : BufTy).Contents (Elt F) → (⟨S4096x750x11, .f32⟩ : BufTy).Contents (Elt F)),
    binary main_v91 main_v48 main_v92 (subf : (⟨S4096x750x11, .f32⟩ : BufTy).Contents (Elt F) → (⟨S4096x750x11, .f32⟩ : BufTy).Contents (Elt F) → (⟨S4096x750x11, .f32⟩ : BufTy).Contents (Elt F)),
    unary main_v92 main_v93 (Host.absf : (⟨S4096x750x11, .f32⟩ : BufTy).Contents (Elt F) → (⟨S4096x750x11, .f32⟩ : BufTy).Contents (Elt F)),
    binary main_v89 main_v93 main_v94 (mulf : (⟨S4096x750x11, .f32⟩ : BufTy).Contents (Elt F) → (⟨S4096x750x11, .f32⟩ : BufTy).Contents (Elt F) → (⟨S4096x750x11, .f32⟩ : BufTy).Contents (Elt F)),
    nullary main_cst_10 (constant S_ .f32 0x00000000#32),
    binary main_v94 main_cst_10 main_v95 ((fun x v => Host.reduceAdd x v reducesTo_S4096x750x11_S_d0_1_2 h_S_) : (⟨S4096x750x11, .f32⟩ : BufTy).Contents (Elt F) → (⟨S_, .f32⟩ : BufTy).Contents (Elt F) → (⟨S_, .f32⟩ : BufTy).Contents (Elt F)),
    nullary main_cst_11 (constant S_ .f32 0x45800000#32),
    binary main_v95 main_cst_11 main_v96 (Host.divf : (⟨S_, .f32⟩ : BufTy).Contents (Elt F) → (⟨S_, .f32⟩ : BufTy).Contents (Elt F) → (⟨S_, .f32⟩ : BufTy).Contents (Elt F)) ]

/-- The operations of group 12 (134 … 142 of 146). -/
abbrev ops12 : List (HloOp τ sig (Elt F)) :=
  [ binary main_arg0 main_arg1 main_v97 (subf : (⟨S4096x750, .f32⟩ : BufTy).Contents (Elt F) → (⟨S4096x750, .f32⟩ : BufTy).Contents (Elt F) → (⟨S4096x750, .f32⟩ : BufTy).Contents (Elt F)),
    binary main_v97 main_v97 main_v98 (mulf : (⟨S4096x750, .f32⟩ : BufTy).Contents (Elt F) → (⟨S4096x750, .f32⟩ : BufTy).Contents (Elt F) → (⟨S4096x750, .f32⟩ : BufTy).Contents (Elt F)),
    nullary main_cst_12 (constant S_ .f32 0x00000000#32),
    binary main_v98 main_cst_12 main_v99 ((fun x v => Host.reduceAdd x v reducesTo_S4096x750_S4096_d1 h_S_) : (⟨S4096x750, .f32⟩ : BufTy).Contents (Elt F) → (⟨S_, .f32⟩ : BufTy).Contents (Elt F) → (⟨S4096, .f32⟩ : BufTy).Contents (Elt F)),
    nullary main_cst_13 (constant S_ .f32 0x00000000#32),
    binary main_v99 main_cst_13 main_v100 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_14 (constant S_ .f32 0x45800000#32),
    binary main_v100 main_cst_14 main_v101 (Host.divf : (⟨S_, .f32⟩ : BufTy).Contents (Elt F) → (⟨S_, .f32⟩ : BufTy).Contents (Elt F) → (⟨S_, .f32⟩ : BufTy).Contents (Elt F)),
    nullary main_cst_15 (constant S_ .f32 0x3DCCCCCD#32) ]

/-- The operations of group 13 (143 … 146 of 146). -/
abbrev ops13 : List (HloOp τ sig (Elt F)) :=
  [ binary main_cst_15 main_v101 main_v102 (mulf : (⟨S_, .f32⟩ : BufTy).Contents (Elt F) → (⟨S_, .f32⟩ : BufTy).Contents (Elt F) → (⟨S_, .f32⟩ : BufTy).Contents (Elt F)),
    binary main_v96 main_v102 main_v103 (addf : (⟨S_, .f32⟩ : BufTy).Contents (Elt F) → (⟨S_, .f32⟩ : BufTy).Contents (Elt F) → (⟨S_, .f32⟩ : BufTy).Contents (Elt F)),
    nullary main_cst_16 (constant S_ .f32 0x3F800000#32),
    binary main_v103 main_cst_16 main_v104 (mulf : (⟨S_, .f32⟩ : BufTy).Contents (Elt F) → (⟨S_, .f32⟩ : BufTy).Contents (Elt F) → (⟨S_, .f32⟩ : BufTy).Contents (Elt F)) ]

/-- All the operations, in order. -/
abbrev ops : List (HloOp τ sig (Elt F)) :=
  ops1 ++ (ops2 ++ (ops3 ++ (ops4 ++ (ops5 ++ (ops6 ++ (ops7 ++ (ops8 ++ (ops9 ++ (ops10 ++ (ops11 ++ (ops12 ++ (ops13))))))))))))

set_option maxRecDepth 16384 in
set_option maxHeartbeats 4000000 in
theorem main_part0_eq (c : Dev nD) : main_part0 (F := F) c = seq (ops1 ++ ops2 ++ ops3 ++ ops4 ++ ops5) := by
  simp only [main_part0, fn_remainder.body, fn_where.body, fn_relu.body, bind_assoc, pure_bind]
  rfl

set_option maxRecDepth 16384 in
set_option maxHeartbeats 4000000 in
theorem main_part1_eq (c : Dev nD) : main_part1 (F := F) c = seq (ops6 ++ ops7 ++ ops8 ++ ops9 ++ ops10 ++ ops11 ++ ops12) := by
  simp only [main_part1, fn_remainder.body, fn_where.body, fn_relu.body, bind_assoc, pure_bind]
  rfl

set_option maxRecDepth 16384 in
set_option maxHeartbeats 4000000 in
theorem main_part2_eq (c : Dev nD) : main_part2 (F := F) c = seq (ops13) := by
  simp only [main_part2, fn_remainder.body, fn_where.body, fn_relu.body, bind_assoc, pure_bind]
  rfl

set_option maxRecDepth 16384 in
theorem main_eq (c : Dev nD) : main (F := F) c = seq ops := by
  have h : (ops : List (HloOp τ sig (Elt F))) = (ops1 ++ ops2 ++ ops3 ++ ops4 ++ ops5) ++ ((ops6 ++ ops7 ++ ops8 ++ ops9 ++ ops10 ++ ops11 ++ ops12) ++ ops13) := by
    simp only [ops, List.append_assoc]
  rw [h, seq_append (ops1 ++ ops2 ++ ops3 ++ ops4 ++ ops5), seq_append (ops6 ++ ops7 ++ ops8 ++ ops9 ++ ops10 ++ ops11 ++ ops12), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., reshape_bufs_sub .., unary_bufs_sub .., nary_bufs_sub ..⟩
/-- The references group 1 writes. -/
abbrev ops1_W : List (Ref sig .tc) := [main_v0, main_v1, main_v2, main_v3, main_v4, main_v5, main_v6, main_v7, main_v8, main_v9, main_v10, main_v11, main_v12, main_v13]
theorem ops1_writes : (ops1 : List (HloOp τ sig (Elt F))).Forall fun op => op.writes ⊆ (ops1_W.map (Proc.devRef (τ := τ) .tc)).toFinset :=
  ⟨single_sub_of_mem (r := main_v0) (by decide), single_sub_of_mem (r := main_v1) (by decide), single_sub_of_mem (r := main_v2) (by decide), single_sub_of_mem (r := main_v3) (by decide), single_sub_of_mem (r := main_v4) (by decide), single_sub_of_mem (r := main_v5) (by decide), single_sub_of_mem (r := main_v6) (by decide), single_sub_of_mem (r := main_v7) (by decide), single_sub_of_mem (r := main_v8) (by decide), single_sub_of_mem (r := main_v9) (by decide), single_sub_of_mem (r := main_v10) (by decide), single_sub_of_mem (r := main_v11) (by decide), single_sub_of_mem (r := main_v12) (by decide), single_sub_of_mem (r := main_v13) (by decide)⟩

theorem ops2_sub : (ops2 : List (HloOp τ sig (Elt F))).Forall fun op => op.bufs ⊆ tcRefs τ sig :=
  ⟨unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., reshape_bufs_sub .., unary_bufs_sub .., nary_bufs_sub ..⟩
/-- The references group 2 writes. -/
abbrev ops2_W : List (Ref sig .tc) := [main_v14, main_v15, main_v16, main_v17, main_v18, main_v19, main_v20, main_v21, main_v22, main_v23, main_v24, main_v25, main_v26, main_v27]
theorem ops2_writes : (ops2 : List (HloOp τ sig (Elt F))).Forall fun op => op.writes ⊆ (ops2_W.map (Proc.devRef (τ := τ) .tc)).toFinset :=
  ⟨single_sub_of_mem (r := main_v14) (by decide), single_sub_of_mem (r := main_v15) (by decide), single_sub_of_mem (r := main_v16) (by decide), single_sub_of_mem (r := main_v17) (by decide), single_sub_of_mem (r := main_v18) (by decide), single_sub_of_mem (r := main_v19) (by decide), single_sub_of_mem (r := main_v20) (by decide), single_sub_of_mem (r := main_v21) (by decide), single_sub_of_mem (r := main_v22) (by decide), single_sub_of_mem (r := main_v23) (by decide), single_sub_of_mem (r := main_v24) (by decide), single_sub_of_mem (r := main_v25) (by decide), single_sub_of_mem (r := main_v26) (by decide), single_sub_of_mem (r := main_v27) (by decide)⟩

theorem ops3_sub : (ops3 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
/-- The references group 3 writes. -/
abbrev ops3_W : List (Ref sig .tc) := [main_v28, main_v29, main_v30, main_v31, main_v32, main_v33, main_v34, main_c, main_v35, main_v36, main_c_0, main_v37, main_v38, main_v39, main_v40]
theorem ops3_writes : (ops3 : List (HloOp τ sig (Elt F))).Forall fun op => op.writes ⊆ (ops3_W.map (Proc.devRef (τ := τ) .tc)).toFinset :=
  ⟨single_sub_of_mem (r := main_v28) (by decide), single_sub_of_mem (r := main_v29) (by decide), single_sub_of_mem (r := main_v30) (by decide), single_sub_of_mem (r := main_v31) (by decide), single_sub_of_mem (r := main_v32) (by decide), single_sub_of_mem (r := main_v33) (by decide), single_sub_of_mem (r := main_v34) (by decide), single_sub_of_mem (r := main_c) (by decide), single_sub_of_mem (r := main_v35) (by decide), single_sub_of_mem (r := main_v36) (by decide), single_sub_of_mem (r := main_c_0) (by decide), single_sub_of_mem (r := main_v37) (by decide), single_sub_of_mem (r := main_v38) (by decide), single_sub_of_mem (r := main_v39) (by decide), single_sub_of_mem (r := main_v40) (by decide)⟩

theorem ops4_sub : (ops4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub ..⟩
/-- The references group 4 writes. -/
abbrev ops4_W : List (Ref sig .tc) := [main_v41, main_c_1, main_v42, main_v43, main_c_2, main_v44, main_v45, main_v46, main_v47, main_v48]
theorem ops4_writes : (ops4 : List (HloOp τ sig (Elt F))).Forall fun op => op.writes ⊆ (ops4_W.map (Proc.devRef (τ := τ) .tc)).toFinset :=
  ⟨single_sub_of_mem (r := main_v41) (by decide), single_sub_of_mem (r := main_c_1) (by decide), single_sub_of_mem (r := main_v42) (by decide), single_sub_of_mem (r := main_v43) (by decide), single_sub_of_mem (r := main_c_2) (by decide), single_sub_of_mem (r := main_v44) (by decide), single_sub_of_mem (r := main_v45) (by decide), single_sub_of_mem (r := main_v46) (by decide), single_sub_of_mem (r := main_v47) (by decide), single_sub_of_mem (r := main_v48) (by decide)⟩

theorem ops5_sub : (ops5 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub ..⟩
/-- The references group 5 writes. -/
abbrev ops5_W : List (Ref sig .tc) := [main_v49, main_v50, main_c_3, main_v51, main_v52, main_v53, main_v54]
theorem ops5_writes : (ops5 : List (HloOp τ sig (Elt F))).Forall fun op => op.writes ⊆ (ops5_W.map (Proc.devRef (τ := τ) .tc)).toFinset :=
  ⟨single_sub_of_mem (r := main_v49) (by decide), single_sub_of_mem (r := main_v50) (by decide), single_sub_of_mem (r := main_c_3) (by decide), single_sub_of_mem (r := main_v51) (by decide), single_sub_of_mem (r := main_v52) (by decide), single_sub_of_mem (r := main_v53) (by decide), single_sub_of_mem (r := main_v54) (by decide)⟩

theorem ops6_sub : (ops6 : List (HloOp τ sig (Elt F))).Forall fun op => op.bufs ⊆ tcRefs τ sig :=
  ⟨unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
/-- The references group 6 writes. -/
abbrev ops6_W : List (Ref sig .tc) := [main_v55, main_v56, main_v57, main_c_4, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v58]
theorem ops6_writes : (ops6 : List (HloOp τ sig (Elt F))).Forall fun op => op.writes ⊆ (ops6_W.map (Proc.devRef (τ := τ) .tc)).toFinset :=
  ⟨single_sub_of_mem (r := main_v55) (by decide), single_sub_of_mem (r := main_v56) (by decide), single_sub_of_mem (r := main_v57) (by decide), single_sub_of_mem (r := main_c_4) (by decide), single_sub_of_mem (r := main_call0_v0) (by decide), single_sub_of_mem (r := main_call0_c) (by decide), single_sub_of_mem (r := main_call0_v1) (by decide), single_sub_of_mem (r := main_call0_c_0) (by decide), single_sub_of_mem (r := main_call0_v2) (by decide), single_sub_of_mem (r := main_call0_v3) (by decide), single_sub_of_mem (r := main_call0_v4) (by decide), single_sub_of_mem (r := main_call0_c_1) (by decide), single_sub_of_mem (r := main_call0_v5) (by decide), single_sub_of_mem (r := main_call0_v6) (by decide), single_sub_of_mem (r := main_call0_c_2) (by decide), single_sub_of_mem (r := main_call0_v7) (by decide), single_sub_of_mem (r := main_call0_v8) (by decide), single_sub_of_mem (r := main_call0_c_3) (by decide), single_sub_of_mem (r := main_call0_v9) (by decide), single_sub_of_mem (r := main_call0_v10) (by decide), single_sub_of_mem (r := main_call0_v11) (by decide), single_sub_of_mem (r := main_call0_v12) (by decide), single_sub_of_mem (r := main_call0_v13) (by decide), single_sub_of_mem (r := main_call0_v14) (by decide), single_sub_of_mem (r := main_v58) (by decide)⟩

theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
/-- The references group 7 writes. -/
abbrev ops7_W : List (Ref sig .tc) := [main_c_5, main_v59, main_v60, main_c_6, main_v61, main_v62, main_v63, main_v64]
theorem ops7_writes : (ops7 : List (HloOp τ sig (Elt F))).Forall fun op => op.writes ⊆ (ops7_W.map (Proc.devRef (τ := τ) .tc)).toFinset :=
  ⟨single_sub_of_mem (r := main_c_5) (by decide), single_sub_of_mem (r := main_v59) (by decide), single_sub_of_mem (r := main_v60) (by decide), single_sub_of_mem (r := main_c_6) (by decide), single_sub_of_mem (r := main_v61) (by decide), single_sub_of_mem (r := main_v62) (by decide), single_sub_of_mem (r := main_v63) (by decide), single_sub_of_mem (r := main_v64) (by decide)⟩

theorem ops8_sub : (ops8 : List (HloOp τ sig (Elt F))).Forall fun op => op.bufs ⊆ tcRefs τ sig :=
  ⟨binary_bufs_sub .., unary_bufs_sub .., binary_bufs_sub .., nullary_bufs_sub .., binary_bufs_sub ..⟩
/-- The references group 8 writes. -/
abbrev ops8_W : List (Ref sig .tc) := [main_v65, main_v66, main_v67, main_cst, main_v68]
theorem ops8_writes : (ops8 : List (HloOp τ sig (Elt F))).Forall fun op => op.writes ⊆ (ops8_W.map (Proc.devRef (τ := τ) .tc)).toFinset :=
  ⟨single_sub_of_mem (r := main_v65) (by decide), single_sub_of_mem (r := main_v66) (by decide), single_sub_of_mem (r := main_v67) (by decide), single_sub_of_mem (r := main_cst) (by decide), single_sub_of_mem (r := main_v68) (by decide)⟩

theorem ops9_sub : (ops9 : List (HloOp τ sig (Elt F))).Forall fun op => op.bufs ⊆ tcRefs τ sig :=
  ⟨unary_bufs_sub .., unary_bufs_sub .., binary_bufs_sub .., binary_bufs_sub .., nullary_bufs_sub .., binary_bufs_sub ..⟩
/-- The references group 9 writes. -/
abbrev ops9_W : List (Ref sig .tc) := [main_v69, main_v70, main_v71, main_v72, main_cst_7, main_v73]
theorem ops9_writes : (ops9 : List (HloOp τ sig (Elt F))).Forall fun op => op.writes ⊆ (ops9_W.map (Proc.devRef (τ := τ) .tc)).toFinset :=
  ⟨single_sub_of_mem (r := main_v69) (by decide), single_sub_of_mem (r := main_v70) (by decide), single_sub_of_mem (r := main_v71) (by decide), single_sub_of_mem (r := main_v72) (by decide), single_sub_of_mem (r := main_cst_7) (by decide), single_sub_of_mem (r := main_v73) (by decide)⟩

theorem ops10_sub : (ops10 : List (HloOp τ sig (Elt F))).Forall fun op => op.bufs ⊆ tcRefs τ sig :=
  ⟨nullary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub ..⟩
/-- The references group 10 writes. -/
abbrev ops10_W : List (Ref sig .tc) := [main_cst_8, main_v74, main_v75, main_v76, main_v77, main_v78, main_v79, main_v80, main_v81, main_call1_cst, main_call1_v0, main_v82, main_v83, main_v84, main_v85, main_v86, main_cst_9, main_v87, main_v88, main_v89]
theorem ops10_writes : (ops10 : List (HloOp τ sig (Elt F))).Forall fun op => op.writes ⊆ (ops10_W.map (Proc.devRef (τ := τ) .tc)).toFinset :=
  ⟨single_sub_of_mem (r := main_cst_8) (by decide), single_sub_of_mem (r := main_v74) (by decide), single_sub_of_mem (r := main_v75) (by decide), single_sub_of_mem (r := main_v76) (by decide), single_sub_of_mem (r := main_v77) (by decide), single_sub_of_mem (r := main_v78) (by decide), single_sub_of_mem (r := main_v79) (by decide), single_sub_of_mem (r := main_v80) (by decide), single_sub_of_mem (r := main_v81) (by decide), single_sub_of_mem (r := main_call1_cst) (by decide), single_sub_of_mem (r := main_call1_v0) (by decide), single_sub_of_mem (r := main_v82) (by decide), single_sub_of_mem (r := main_v83) (by decide), single_sub_of_mem (r := main_v84) (by decide), single_sub_of_mem (r := main_v85) (by decide), single_sub_of_mem (r := main_v86) (by decide), single_sub_of_mem (r := main_cst_9) (by decide), single_sub_of_mem (r := main_v87) (by decide), single_sub_of_mem (r := main_v88) (by decide), single_sub_of_mem (r := main_v89) (by decide)⟩

theorem ops11_sub : (ops11 : List (HloOp τ sig (Elt F))).Forall fun op => op.bufs ⊆ tcRefs τ sig :=
  ⟨unary_bufs_sub .., unary_bufs_sub .., binary_bufs_sub .., unary_bufs_sub .., binary_bufs_sub .., nullary_bufs_sub .., binary_bufs_sub .., nullary_bufs_sub .., binary_bufs_sub ..⟩
/-- The references group 11 writes. -/
abbrev ops11_W : List (Ref sig .tc) := [main_v90, main_v91, main_v92, main_v93, main_v94, main_cst_10, main_v95, main_cst_11, main_v96]
theorem ops11_writes : (ops11 : List (HloOp τ sig (Elt F))).Forall fun op => op.writes ⊆ (ops11_W.map (Proc.devRef (τ := τ) .tc)).toFinset :=
  ⟨single_sub_of_mem (r := main_v90) (by decide), single_sub_of_mem (r := main_v91) (by decide), single_sub_of_mem (r := main_v92) (by decide), single_sub_of_mem (r := main_v93) (by decide), single_sub_of_mem (r := main_v94) (by decide), single_sub_of_mem (r := main_cst_10) (by decide), single_sub_of_mem (r := main_v95) (by decide), single_sub_of_mem (r := main_cst_11) (by decide), single_sub_of_mem (r := main_v96) (by decide)⟩

theorem ops12_sub : (ops12 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., nullary_bufs_sub ..⟩
/-- The references group 12 writes. -/
abbrev ops12_W : List (Ref sig .tc) := [main_v97, main_v98, main_cst_12, main_v99, main_cst_13, main_v100, main_cst_14, main_v101, main_cst_15]
theorem ops12_writes : (ops12 : List (HloOp τ sig (Elt F))).Forall fun op => op.writes ⊆ (ops12_W.map (Proc.devRef (τ := τ) .tc)).toFinset :=
  ⟨single_sub_of_mem (r := main_v97) (by decide), single_sub_of_mem (r := main_v98) (by decide), single_sub_of_mem (r := main_cst_12) (by decide), single_sub_of_mem (r := main_v99) (by decide), single_sub_of_mem (r := main_cst_13) (by decide), single_sub_of_mem (r := main_v100) (by decide), single_sub_of_mem (r := main_cst_14) (by decide), single_sub_of_mem (r := main_v101) (by decide), single_sub_of_mem (r := main_cst_15) (by decide)⟩

theorem ops13_sub : (ops13 : List (HloOp τ sig (Elt F))).Forall fun op => op.bufs ⊆ tcRefs τ sig :=
  ⟨binary_bufs_sub .., binary_bufs_sub .., nullary_bufs_sub .., binary_bufs_sub ..⟩
/-- The references group 13 writes. -/
abbrev ops13_W : List (Ref sig .tc) := [main_v102, main_v103, main_cst_16, main_v104]
theorem ops13_writes : (ops13 : List (HloOp τ sig (Elt F))).Forall fun op => op.writes ⊆ (ops13_W.map (Proc.devRef (τ := τ) .tc)).toFinset :=
  ⟨single_sub_of_mem (r := main_v102) (by decide), single_sub_of_mem (r := main_v103) (by decide), single_sub_of_mem (r := main_cst_16) (by decide), single_sub_of_mem (r := main_v104) (by decide)⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h]

set_option maxRecDepth 8192 in
set_option maxHeartbeats 2000000 in
theorem w1_main_v13 (W : Valuation τ sig (Elt F)) :
    after (ops1 : List (HloOp τ sig (Elt F))) W (Proc.devRef (τ := τ) .tc main_v13)
      = (concatenate S4096x761 1 [⟨S4096x6, (shapeCast S4096x6 (shapeCast S24576 ((broadcastInDim S6x4096 ![0, 1] bcast_S1x4096_S6x4096_0_1 : (⟨S1x4096, .f32⟩ : BufTy).Contents (Elt F) → (⟨S6x4096, .f32⟩ : BufTy).Contents (Elt F)) (shapeCast S1x4096 (shapeCast S4096 (((extractStridedSlice S4096x1 ![0, 0] · slices_S4096x750_S4096x1_0_0) : (⟨S4096x750, .f32⟩ : BufTy).Contents (Elt F) → (⟨S4096x1, .f32⟩ : BufTy).Contents (Elt F)) (W (Proc.devRef (τ := τ) .tc main_arg1))) shapeCasts_S4096x1_S4096 : (⟨S4096, .f32⟩ : BufTy).Contents (Elt F)) shapeCasts_S4096_S1x4096 : (⟨S1x4096, .f32⟩ : BufTy).Contents (Elt F))) shapeCasts_S6x4096_S24576 : (⟨S24576, .f32⟩ : BufTy).Contents (Elt F)) shapeCasts_S24576_S4096x6 : (⟨S4096x6, .f32⟩ : BufTy).Contents (Elt F))⟩, ⟨S4096x750, (W (Proc.devRef (τ := τ) .tc main_arg1))⟩, ⟨S4096x5, (((extractStridedSlice S4096x5 ![0, 1] · slices_S4096x6_S4096x5_0_1) : (⟨S4096x6, .f32⟩ : BufTy).Contents (Elt F) → (⟨S4096x5, .f32⟩ : BufTy).Contents (Elt F)) (shapeCast S4096x6 (shapeCast S24576 ((broadcastInDim S6x4096 ![0, 1] bcast_S1x4096_S6x4096_0_1 : (⟨S1x4096, .f32⟩ : BufTy).Contents (Elt F) → (⟨S6x4096, .f32⟩ : BufTy).Contents (Elt F)) (shapeCast S1x4096 (shapeCast S4096 (((extractStridedSlice S4096x1 ![0, 749] · slices_S4096x750_S4096x1_0_749) : (⟨S4096x750, .f32⟩ : BufTy).Contents (Elt F) → (⟨S4096x1, .f32⟩ : BufTy).Contents (Elt F)) (W (Proc.devRef (τ := τ) .tc main_arg1))) shapeCasts_S4096x1_S4096 : (⟨S4096, .f32⟩ : BufTy).Contents (Elt F)) shapeCasts_S4096_S1x4096 : (⟨S1x4096, .f32⟩ : BufTy).Contents (Elt F))) shapeCasts_S6x4096_S24576 : (⟨S24576, .f32⟩ : BufTy).Contents (Elt F)) shapeCasts_S24576_S4096x6 : (⟨S4096x6, .f32⟩ : BufTy).Contents (Elt F)))⟩] concatenates_S4096x6_S4096x750_S4096x5_S4096x761_d1 : (⟨S4096x761, .f32⟩ : BufTy).Contents (Elt F)) := by
  simp only [ops1]
  hand_results <;> rfl

set_option maxRecDepth 8192 in
set_option maxHeartbeats 2000000 in
theorem w2_main_v27 (W : Valuation τ sig (Elt F)) :
    after (ops2 : List (HloOp τ sig (Elt F))) W (Proc.devRef (τ := τ) .tc main_v27)
      = (concatenate S4096x761 1 [⟨S4096x6, (shapeCast S4096x6 (shapeCast S24576 ((broadcastInDim S6x4096 ![0, 1] bcast_S1x4096_S6x4096_0_1 : (⟨S1x4096, .f32⟩ : BufTy).Contents (Elt F) → (⟨S6x4096, .f32⟩ : BufTy).Contents (Elt F)) (shapeCast S1x4096 (shapeCast S4096 (((extractStridedSlice S4096x1 ![0, 0] · slices_S4096x750_S4096x1_0_0) : (⟨S4096x750, .f32⟩ : BufTy).Contents (Elt F) → (⟨S4096x1, .f32⟩ : BufTy).Contents (Elt F)) (W (Proc.devRef (τ := τ) .tc main_arg0))) shapeCasts_S4096x1_S4096 : (⟨S4096, .f32⟩ : BufTy).Contents (Elt F)) shapeCasts_S4096_S1x4096 : (⟨S1x4096, .f32⟩ : BufTy).Contents (Elt F))) shapeCasts_S6x4096_S24576 : (⟨S24576, .f32⟩ : BufTy).Contents (Elt F)) shapeCasts_S24576_S4096x6 : (⟨S4096x6, .f32⟩ : BufTy).Contents (Elt F))⟩, ⟨S4096x750, (W (Proc.devRef (τ := τ) .tc main_arg0))⟩, ⟨S4096x5, (((extractStridedSlice S4096x5 ![0, 1] · slices_S4096x6_S4096x5_0_1) : (⟨S4096x6, .f32⟩ : BufTy).Contents (Elt F) → (⟨S4096x5, .f32⟩ : BufTy).Contents (Elt F)) (shapeCast S4096x6 (shapeCast S24576 ((broadcastInDim S6x4096 ![0, 1] bcast_S1x4096_S6x4096_0_1 : (⟨S1x4096, .f32⟩ : BufTy).Contents (Elt F) → (⟨S6x4096, .f32⟩ : BufTy).Contents (Elt F)) (shapeCast S1x4096 (shapeCast S4096 (((extractStridedSlice S4096x1 ![0, 749] · slices_S4096x750_S4096x1_0_749) : (⟨S4096x750, .f32⟩ : BufTy).Contents (Elt F) → (⟨S4096x1, .f32⟩ : BufTy).Contents (Elt F)) (W (Proc.devRef (τ := τ) .tc main_arg0))) shapeCasts_S4096x1_S4096 : (⟨S4096, .f32⟩ : BufTy).Contents (Elt F)) shapeCasts_S4096_S1x4096 : (⟨S1x4096, .f32⟩ : BufTy).Contents (Elt F))) shapeCasts_S6x4096_S24576 : (⟨S24576, .f32⟩ : BufTy).Contents (Elt F)) shapeCasts_S24576_S4096x6 : (⟨S4096x6, .f32⟩ : BufTy).Contents (Elt F)))⟩] concatenates_S4096x6_S4096x750_S4096x5_S4096x761_d1 : (⟨S4096x761, .f32⟩ : BufTy).Contents (Elt F)) := by
  simp only [ops2]
  hand_results <;> rfl

set_option maxRecDepth 8192 in
set_option maxHeartbeats 2000000 in
theorem w3_main_v34 (W : Valuation τ sig (Elt F)) :
    after (ops3 : List (HloOp τ sig (Elt F))) W (Proc.devRef (τ := τ) .tc main_v34)
      = ((addi : (⟨S750x11, .i32⟩ : BufTy).Contents (Elt F) → (⟨S750x11, .i32⟩ : BufTy).Contents (Elt F) → (⟨S750x11, .i32⟩ : BufTy).Contents (Elt F)) ((broadcastInDim S750x11 ![0, 1] bcast_S750x1_S750x11_0_1 : (⟨S750x1, .i32⟩ : BufTy).Contents (Elt F) → (⟨S750x11, .i32⟩ : BufTy).Contents (Elt F)) ((broadcastInDim S750x1 ![0] bcast_S750_S750x1_0 : (⟨S750, .i32⟩ : BufTy).Contents (Elt F) → (⟨S750x1, .i32⟩ : BufTy).Contents (Elt F)) ((iotaInDim S750 32 0) : (⟨S750, .i32⟩ : BufTy).Contents (Elt F)))) ((broadcastInDim S750x11 ![0, 1] bcast_S1x11_S750x11_0_1 : (⟨S1x11, .i32⟩ : BufTy).Contents (Elt F) → (⟨S750x11, .i32⟩ : BufTy).Contents (Elt F)) ((broadcastInDim S1x11 ![1] bcast_S11_S1x11_1 : (⟨S11, .i32⟩ : BufTy).Contents (Elt F) → (⟨S1x11, .i32⟩ : BufTy).Contents (Elt F)) ((iotaInDim S11 32 0) : (⟨S11, .i32⟩ : BufTy).Contents (Elt F))))) := by
  simp only [ops3]
  hand_results <;> rfl

set_option maxRecDepth 8192 in
set_option maxHeartbeats 2000000 in
theorem w3_main_v40 (W : Valuation τ sig (Elt F)) :
    after (ops3 : List (HloOp τ sig (Elt F))) W (Proc.devRef (τ := τ) .tc main_v40)
      = ((broadcastInDim S750x11x1 ![0, 1] bcast_S750x11_S750x11x1_0_1 : (⟨S750x11, .i32⟩ : BufTy).Contents (Elt F) → (⟨S750x11x1, .i32⟩ : BufTy).Contents (Elt F)) ((select : (⟨S750x11, .i1⟩ : BufTy).Contents (Elt F) → (⟨S750x11, .i32⟩ : BufTy).Contents (Elt F) → (⟨S750x11, .i32⟩ : BufTy).Contents (Elt F) → (⟨S750x11, .i32⟩ : BufTy).Contents (Elt F)) ((cmpi .slt : (⟨S750x11, .i32⟩ : BufTy).Contents (Elt F) → (⟨S750x11, .i32⟩ : BufTy).Contents (Elt F) → (⟨S750x11, .i1⟩ : BufTy).Contents (Elt F)) ((addi : (⟨S750x11, .i32⟩ : BufTy).Contents (Elt F) → (⟨S750x11, .i32⟩ : BufTy).Contents (Elt F) → (⟨S750x11, .i32⟩ : BufTy).Contents (Elt F)) ((broadcastInDim S750x11 ![0, 1] bcast_S750x1_S750x11_0_1 : (⟨S750x1, .i32⟩ : BufTy).Contents (Elt F) → (⟨S750x11, .i32⟩ : BufTy).Contents (Elt F)) ((broadcastInDim S750x1 ![0] bcast_S750_S750x1_0 : (⟨S750, .i32⟩ : BufTy).Contents (Elt F) → (⟨S750x1, .i32⟩ : BufTy).Contents (Elt F)) ((iotaInDim S750 32 0) : (⟨S750, .i32⟩ : BufTy).Contents (Elt F)))) ((broadcastInDim S750x11 ![0, 1] bcast_S1x11_S750x11_0_1 : (⟨S1x11, .i32⟩ : BufTy).Contents (Elt F) → (⟨S750x11, .i32⟩ : BufTy).Contents (Elt F)) ((broadcastInDim S1x11 ![1] bcast_S11_S1x11_1 : (⟨S11, .i32⟩ : BufTy).Contents (Elt F) → (⟨S1x11, .i32⟩ : BufTy).Contents (Elt F)) ((iotaInDim S11 32 0) : (⟨S11, .i32⟩ : BufTy).Contents (Elt F))))) ((broadcastInDim S750x11 ![] bcast_S_S750x11 : (⟨S_, .i32⟩ : BufTy).Contents (Elt F) → (⟨S750x11, .i32⟩ : BufTy).Contents (Elt F)) ((constantI S_ 32 0#32) : (⟨S_, .i32⟩ : BufTy).Contents (Elt F)))) ((addi : (⟨S750x11, .i32⟩ : BufTy).Contents (Elt F) → (⟨S750x11, .i32⟩ : BufTy).Contents (Elt F) → (⟨S750x11, .i32⟩ : BufTy).Contents (Elt F)) ((addi : (⟨S750x11, .i32⟩ : BufTy).Contents (Elt F) → (⟨S750x11, .i32⟩ : BufTy).Contents (Elt F) → (⟨S750x11, .i32⟩ : BufTy).Contents (Elt F)) ((broadcastInDim S750x11 ![0, 1] bcast_S750x1_S750x11_0_1 : (⟨S750x1, .i32⟩ : BufTy).Contents (Elt F) → (⟨S750x11, .i32⟩ : BufTy).Contents (Elt F)) ((broadcastInDim S750x1 ![0] bcast_S750_S750x1_0 : (⟨S750, .i32⟩ : BufTy).Contents (Elt F) → (⟨S750x1, .i32⟩ : BufTy).Contents (Elt F)) ((iotaInDim S750 32 0) : (⟨S750, .i32⟩ : BufTy).Contents (Elt F)))) ((broadcastInDim S750x11 ![0, 1] bcast_S1x11_S750x11_0_1 : (⟨S1x11, .i32⟩ : BufTy).Contents (Elt F) → (⟨S750x11, .i32⟩ : BufTy).Contents (Elt F)) ((broadcastInDim S1x11 ![1] bcast_S11_S1x11_1 : (⟨S11, .i32⟩ : BufTy).Contents (Elt F) → (⟨S1x11, .i32⟩ : BufTy).Contents (Elt F)) ((iotaInDim S11 32 0) : (⟨S11, .i32⟩ : BufTy).Contents (Elt F))))) ((broadcastInDim S750x11 ![] bcast_S_S750x11 : (⟨S_, .i32⟩ : BufTy).Contents (Elt F) → (⟨S750x11, .i32⟩ : BufTy).Contents (Elt F)) ((constantI S_ 32 761#32) : (⟨S_, .i32⟩ : BufTy).Contents (Elt F)))) ((addi : (⟨S750x11, .i32⟩ : BufTy).Contents (Elt F) → (⟨S750x11, .i32⟩ : BufTy).Contents (Elt F) → (⟨S750x11, .i32⟩ : BufTy).Contents (Elt F)) ((broadcastInDim S750x11 ![0, 1] bcast_S750x1_S750x11_0_1 : (⟨S750x1, .i32⟩ : BufTy).Contents (Elt F) → (⟨S750x11, .i32⟩ : BufTy).Contents (Elt F)) ((broadcastInDim S750x1 ![0] bcast_S750_S750x1_0 : (⟨S750, .i32⟩ : BufTy).Contents (Elt F) → (⟨S750x1, .i32⟩ : BufTy).Contents (Elt F)) ((iotaInDim S750 32 0) : (⟨S750, .i32⟩ : BufTy).Contents (Elt F)))) ((broadcastInDim S750x11 ![0, 1] bcast_S1x11_S750x11_0_1 : (⟨S1x11, .i32⟩ : BufTy).Contents (Elt F) → (⟨S750x11, .i32⟩ : BufTy).Contents (Elt F)) ((broadcastInDim S1x11 ![1] bcast_S11_S1x11_1 : (⟨S11, .i32⟩ : BufTy).Contents (Elt F) → (⟨S1x11, .i32⟩ : BufTy).Contents (Elt F)) ((iotaInDim S11 32 0) : (⟨S11, .i32⟩ : BufTy).Contents (Elt F))))))) := by
  simp only [ops3]
  hand_results <;> rfl

set_option maxRecDepth 8192 in
set_option maxHeartbeats 2000000 in
theorem w4_main_v41 (W : Valuation τ sig (Elt F)) :
    after (ops4 : List (HloOp τ sig (Elt F))) W (Proc.devRef (τ := τ) .tc main_v41)
      = (((fun x i => Host.gather gather_S4096x761_S750x11x1_S4096x750x11_0_1_n_n_1_2_40961 x i) : (⟨S4096x761, .f32⟩ : BufTy).Contents (Elt F) → (⟨S750x11x1, .i32⟩ : BufTy).Contents (Elt F) → (⟨S4096x750x11, .f32⟩ : BufTy).Contents (Elt F)) (W (Proc.devRef (τ := τ) .tc main_v27)) (W (Proc.devRef (τ := τ) .tc main_v40))) := by
  simp only [ops4]
  hand_results <;> rfl

set_option maxRecDepth 8192 in
set_option maxHeartbeats 2000000 in
theorem w4_main_v48 (W : Valuation τ sig (Elt F)) :
    after (ops4 : List (HloOp τ sig (Elt F))) W (Proc.devRef (τ := τ) .tc main_v48)
      = (((fun x i => Host.gather gather_S4096x761_S750x11x1_S4096x750x11_0_1_n_n_1_2_40961 x i) : (⟨S4096x761, .f32⟩ : BufTy).Contents (Elt F) → (⟨S750x11x1, .i32⟩ : BufTy).Contents (Elt F) → (⟨S4096x750x11, .f32⟩ : BufTy).Contents (Elt F)) (W (Proc.devRef (τ := τ) .tc main_v13)) ((broadcastInDim S750x11x1 ![0, 1] bcast_S750x11_S750x11x1_0_1 : (⟨S750x11, .i32⟩ : BufTy).Contents (Elt F) → (⟨S750x11x1, .i32⟩ : BufTy).Contents (Elt F)) ((select : (⟨S750x11, .i1⟩ : BufTy).Contents (Elt F) → (⟨S750x11, .i32⟩ : BufTy).Contents (Elt F) → (⟨S750x11, .i32⟩ : BufTy).Contents (Elt F) → (⟨S750x11, .i32⟩ : BufTy).Contents (Elt F)) ((cmpi .slt : (⟨S750x11, .i32⟩ : BufTy).Contents (Elt F) → (⟨S750x11, .i32⟩ : BufTy).Contents (Elt F) → (⟨S750x11, .i1⟩ : BufTy).Contents (Elt F)) (W (Proc.devRef (τ := τ) .tc main_v34)) ((broadcastInDim S750x11 ![] bcast_S_S750x11 : (⟨S_, .i32⟩ : BufTy).Contents (Elt F) → (⟨S750x11, .i32⟩ : BufTy).Contents (Elt F)) ((constantI S_ 32 0#32) : (⟨S_, .i32⟩ : BufTy).Contents (Elt F)))) ((addi : (⟨S750x11, .i32⟩ : BufTy).Contents (Elt F) → (⟨S750x11, .i32⟩ : BufTy).Contents (Elt F) → (⟨S750x11, .i32⟩ : BufTy).Contents (Elt F)) (W (Proc.devRef (τ := τ) .tc main_v34)) ((broadcastInDim S750x11 ![] bcast_S_S750x11 : (⟨S_, .i32⟩ : BufTy).Contents (Elt F) → (⟨S750x11, .i32⟩ : BufTy).Contents (Elt F)) ((constantI S_ 32 761#32) : (⟨S_, .i32⟩ : BufTy).Contents (Elt F)))) (W (Proc.devRef (τ := τ) .tc main_v34))))) := by
  simp only [ops4]
  hand_results <;> rfl

set_option maxRecDepth 8192 in
set_option maxHeartbeats 2000000 in
theorem w5_main_v52 (W : Valuation τ sig (Elt F)) :
    after (ops5 : List (HloOp τ sig (Elt F))) W (Proc.devRef (τ := τ) .tc main_v52)
      = ((muli : (⟨S4096x1, .i32⟩ : BufTy).Contents (Elt F) → (⟨S4096x1, .i32⟩ : BufTy).Contents (Elt F) → (⟨S4096x1, .i32⟩ : BufTy).Contents (Elt F)) ((broadcastInDim S4096x1 ![] bcast_S_S4096x1 : (⟨S_, .i32⟩ : BufTy).Contents (Elt F) → (⟨S4096x1, .i32⟩ : BufTy).Contents (Elt F)) ((constantI S_ 32 11#32) : (⟨S_, .i32⟩ : BufTy).Contents (Elt F))) ((broadcastInDim S4096x1 ![0] bcast_S4096_S4096x1_0 : (⟨S4096, .i32⟩ : BufTy).Contents (Elt F) → (⟨S4096x1, .i32⟩ : BufTy).Contents (Elt F)) ((iotaInDim S4096 32 0) : (⟨S4096, .i32⟩ : BufTy).Contents (Elt F)))) := by
  simp only [ops5]
  hand_results <;> rfl

set_option maxRecDepth 8192 in
set_option maxHeartbeats 2000000 in
theorem w5_main_v54 (W : Valuation τ sig (Elt F)) :
    after (ops5 : List (HloOp τ sig (Elt F))) W (Proc.devRef (τ := τ) .tc main_v54)
      = ((broadcastInDim S1x11 ![1] bcast_S11_S1x11_1 : (⟨S11, .i32⟩ : BufTy).Contents (Elt F) → (⟨S1x11, .i32⟩ : BufTy).Contents (Elt F)) ((iotaInDim S11 32 0) : (⟨S11, .i32⟩ : BufTy).Contents (Elt F))) := by
  simp only [ops5]
  hand_results <;> rfl

set_option maxRecDepth 8192 in
set_option maxHeartbeats 2000000 in
theorem w6_main_v58 (W : Valuation τ sig (Elt F)) :
    after (ops6 : List (HloOp τ sig (Elt F))) W (Proc.devRef (τ := τ) .tc main_v58)
      = ((select : (⟨S4096x11, .i1⟩ : BufTy).Contents (Elt F) → (⟨S4096x11, .i32⟩ : BufTy).Contents (Elt F) → (⟨S4096x11, .i32⟩ : BufTy).Contents (Elt F) → (⟨S4096x11, .i32⟩ : BufTy).Contents (Elt F)) ((andi : (⟨S4096x11, .i1⟩ : BufTy).Contents (Elt F) → (⟨S4096x11, .i1⟩ : BufTy).Contents (Elt F) → (⟨S4096x11, .i1⟩ : BufTy).Contents (Elt F)) (((cmpi .ne) : (⟨S4096x11, .i1⟩ : BufTy).Contents (Elt F) → (⟨S4096x11, .i1⟩ : BufTy).Contents (Elt F) → (⟨S4096x11, .i1⟩ : BufTy).Contents (Elt F)) (((cmpi .slt) : (⟨S4096x11, .i32⟩ : BufTy).Contents (Elt F) → (⟨S4096x11, .i32⟩ : BufTy).Contents (Elt F) → (⟨S4096x11, .i1⟩ : BufTy).Contents (Elt F)) ((Host.remsi : (⟨S4096x11, .i32⟩ : BufTy).Contents (Elt F) → (⟨S4096x11, .i32⟩ : BufTy).Contents (Elt F) → (⟨S4096x11, .i32⟩ : BufTy).Contents (Elt F)) ((addi : (⟨S4096x11, .i32⟩ : BufTy).Contents (Elt F) → (⟨S4096x11, .i32⟩ : BufTy).Contents (Elt F) → (⟨S4096x11, .i32⟩ : BufTy).Contents (Elt F)) ((broadcastInDim S4096x11 ![0, 1] bcast_S4096x1_S4096x11_0_1 : (⟨S4096x1, .i32⟩ : BufTy).Contents (Elt F) → (⟨S4096x11, .i32⟩ : BufTy).Contents (Elt F)) (W (Proc.devRef (τ := τ) .tc main_v52))) ((broadcastInDim S4096x11 ![0, 1] bcast_S1x11_S4096x11_0_1 : (⟨S1x11, .i32⟩ : BufTy).Contents (Elt F) → (⟨S4096x11, .i32⟩ : BufTy).Contents (Elt F)) (W (Proc.devRef (τ := τ) .tc main_v54)))) (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))) (((broadcastInDim S4096x11 ![] bcast_S_S4096x11) : (⟨S_, .i32⟩ : BufTy).Contents (Elt F) → (⟨S4096x11, .i32⟩ : BufTy).Contents (Elt F)) ((constantI S_ 32 0#32) : (⟨S_, .i32⟩ : BufTy).Contents (Elt F)))) (((broadcastInDim S4096x11 ![] bcast_S_S4096x11) : (⟨S_, .i1⟩ : BufTy).Contents (Elt F) → (⟨S4096x11, .i1⟩ : BufTy).Contents (Elt F)) (((cmpi .slt) : (⟨S_, .i32⟩ : BufTy).Contents (Elt F) → (⟨S_, .i32⟩ : BufTy).Contents (Elt F) → (⟨S_, .i1⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))) ((constantI S_ 32 0#32) : (⟨S_, .i32⟩ : BufTy).Contents (Elt F))))) (((cmpi .ne) : (⟨S4096x11, .i32⟩ : BufTy).Contents (Elt F) → (⟨S4096x11, .i32⟩ : BufTy).Contents (Elt F) → (⟨S4096x11, .i1⟩ : BufTy).Contents (Elt F)) ((Host.remsi : (⟨S4096x11, .i32⟩ : BufTy).Contents (Elt F) → (⟨S4096x11, .i32⟩ : BufTy).Contents (Elt F) → (⟨S4096x11, .i32⟩ : BufTy).Contents (Elt F)) ((addi : (⟨S4096x11, .i32⟩ : BufTy).Contents (Elt F) → (⟨S4096x11, .i32⟩ : BufTy).Contents (Elt F) → (⟨S4096x11, .i32⟩ : BufTy).Contents (Elt F)) ((broadcastInDim S4096x11 ![0, 1] bcast_S4096x1_S4096x11_0_1 : (⟨S4096x1, .i32⟩ : BufTy).Contents (Elt F) → (⟨S4096x11, .i32⟩ : BufTy).Contents (Elt F)) (W (Proc.devRef (τ := τ) .tc main_v52))) ((broadcastInDim S4096x11 ![0, 1] bcast_S1x11_S4096x11_0_1 : (⟨S1x11, .i32⟩ : BufTy).Contents (Elt F) → (⟨S4096x11, .i32⟩ : BufTy).Contents (Elt F)) (W (Proc.devRef (τ := τ) .tc main_v54)))) (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))) (((broadcastInDim S4096x11 ![] bcast_S_S4096x11) : (⟨S_, .i32⟩ : BufTy).Contents (Elt F) → (⟨S4096x11, .i32⟩ : BufTy).Contents (Elt F)) ((constantI S_ 32 0#32) : (⟨S_, .i32⟩ : BufTy).Contents (Elt F))))) ((addi : (⟨S4096x11, .i32⟩ : BufTy).Contents (Elt F) → (⟨S4096x11, .i32⟩ : BufTy).Contents (Elt F) → (⟨S4096x11, .i32⟩ : BufTy).Contents (Elt F)) ((Host.remsi : (⟨S4096x11, .i32⟩ : BufTy).Contents (Elt F) → (⟨S4096x11, .i32⟩ : BufTy).Contents (Elt F) → (⟨S4096x11, .i32⟩ : BufTy).Contents (Elt F)) ((addi : (⟨S4096x11, .i32⟩ : BufTy).Contents (Elt F) → (⟨S4096x11, .i32⟩ : BufTy).Contents (Elt F) → (⟨S4096x11, .i32⟩ : BufTy).Contents (Elt F)) ((broadcastInDim S4096x11 ![0, 1] bcast_S4096x1_S4096x11_0_1 : (⟨S4096x1, .i32⟩ : BufTy).Contents (Elt F) → (⟨S4096x11, .i32⟩ : BufTy).Contents (Elt F)) (W (Proc.devRef (τ := τ) .tc main_v52))) ((broadcastInDim S4096x11 ![0, 1] bcast_S1x11_S4096x11_0_1 : (⟨S1x11, .i32⟩ : BufTy).Contents (Elt F) → (⟨S4096x11, .i32⟩ : BufTy).Contents (Elt F)) (W (Proc.devRef (τ := τ) .tc main_v54)))) (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))) (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F)))))) ((Host.remsi : (⟨S4096x11, .i32⟩ : BufTy).Contents (Elt F) → (⟨S4096x11, .i32⟩ : BufTy).Contents (Elt F) → (⟨S4096x11, .i32⟩ : BufTy).Contents (Elt F)) ((addi : (⟨S4096x11, .i32⟩ : BufTy).Contents (Elt F) → (⟨S4096x11, .i32⟩ : BufTy).Contents (Elt F) → (⟨S4096x11, .i32⟩ : BufTy).Contents (Elt F)) ((broadcastInDim S4096x11 ![0, 1] bcast_S4096x1_S4096x11_0_1 : (⟨S4096x1, .i32⟩ : BufTy).Contents (Elt F) → (⟨S4096x11, .i32⟩ : BufTy).Contents (Elt F)) (W (Proc.devRef (τ := τ) .tc main_v52))) ((broadcastInDim S4096x11 ![0, 1] bcast_S1x11_S4096x11_0_1 : (⟨S1x11, .i32⟩ : BufTy).Contents (Elt F) → (⟨S4096x11, .i32⟩ : BufTy).Contents (Elt F)) (W (Proc.devRef (τ := τ) .tc main_v54)))) (((broadcastInDim S4096x11 ![] bcast_S_S4096x11) : (⟨S_, .i32⟩ : BufTy).Contents (Elt F) → (⟨S4096x11, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 4096#32) : (⟨S_, .i32⟩ : BufTy).Contents (Elt F))))))) := by
  simp only [ops6]
  hand_results <;> rfl

set_option maxRecDepth 8192 in
set_option maxHeartbeats 2000000 in
theorem w7_main_v64 (W : Valuation τ sig (Elt F)) :
    after (ops7 : List (HloOp τ sig (Elt F))) W (Proc.devRef (τ := τ) .tc main_v64)
      = ((broadcastInDim S4096x11x1 ![0, 1] bcast_S4096x11_S4096x11x1_0_1 : (⟨S4096x11, .i32⟩ : BufTy).Contents (Elt F) → (⟨S4096x11x1, .i32⟩ : BufTy).Contents (Elt F)) ((select : (⟨S4096x11, .i1⟩ : BufTy).Contents (Elt F) → (⟨S4096x11, .i32⟩ : BufTy).Contents (Elt F) → (⟨S4096x11, .i32⟩ : BufTy).Contents (Elt F) → (⟨S4096x11, .i32⟩ : BufTy).Contents (Elt F)) ((cmpi .slt : (⟨S4096x11, .i32⟩ : BufTy).Contents (Elt F) → (⟨S4096x11, .i32⟩ : BufTy).Contents (Elt F) → (⟨S4096x11, .i1⟩ : BufTy).Contents (Elt F)) (W (Proc.devRef (τ := τ) .tc main_v58)) ((broadcastInDim S4096x11 ![] bcast_S_S4096x11 : (⟨S_, .i32⟩ : BufTy).Contents (Elt F) → (⟨S4096x11, .i32⟩ : BufTy).Contents (Elt F)) ((constantI S_ 32 0#32) : (⟨S_, .i32⟩ : BufTy).Contents (Elt F)))) ((addi : (⟨S4096x11, .i32⟩ : BufTy).Contents (Elt F) → (⟨S4096x11, .i32⟩ : BufTy).Contents (Elt F) → (⟨S4096x11, .i32⟩ : BufTy).Contents (Elt F)) (W (Proc.devRef (τ := τ) .tc main_v58)) ((broadcastInDim S4096x11 ![] bcast_S_S4096x11 : (⟨S_, .i32⟩ : BufTy).Contents (Elt F) → (⟨S4096x11, .i32⟩ : BufTy).Contents (Elt F)) ((constantI S_ 32 4096#32) : (⟨S_, .i32⟩ : BufTy).Contents (Elt F)))) (W (Proc.devRef (τ := τ) .tc main_v58)))) := by
  simp only [ops7]
  hand_results <;> rfl

set_option maxRecDepth 8192 in
set_option maxHeartbeats 2000000 in
theorem w8_main_v68 (W : Valuation τ sig (Elt F)) :
    after (ops8 : List (HloOp τ sig (Elt F))) W (Proc.devRef (τ := τ) .tc main_v68)
      = (((fun x v => Host.reduce FloatOps.maximumf x v reducesTo_S4096x750x11_S4096x750_d2 h_S_) : (⟨S4096x750x11, .f32⟩ : BufTy).Contents (Elt F) → (⟨S_, .f32⟩ : BufTy).Contents (Elt F) → (⟨S4096x750, .f32⟩ : BufTy).Contents (Elt F)) ((subf : (⟨S4096x750x11, .f32⟩ : BufTy).Contents (Elt F) → (⟨S4096x750x11, .f32⟩ : BufTy).Contents (Elt F) → (⟨S4096x750x11, .f32⟩ : BufTy).Contents (Elt F)) (((transpose S4096x750x11 [0, 2, 1] · transposes_S4096x11x750_S4096x750x11_0_2_1) : (⟨S4096x11x750, .f32⟩ : BufTy).Contents (Elt F) → (⟨S4096x750x11, .f32⟩ : BufTy).Contents (Elt F)) (((fun x i => Host.gather gather_S4096x750_S4096x11x1_S4096x11x750_2_0_n_n_0_2_1750 x i) : (⟨S4096x750, .f32⟩ : BufTy).Contents (Elt F) → (⟨S4096x11x1, .i32⟩ : BufTy).Contents (Elt F) → (⟨S4096x11x750, .f32⟩ : BufTy).Contents (Elt F)) (W (Proc.devRef (τ := τ) .tc main_arg0)) (W (Proc.devRef (τ := τ) .tc main_v64)))) (W (Proc.devRef (τ := τ) .tc main_v41))) ((constant S_ .f32 0xFF800000#32) : (⟨S_, .f32⟩ : BufTy).Contents (Elt F))) := by
  simp only [ops8]
  hand_results <;> rfl

set_option maxRecDepth 8192 in
set_option maxHeartbeats 2000000 in
theorem w9_main_v73 (W : Valuation τ sig (Elt F)) :
    after (ops9 : List (HloOp τ sig (Elt F))) W (Proc.devRef (τ := τ) .tc main_v73)
      = (((fun x v => Host.reduceAdd x v reducesTo_S4096x750x11_S750x11_d0 h_S_) : (⟨S4096x750x11, .f32⟩ : BufTy).Contents (Elt F) → (⟨S_, .f32⟩ : BufTy).Contents (Elt F) → (⟨S750x11, .f32⟩ : BufTy).Contents (Elt F)) ((mulf : (⟨S4096x750x11, .f32⟩ : BufTy).Contents (Elt F) → (⟨S4096x750x11, .f32⟩ : BufTy).Contents (Elt F) → (⟨S4096x750x11, .f32⟩ : BufTy).Contents (Elt F)) ((subf : (⟨S4096x750x11, .f32⟩ : BufTy).Contents (Elt F) → (⟨S4096x750x11, .f32⟩ : BufTy).Contents (Elt F) → (⟨S4096x750x11, .f32⟩ : BufTy).Contents (Elt F)) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) (W (Proc.devRef (τ := τ) .tc main_arg0)))) (W (Proc.devRef (τ := τ) .tc main_v41))) ((subf : (⟨S4096x750x11, .f32⟩ : BufTy).Contents (Elt F) → (⟨S4096x750x11, .f32⟩ : BufTy).Contents (Elt F) → (⟨S4096x750x11, .f32⟩ : BufTy).Contents (Elt F)) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) (W (Proc.devRef (τ := τ) .tc main_arg0)))) (W (Proc.devRef (τ := τ) .tc main_v41)))) ((constant S_ .f32 0x00000000#32) : (⟨S_, .f32⟩ : BufTy).Contents (Elt F))) := by
  simp only [ops9]
  hand_results <;> rfl

set_option maxRecDepth 8192 in
set_option maxHeartbeats 2000000 in
theorem w10_main_v89 (W : Valuation τ sig (Elt F)) :
    after (ops10 : List (HloOp τ sig (Elt F))) W (Proc.devRef (τ := τ) .tc main_v89)
      = ((Host.exp : (⟨S4096x750x11, .f32⟩ : BufTy).Contents (Elt F) → (⟨S4096x750x11, .f32⟩ : BufTy).Contents (Elt F)) ((Host.divf : (⟨S4096x750x11, .f32⟩ : BufTy).Contents (Elt F) → (⟨S4096x750x11, .f32⟩ : BufTy).Contents (Elt F) → (⟨S4096x750x11, .f32⟩ : BufTy).Contents (Elt F)) ((Host.negf : (⟨S4096x750x11, .f32⟩ : BufTy).Contents (Elt F) → (⟨S4096x750x11, .f32⟩ : BufTy).Contents (Elt F)) ((addf : (⟨S4096x750x11, .f32⟩ : BufTy).Contents (Elt F) → (⟨S4096x750x11, .f32⟩ : BufTy).Contents (Elt F) → (⟨S4096x750x11, .f32⟩ : BufTy).Contents (Elt F)) ((maximumf : (⟨S4096x750x11, .f32⟩ : BufTy).Contents (Elt F) → (⟨S4096x750x11, .f32⟩ : BufTy).Contents (Elt F) → (⟨S4096x750x11, .f32⟩ : BufTy).Contents (Elt F)) ((subf : (⟨S4096x750x11, .f32⟩ : BufTy).Contents (Elt F) → (⟨S4096x750x11, .f32⟩ : BufTy).Contents (Elt F) → (⟨S4096x750x11, .f32⟩ : BufTy).Contents (Elt F)) ((broadcastInDim S4096x750x11 ![0, 1, 2] bcast_S1x750x11_S4096x750x11_0_1_2 : (⟨S1x750x11, .f32⟩ : BufTy).Contents (Elt F) → (⟨S4096x750x11, .f32⟩ : BufTy).Contents (Elt F)) ((broadcastInDim S1x750x11 ![1, 2] bcast_S750x11_S1x750x11_1_2 : (⟨S750x11, .f32⟩ : BufTy).Contents (Elt F) → (⟨S1x750x11, .f32⟩ : BufTy).Contents (Elt F)) (W (Proc.devRef (τ := τ) .tc main_v73)))) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) ((mulf : (⟨S4096x750, .f32⟩ : BufTy).Contents (Elt F) → (⟨S4096x750, .f32⟩ : BufTy).Contents (Elt F) → (⟨S4096x750, .f32⟩ : BufTy).Contents (Elt F)) ((mulf : (⟨S4096x750, .f32⟩ : BufTy).Contents (Elt F) → (⟨S4096x750, .f32⟩ : BufTy).Contents (Elt F) → (⟨S4096x750, .f32⟩ : BufTy).Contents (Elt F)) ((broadcastInDim S4096x750 ![] bcast_S_S4096x750 : (⟨S_, .f32⟩ : BufTy).Contents (Elt F) → (⟨S4096x750, .f32⟩ : BufTy).Contents (Elt F)) ((constant S_ .f32 0x3F800000#32) : (⟨S_, .f32⟩ : BufTy).Contents (Elt F))) (W (Proc.devRef (τ := τ) .tc main_v68))) (W (Proc.devRef (τ := τ) .tc main_v68)))))) (((broadcastInDim S4096x750x11 ![] bcast_S_S4096x750x11) : (⟨S_, .f32⟩ : BufTy).Contents (Elt F) → (⟨S4096x750x11, .f32⟩ : BufTy).Contents (Elt F)) ((constant S_ .f32 0x00000000#32) : (⟨S_, .f32⟩ : BufTy).Contents (Elt F)))) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) ((mulf : (⟨S4096x750, .f32⟩ : BufTy).Contents (Elt F) → (⟨S4096x750, .f32⟩ : BufTy).Contents (Elt F) → (⟨S4096x750, .f32⟩ : BufTy).Contents (Elt F)) ((mulf : (⟨S4096x750, .f32⟩ : BufTy).Contents (Elt F) → (⟨S4096x750, .f32⟩ : BufTy).Contents (Elt F) → (⟨S4096x750, .f32⟩ : BufTy).Contents (Elt F)) ((broadcastInDim S4096x750 ![] bcast_S_S4096x750 : (⟨S_, .f32⟩ : BufTy).Contents (Elt F) → (⟨S4096x750, .f32⟩ : BufTy).Contents (Elt F)) ((constant S_ .f32 0x3F800000#32) : (⟨S_, .f32⟩ : BufTy).Contents (Elt F))) (W (Proc.devRef (τ := τ) .tc main_v68))) (W (Proc.devRef (τ := τ) .tc main_v68))))))) ((broadcastInDim S4096x750x11 ![] bcast_S_S4096x750x11 : (⟨S_, .f32⟩ : BufTy).Contents (Elt F) → (⟨S4096x750x11, .f32⟩ : BufTy).Contents (Elt F)) ((constant S_ .f32 0x40000000#32) : (⟨S_, .f32⟩ : BufTy).Contents (Elt F))))) := by
  simp only [ops10]
  hand_results <;> rfl

set_option maxRecDepth 8192 in
set_option maxHeartbeats 2000000 in
theorem w11_main_v96 (W : Valuation τ sig (Elt F)) :
    after (ops11 : List (HloOp τ sig (Elt F))) W (Proc.devRef (τ := τ) .tc main_v96)
      = ((Host.divf : (⟨S_, .f32⟩ : BufTy).Contents (Elt F) → (⟨S_, .f32⟩ : BufTy).Contents (Elt F) → (⟨S_, .f32⟩ : BufTy).Contents (Elt F)) (((fun x v => Host.reduceAdd x v reducesTo_S4096x750x11_S_d0_1_2 h_S_) : (⟨S4096x750x11, .f32⟩ : BufTy).Contents (Elt F) → (⟨S_, .f32⟩ : BufTy).Contents (Elt F) → (⟨S_, .f32⟩ : BufTy).Contents (Elt F)) ((mulf : (⟨S4096x750x11, .f32⟩ : BufTy).Contents (Elt F) → (⟨S4096x750x11, .f32⟩ : BufTy).Contents (Elt F) → (⟨S4096x750x11, .f32⟩ : BufTy).Contents (Elt F)) (W (Proc.devRef (τ := τ) .tc main_v89)) ((Host.absf : (⟨S4096x750x11, .f32⟩ : BufTy).Contents (Elt F) → (⟨S4096x750x11, .f32⟩ : BufTy).Contents (Elt F)) ((subf : (⟨S4096x750x11, .f32⟩ : BufTy).Contents (Elt F) → (⟨S4096x750x11, .f32⟩ : BufTy).Contents (Elt F) → (⟨S4096x750x11, .f32⟩ : BufTy).Contents (Elt F)) ((broadcastInDim S4096x750x11 ![0, 1, 2] bcast_S4096x750x1_S4096x750x11_0_1_2 : (⟨S4096x750x1, .f32⟩ : BufTy).Contents (Elt F) → (⟨S4096x750x11, .f32⟩ : BufTy).Contents (Elt F)) ((broadcastInDim S4096x750x1 ![0, 1] bcast_S4096x750_S4096x750x1_0_1 : (⟨S4096x750, .f32⟩ : BufTy).Contents (Elt F) → (⟨S4096x750x1, .f32⟩ : BufTy).Contents (Elt F)) (W (Proc.devRef (τ := τ) .tc main_arg1)))) (W (Proc.devRef (τ := τ) .tc main_v48))))) ((constant S_ .f32 0x00000000#32) : (⟨S_, .f32⟩ : BufTy).Contents (Elt F))) ((constant S_ .f32 0x45800000#32) : (⟨S_, .f32⟩ : BufTy).Contents (Elt F))) := by
  simp only [ops11]
  hand_results <;> rfl

set_option maxRecDepth 8192 in
set_option maxHeartbeats 2000000 in
theorem w12_main_v101 (W : Valuation τ sig (Elt F)) :
    after (ops12 : List (HloOp τ sig (Elt F))) W (Proc.devRef (τ := τ) .tc main_v101)
      = ((Host.divf : (⟨S_, .f32⟩ : BufTy).Contents (Elt F) → (⟨S_, .f32⟩ : BufTy).Contents (Elt F) → (⟨S_, .f32⟩ : BufTy).Contents (Elt F)) (((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (((fun x v => Host.reduceAdd x v reducesTo_S4096x750_S4096_d1 h_S_) : (⟨S4096x750, .f32⟩ : BufTy).Contents (Elt F) → (⟨S_, .f32⟩ : BufTy).Contents (Elt F) → (⟨S4096, .f32⟩ : BufTy).Contents (Elt F)) ((mulf : (⟨S4096x750, .f32⟩ : BufTy).Contents (Elt F) → (⟨S4096x750, .f32⟩ : BufTy).Contents (Elt F) → (⟨S4096x750, .f32⟩ : BufTy).Contents (Elt F)) ((subf : (⟨S4096x750, .f32⟩ : BufTy).Contents (Elt F) → (⟨S4096x750, .f32⟩ : BufTy).Contents (Elt F) → (⟨S4096x750, .f32⟩ : BufTy).Contents (Elt F)) (W (Proc.devRef (τ := τ) .tc main_arg0)) (W (Proc.devRef (τ := τ) .tc main_arg1))) ((subf : (⟨S4096x750, .f32⟩ : BufTy).Contents (Elt F) → (⟨S4096x750, .f32⟩ : BufTy).Contents (Elt F) → (⟨S4096x750, .f32⟩ : BufTy).Contents (Elt F)) (W (Proc.devRef (τ := τ) .tc main_arg0)) (W (Proc.devRef (τ := τ) .tc main_arg1)))) ((constant S_ .f32 0x00000000#32) : (⟨S_, .f32⟩ : BufTy).Contents (Elt F))) ((constant S_ .f32 0x00000000#32) : (⟨S_, .f32⟩ : BufTy).Contents (Elt F))) ((constant S_ .f32 0x45800000#32) : (⟨S_, .f32⟩ : BufTy).Contents (Elt F))) := by
  simp only [ops12]
  hand_results <;> rfl

set_option maxRecDepth 8192 in
set_option maxHeartbeats 2000000 in
theorem w12_main_cst_15 (W : Valuation τ sig (Elt F)) :
    after (ops12 : List (HloOp τ sig (Elt F))) W (Proc.devRef (τ := τ) .tc main_cst_15)
      = ((constant S_ .f32 0x3DCCCCCD#32) : (⟨S_, .f32⟩ : BufTy).Contents (Elt F)) := by
  simp only [ops12]
  hand_results <;> rfl

set_option maxRecDepth 8192 in
set_option maxHeartbeats 2000000 in
theorem w13_main_v104 (W : Valuation τ sig (Elt F)) :
    after (ops13 : List (HloOp τ sig (Elt F))) W (Proc.devRef (τ := τ) .tc main_v104)
      = ((mulf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) (W (Proc.devRef (τ := τ) .tc main_v96)) ((mulf : (⟨S_, .f32⟩ : BufTy).Contents (Elt F) → (⟨S_, .f32⟩ : BufTy).Contents (Elt F) → (⟨S_, .f32⟩ : BufTy).Contents (Elt F)) (W (Proc.devRef (τ := τ) .tc main_cst_15)) (W (Proc.devRef (τ := τ) .tc main_v101)))) ((constant S_ .f32 0x3F800000#32) : (⟨S_, .f32⟩ : BufTy).Contents (Elt F))) := by
  simp only [ops13]
  hand_results <;> rfl

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h
theorem ops6_fresh : ∀ op ∈ (ops6 : List (HloOp τ sig (Elt F))), op.fresh = ∅ := by
  intro _ h; (repeat (cases h with | head => rfl | tail _ h => ?_)); exact nomatch h
theorem ops7_fresh : ∀ op ∈ (ops7 : List (HloOp τ sig (Elt F))), op.fresh = ∅ := by
  intro _ h; (repeat (cases h with | head => rfl | tail _ h => ?_)); exact nomatch h
theorem ops8_fresh : ∀ op ∈ (ops8 : List (HloOp τ sig (Elt F))), op.fresh = ∅ := by
  intro _ h; (repeat (cases h with | head => rfl | tail _ h => ?_)); exact nomatch h
theorem ops9_fresh : ∀ op ∈ (ops9 : List (HloOp τ sig (Elt F))), op.fresh = ∅ := by
  intro _ h; (repeat (cases h with | head => rfl | tail _ h => ?_)); exact nomatch h
theorem ops10_fresh : ∀ op ∈ (ops10 : List (HloOp τ sig (Elt F))), op.fresh = ∅ := by
  intro _ h; (repeat (cases h with | head => rfl | tail _ h => ?_)); exact nomatch h
theorem ops11_fresh : ∀ op ∈ (ops11 : List (HloOp τ sig (Elt F))), op.fresh = ∅ := by
  intro _ h; (repeat (cases h with | head => rfl | tail _ h => ?_)); exact nomatch h
theorem ops12_fresh : ∀ op ∈ (ops12 : List (HloOp τ sig (Elt F))), op.fresh = ∅ := by
  intro _ h; (repeat (cases h with | head => rfl | tail _ h => ?_)); exact nomatch h
theorem ops13_fresh : ∀ op ∈ (ops13 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h => by
  simp only [ops, List.mem_append] at h
  rcases h with h | h | h | h | h | h | h | h | h | h | h | h | h
  exacts [ops1_fresh op h, ops2_fresh op h, ops3_fresh op h, ops4_fresh op h, ops5_fresh op h, ops6_fresh op h, ops7_fresh op h, ops8_fresh op h, ops9_fresh op h, ops10_fresh op h, ops11_fresh op h, ops12_fresh op h, ops13_fresh op h]

/-- The contents before the first group. -/
def val0 (V : Valuation τ sig (Elt F)) : Valuation τ sig (Elt F) := V
theorem val0_main_arg0 (V : Valuation τ sig (Elt F)) : val0 V (Proc.devRef (τ := τ) .tc main_arg0) = (V (Proc.devRef (τ := τ) .tc main_arg0)) := rfl
theorem val0_main_arg1 (V : Valuation τ sig (Elt F)) : val0 V (Proc.devRef (τ := τ) .tc main_arg1) = (V (Proc.devRef (τ := τ) .tc main_arg1)) := rfl

/-- The contents after the first 1 group. -/
def val1 (V : Valuation τ sig (Elt F)) : Valuation τ sig (Elt F) := after ops1 (val0 V)
theorem val1_keep (V : Valuation τ sig (Elt F)) (r : Ref sig .tc) (h : r ∉ ops1_W) :
    val1 V (Proc.devRef .tc r) = val0 V (Proc.devRef .tc r) :=
  after_of_writes_sub ops1 _ ops1_writes h
theorem val1_main_arg0 (V : Valuation τ sig (Elt F)) :
    val1 V (Proc.devRef (τ := τ) .tc main_arg0) = (V (Proc.devRef (τ := τ) .tc main_arg0)) :=
  (val1_keep V main_arg0 (by decide)).trans (val0_main_arg0 V)
theorem val1_main_arg1 (V : Valuation τ sig (Elt F)) :
    val1 V (Proc.devRef (τ := τ) .tc main_arg1) = (V (Proc.devRef (τ := τ) .tc main_arg1)) :=
  (val1_keep V main_arg1 (by decide)).trans (val0_main_arg1 V)
theorem val1_main_v13 (V : Valuation τ sig (Elt F)) :
    val1 V (Proc.devRef (τ := τ) .tc main_v13) = (padded (F := F) (V (Proc.devRef (τ := τ) .tc main_arg1))) := by
  unfold val1
  rw [w1_main_v13]
  rw [val0_main_arg1 V]
  all_goals rfl

/-- The contents after the first 2 groups. -/
def val2 (V : Valuation τ sig (Elt F)) : Valuation τ sig (Elt F) := after ops2 (val1 V)
theorem val2_keep (V : Valuation τ sig (Elt F)) (r : Ref sig .tc) (h : r ∉ ops2_W) :
    val2 V (Proc.devRef .tc r) = val1 V (Proc.devRef .tc r) :=
  after_of_writes_sub ops2 _ ops2_writes h
theorem val2_main_arg0 (V : Valuation τ sig (Elt F)) :
    val2 V (Proc.devRef (τ := τ) .tc main_arg0) = (V (Proc.devRef (τ := τ) .tc main_arg0)) :=
  (val2_keep V main_arg0 (by decide)).trans (val1_main_arg0 V)
theorem val2_main_arg1 (V : Valuation τ sig (Elt F)) :
    val2 V (Proc.devRef (τ := τ) .tc main_arg1) = (V (Proc.devRef (τ := τ) .tc main_arg1)) :=
  (val2_keep V main_arg1 (by decide)).trans (val1_main_arg1 V)
theorem val2_main_v13 (V : Valuation τ sig (Elt F)) :
    val2 V (Proc.devRef (τ := τ) .tc main_v13) = (padded (F := F) (V (Proc.devRef (τ := τ) .tc main_arg1))) :=
  (val2_keep V main_v13 (by decide)).trans (val1_main_v13 V)
theorem val2_main_v27 (V : Valuation τ sig (Elt F)) :
    val2 V (Proc.devRef (τ := τ) .tc main_v27) = (padded (F := F) (V (Proc.devRef (τ := τ) .tc main_arg0))) := by
  unfold val2
  rw [w2_main_v27]
  rw [val1_main_arg0 V]
  all_goals rfl

/-- The contents after the first 3 groups. -/
def val3 (V : Valuation τ sig (Elt F)) : Valuation τ sig (Elt F) := after ops3 (val2 V)
theorem val3_keep (V : Valuation τ sig (Elt F)) (r : Ref sig .tc) (h : r ∉ ops3_W) :
    val3 V (Proc.devRef .tc r) = val2 V (Proc.devRef .tc r) :=
  after_of_writes_sub ops3 _ ops3_writes h
theorem val3_main_arg0 (V : Valuation τ sig (Elt F)) :
    val3 V (Proc.devRef (τ := τ) .tc main_arg0) = (V (Proc.devRef (τ := τ) .tc main_arg0)) :=
  (val3_keep V main_arg0 (by decide)).trans (val2_main_arg0 V)
theorem val3_main_arg1 (V : Valuation τ sig (Elt F)) :
    val3 V (Proc.devRef (τ := τ) .tc main_arg1) = (V (Proc.devRef (τ := τ) .tc main_arg1)) :=
  (val3_keep V main_arg1 (by decide)).trans (val2_main_arg1 V)
theorem val3_main_v13 (V : Valuation τ sig (Elt F)) :
    val3 V (Proc.devRef (τ := τ) .tc main_v13) = (padded (F := F) (V (Proc.devRef (τ := τ) .tc main_arg1))) :=
  (val3_keep V main_v13 (by decide)).trans (val2_main_v13 V)
theorem val3_main_v27 (V : Valuation τ sig (Elt F)) :
    val3 V (Proc.devRef (τ := τ) .tc main_v27) = (padded (F := F) (V (Proc.devRef (τ := τ) .tc main_arg0))) :=
  (val3_keep V main_v27 (by decide)).trans (val2_main_v27 V)
theorem val3_main_v34 (V : Valuation τ sig (Elt F)) :
    val3 V (Proc.devRef (τ := τ) .tc main_v34) = (winSum (F := F)) := by
  unfold val3
  rw [w3_main_v34]
  all_goals rfl
theorem val3_main_v40 (V : Valuation τ sig (Elt F)) :
    val3 V (Proc.devRef (τ := τ) .tc main_v40) = (winIdx (F := F) (winSum (F := F))) := by
  unfold val3
  rw [w3_main_v40]
  all_goals rfl

/-- The contents after the first 4 groups. -/
def val4 (V : Valuation τ sig (Elt F)) : Valuation τ sig (Elt F) := after ops4 (val3 V)
theorem val4_keep (V : Valuation τ sig (Elt F)) (r : Ref sig .tc) (h : r ∉ ops4_W) :
    val4 V (Proc.devRef .tc r) = val3 V (Proc.devRef .tc r) :=
  after_of_writes_sub ops4 _ ops4_writes h
theorem val4_main_arg0 (V : Valuation τ sig (Elt F)) :
    val4 V (Proc.devRef (τ := τ) .tc main_arg0) = (V (Proc.devRef (τ := τ) .tc main_arg0)) :=
  (val4_keep V main_arg0 (by decide)).trans (val3_main_arg0 V)
theorem val4_main_arg1 (V : Valuation τ sig (Elt F)) :
    val4 V (Proc.devRef (τ := τ) .tc main_arg1) = (V (Proc.devRef (τ := τ) .tc main_arg1)) :=
  (val4_keep V main_arg1 (by decide)).trans (val3_main_arg1 V)
theorem val4_main_v41 (V : Valuation τ sig (Elt F)) :
    val4 V (Proc.devRef (τ := τ) .tc main_v41) = (windows (F := F) (padded (F := F) (V (Proc.devRef (τ := τ) .tc main_arg0))) (winIdx (F := F) (winSum (F := F)))) := by
  unfold val4
  rw [w4_main_v41]
  rw [val3_main_v27 V, val3_main_v40 V]
  all_goals rfl
theorem val4_main_v48 (V : Valuation τ sig (Elt F)) :
    val4 V (Proc.devRef (τ := τ) .tc main_v48) = (windows (F := F) (padded (F := F) (V (Proc.devRef (τ := τ) .tc main_arg1))) (winIdx (F := F) (winSum (F := F)))) := by
  unfold val4
  rw [w4_main_v48]
  rw [val3_main_v13 V, val3_main_v34 V]
  all_goals rfl

/-- The contents after the first 5 groups. -/
def val5 (V : Valuation τ sig (Elt F)) : Valuation τ sig (Elt F) := after ops5 (val4 V)
theorem val5_keep (V : Valuation τ sig (Elt F)) (r : Ref sig .tc) (h : r ∉ ops5_W) :
    val5 V (Proc.devRef .tc r) = val4 V (Proc.devRef .tc r) :=
  after_of_writes_sub ops5 _ ops5_writes h
theorem val5_main_arg0 (V : Valuation τ sig (Elt F)) :
    val5 V (Proc.devRef (τ := τ) .tc main_arg0) = (V (Proc.devRef (τ := τ) .tc main_arg0)) :=
  (val5_keep V main_arg0 (by decide)).trans (val4_main_arg0 V)
theorem val5_main_arg1 (V : Valuation τ sig (Elt F)) :
    val5 V (Proc.devRef (τ := τ) .tc main_arg1) = (V (Proc.devRef (τ := τ) .tc main_arg1)) :=
  (val5_keep V main_arg1 (by decide)).trans (val4_main_arg1 V)
theorem val5_main_v41 (V : Valuation τ sig (Elt F)) :
    val5 V (Proc.devRef (τ := τ) .tc main_v41) = (windows (F := F) (padded (F := F) (V (Proc.devRef (τ := τ) .tc main_arg0))) (winIdx (F := F) (winSum (F := F)))) :=
  (val5_keep V main_v41 (by decide)).trans (val4_main_v41 V)
theorem val5_main_v48 (V : Valuation τ sig (Elt F)) :
    val5 V (Proc.devRef (τ := τ) .tc main_v48) = (windows (F := F) (padded (F := F) (V (Proc.devRef (τ := τ) .tc main_arg1))) (winIdx (F := F) (winSum (F := F)))) :=
  (val5_keep V main_v48 (by decide)).trans (val4_main_v48 V)
theorem val5_main_v52 (V : Valuation τ sig (Elt F)) :
    val5 V (Proc.devRef (τ := τ) .tc main_v52) = ((muli : (⟨S4096x1, .i32⟩ : BufTy).Contents (Elt F) → (⟨S4096x1, .i32⟩ : BufTy).Contents (Elt F) → (⟨S4096x1, .i32⟩ : BufTy).Contents (Elt F)) ((broadcastInDim S4096x1 ![] bcast_S_S4096x1 : (⟨S_, .i32⟩ : BufTy).Contents (Elt F) → (⟨S4096x1, .i32⟩ : BufTy).Contents (Elt F)) ((constantI S_ 32 11#32) : (⟨S_, .i32⟩ : BufTy).Contents (Elt F))) ((broadcastInDim S4096x1 ![0] bcast_S4096_S4096x1_0 : (⟨S4096, .i32⟩ : BufTy).Contents (Elt F) → (⟨S4096x1, .i32⟩ : BufTy).Contents (Elt F)) ((iotaInDim S4096 32 0) : (⟨S4096, .i32⟩ : BufTy).Contents (Elt F)))) := by
  unfold val5
  rw [w5_main_v52]
  all_goals rfl
theorem val5_main_v54 (V : Valuation τ sig (Elt F)) :
    val5 V (Proc.devRef (τ := τ) .tc main_v54) = ((broadcastInDim S1x11 ![1] bcast_S11_S1x11_1 : (⟨S11, .i32⟩ : BufTy).Contents (Elt F) → (⟨S1x11, .i32⟩ : BufTy).Contents (Elt F)) ((iotaInDim S11 32 0) : (⟨S11, .i32⟩ : BufTy).Contents (Elt F))) := by
  unfold val5
  rw [w5_main_v54]
  all_goals rfl

/-- The contents after the first 6 groups. -/
def val6 (V : Valuation τ sig (Elt F)) : Valuation τ sig (Elt F) := after ops6 (val5 V)
theorem val6_keep (V : Valuation τ sig (Elt F)) (r : Ref sig .tc) (h : r ∉ ops6_W) :
    val6 V (Proc.devRef .tc r) = val5 V (Proc.devRef .tc r) :=
  after_of_writes_sub ops6 _ ops6_writes h
theorem val6_main_arg0 (V : Valuation τ sig (Elt F)) :
    val6 V (Proc.devRef (τ := τ) .tc main_arg0) = (V (Proc.devRef (τ := τ) .tc main_arg0)) :=
  (val6_keep V main_arg0 (by decide)).trans (val5_main_arg0 V)
theorem val6_main_arg1 (V : Valuation τ sig (Elt F)) :
    val6 V (Proc.devRef (τ := τ) .tc main_arg1) = (V (Proc.devRef (τ := τ) .tc main_arg1)) :=
  (val6_keep V main_arg1 (by decide)).trans (val5_main_arg1 V)
theorem val6_main_v41 (V : Valuation τ sig (Elt F)) :
    val6 V (Proc.devRef (τ := τ) .tc main_v41) = (windows (F := F) (padded (F := F) (V (Proc.devRef (τ := τ) .tc main_arg0))) (winIdx (F := F) (winSum (F := F)))) :=
  (val6_keep V main_v41 (by decide)).trans (val5_main_v41 V)
theorem val6_main_v48 (V : Valuation τ sig (Elt F)) :
    val6 V (Proc.devRef (τ := τ) .tc main_v48) = (windows (F := F) (padded (F := F) (V (Proc.devRef (τ := τ) .tc main_arg1))) (winIdx (F := F) (winSum (F := F)))) :=
  (val6_keep V main_v48 (by decide)).trans (val5_main_v48 V)
theorem val6_main_v58 (V : Valuation τ sig (Elt F)) :
    val6 V (Proc.devRef (τ := τ) .tc main_v58) = (rowRem (F := F) (rowSum (F := F))) := by
  unfold val6
  rw [w6_main_v58]
  rw [val5_main_v52 V, val5_main_v54 V]
  all_goals rfl

/-- The contents after the first 7 groups. -/
def val7 (V : Valuation τ sig (Elt F)) : Valuation τ sig (Elt F) := after ops7 (val6 V)
theorem val7_keep (V : Valuation τ sig (Elt F)) (r : Ref sig .tc) (h : r ∉ ops7_W) :
    val7 V (Proc.devRef .tc r) = val6 V (Proc.devRef .tc r) :=
  after_of_writes_sub ops7 _ ops7_writes h
theorem val7_main_arg0 (V : Valuation τ sig (Elt F)) :
    val7 V (Proc.devRef (τ := τ) .tc main_arg0) = (V (Proc.devRef (τ := τ) .tc main_arg0)) :=
  (val7_keep V main_arg0 (by decide)).trans (val6_main_arg0 V)
theorem val7_main_arg1 (V : Valuation τ sig (Elt F)) :
    val7 V (Proc.devRef (τ := τ) .tc main_arg1) = (V (Proc.devRef (τ := τ) .tc main_arg1)) :=
  (val7_keep V main_arg1 (by decide)).trans (val6_main_arg1 V)
theorem val7_main_v41 (V : Valuation τ sig (Elt F)) :
    val7 V (Proc.devRef (τ := τ) .tc main_v41) = (windows (F := F) (padded (F := F) (V (Proc.devRef (τ := τ) .tc main_arg0))) (winIdx (F := F) (winSum (F := F)))) :=
  (val7_keep V main_v41 (by decide)).trans (val6_main_v41 V)
theorem val7_main_v48 (V : Valuation τ sig (Elt F)) :
    val7 V (Proc.devRef (τ := τ) .tc main_v48) = (windows (F := F) (padded (F := F) (V (Proc.devRef (τ := τ) .tc main_arg1))) (winIdx (F := F) (winSum (F := F)))) :=
  (val7_keep V main_v48 (by decide)).trans (val6_main_v48 V)
theorem val7_main_v64 (V : Valuation τ sig (Elt F)) :
    val7 V (Proc.devRef (τ := τ) .tc main_v64) = (rowIdx (F := F) (rowRem (F := F) (rowSum (F := F)))) := by
  unfold val7
  rw [w7_main_v64]
  rw [val6_main_v58 V]
  all_goals rfl

/-- The contents after the first 8 groups. -/
def val8 (V : Valuation τ sig (Elt F)) : Valuation τ sig (Elt F) := after ops8 (val7 V)
theorem val8_keep (V : Valuation τ sig (Elt F)) (r : Ref sig .tc) (h : r ∉ ops8_W) :
    val8 V (Proc.devRef .tc r) = val7 V (Proc.devRef .tc r) :=
  after_of_writes_sub ops8 _ ops8_writes h
theorem val8_main_arg0 (V : Valuation τ sig (Elt F)) :
    val8 V (Proc.devRef (τ := τ) .tc main_arg0) = (V (Proc.devRef (τ := τ) .tc main_arg0)) :=
  (val8_keep V main_arg0 (by decide)).trans (val7_main_arg0 V)
theorem val8_main_arg1 (V : Valuation τ sig (Elt F)) :
    val8 V (Proc.devRef (τ := τ) .tc main_arg1) = (V (Proc.devRef (τ := τ) .tc main_arg1)) :=
  (val8_keep V main_arg1 (by decide)).trans (val7_main_arg1 V)
theorem val8_main_v41 (V : Valuation τ sig (Elt F)) :
    val8 V (Proc.devRef (τ := τ) .tc main_v41) = (windows (F := F) (padded (F := F) (V (Proc.devRef (τ := τ) .tc main_arg0))) (winIdx (F := F) (winSum (F := F)))) :=
  (val8_keep V main_v41 (by decide)).trans (val7_main_v41 V)
theorem val8_main_v48 (V : Valuation τ sig (Elt F)) :
    val8 V (Proc.devRef (τ := τ) .tc main_v48) = (windows (F := F) (padded (F := F) (V (Proc.devRef (τ := τ) .tc main_arg1))) (winIdx (F := F) (winSum (F := F)))) :=
  (val8_keep V main_v48 (by decide)).trans (val7_main_v48 V)
theorem val8_main_v68 (V : Valuation τ sig (Elt F)) :
    val8 V (Proc.devRef (τ := τ) .tc main_v68) = (maxW (F := F) (tiled (F := F) (V (Proc.devRef (τ := τ) .tc main_arg0)) (rowIdx (F := F) (rowRem (F := F) (rowSum (F := F))))) (windows (F := F) (padded (F := F) (V (Proc.devRef (τ := τ) .tc main_arg0))) (winIdx (F := F) (winSum (F := F))))) := by
  unfold val8
  rw [w8_main_v68]
  rw [val7_main_arg0 V, val7_main_v64 V, val7_main_v41 V]
  all_goals rfl

/-- The contents after the first 9 groups. -/
def val9 (V : Valuation τ sig (Elt F)) : Valuation τ sig (Elt F) := after ops9 (val8 V)
theorem val9_keep (V : Valuation τ sig (Elt F)) (r : Ref sig .tc) (h : r ∉ ops9_W) :
    val9 V (Proc.devRef .tc r) = val8 V (Proc.devRef .tc r) :=
  after_of_writes_sub ops9 _ ops9_writes h
theorem val9_main_arg0 (V : Valuation τ sig (Elt F)) :
    val9 V (Proc.devRef (τ := τ) .tc main_arg0) = (V (Proc.devRef (τ := τ) .tc main_arg0)) :=
  (val9_keep V main_arg0 (by decide)).trans (val8_main_arg0 V)
theorem val9_main_arg1 (V : Valuation τ sig (Elt F)) :
    val9 V (Proc.devRef (τ := τ) .tc main_arg1) = (V (Proc.devRef (τ := τ) .tc main_arg1)) :=
  (val9_keep V main_arg1 (by decide)).trans (val8_main_arg1 V)
theorem val9_main_v48 (V : Valuation τ sig (Elt F)) :
    val9 V (Proc.devRef (τ := τ) .tc main_v48) = (windows (F := F) (padded (F := F) (V (Proc.devRef (τ := τ) .tc main_arg1))) (winIdx (F := F) (winSum (F := F)))) :=
  (val9_keep V main_v48 (by decide)).trans (val8_main_v48 V)
theorem val9_main_v68 (V : Valuation τ sig (Elt F)) :
    val9 V (Proc.devRef (τ := τ) .tc main_v68) = (maxW (F := F) (tiled (F := F) (V (Proc.devRef (τ := τ) .tc main_arg0)) (rowIdx (F := F) (rowRem (F := F) (rowSum (F := F))))) (windows (F := F) (padded (F := F) (V (Proc.devRef (τ := τ) .tc main_arg0))) (winIdx (F := F) (winSum (F := F))))) :=
  (val9_keep V main_v68 (by decide)).trans (val8_main_v68 V)
theorem val9_main_v73 (V : Valuation τ sig (Elt F)) :
    val9 V (Proc.devRef (τ := τ) .tc main_v73) = (normSq (F := F) (V (Proc.devRef (τ := τ) .tc main_arg0)) (windows (F := F) (padded (F := F) (V (Proc.devRef (τ := τ) .tc main_arg0))) (winIdx (F := F) (winSum (F := F))))) := by
  unfold val9
  rw [w9_main_v73]
  rw [val8_main_arg0 V, val8_main_v41 V]
  all_goals rfl

/-- The contents after the first 10 groups. -/
def val10 (V : Valuation τ sig (Elt F)) : Valuation τ sig (Elt F) := after ops10 (val9 V)
theorem val10_keep (V : Valuation τ sig (Elt F)) (r : Ref sig .tc) (h : r ∉ ops10_W) :
    val10 V (Proc.devRef .tc r) = val9 V (Proc.devRef .tc r) :=
  after_of_writes_sub ops10 _ ops10_writes h
theorem val10_main_arg0 (V : Valuation τ sig (Elt F)) :
    val10 V (Proc.devRef (τ := τ) .tc main_arg0) = (V (Proc.devRef (τ := τ) .tc main_arg0)) :=
  (val10_keep V main_arg0 (by decide)).trans (val9_main_arg0 V)
theorem val10_main_arg1 (V : Valuation τ sig (Elt F)) :
    val10 V (Proc.devRef (τ := τ) .tc main_arg1) = (V (Proc.devRef (τ := τ) .tc main_arg1)) :=
  (val10_keep V main_arg1 (by decide)).trans (val9_main_arg1 V)
theorem val10_main_v48 (V : Valuation τ sig (Elt F)) :
    val10 V (Proc.devRef (τ := τ) .tc main_v48) = (windows (F := F) (padded (F := F) (V (Proc.devRef (τ := τ) .tc main_arg1))) (winIdx (F := F) (winSum (F := F)))) :=
  (val10_keep V main_v48 (by decide)).trans (val9_main_v48 V)
theorem val10_main_v89 (V : Valuation τ sig (Elt F)) :
    val10 V (Proc.devRef (τ := τ) .tc main_v89) = (weights (F := F) (expo (F := F) (normSq (F := F) (V (Proc.devRef (τ := τ) .tc main_arg0)) (windows (F := F) (padded (F := F) (V (Proc.devRef (τ := τ) .tc main_arg0))) (winIdx (F := F) (winSum (F := F))))) (gMaxSq (F := F) (maxW (F := F) (tiled (F := F) (V (Proc.devRef (τ := τ) .tc main_arg0)) (rowIdx (F := F) (rowRem (F := F) (rowSum (F := F))))) (windows (F := F) (padded (F := F) (V (Proc.devRef (τ := τ) .tc main_arg0))) (winIdx (F := F) (winSum (F := F)))))))) := by
  unfold val10
  rw [w10_main_v89]
  rw [val9_main_v73 V, val9_main_v68 V]
  all_goals rfl

/-- The contents after the first 11 groups. -/
def val11 (V : Valuation τ sig (Elt F)) : Valuation τ sig (Elt F) := after ops11 (val10 V)
theorem val11_keep (V : Valuation τ sig (Elt F)) (r : Ref sig .tc) (h : r ∉ ops11_W) :
    val11 V (Proc.devRef .tc r) = val10 V (Proc.devRef .tc r) :=
  after_of_writes_sub ops11 _ ops11_writes h
theorem val11_main_arg0 (V : Valuation τ sig (Elt F)) :
    val11 V (Proc.devRef (τ := τ) .tc main_arg0) = (V (Proc.devRef (τ := τ) .tc main_arg0)) :=
  (val11_keep V main_arg0 (by decide)).trans (val10_main_arg0 V)
theorem val11_main_arg1 (V : Valuation τ sig (Elt F)) :
    val11 V (Proc.devRef (τ := τ) .tc main_arg1) = (V (Proc.devRef (τ := τ) .tc main_arg1)) :=
  (val11_keep V main_arg1 (by decide)).trans (val10_main_arg1 V)
theorem val11_main_v96 (V : Valuation τ sig (Elt F)) :
    val11 V (Proc.devRef (τ := τ) .tc main_v96) = (lossMain (F := F) (weights (F := F) (expo (F := F) (normSq (F := F) (V (Proc.devRef (τ := τ) .tc main_arg0)) (windows (F := F) (padded (F := F) (V (Proc.devRef (τ := τ) .tc main_arg0))) (winIdx (F := F) (winSum (F := F))))) (gMaxSq (F := F) (maxW (F := F) (tiled (F := F) (V (Proc.devRef (τ := τ) .tc main_arg0)) (rowIdx (F := F) (rowRem (F := F) (rowSum (F := F))))) (windows (F := F) (padded (F := F) (V (Proc.devRef (τ := τ) .tc main_arg0))) (winIdx (F := F) (winSum (F := F)))))))) (absDiff (F := F) (V (Proc.devRef (τ := τ) .tc main_arg1)) (windows (F := F) (padded (F := F) (V (Proc.devRef (τ := τ) .tc main_arg1))) (winIdx (F := F) (winSum (F := F)))))) := by
  unfold val11
  rw [w11_main_v96]
  rw [val10_main_v89 V, val10_main_arg1 V, val10_main_v48 V]
  all_goals rfl

/-- The contents after the first 12 groups. -/
def val12 (V : Valuation τ sig (Elt F)) : Valuation τ sig (Elt F) := after ops12 (val11 V)
theorem val12_keep (V : Valuation τ sig (Elt F)) (r : Ref sig .tc) (h : r ∉ ops12_W) :
    val12 V (Proc.devRef .tc r) = val11 V (Proc.devRef .tc r) :=
  after_of_writes_sub ops12 _ ops12_writes h
theorem val12_main_arg0 (V : Valuation τ sig (Elt F)) :
    val12 V (Proc.devRef (τ := τ) .tc main_arg0) = (V (Proc.devRef (τ := τ) .tc main_arg0)) :=
  (val12_keep V main_arg0 (by decide)).trans (val11_main_arg0 V)
theorem val12_main_arg1 (V : Valuation τ sig (Elt F)) :
    val12 V (Proc.devRef (τ := τ) .tc main_arg1) = (V (Proc.devRef (τ := τ) .tc main_arg1)) :=
  (val12_keep V main_arg1 (by decide)).trans (val11_main_arg1 V)
theorem val12_main_v96 (V : Valuation τ sig (Elt F)) :
    val12 V (Proc.devRef (τ := τ) .tc main_v96) = (lossMain (F := F) (weights (F := F) (expo (F := F) (normSq (F := F) (V (Proc.devRef (τ := τ) .tc main_arg0)) (windows (F := F) (padded (F := F) (V (Proc.devRef (τ := τ) .tc main_arg0))) (winIdx (F := F) (winSum (F := F))))) (gMaxSq (F := F) (maxW (F := F) (tiled (F := F) (V (Proc.devRef (τ := τ) .tc main_arg0)) (rowIdx (F := F) (rowRem (F := F) (rowSum (F := F))))) (windows (F := F) (padded (F := F) (V (Proc.devRef (τ := τ) .tc main_arg0))) (winIdx (F := F) (winSum (F := F)))))))) (absDiff (F := F) (V (Proc.devRef (τ := τ) .tc main_arg1)) (windows (F := F) (padded (F := F) (V (Proc.devRef (τ := τ) .tc main_arg1))) (winIdx (F := F) (winSum (F := F)))))) :=
  (val12_keep V main_v96 (by decide)).trans (val11_main_v96 V)
theorem val12_main_v101 (V : Valuation τ sig (Elt F)) :
    val12 V (Proc.devRef (τ := τ) .tc main_v101) = (diffMean (F := F) (V (Proc.devRef (τ := τ) .tc main_arg0)) (V (Proc.devRef (τ := τ) .tc main_arg1))) := by
  unfold val12
  rw [w12_main_v101]
  rw [val11_main_arg0 V, val11_main_arg1 V]
  all_goals rfl
theorem val12_main_cst_15 (V : Valuation τ sig (Elt F)) :
    val12 V (Proc.devRef (τ := τ) .tc main_cst_15) = ((constant S_ .f32 0x3DCCCCCD#32) : (⟨S_, .f32⟩ : BufTy).Contents (Elt F)) := by
  unfold val12
  rw [w12_main_cst_15]
  all_goals rfl

/-- The contents after the first 13 groups. -/
def val13 (V : Valuation τ sig (Elt F)) : Valuation τ sig (Elt F) := after ops13 (val12 V)
theorem val13_keep (V : Valuation τ sig (Elt F)) (r : Ref sig .tc) (h : r ∉ ops13_W) :
    val13 V (Proc.devRef .tc r) = val12 V (Proc.devRef .tc r) :=
  after_of_writes_sub ops13 _ ops13_writes h
theorem val13_main_arg0 (V : Valuation τ sig (Elt F)) :
    val13 V (Proc.devRef (τ := τ) .tc main_arg0) = (V (Proc.devRef (τ := τ) .tc main_arg0)) :=
  (val13_keep V main_arg0 (by decide)).trans (val12_main_arg0 V)
theorem val13_main_arg1 (V : Valuation τ sig (Elt F)) :
    val13 V (Proc.devRef (τ := τ) .tc main_arg1) = (V (Proc.devRef (τ := τ) .tc main_arg1)) :=
  (val13_keep V main_arg1 (by decide)).trans (val12_main_arg1 V)
theorem val13_main_v104 (V : Valuation τ sig (Elt F)) :
    val13 V (Proc.devRef (τ := τ) .tc main_v104) = (lossTail (F := F) (lossMain (F := F) (weights (F := F) (expo (F := F) (normSq (F := F) (V (Proc.devRef (τ := τ) .tc main_arg0)) (windows (F := F) (padded (F := F) (V (Proc.devRef (τ := τ) .tc main_arg0))) (winIdx (F := F) (winSum (F := F))))) (gMaxSq (F := F) (maxW (F := F) (tiled (F := F) (V (Proc.devRef (τ := τ) .tc main_arg0)) (rowIdx (F := F) (rowRem (F := F) (rowSum (F := F))))) (windows (F := F) (padded (F := F) (V (Proc.devRef (τ := τ) .tc main_arg0))) (winIdx (F := F) (winSum (F := F)))))))) (absDiff (F := F) (V (Proc.devRef (τ := τ) .tc main_arg1)) (windows (F := F) (padded (F := F) (V (Proc.devRef (τ := τ) .tc main_arg1))) (winIdx (F := F) (winSum (F := F)))))) (diffMean (F := F) (V (Proc.devRef (τ := τ) .tc main_arg0)) (V (Proc.devRef (τ := τ) .tc main_arg1)))) := by
  unfold val13
  rw [w13_main_v104]
  rw [val12_main_v96 V, val12_main_cst_15 V, val12_main_v101 V]
  all_goals rfl

theorem after_ops (V : Valuation τ sig (Elt F)) : after ops V = val13 V := by
  simp only [ops, after_app]
  rfl

/-- On every device, for any float values, from any memory with zero counters: every weakly fair execution of
    the reference terminates with its result at the staged term of the two arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v104) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v104).trans (by simp only [after_ops]; exact val13_main_v104 (launchContents m c)),
      (h c main_arg0).trans (by simp only [after_ops]; exact val13_main_arg0 (launchContents m c)),
      (h c main_arg1).trans (by simp only [after_ops]; exact val13_main_arg1 (launchContents m c))⟩)
    (run_seq scopedRefs_eq scopedSems_eq defs main (fun _ => ops) main_eq (fun _ => ops_sub) m ρ (fun _ => ops_fresh))

end Cert.ReferenceIdeal.Hand

end
-- ==== Proof.Spec.lean ====
import Idealize.ShloMosaic.PureOps.Ideal

noncomputable section

open scoped BigOperators

/-! The windowed weighted L1 loss as plain mathematics over the extended reals, index by index.

  `A`, `B` are the two argument arrays read at (row, column); `PA`, `PB` are their padded forms
  (761 columns). For a row `b`, a column `t` and a window offset `c` below 11 the window reads the
  padded column `t + c` and the array row `(11 b + c) mod 4096`. Float literals are kept as the
  words they are read from. -/

namespace Cert.Spec

open Idealize.ShloMosaic

/-- The array row the window offset `c` of row `b` reads: `(11 b + c) mod 4096`. -/
def windowRow (b : Fin 4096) (c : Fin 11) : Fin 4096 := ⟨(11 * b.val + c.val) % 4096, Nat.mod_lt _ (by decide)⟩

/-- The padded column the window offset `c` of column `t` reads: `t + c`. -/
def windowCol (t : Fin 750) (c : Fin 11) : Fin 761 := ⟨t.val + c.val, by omega⟩

section
variable (A B : Fin 4096 → Fin 750 → EReal) (PA PB : Fin 4096 → Fin 761 → EReal)

/-- The gathered row minus the window. -/
def cur (b : Fin 4096) (t : Fin 750) (c : Fin 11) : EReal := A (windowRow b c) t - PA b (windowCol t c)

/-- The maximum of `cur` over the window, folded from minus infinity. -/
def runningMax (b : Fin 4096) (t : Fin 750) : EReal :=
  (Finset.univ : Finset (Fin 11)).fold max (Ideal.ofBits .f32 0xFF800000#32) (fun c => cur A PA b t c)

/-- The squared distance between column `t` and its window column, summed over the rows, from zero. -/
def normSq (t : Fin 750) (c : Fin 11) : EReal :=
  0 + ∑ b : Fin 4096, (A b t - PA b (windowCol t c)) * (A b t - PA b (windowCol t c))

/-- One times the running maximum, times the running maximum. -/
def gain (b : Fin 4096) (t : Fin 750) : EReal :=
  (Ideal.ofBits .f32 0x3F800000#32 * runningMax A PA b t) * runningMax A PA b t

/-- The exponent: the positive part of the squared distance less the gain, plus the gain. -/
def expo (b : Fin 4096) (t : Fin 750) (c : Fin 11) : EReal :=
  max (normSq A PA t c - gain A PA b t) 0 + gain A PA b t

/-- The weight: the exponential of minus the exponent over two. -/
def weight (b : Fin 4096) (t : Fin 750) (c : Fin 11) : EReal :=
  Ideal.exp (Ideal.div (-(expo A PA b t c)) (Ideal.ofBits .f32 0x40000000#32))

/-- The absolute difference of the second array and its window. -/
def absDiff (b : Fin 4096) (t : Fin 750) (c : Fin 11) : EReal :=
  max (B b t - PB b (windowCol t c)) (-(B b t - PB b (windowCol t c)))

/-- The weighted absolute differences summed over rows, columns and window offsets, from zero. -/
def weightedTotal : EReal :=
  0 + ∑ b : Fin 4096, ∑ t : Fin 750, ∑ c : Fin 11, weight A PA b t c * absDiff B PB b t c

/-- The squared differences of the two arrays summed over each row's columns from zero, then over the rows from zero. -/
def diffTotal : EReal :=
  0 + ∑ b : Fin 4096, (0 + ∑ t : Fin 750, (A b t - B b t) * (A b t - B b t))

/-- The loss: the weighted total over 4096 plus a tenth of the squared-difference total over 4096, times one. -/
def loss : EReal :=
  (Ideal.div (weightedTotal A B PA PB) (Ideal.ofBits .f32 0x45800000#32)
      + Ideal.ofBits .f32 0x3DCCCCCD#32 * Ideal.div (diffTotal A B) (Ideal.ofBits .f32 0x45800000#32))
    * Ideal.ofBits .f32 0x3F800000#32

end

end Cert.Spec

end
-- ==== Proof.LibBlocks.lean ====
/-
  Sums over the rows of an array taken block by block, and an accumulator that adds one term per step.

  The 4096 rows are 32 consecutive blocks of 128: a sum over the rows is the sum over the blocks of the sums over
  each block's rows. An accumulator that starts from `z` and adds `s i` at step `i` holds, after step `n`, `z`
  plus the sum of the terms up to `n`.
-/
import Mathlib.Algebra.BigOperators.Fin
import Mathlib.Logic.Equiv.Fin.Basic

open scoped BigOperators

namespace Cert.Lib.Blocks

/-- Row `r` of block `i`. -/
def rowOf (i : Fin 32) (r : Fin 128) : Fin 4096 := ⟨128 * i.val + r.val, by omega⟩

theorem rowOf_val (i : Fin 32) (r : Fin 128) : (rowOf i r).val = 128 * i.val + r.val := rfl

/-- Every row is a row of its block. -/
theorem rowOf_div_mod (b : Fin 4096) :
    rowOf ⟨b.val / 128, by omega⟩ ⟨b.val % 128, Nat.mod_lt _ (by decide)⟩ = b :=
  Fin.ext (by rw [rowOf_val]; exact Nat.div_add_mod b.val 128)

/-- A sum over the 4096 rows, block by block. -/
theorem sum_rows {M : Type*} [AddCommMonoid M] (f : Fin 4096 → M) :
    ∑ b : Fin 4096, f b = ∑ i : Fin 32, ∑ r : Fin 128, f (rowOf i r) := by
  rw [← Fintype.sum_prod_type']
  refine (Fintype.sum_equiv (finProdFinEquiv (m := 32) (n := 128)) (fun p => f (rowOf p.1 p.2)) f (fun p => ?_)).symm
  refine congrArg f (Fin.ext ?_)
  simp only [rowOf_val, finProdFinEquiv_apply_val]
  omega

/-- An accumulator adding one term per step, over the naturals below a bound. -/
theorem acc_eq_sum {M : Type*} [AddCommMonoid M] {N : ℕ} (z : M) (s : Fin N → M) (acc : (n : ℕ) → n < N → M)
    (h0 : ∀ h : 0 < N, acc 0 h = z + s ⟨0, h⟩)
    (hs : ∀ (n : ℕ) (h : n + 1 < N), acc (n + 1) h = acc n (Nat.lt_of_succ_lt h) + s ⟨n + 1, h⟩) :
    ∀ (n : ℕ) (h : n < N), acc n h = z + ∑ i : Fin (n + 1), s ⟨i.val, lt_of_lt_of_le i.isLt h⟩ := by
  intro n
  induction n with
  | zero => intro h; rw [h0 h]; simp
  | succ n ih =>
    intro h
    rw [hs n h, ih (Nat.lt_of_succ_lt h), Fin.sum_univ_castSucc (n := n + 1), add_assoc]
    rfl

end Cert.Lib.Blocks
-- ==== Proof.BridgeMath.lean ====
/-
  The specification's totals, tile by tile.

  The reference sums over all 4096 batch rows at once; the kernel visits them as 32 tiles of 128 rows and, in
  its second region, window column by window column within a tile. Addition on the extended reals is
  commutative and associative, so each total is the sum over the tiles of the tile's share, in whatever order
  the tile's share is taken; no finiteness is needed. The per-window maximum over the eleven window columns,
  a commutative fold in the specification, is the left fold from the first column that the kernel performs.
-/
import proofs.«124353_j3959959847205_1_alg».proof.Proof.Spec
import proofs.«124353_j3959959847205_1_alg».proof.Proof.LibBlocks

noncomputable section

open scoped BigOperators

namespace Cert.Bridge

open Idealize.ShloMosaic Cert.Spec Cert.Lib.Blocks

variable (A B : Fin 4096 → Fin 750 → EReal) (PA PB : Fin 4096 → Fin 761 → EReal)

/-- One term of the weighted total: the weight from the squared-norm entry `ns` and the window maximum `mw`, times
    the absolute difference of `y` and `z`. -/
def elem (ns mw y z : EReal) : EReal :=
  Ideal.exp (Ideal.div (-(max (ns - (Ideal.ofBits .f32 0x3F800000#32 * mw) * mw) 0 + (Ideal.ofBits .f32 0x3F800000#32 * mw) * mw))
    (Ideal.ofBits .f32 0x40000000#32)) * max (y - z) (-(y - z))

theorem weight_mul_absDiff (b : Fin 4096) (t : Fin 750) (c : Fin 11) :
    weight A PA b t c * absDiff B PB b t c
      = elem (normSq A PA t c) (runningMax A PA b t) (B b t) (PB b ⟨t.val + c.val, by omega⟩) := rfl

/-- The squared-norm entries, tile by tile. -/
theorem normSq_blocks (t : Fin 750) (c : Fin 11) :
    normSq A PA t c = ∑ i : Fin 32, ∑ r : Fin 128,
      (A (rowOf i r) t - PA (rowOf i r) ⟨t.val + c.val, by omega⟩) * (A (rowOf i r) t - PA (rowOf i r) ⟨t.val + c.val, by omega⟩) := by
  unfold normSq
  rw [zero_add, sum_rows]
  rfl

/-- The squared-difference total, tile by tile. -/
theorem diffTotal_blocks :
    diffTotal A B = ∑ i : Fin 32, ∑ r : Fin 128, ∑ t : Fin 750,
      (A (rowOf i r) t - B (rowOf i r) t) * (A (rowOf i r) t - B (rowOf i r) t) := by
  unfold diffTotal
  rw [zero_add, sum_rows]
  simp only [zero_add]

/-- The weighted total, tile by tile and, within a tile, window column by window column. -/
theorem weightedTotal_blocks :
    weightedTotal A B PA PB = ∑ i : Fin 32, ∑ c : Fin 11, ∑ r : Fin 128, ∑ t : Fin 750,
      elem (normSq A PA t c) (runningMax A PA (rowOf i r) t) (B (rowOf i r) t) (PB (rowOf i r) ⟨t.val + c.val, by omega⟩) := by
  unfold weightedTotal
  rw [zero_add, sum_rows]
  refine Finset.sum_congr rfl fun i _ => ?_
  simp only [weight_mul_absDiff]
  exact (Finset.sum_congr rfl fun r _ => Finset.sum_comm).trans Finset.sum_comm

/-- The window maximum as the left fold from the first window column. -/
theorem runningMax_foldl (b : Fin 4096) (t : Fin 750) :
    runningMax A PA b t
      = (List.finRange 11).foldl (fun acc k => max acc (cur A PA b t k)) (Ideal.ofBits .f32 0xFF800000#32) := by
  unfold runningMax Finset.fold
  rw [Fin.univ_val_map, Multiset.coe_fold_l, List.ofFn_eq_map, List.foldl_map]

end Cert.Bridge

end
-- ==== Proof.BridgeTail.lean ====
/-
  The kernel's result is the specification's loss.

  At the ideal instance the last host stretch computes (total / 4096 + 0.1·(dsq / 4096))·1 from the second
  region's weighted total and the first region's squared-difference total, with the same literal words the
  specification carries; so once the two totals are the specification's, the result buffer is its loss.
-/
import proofs.«124353_j3959959847205_1_alg».proof.Proof.KFrame
import proofs.«124353_j3959959847205_1_alg».proof.Proof.BridgeMath
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.ValueIdx
open Cert.KernelIdeal Cert.KernelIdeal.Host

/-- The tail at the ideal instance, read at its one index. -/
theorem lossTail_apply (T D : FVec Ideal S1x1 .f32) (i : S_.Idx) :
    lossTail (F := Ideal) T D i
      = (Ideal.div (T (ix2 0 0)) (Ideal.ofBits .f32 0x45800000#32)
          + Ideal.ofBits .f32 0x3DCCCCCD#32 * Ideal.div (D (ix2 0 0)) (Ideal.ofBits .f32 0x45800000#32))
        * Ideal.ofBits .f32 0x3F800000#32 := by
  have hk : ((S1x1 : Shape).rowMajor (ix2 (0 : Fin 1) (0 : Fin 1))).val = ((S_ : Shape).rowMajor i).val := by
    have h1 := ((S1x1 : Shape).rowMajor (ix2 (0 : Fin 1) (0 : Fin 1))).isLt
    have h2 := ((S_ : Shape).rowMajor i).isLt
    have e1 : (S1x1 : Shape).numel = 1 := by decide
    have e2 : (S_ : Shape).numel = 1 := by decide
    omega
  simp only [lossTail, mulf, addf, Host.divf, constant, Ideal.hostDivf_def, Ideal.mulf_def, Ideal.addf_def, Ideal.ofBits_def]
  rw [shapeCast_apply T Gen.shapeCasts_S1x1_S_ i (ix2 0 0) hk, shapeCast_apply D Gen.shapeCasts_S1x1_S_ i (ix2 0 0) hk]

/-- Once the two totals are the specification's, the tail is its loss. -/
theorem lossTail_spec (T D : FVec Ideal S1x1 .f32) (A B : Fin 4096 → Fin 750 → EReal) (PA PB : Fin 4096 → Fin 761 → EReal)
    (hT : T (ix2 0 0) = Cert.Spec.weightedTotal A B PA PB) (hD : D (ix2 0 0) = Cert.Spec.diffTotal A B) :
    lossTail (F := Ideal) T D = fun _ => Cert.Spec.loss A B PA PB := by
  funext i
  rw [lossTail_apply, hT, hD]
  rfl

end Cert.Bridge

end
-- ==== Proof.R0Pay.lean ====
import proofs.«124353_j3959959847205_1_alg».proof.Proof.R0Runs
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
set_option pp.maxSteps 6000
set_option pp.deepTerms false

/-! # Region 0: what one point computes, read at an index

The padded block shifted `c` columns; each row of the first accumulator's increment as the column sum of squared
differences at its shift; the second accumulator's increment as the block's total; the result block as the nested
maximum. The layout steps hold at any float instance, the sums at the extended reals. -/

/-- The padded block shifted `c` columns: entry `(r, j)` is the block's `(r, j + c)`. -/
def sh {α : Type} (c : Fin 11) (v : S128x761.Idx → α) : S128x750.Idx → α :=
  fun x => v (ix2 (x 0) ⟨(x 1).val + c.val, by have : (x 1).val < 750 := (x 1).isLt; have := c.isLt; omega⟩)

theorem pay4_eq (v4 : Vec F S128x761 .f32) : k0_pay4 v4 = v4 := shapeCast_self _ _

theorem pay5_eq (v4 : Vec F S128x761 .f32) : k0_pay5 v4 = sh 0 v4 := by
  funext x
  unfold k0_pay5
  rw [pay4_eq]
  refine extractStridedSlice_apply _ _ _ x _ fun a => ?_
  match a with
  | ⟨0, _⟩ => show (x 0).val = 0 + (x 0).val; omega
  | ⟨1, _⟩ => show (x 1).val + 0 = 0 + (x 1).val; omega
theorem pay7_eq (v4 : Vec F S128x761 .f32) : k0_pay7 v4 = sh 1 v4 := by
  funext x
  unfold k0_pay7
  rw [pay4_eq]
  refine extractStridedSlice_apply _ _ _ x _ fun a => ?_
  match a with
  | ⟨0, _⟩ => show (x 0).val = 0 + (x 0).val; omega
  | ⟨1, _⟩ => show (x 1).val + 1 = 1 + (x 1).val; omega
theorem pay9_eq (v4 : Vec F S128x761 .f32) : k0_pay9 v4 = sh 2 v4 := by
  funext x
  unfold k0_pay9
  rw [pay4_eq]
  refine extractStridedSlice_apply _ _ _ x _ fun a => ?_
  match a with
  | ⟨0, _⟩ => show (x 0).val = 0 + (x 0).val; omega
  | ⟨1, _⟩ => show (x 1).val + 2 = 2 + (x 1).val; omega
theorem pay12_eq (v4 : Vec F S128x761 .f32) : k0_pay12 v4 = sh 3 v4 := by
  funext x
  unfold k0_pay12
  rw [pay4_eq]
  refine extractStridedSlice_apply _ _ _ x _ fun a => ?_
  match a with
  | ⟨0, _⟩ => show (x 0).val = 0 + (x 0).val; omega
  | ⟨1, _⟩ => show (x 1).val + 3 = 3 + (x 1).val; omega
theorem pay15_eq (v5 : FVec F S128x761 .f32) : k0_pay15 v5 = sh 4 v5 := by
  funext x
  unfold k0_pay15
  refine extractStridedSlice_apply _ _ _ x _ fun a => ?_
  match a with
  | ⟨0, _⟩ => show (x 0).val = 0 + (x 0).val; omega
  | ⟨1, _⟩ => show (x 1).val + 4 = 4 + (x 1).val; omega
theorem pay17_eq (v5 : FVec F S128x761 .f32) : k0_pay17 v5 = sh 5 v5 := by
  funext x
  unfold k0_pay17
  refine extractStridedSlice_apply _ _ _ x _ fun a => ?_
  match a with
  | ⟨0, _⟩ => show (x 0).val = 0 + (x 0).val; omega
  | ⟨1, _⟩ => show (x 1).val + 5 = 5 + (x 1).val; omega
theorem pay19_eq (v5 : FVec F S128x761 .f32) : k0_pay19 v5 = sh 6 v5 := by
  funext x
  unfold k0_pay19
  refine extractStridedSlice_apply _ _ _ x _ fun a => ?_
  match a with
  | ⟨0, _⟩ => show (x 0).val = 0 + (x 0).val; omega
  | ⟨1, _⟩ => show (x 1).val + 6 = 6 + (x 1).val; omega
theorem pay21_eq (v5 : FVec F S128x761 .f32) : k0_pay21 v5 = sh 7 v5 := by
  funext x
  unfold k0_pay21
  refine extractStridedSlice_apply _ _ _ x _ fun a => ?_
  match a with
  | ⟨0, _⟩ => show (x 0).val = 0 + (x 0).val; omega
  | ⟨1, _⟩ => show (x 1).val + 7 = 7 + (x 1).val; omega
theorem pay24_eq (v5 : FVec F S128x761 .f32) : k0_pay24 v5 = sh 8 v5 := by
  funext x
  unfold k0_pay24
  refine extractStridedSlice_apply _ _ _ x _ fun a => ?_
  match a with
  | ⟨0, _⟩ => show (x 0).val = 0 + (x 0).val; omega
  | ⟨1, _⟩ => show (x 1).val + 8 = 8 + (x 1).val; omega
theorem pay25_eq (v5 : FVec F S128x761 .f32) : k0_pay25 v5 = sh 9 v5 := by
  funext x
  unfold k0_pay25
  refine extractStridedSlice_apply _ _ _ x _ fun a => ?_
  match a with
  | ⟨0, _⟩ => show (x 0).val = 0 + (x 0).val; omega
  | ⟨1, _⟩ => show (x 1).val + 9 = 9 + (x 1).val; omega
theorem pay26_eq (v5 : FVec F S128x761 .f32) : k0_pay26 v5 = sh 10 v5 := by
  funext x
  unfold k0_pay26
  refine extractStridedSlice_apply _ _ _ x _ fun a => ?_
  match a with
  | ⟨0, _⟩ => show (x 0).val = 0 + (x 0).val; omega
  | ⟨1, _⟩ => show (x 1).val + 10 = 10 + (x 1).val; omega

theorem tile0_apply (x3 : Vec F S11x128x750 .f32) (h : S1x128x750.ShapeCasts S128x750) (r : Fin 128) (j : Fin 750) :
    shapeCast S128x750 (View.ld x3 rT0) h (ix2 r j) = x3 (ix3 0 r j) := by
  refine (shapeCast_dropUnit_apply ![128, 750] (View.ld x3 rT0) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile1_apply (x3 : Vec F S11x128x750 .f32) (h : S1x128x750.ShapeCasts S128x750) (r : Fin 128) (j : Fin 750) :
    shapeCast S128x750 (View.ld x3 rT1) h (ix2 r j) = x3 (ix3 1 r j) := by
  refine (shapeCast_dropUnit_apply ![128, 750] (View.ld x3 rT1) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile2_apply (x3 : Vec F S11x128x750 .f32) (h : S1x128x750.ShapeCasts S128x750) (r : Fin 128) (j : Fin 750) :
    shapeCast S128x750 (View.ld x3 rT2) h (ix2 r j) = x3 (ix3 2 r j) := by
  refine (shapeCast_dropUnit_apply ![128, 750] (View.ld x3 rT2) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile3_apply (x3 : Vec F S11x128x750 .f32) (h : S1x128x750.ShapeCasts S128x750) (r : Fin 128) (j : Fin 750) :
    shapeCast S128x750 (View.ld x3 rT3) h (ix2 r j) = x3 (ix3 3 r j) := by
  refine (shapeCast_dropUnit_apply ![128, 750] (View.ld x3 rT3) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile4_apply (x3 : Vec F S11x128x750 .f32) (h : S1x128x750.ShapeCasts S128x750) (r : Fin 128) (j : Fin 750) :
    shapeCast S128x750 (View.ld x3 rT4) h (ix2 r j) = x3 (ix3 4 r j) := by
  refine (shapeCast_dropUnit_apply ![128, 750] (View.ld x3 rT4) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile5_apply (x3 : Vec F S11x128x750 .f32) (h : S1x128x750.ShapeCasts S128x750) (r : Fin 128) (j : Fin 750) :
    shapeCast S128x750 (View.ld x3 rT5) h (ix2 r j) = x3 (ix3 5 r j) := by
  refine (shapeCast_dropUnit_apply ![128, 750] (View.ld x3 rT5) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile6_apply (x3 : Vec F S11x128x750 .f32) (h : S1x128x750.ShapeCasts S128x750) (r : Fin 128) (j : Fin 750) :
    shapeCast S128x750 (View.ld x3 rT6) h (ix2 r j) = x3 (ix3 6 r j) := by
  refine (shapeCast_dropUnit_apply ![128, 750] (View.ld x3 rT6) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile7_apply (x3 : Vec F S11x128x750 .f32) (h : S1x128x750.ShapeCasts S128x750) (r : Fin 128) (j : Fin 750) :
    shapeCast S128x750 (View.ld x3 rT7) h (ix2 r j) = x3 (ix3 7 r j) := by
  refine (shapeCast_dropUnit_apply ![128, 750] (View.ld x3 rT7) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile8_apply (x3 : Vec F S11x128x750 .f32) (h : S1x128x750.ShapeCasts S128x750) (r : Fin 128) (j : Fin 750) :
    shapeCast S128x750 (View.ld x3 rT8) h (ix2 r j) = x3 (ix3 8 r j) := by
  refine (shapeCast_dropUnit_apply ![128, 750] (View.ld x3 rT8) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile9_apply (x3 : Vec F S11x128x750 .f32) (h : S1x128x750.ShapeCasts S128x750) (r : Fin 128) (j : Fin 750) :
    shapeCast S128x750 (View.ld x3 rT9) h (ix2 r j) = x3 (ix3 9 r j) := by
  refine (shapeCast_dropUnit_apply ![128, 750] (View.ld x3 rT9) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega
theorem tile10_apply (x3 : Vec F S11x128x750 .f32) (h : S1x128x750.ShapeCasts S128x750) (r : Fin 128) (j : Fin 750) :
    shapeCast S128x750 (View.ld x3 rT10) h (ix2 r j) = x3 (ix3 10 r j) := by
  refine (shapeCast_dropUnit_apply ![128, 750] (View.ld x3 rT10) h (ix2 r j)).trans ?_
  show x3 _ = x3 _
  congr 1
  funext a
  apply Fin.ext
  match a with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + r.val = r.val; omega
  | ⟨2, _⟩ => simp only [LoadRect.idx_apply, Rect.emb_apply, Rect.off_unit, Rect.stride_unit, Nat.one_mul]; show 0 + j.val = j.val; omega

/-! ## At the extended reals -/

/-- A column sum over the block's 128 rows, kept as a one-row block. -/
theorem colsum_apply (src : FVec Ideal S128x750 .f32) (j : Fin 750) :
    shapeCast S1x750 (multiReduction .add [0] S750 src 0x00000000#32 reduces_S128x750_S750 (.inl rfl) rfl) shapeCasts_S750_S1x750 (ix2 0 j)
      = ∑ r : Fin 128, src (ix2 r j) := by
  refine (shapeCast_apply _ _ (ix2 0 j) (ix1 j) ?_).trans ?_
  · rw [Shape.rowMajor_val_one, Shape.rowMajor_val_two]; show j.val = 0 * 750 + j.val; omega
  refine (Ideal.multiReduction_add_single src 0x00000000#32 reduces_S128x750_S750 (.inl rfl) rfl (ix1 j)).trans ?_
  refine Finset.sum_congr rfl fun r _ => ?_
  congr 1
  funext a
  match a with
  | ⟨0, _⟩ => rfl
  | ⟨1, _⟩ => rfl

/-- Column `j`'s sum, over the block's rows, of the squared difference between `v3` and the padded block at shift `c`. -/
def colsq (c : Fin 11) (v3 : Vec Ideal S128x750 .f32) (v : Vec Ideal S128x761 .f32) (j : Fin 750) : EReal :=
  ∑ r : Fin 128, (v3 (ix2 r j) - sh c v (ix2 r j)) * (v3 (ix2 r j) - sh c v (ix2 r j))

theorem pay6_apply (v3 : Vec Ideal S128x750 .f32) (v4 : Vec Ideal S128x761 .f32) (j : Fin 750) :
    k0_pay6 v3 v4 (ix2 0 j) = colsq 0 v3 v4 j := by
  unfold k0_pay6
  rw [pay5_eq]
  exact colsum_apply _ j
theorem pay8_apply (v3 : Vec Ideal S128x750 .f32) (v4 : Vec Ideal S128x761 .f32) (j : Fin 750) :
    k0_pay8 v3 v4 (ix2 0 j) = colsq 1 v3 v4 j := by
  unfold k0_pay8
  rw [pay7_eq]
  exact colsum_apply _ j
theorem pay10_apply (v3 : Vec Ideal S128x750 .f32) (v4 : Vec Ideal S128x761 .f32) (j : Fin 750) :
    k0_pay10 v3 v4 (ix2 0 j) = colsq 2 v3 v4 j := by
  unfold k0_pay10
  rw [pay9_eq]
  exact colsum_apply _ j
theorem pay16_apply (v3 : Vec Ideal S128x750 .f32) (v5 : Vec Ideal S128x761 .f32) (j : Fin 750) :
    k0_pay16 v3 v5 (ix2 0 j) = colsq 4 v3 v5 j := by
  unfold k0_pay16
  rw [pay15_eq]
  exact colsum_apply _ j
theorem pay18_apply (v3 : Vec Ideal S128x750 .f32) (v5 : Vec Ideal S128x761 .f32) (j : Fin 750) :
    k0_pay18 v3 v5 (ix2 0 j) = colsq 5 v3 v5 j := by
  unfold k0_pay18
  rw [pay17_eq]
  exact colsum_apply _ j
theorem pay20_apply (v3 : Vec Ideal S128x750 .f32) (v5 : Vec Ideal S128x761 .f32) (j : Fin 750) :
    k0_pay20 v3 v5 (ix2 0 j) = colsq 6 v3 v5 j := by
  unfold k0_pay20
  rw [pay19_eq]
  exact colsum_apply _ j
theorem pay22_apply (v3 : Vec Ideal S128x750 .f32) (v5 : Vec Ideal S128x761 .f32) (j : Fin 750) :
    k0_pay22 v3 v5 (ix2 0 j) = colsq 7 v3 v5 j := by
  unfold k0_pay22
  rw [pay21_eq]
  exact colsum_apply _ j
theorem pay14_apply (v3 : Vec Ideal S128x750 .f32) (v4 : Vec Ideal S128x761 .f32) (j : Fin 750) :
    k0_pay14 (k0_pay13 v3 v4) (ix2 0 j) = colsq 3 v3 v4 j := by
  unfold k0_pay14 k0_pay13
  rw [pay12_eq]
  exact colsum_apply _ j

/-- Eleven one-row pieces stacked: row `k` of the stack is piece `k`. -/
theorem concat11_apply {α : Type} (p0 p1 p2 p3 p4 p5 p6 p7 p8 p9 p10 : S1x750.Idx → α)
    (h : Shape.Concatenates [S1x750, S1x750, S1x750, S1x750, S1x750, S1x750, S1x750, S1x750, S1x750, S1x750, S1x750] S11x750 0)
    (k : Fin 11) (j : Fin 750) :
    concatenate S11x750 0 [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 k j)
      = (![p0, p1, p2, p3, p4, p5, p6, p7, p8, p9, p10] k) (ix2 0 j) := by
  match k with
  | ⟨0, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (0 : Fin 11) j) 0 (by simp) S1x750 p0 rfl rfl 0 rfl (ix2 0 j) (fun b hb => by match b with | ⟨0, _⟩ => exact absurd rfl hb | ⟨1, _⟩ => rfl) (by rfl)
  | ⟨1, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (1 : Fin 11) j) 1 (by simp) S1x750 p1 rfl rfl 1 rfl (ix2 0 j) (fun b hb => by match b with | ⟨0, _⟩ => exact absurd rfl hb | ⟨1, _⟩ => rfl) (by rfl)
  | ⟨2, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (2 : Fin 11) j) 2 (by simp) S1x750 p2 rfl rfl 2 rfl (ix2 0 j) (fun b hb => by match b with | ⟨0, _⟩ => exact absurd rfl hb | ⟨1, _⟩ => rfl) (by rfl)
  | ⟨3, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (3 : Fin 11) j) 3 (by simp) S1x750 p3 rfl rfl 3 rfl (ix2 0 j) (fun b hb => by match b with | ⟨0, _⟩ => exact absurd rfl hb | ⟨1, _⟩ => rfl) (by rfl)
  | ⟨4, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (4 : Fin 11) j) 4 (by simp) S1x750 p4 rfl rfl 4 rfl (ix2 0 j) (fun b hb => by match b with | ⟨0, _⟩ => exact absurd rfl hb | ⟨1, _⟩ => rfl) (by rfl)
  | ⟨5, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (5 : Fin 11) j) 5 (by simp) S1x750 p5 rfl rfl 5 rfl (ix2 0 j) (fun b hb => by match b with | ⟨0, _⟩ => exact absurd rfl hb | ⟨1, _⟩ => rfl) (by rfl)
  | ⟨6, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (6 : Fin 11) j) 6 (by simp) S1x750 p6 rfl rfl 6 rfl (ix2 0 j) (fun b hb => by match b with | ⟨0, _⟩ => exact absurd rfl hb | ⟨1, _⟩ => rfl) (by rfl)
  | ⟨7, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (7 : Fin 11) j) 7 (by simp) S1x750 p7 rfl rfl 7 rfl (ix2 0 j) (fun b hb => by match b with | ⟨0, _⟩ => exact absurd rfl hb | ⟨1, _⟩ => rfl) (by rfl)
  | ⟨8, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (8 : Fin 11) j) 8 (by simp) S1x750 p8 rfl rfl 8 rfl (ix2 0 j) (fun b hb => by match b with | ⟨0, _⟩ => exact absurd rfl hb | ⟨1, _⟩ => rfl) (by rfl)
  | ⟨9, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (9 : Fin 11) j) 9 (by simp) S1x750 p9 rfl rfl 9 rfl (ix2 0 j) (fun b hb => by match b with | ⟨0, _⟩ => exact absurd rfl hb | ⟨1, _⟩ => rfl) (by rfl)
  | ⟨10, _⟩ => exact concatenate_apply_piece (t := S11x750) (0 : Fin 2) [⟨S1x750, p0⟩, ⟨S1x750, p1⟩, ⟨S1x750, p2⟩, ⟨S1x750, p3⟩, ⟨S1x750, p4⟩, ⟨S1x750, p5⟩, ⟨S1x750, p6⟩, ⟨S1x750, p7⟩, ⟨S1x750, p8⟩, ⟨S1x750, p9⟩, ⟨S1x750, p10⟩] h (ix2 (10 : Fin 11) j) 10 (by simp) S1x750 p10 rfl rfl 10 rfl (ix2 0 j) (fun b hb => by match b with | ⟨0, _⟩ => exact absurd rfl hb | ⟨1, _⟩ => rfl) (by rfl)

/-- The first accumulator's step at row `k`, column `j`: what it held plus the column sum of squared differences at
    shift `k`. -/
theorem nsStep_apply (x0 : Vec Ideal S128x750 .f32) (x2 : Vec Ideal S128x761 .f32) (s : Vec Ideal S11x750 .f32) (k : Fin 11) (j : Fin 750) :
    nsStep x0 x2 s (ix2 k j) = s (ix2 k j) + colsq k x0 x2 j := by
  unfold nsStep
  rw [View.ld_unit_zero (S := S128x750) hz2 inb_S128x750_S128x750_0_0 x0, View.ld_unit_zero (S := S128x761) hz2 inb_S128x761_S128x761_0_0 x2,
    View.ld_unit_zero (S := S11x750) hz2 inb_S11x750_S11x750_0_0 s, pay4_eq]
  unfold k0_pay28
  simp only [shapeCast_self]
  refine congrArg (s (ix2 k j) + ·) ?_
  rw [concat11_apply]
  match k with
  | ⟨0, _⟩ => exact pay6_apply x0 x2 j
  | ⟨1, _⟩ => exact pay8_apply x0 x2 j
  | ⟨2, _⟩ => exact pay10_apply x0 x2 j
  | ⟨3, _⟩ => exact pay14_apply x0 x2 j
  | ⟨4, _⟩ => exact pay16_apply x0 x2 j
  | ⟨5, _⟩ => exact pay18_apply x0 x2 j
  | ⟨6, _⟩ => exact pay20_apply x0 x2 j
  | ⟨7, _⟩ => exact pay22_apply x0 x2 j
  | ⟨8, _⟩ => (rw [pay24_eq]; exact colsum_apply _ j)
  | ⟨9, _⟩ => (rw [pay25_eq]; exact colsum_apply _ j)
  | ⟨10, _⟩ => (rw [pay26_eq]; exact colsum_apply _ j)

/-- The second accumulator's step: what it held plus the block's total of squared differences. -/
theorem dsqStep_apply (x0 x1 : Vec Ideal S128x750 .f32) (s : Vec Ideal S1x1 .f32) :
    dsqStep x0 x1 s (ix2 0 0) = s (ix2 0 0) + ∑ r : Fin 128, ∑ j : Fin 750, (x0 (ix2 r j) - x1 (ix2 r j)) * (x0 (ix2 r j) - x1 (ix2 r j)) := by
  unfold dsqStep
  rw [View.ld_unit_zero (S := S128x750) hz2 inb_S128x750_S128x750_0_0 x0, View.ld_unit_zero (S := S128x750) hz2 inb_S128x750_S128x750_0_0 x1,
    View.ld_unit_zero (S := S1x1) hz2 inb_S1x1_S1x1_0_0 s]
  unfold k0_pay1 k0_pay29
  simp only [shapeCast_self]
  refine congrArg (s (ix2 0 0) + ·) ?_
  refine (shapeCast_apply _ _ (ix2 0 0) (ix1 0) ?_).trans ?_
  · rw [Shape.rowMajor_val_one, Shape.rowMajor_val_two]; rfl
  refine (Ideal.multiReduction_add_single _ 0x00000000#32 reduces_S128x1_S1 (.inl rfl) rfl (ix1 0)).trans ?_
  refine Finset.sum_congr rfl fun r _ => ?_
  have e : reduces_S128x1_S1.lift (ix1 0) r = ix2 r 0 := by
    funext a
    match a with
    | ⟨0, _⟩ => rfl
    | ⟨1, _⟩ => rfl
  rw [e]
  refine (shapeCast_apply _ _ (ix2 r 0) (ix1 r) ?_).trans ?_
  · rw [Shape.rowMajor_val_one, Shape.rowMajor_val_two]; show r.val = r.val * 1 + 0; omega
  refine (Ideal.multiReduction_add_single _ 0x00000000#32 reduces_S128x750_S128 (.inl rfl) rfl (ix1 r)).trans ?_
  refine Finset.sum_congr rfl fun j _ => ?_
  have e' : reduces_S128x750_S128.lift (ix1 r) j = ix2 r j := by
    funext a
    match a with
    | ⟨0, _⟩ => rfl
    | ⟨1, _⟩ => rfl
  rw [e']
  rfl

/-- The result block at `(r, j)`: the running maximum, from `-∞`, over the eleven shifts of the permuted copy less the
    shifted padded block. -/
theorem maxw_apply (x2 : Vec Ideal S128x761 .f32) (x3 : Vec Ideal S11x128x750 .f32) (r : Fin 128) (j : Fin 750) :
    maxw x2 x3 (ix2 r j) = (max (max (max (max (max (max (max (max (max (max (max (Ideal.ofBits .f32 0xFF800000#32) (x3 (ix3 0 r j) - sh 0 x2 (ix2 r j))) (x3 (ix3 1 r j) - sh 1 x2 (ix2 r j))) (x3 (ix3 2 r j) - sh 2 x2 (ix2 r j))) (x3 (ix3 3 r j) - sh 3 x2 (ix2 r j))) (x3 (ix3 4 r j) - sh 4 x2 (ix2 r j))) (x3 (ix3 5 r j) - sh 5 x2 (ix2 r j))) (x3 (ix3 6 r j) - sh 6 x2 (ix2 r j))) (x3 (ix3 7 r j) - sh 7 x2 (ix2 r j))) (x3 (ix3 8 r j) - sh 8 x2 (ix2 r j))) (x3 (ix3 9 r j) - sh 9 x2 (ix2 r j))) (x3 (ix3 10 r j) - sh 10 x2 (ix2 r j))) := by
  unfold maxw
  rw [View.ld_unit_zero (S := S128x761) hz2 inb_S128x761_S128x761_0_0 x2]
  unfold k0_pay27 k0_pay23 k0_pay11
  simp only [pay4_eq, pay5_eq, pay7_eq, pay9_eq, pay12_eq, pay15_eq, pay17_eq, pay19_eq, pay21_eq, pay24_eq, pay25_eq, pay26_eq]
  simp only [maximumf_apply, subf_apply, broadcast_apply]
  rw [tile0_apply, tile1_apply, tile2_apply, tile3_apply, tile4_apply, tile5_apply, tile6_apply, tile7_apply, tile8_apply, tile9_apply, tile10_apply]
  rfl

end Cert.KernelIdeal.R0

end
-- ==== Proof.R0Value.lean ====
import proofs.«124353_j3959959847205_1_alg».proof.Proof.R0Body
import proofs.«124353_j3959959847205_1_alg».proof.Proof.R0Pay
import proofs.«124353_j3959959847205_1_alg».proof.Proof.LibBlocks
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.Lib.Blocks (rowOf)
set_option pp.maxSteps 6000
set_option pp.deepTerms false

/-! # Region 0: what its three results end holding, at the extended reals

Over the arrays as the region finds them: the activations `E0` and `E1` (4096 × 750), the padded activations `E2`
(4096 × 761), the eleven row-permuted copies `E3` (11 × 4096 × 750). Row `128 t + r` is row `r` of grid point `t`'s block.

* result 0, at `(b, j)`: the running maximum from `-∞` over `k = 0 … 10` of `E3 (k, b, j) - E2 (b, j + k)`;
* result 1, at `(k, j)`: the sum over all rows `b` of `(E0 (b, j) - E2 (b, j + k))²`, taken point by point;
* result 2: the sum over all rows and columns of `(E0 - E1)²`, taken point by point. -/

variable (V : (c : Dev nD) → (b : Ref sig .tc) → Buf (Elt Ideal) ((c : Thread nD τ).loc b))

/-- The arrays as the region finds them. -/
abbrev E0 (c : Dev nD) : S4096x750.Idx → EReal := V c main_arg0
abbrev E1 (c : Dev nD) : S4096x750.Idx → EReal := V c main_arg1
abbrev E2 (c : Dev nD) : S4096x761.Idx → EReal := V c main_v27
abbrev E3 (c : Dev nD) : S11x4096x750.Idx → EReal := V c main_v50

/-- Point `t` as one of the 32. -/
abbrev pt (t : Fin cfg0.N) : Fin 32 := ⟨t.val, lt_of_lt_of_eq t.isLt (show cfg0.N = 32 from N_0)⟩

/-! ## The blocks as rows of the arrays -/

theorem hidx0 : ∀ t : Fin cfg0.N, win0_0.index t 0 = t.val ∧ win0_0.index t 1 = 0 :=
  (by decide +kernel : ∀ t : Fin grid0.N, win0_0.index t 0 = t.val ∧ win0_0.index t 1 = 0)
theorem hidx1 : ∀ t : Fin cfg0.N, win0_1.index t 0 = t.val ∧ win0_1.index t 1 = 0 :=
  (by decide +kernel : ∀ t : Fin grid0.N, win0_1.index t 0 = t.val ∧ win0_1.index t 1 = 0)
theorem hidx2 : ∀ t : Fin cfg0.N, win0_2.index t 0 = t.val ∧ win0_2.index t 1 = 0 :=
  (by decide +kernel : ∀ t : Fin grid0.N, win0_2.index t 0 = t.val ∧ win0_2.index t 1 = 0)
theorem hidx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem hidx4 : ∀ t : Fin cfg0.N, win0_4.index t 0 = t.val ∧ win0_4.index t 1 = 0 :=
  (by decide +kernel : ∀ t : Fin grid0.N, win0_4.index t 0 = t.val ∧ win0_4.index t 1 = 0)

theorem iblk0_apply (c : Dev nD) (t : Fin cfg0.N) (r : Fin 128) (j : Fin 750) :
    (iblk V c 0 t : Vec Ideal S128x750 .f32) (ix2 r j) = E0 V c (ix2 (rowOf (pt t) r) j) := by
  unfold iblk
  rw [View.read_apply]
  show V c main_arg0 _ = V c main_arg0 _
  congr 1
  funext a
  apply Fin.ext
  match a with
  | ⟨0, _⟩ => show win0_0.index t 0 * 128 + 1 * r.val = 128 * t.val + r.val; rw [(hidx0 t).1]; omega
  | ⟨1, _⟩ => show win0_0.index t 1 * 750 + 1 * j.val = j.val; rw [(hidx0 t).2]; omega

theorem iblk1_apply (c : Dev nD) (t : Fin cfg0.N) (r : Fin 128) (j : Fin 750) :
    (iblk V c 1 t : Vec Ideal S128x750 .f32) (ix2 r j) = E1 V c (ix2 (rowOf (pt t) r) j) := by
  unfold iblk
  rw [View.read_apply]
  show V c main_arg1 _ = V c main_arg1 _
  congr 1
  funext a
  apply Fin.ext
  match a with
  | ⟨0, _⟩ => show win0_1.index t 0 * 128 + 1 * r.val = 128 * t.val + r.val; rw [(hidx1 t).1]; omega
  | ⟨1, _⟩ => show win0_1.index t 1 * 750 + 1 * j.val = j.val; rw [(hidx1 t).2]; omega

theorem iblk2_apply (c : Dev nD) (t : Fin cfg0.N) (r : Fin 128) (j : Fin 761) :
    (iblk V c 2 t : Vec Ideal S128x761 .f32) (ix2 r j) = E2 V c (ix2 (rowOf (pt t) r) j) := by
  unfold iblk
  rw [View.read_apply]
  show V c main_v27 _ = V c main_v27 _
  congr 1
  funext a
  apply Fin.ext
  match a with
  | ⟨0, _⟩ => show win0_2.index t 0 * 128 + 1 * r.val = 128 * t.val + r.val; rw [(hidx2 t).1]; omega
  | ⟨1, _⟩ => show win0_2.index t 1 * 761 + 1 * j.val = j.val; rw [(hidx2 t).2]; omega

theorem iblk3_apply (c : Dev nD) (t : Fin cfg0.N) (k : Fin 11) (r : Fin 128) (j : Fin 750) :
    (iblk V c 3 t : Vec Ideal S11x128x750 .f32) (ix3 k r j) = E3 V c (ix3 k (rowOf (pt t) r) j) := by
  unfold iblk
  rw [View.read_apply]
  show V c main_v50 _ = V c main_v50 _
  congr 1
  funext a
  apply Fin.ext
  match a with
  | ⟨0, _⟩ => show win0_3.index t 0 * 11 + 1 * k.val = k.val; rw [(hidx3 t).1]; omega
  | ⟨1, _⟩ => show win0_3.index t 1 * 128 + 1 * r.val = 128 * t.val + r.val; rw [(hidx3 t).2.1]; omega
  | ⟨2, _⟩ => show win0_3.index t 2 * 750 + 1 * j.val = j.val; rw [(hidx3 t).2.2]; omega

/-! ## One point's contributions, over the arrays -/

/-- The squared difference at shift `k`: row `b`, column `j`. -/
def sqd (c : Dev nD) (k : Fin 11) (b : Fin 4096) (j : Fin 750) : EReal :=
  (E0 V c (ix2 b j) - E2 V c (ix2 b ⟨j.val + k.val, by have := j.isLt; have := k.isLt; omega⟩))
    * (E0 V c (ix2 b j) - E2 V c (ix2 b ⟨j.val + k.val, by have := j.isLt; have := k.isLt; omega⟩))

/-- The squared difference of the two activations: row `b`, column `j`. -/
def sqe (c : Dev nD) (b : Fin 4096) (j : Fin 750) : EReal :=
  (E0 V c (ix2 b j) - E1 V c (ix2 b j)) * (E0 V c (ix2 b j) - E1 V c (ix2 b j))

theorem colsq_iblk (c : Dev nD) (t : Fin cfg0.N) (k : Fin 11) (j : Fin 750) :
    colsq k (iblk V c 0 t) (iblk V c 2 t) j = ∑ r : Fin 128, sqd V c k (rowOf (pt t) r) j := by
  unfold colsq
  refine Finset.sum_congr rfl fun r _ => ?_
  unfold sh sqd
  rw [iblk0_apply]
  show (_ - (iblk V c 2 t : Vec Ideal S128x761 .f32) (ix2 r ⟨j.val + k.val, _⟩)) * (_ - (iblk V c 2 t : Vec Ideal S128x761 .f32) (ix2 r ⟨j.val + k.val, _⟩)) = _
  rw [iblk2_apply]

theorem dsq_iblk (c : Dev nD) (t : Fin cfg0.N) (x0 x1 : Vec Ideal S128x750 .f32) (h0 : x0 = iblk V c 0 t) (h1 : x1 = iblk V c 1 t) :
    (∑ r : Fin 128, ∑ j : Fin 750, (x0 (ix2 r j) - x1 (ix2 r j)) * (x0 (ix2 r j) - x1 (ix2 r j)))
      = ∑ r : Fin 128, ∑ j : Fin 750, sqe V c (rowOf (pt t) r) j := by
  subst h0 h1
  refine Finset.sum_congr rfl fun r _ => Finset.sum_congr rfl fun j _ => ?_
  unfold sqe
  rw [iblk0_apply, iblk1_apply]

/-! ## The accumulators after every point -/

theorem pay2_apply (i : S11x750.Idx) : (k0_pay2 (F := Ideal)) i = 0 := by
  unfold k0_pay2
  simp only [shapeCast_self]
  exact Ideal.ofBits_zero_f32

theorem pay3_apply (i : S1x1.Idx) : (k0_pay3 (F := Ideal)) i = 0 := by
  unfold k0_pay3
  simp only [shapeCast_self]
  exact Ideal.ofBits_zero_f32

/-- The first accumulator after point `n`, at `(k, j)`: the points' column sums so far. -/
theorem acc1_eq (c : Dev nD) (k : Fin 11) (j : Fin 750) (n : ℕ) (h : n < cfg0.N) :
    (acc V c n h).1 (ix2 k j) = 0 + ∑ i : Fin (n + 1), ∑ r : Fin 128, sqd V c k (rowOf (pt ⟨i.val, lt_of_lt_of_le i.isLt h⟩) r) j :=
  Cert.Lib.Blocks.acc_eq_sum (N := cfg0.N) 0 (fun t : Fin cfg0.N => ∑ r : Fin 128, sqd V c k (rowOf (pt t) r) j)
    (fun n h => (acc V c n h).1 (ix2 k j))
    (fun h => by
      show nsStep (iblk V c 0 ⟨0, h⟩) (iblk V c 2 ⟨0, h⟩) (k0_pay2 (F := Ideal)) (ix2 k j) = _
      rw [nsStep_apply, colsq_iblk, pay2_apply])
    (fun n h => by
      show nsStep (iblk V c 0 ⟨n + 1, h⟩) (iblk V c 2 ⟨n + 1, h⟩) (acc V c n (Nat.lt_of_succ_lt h)).1 (ix2 k j) = _
      rw [nsStep_apply, colsq_iblk]) n h

/-- The second accumulator after point `n`: the points' block totals so far. -/
theorem acc2_eq (c : Dev nD) (n : ℕ) (h : n < cfg0.N) :
    (acc V c n h).2 (ix2 0 0) = 0 + ∑ i : Fin (n + 1), ∑ r : Fin 128, ∑ j : Fin 750, sqe V c (rowOf (pt ⟨i.val, lt_of_lt_of_le i.isLt h⟩) r) j :=
  Cert.Lib.Blocks.acc_eq_sum (N := cfg0.N) 0 (fun t : Fin cfg0.N => ∑ r : Fin 128, ∑ j : Fin 750, sqe V c (rowOf (pt t) r) j)
    (fun n h => (acc V c n h).2 (ix2 0 0))
    (fun h => by
      show dsqStep (iblk V c 0 ⟨0, h⟩) (iblk V c 1 ⟨0, h⟩) (k0_pay3 (F := Ideal)) (ix2 0 0) = _
      rw [dsqStep_apply, dsq_iblk V c ⟨0, h⟩ _ _ rfl rfl, pay3_apply])
    (fun n h => by
      show dsqStep (iblk V c 0 ⟨n + 1, h⟩) (iblk V c 1 ⟨n + 1, h⟩) (acc V c n (Nat.lt_of_succ_lt h)).2 (ix2 0 0) = _
      rw [dsqStep_apply, dsq_iblk V c ⟨n + 1, h⟩ _ _ rfl rfl]) n h

/-! ## The running maximum -/

/-- The kernel's running maximum over the eleven shifts, in its own order. -/
def maxNest (f : Fin 11 → EReal) : EReal :=
  (List.finRange 11).foldl (fun acc k => max acc (f k)) (Ideal.ofBits .f32 0xFF800000#32)

theorem maxNest_eq (f : Fin 11 → EReal) (z : EReal) :
    (List.finRange 11).foldl (fun acc k => max acc (f k)) z = (max (max (max (max (max (max (max (max (max (max (max z (f 0)) (f 1)) (f 2)) (f 3)) (f 4)) (f 5)) (f 6)) (f 7)) (f 8)) (f 9)) (f 10)) := by
  simp only [List.finRange_succ, List.finRange_zero, List.map_cons, List.map_nil, List.foldl_cons, List.foldl_nil]
  rfl

theorem maxw_apply' (x2 : Vec Ideal S128x761 .f32) (x3 : Vec Ideal S11x128x750 .f32) (r : Fin 128) (j : Fin 750) :
    maxw x2 x3 (ix2 r j) = maxNest fun k => x3 (ix3 k r j) - sh k x2 (ix2 r j) :=
  (maxw_apply x2 x3 r j).trans (maxNest_eq (fun k => x3 (ix3 k r j) - sh k x2 (ix2 r j)) (Ideal.ofBits .f32 0xFF800000#32)).symm

/-! ## The three results -/

/-- Result 0 at `(b, j)`: the running maximum over the shifts `k` of `E3 (k, b, j) - E2 (b, j + k)`. -/
def res4 (c : Dev nD) : Buf (Elt Ideal) ((c : Thread nD τ).loc main_v51_0) :=
  (fun i : S4096x750.Idx => maxNest fun k => E3 V c (ix3 k (i 0) (i 1))
    - E2 V c (ix2 (i 0) ⟨(i 1).val + k.val, by have : (i 1).val < 750 := (i 1).isLt; have := k.isLt; omega⟩) : S4096x750.Idx → EReal)

/-- Result 1 at `(k, j)`: the sum over the points and their rows of the squared difference at shift `k`. -/
def res5 (c : Dev nD) : Buf (Elt Ideal) ((c : Thread nD τ).loc main_v51_1) :=
  (fun i : S11x750.Idx => ∑ t : Fin 32, ∑ r : Fin 128, sqd V c (i 0) (rowOf t r) (i 1) : S11x750.Idx → EReal)

/-- Result 2: the sum over the points, their rows and the columns of the squared difference of the activations. -/
def res6 (c : Dev nD) : Buf (Elt Ideal) ((c : Thread nD τ).loc main_v51_2) :=
  (fun _ : S1x1.Idx => ∑ t : Fin 32, ∑ r : Fin 128, ∑ j : Fin 750, sqe V c (rowOf t r) j : S1x1.Idx → EReal)

/-- The last point. -/
abbrev t31 : Fin cfg0.N := ⟨31, by rw [show cfg0.N = 32 from N_0]; decide⟩

theorem acc1_last (c : Dev nD) : (acc V c t31.val t31.isLt).1 = res5 V c := by
  funext i
  obtain ⟨k, j, rfl⟩ : ∃ (k : Fin 11) (j : Fin 750), i = ix2 k j := ⟨i 0, i 1, eq_ix2 i⟩
  exact (acc1_eq V c k j 31 t31.isLt).trans (zero_add _)

theorem acc2_last (c : Dev nD) : (acc V c t31.val t31.isLt).2 = res6 V c := by
  funext i
  have hi : i = ix2 0 0 := funext fun a => Fin.ext (by
    match a with
    | ⟨0, _⟩ => have h : (i 0).val < 1 := (i 0).isLt; show (i 0).val = 0; omega
    | ⟨1, _⟩ => have h : (i 1).val < 1 := (i 1).isLt; show (i 1).val = 0; omega)
  rw [hi]
  exact (acc2_eq V c 31 t31.isLt).trans (zero_add _)

/-! ## The write-backs and the arrays at the end -/

theorem hxs4 : ∀ t : Fin cfg0.N, win0_4.xsize (grid0.coords t) 0 = 128 ∧ win0_4.xsize (grid0.coords t) 1 = 750 :=
  (by decide +kernel : ∀ t : Fin grid0.N, win0_4.xsize (grid0.coords t) 0 = 128 ∧ win0_4.xsize (grid0.coords t) 1 = 750)

/-- Every point writes back its block of result 0. -/
theorem flushed_eq4 (c : Dev nD) (t : Fin cfg0.N) (hf : (cfg0.win 4).flush t = true) :
    (dat0 V c).flushed 4 t = ((cfg0.win 4).blk t).view.read (Elt Ideal) (res4 V c) := by
  show (cfg0.win 4).cut (grid0.coords t) ((dat0 V c).after 4 t) = _
  rw [after0_4]
  funext x
  obtain ⟨r, j, rfl⟩ : ∃ (r : Fin 128) (j : Fin 750), x = ix2 r j := ⟨x 0, x 1, eq_ix2 x⟩
  rw [View.read_apply]
  have hE : ((cfg0.win 4).blk t).view.emb (ix2 r j) = (ix2 (rowOf (pt t) r) j : S4096x750.Idx) := by
    funext a
    apply Fin.ext
    match a with
    | ⟨0, _⟩ => show win0_4.index t 0 * 128 + 1 * r.val = 128 * t.val + r.val; rw [(hidx4 t).1]; omega
    | ⟨1, _⟩ => show win0_4.index t 1 * 750 + 1 * j.val = j.val; rw [(hidx4 t).2]; omega
  show maxw (iblk V c 2 t) (iblk V c 3 t) (ix2 r j) = res4 V c (((cfg0.win 4).blk t).view.emb (ix2 r j))
  rw [hE, maxw_apply']
  show maxNest _ = maxNest _
  refine congrArg maxNest (funext fun k => ?_)
  rw [iblk3_apply]
  unfold sh
  show _ - (iblk V c 2 t : Vec Ideal S128x761 .f32) (ix2 r ⟨j.val + k.val, _⟩) = _
  rw [iblk2_apply]

theorem final4 (c : Dev nD) : (dat0 V c).arrAt 4 cfg0.N = res4 V c :=
  (dat0 V c).arrAt_eq_of_cover 4 (res4 V c) (flushed_eq4 V c) fun i => by
    have hi0 : (i 0).val < 4096 := (i 0).isLt
    have hi1 : (i 1).val < 750 := (i 1).isLt
    have hN : cfg0.N = 32 := N_0
    have ht : (i 0).val / 128 < cfg0.N := by omega
    refine ⟨⟨(i 0).val / 128, ht⟩, flush0_4 _, ?_⟩
    show i ∈ ((View.whole main_v51_0).slice (win0_4.rect ⟨(i 0).val / 128, ht⟩)).set
    rw [View.set_slice_whole, Rect.mem_set_unit]
    intro a
    match a with
    | ⟨0, _⟩ =>
      show win0_4.index ⟨(i 0).val / 128, ht⟩ 0 * win0_4.size 0 ≤ (i 0 : Nat) ∧ (i 0 : Nat) < win0_4.index ⟨(i 0).val / 128, ht⟩ 0 * win0_4.size 0 + win0_4.xsize (grid0.coords ⟨(i 0).val / 128, ht⟩) 0
      rw [(hidx4 ⟨(i 0).val / 128, ht⟩).1, (hxs4 ⟨(i 0).val / 128, ht⟩).1, show win0_4.size 0 = 128 from rfl]
      show (i 0).val / 128 * 128 ≤ (i 0).val ∧ (i 0).val < (i 0).val / 128 * 128 + 128
      omega
    | ⟨1, _⟩ =>
      show win0_4.index ⟨(i 0).val / 128, ht⟩ 1 * win0_4.size 1 ≤ (i 1 : Nat) ∧ (i 1 : Nat) < win0_4.index ⟨(i 0).val / 128, ht⟩ 1 * win0_4.size 1 + win0_4.xsize (grid0.coords ⟨(i 0).val / 128, ht⟩) 1
      rw [(hidx4 ⟨(i 0).val / 128, ht⟩).2, (hxs4 ⟨(i 0).val / 128, ht⟩).2]
      omega

/-- The one write-back of result 1, after the last point, writes the whole array. -/
theorem flushed_eq5 (c : Dev nD) (t : Fin cfg0.N) (hf : (cfg0.win 5).flush t = true) :
    (dat0 V c).flushed 5 t = ((cfg0.win 5).blk t).view.read (Elt Ideal) (res5 V c) := by
  have hN : cfg0.N = 32 := N_0
  have h31 : t.val = 31 := by have := (flush0_5 t).mp hf; have := t.isLt; omega
  obtain rfl : t = t31 := Fin.ext h31
  show (cfg0.win 5).cut (grid0.coords t31) ((dat0 V c).after 5 t31) = _
  rw [after0_5, acc1_last]
  have hz' : (fun a => win0_5.index t31 a * main_v51_1.ty.shape.size a) = fun _ => 0 := funext fun a => by fin_cases a <;> decide
  exact (Memref.read_access_unit_zero (Elt Ideal) main_v51_1 hz' (fun a => by rw [congrFun hz' a]; simp) (res5 V c)).symm

theorem final5 (c : Dev nD) : (dat0 V c).arrAt 5 cfg0.N = res5 V c :=
  (dat0 V c).arrAt_eq_of_cover 5 (res5 V c) (flushed_eq5 V c) fun i =>
    ⟨t31, (flush0_5 t31).mpr rfl, by
      show i ∈ ((View.whole main_v51_1).slice (win0_5.rect t31)).set
      rw [View.set_slice_whole, Rect.mem_set_unit]
      intro a
      have h0 : (i 0 : Nat) < 11 := (i 0).isLt
      have h1 : (i 1 : Nat) < 750 := (i 1).isLt
      match a with
      | ⟨0, _⟩ => show win0_5.index t31 0 * win0_5.size 0 ≤ (i 0 : Nat) ∧ (i 0 : Nat) < win0_5.index t31 0 * win0_5.size 0 + win0_5.xsize (grid0.coords t31) 0
                  rw [show win0_5.index t31 0 * win0_5.size 0 = 0 from by decide +kernel, show win0_5.xsize (grid0.coords t31) 0 = 11 from by decide +kernel]; omega
      | ⟨1, _⟩ => show win0_5.index t31 1 * win0_5.size 1 ≤ (i 1 : Nat) ∧ (i 1 : Nat) < win0_5.index t31 1 * win0_5.size 1 + win0_5.xsize (grid0.coords t31) 1
                  rw [show win0_5.index t31 1 * win0_5.size 1 = 0 from by decide +kernel, show win0_5.xsize (grid0.coords t31) 1 = 750 from by decide +kernel]; omega⟩

/-- The one write-back of result 2 likewise. -/
theorem flushed_eq6 (c : Dev nD) (t : Fin cfg0.N) (hf : (cfg0.win 6).flush t = true) :
    (dat0 V c).flushed 6 t = ((cfg0.win 6).blk t).view.read (Elt Ideal) (res6 V c) := by
  have hN : cfg0.N = 32 := N_0
  have h31 : t.val = 31 := by have := (flush0_6 t).mp hf; have := t.isLt; omega
  obtain rfl : t = t31 := Fin.ext h31
  show (cfg0.win 6).cut (grid0.coords t31) ((dat0 V c).after 6 t31) = _
  rw [after0_6, acc2_last]
  have hz' : (fun a => win0_6.index t31 a * main_v51_2.ty.shape.size a) = fun _ => 0 := funext fun a => by fin_cases a <;> decide
  exact (Memref.read_access_unit_zero (Elt Ideal) main_v51_2 hz' (fun a => by rw [congrFun hz' a]; simp) (res6 V c)).symm

theorem final6 (c : Dev nD) : (dat0 V c).arrAt 6 cfg0.N = res6 V c :=
  (dat0 V c).arrAt_eq_of_cover 6 (res6 V c) (flushed_eq6 V c) fun i =>
    ⟨t31, (flush0_6 t31).mpr rfl, by
      show i ∈ ((View.whole main_v51_2).slice (win0_6.rect t31)).set
      rw [View.set_slice_whole, Rect.mem_set_unit]
      intro a
      have h0 : (i 0 : Nat) < 1 := (i 0).isLt
      have h1 : (i 1 : Nat) < 1 := (i 1).isLt
      match a with
      | ⟨0, _⟩ => show win0_6.index t31 0 * win0_6.size 0 ≤ (i 0 : Nat) ∧ (i 0 : Nat) < win0_6.index t31 0 * win0_6.size 0 + win0_6.xsize (grid0.coords t31) 0
                  rw [show win0_6.index t31 0 * win0_6.size 0 = 0 from by decide +kernel, show win0_6.xsize (grid0.coords t31) 0 = 1 from by decide +kernel]; omega
      | ⟨1, _⟩ => show win0_6.index t31 1 * win0_6.size 1 ≤ (i 1 : Nat) ∧ (i 1 : Nat) < win0_6.index t31 1 * win0_6.size 1 + win0_6.xsize (grid0.coords t31) 1
                  rw [show win0_6.index t31 1 * win0_6.size 1 = 0 from by decide +kernel, show win0_6.xsize (grid0.coords t31) 1 = 1 from by decide +kernel]; omega⟩

/-! ## The results, row by row -/

/-- Result 0 at row `r` of point `t`'s block: the kernel's running maximum, shift 0 first. -/
theorem maxw_rows (c : Dev nD) (t : Fin 32) (r : Fin 128) (j : Fin 750) :
    ((dat0 V c).arrAt 4 cfg0.N : S4096x750.Idx → EReal) (ix2 (rowOf t r) j)
      = (List.finRange 11).foldl (fun acc k => max acc (E3 V c (ix3 k (rowOf t r) j)
          - E2 V c (ix2 (rowOf t r) ⟨j.val + k.val, by have := j.isLt; have := k.isLt; omega⟩))) (Ideal.ofBits .f32 0xFF800000#32) := by
  rw [final4]
  rfl

/-- Result 1 at `(s, j)`: the sum over all rows, point by point, of the squared difference at shift `s`. -/
theorem ns_rows (c : Dev nD) (s : Fin 11) (j : Fin 750) :
    ((dat0 V c).arrAt 5 cfg0.N : S11x750.Idx → EReal) (ix2 s j)
      = ∑ t : Fin 32, ∑ r : Fin 128, (E0 V c (ix2 (rowOf t r) j) - E2 V c (ix2 (rowOf t r) ⟨j.val + s.val, by have := j.isLt; have := s.isLt; omega⟩))
          * (E0 V c (ix2 (rowOf t r) j) - E2 V c (ix2 (rowOf t r) ⟨j.val + s.val, by have := j.isLt; have := s.isLt; omega⟩)) := by
  rw [final5]
  rfl

/-- Result 2: the sum over all rows, point by point, and all columns of the squared difference of the activations. -/
theorem dsq_rows (c : Dev nD) :
    ((dat0 V c).arrAt 6 cfg0.N : S1x1.Idx → EReal) (ix2 0 0)
      = ∑ t : Fin 32, ∑ r : Fin 128, ∑ j : Fin 750, (E0 V c (ix2 (rowOf t r) j) - E1 V c (ix2 (rowOf t r) j))
          * (E0 V c (ix2 (rowOf t r) j) - E1 V c (ix2 (rowOf t r) j)) := by
  rw [final6]
  rfl

/-- The region writes none of its inputs' arrays. -/
theorem final0_in (c : Dev nD) (w : Fin cfg0.W) (hw : (cfg0.win w).isOut = false) (n : ℕ) :
    (dat0 V c).arrAt w n = V c (Pipeline.arrRef spec0 w) :=
  ((dat0 V c).arrAt_in w hw n).trans (A_eq0 V c w)

end Cert.KernelIdeal.R0

end
-- ==== Proof.R1Value.lean ====
import proofs.«124353_j3959959847205_1_alg».proof.Proof.R1Body
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## One point's update, as one function of the blocks -/

/-- One grid point's update of the accumulator `a`: from the point's four input blocks (the window maxima `x0`, the
    padded second input `x1`, the second input `x2`, the whole table of column sums `x3`), the eleven shifted partial
    sums added up from zero, then added to `a` — the body's payloads composed in program order. -/
def step1 (a : Vec F S1x1 .f32) (x0 : Vec F S128x750 .f32) (x1 : Vec F S128x761 .f32) (x2 : Vec F S128x750 .f32) (x3 : Vec F S11x750 .f32) : Vec F S1x1 .f32 :=
  have v6 := k1_pay3 x1
  have v9 := k1_pay4 x3
  have v12 := k1_pay5 x0
  have v35 := k1_pay6 x0 x1 x2 x3
  have v38 := k1_pay7 x1 x2
  have v40 := k1_pay8 x3
  have v79 := k1_pay9 v6 x2 v9 v12 v35 v38 v40
  have v82 := k1_pay10 v6 x2
  have v89 := k1_pay11 v9 v12
  have v123 := k1_pay12 v6 x2 v9 v12 v79 v82 v89
  have v126 := k1_pay13 v6 x2
  have v136 := k1_pay14 v9 v12
  have v137 := k1_pay15 (F := F)
  have v167 := k1_pay16 v6 x2 v9 v12 v123 v126 v136 v137
  have v186 := k1_pay17 v6 x2 v9 v12
  have v233 := k1_pay18 v6 x2 v9 v12 v167 v186
  have v235 := k1_pay19 v6 x2
  k1_pay1 v9 v12 v233 v235 a

/-- The zero the first point resets the accumulator to. -/
abbrev zero1 : Vec F S1x1 .f32 := k1_pay2 (F := F)

/-- A middle point leaves the update of what it found. -/
theorem sout_B (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i) (x0 : Vec F S128x750 .f32) (x1 : Vec F S128x761 .f32) (x2 : Vec F S128x750 .f32) (x3 : Vec F S11x750 .f32) (xs0 : Vec F S1x1 .f32) :
    sout1_B_0 c i arg1 harg1 arg2 harg2 arg3 harg3 arg4 harg4 arg5 harg5 arg6 harg6 hc0 hc1 x0 x1 x2 x3 xs0 = step1 xs0 x0 x1 x2 x3 := by
  unfold sout1_B_0
  rw [View.read_writes_eq_canon _ _ _ (scover1_B_0 c i arg1 harg1 arg2 harg2 arg3 harg3 arg4 harg4 arg5 harg5 arg6 harg6 hc0 hc1 x0 x1 x2 x3 xs0)]
  unfold kernelRun1_B
  dsimp only
  sl_unfold_run_names
  rw [View.canon_unit_zero hz]
  simp only [View.readAt_eq_ld, harg1.read_unread, harg2.read_unread, harg3.read_unread, harg4.read_unread, harg6.read_unread, View.ld_unit_zero (S := S128x750) hz, View.ld_unit_zero (S := S128x761) hz, View.ld_unit_zero (S := S11x750) hz, View.ld_unit_zero (S := S1x1) hz]
  rfl

/-- The first point leaves the update of zero: its second store reads back the first. -/
theorem sout_A (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i) (x0 : Vec F S128x750 .f32) (x1 : Vec F S128x761 .f32) (x2 : Vec F S128x750 .f32) (x3 : Vec F S11x750 .f32) :
    sout1_A_0 c i arg1 harg1 arg2 harg2 arg3 harg3 arg4 harg4 arg5 harg5 arg6 harg6 hc0 hc1 x0 x1 x2 x3 = step1 (zero1 (F := F)) x0 x1 x2 x3 := by
  unfold sout1_A_0
  rw [View.read_writes_eq_canon _ _ _ (scover1_A_0 c i arg1 harg1 arg2 harg2 arg3 harg3 arg4 harg4 arg5 harg5 arg6 harg6 hc0 hc1 x0 x1 x2 x3)]
  unfold kernelRun1_A
  dsimp only
  sl_unfold_run_names
  rw [View.canon_cons_unit_zero (S := S1x1) hz]
  simp only [View.readCov_unit_zero (S := S1x1) _ hz, View.readAt_eq_ld, harg1.read_unread, harg2.read_unread, harg3.read_unread, harg4.read_unread, harg6.read_unread, View.ld_unit_zero (S := S128x750) hz, View.ld_unit_zero (S := S128x761) hz, View.ld_unit_zero (S := S11x750) hz, View.ld_unit_zero (S := S1x1) hz]
  rfl

/-- The last point leaves the update of what it found in the accumulator, -/
theorem sout_C (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) :
    sout1_C_0 c i arg1 harg1 arg2 harg2 arg3 harg3 arg4 harg4 arg5 harg5 arg6 harg6 hc0 hc1 x0 x1 x2 x3 xs0 = step1 xs0 x0 x1 x2 x3 := by
  unfold sout1_C_0
  rw [View.read_writes_eq_canon _ _ _ (scover1_C_0 c i arg1 harg1 arg2 harg2 arg3 harg3 arg4 harg4 arg5 harg5 arg6 harg6 hc0 hc1 x0 x1 x2 x3 xs0)]
  unfold kernelRun1_C
  dsimp only
  sl_unfold_run_names
  rw [View.canon_unit_zero hz]
  simp only [View.readAt_eq_ld, harg1.read_unread, harg2.read_unread, harg3.read_unread, harg4.read_unread, harg6.read_unread, View.ld_unit_zero (S := S128x750) hz, View.ld_unit_zero (S := S128x761) hz, View.ld_unit_zero (S := S11x750) hz, View.ld_unit_zero (S := S1x1) hz]
  rfl

/-- and the same in the result window's buffer: the copy reads the accumulator back. -/
theorem out_C (c : Dev nD) (i : grid1.Coords) (arg1 : Memref sig .tc .vmem S128x750 .f32) (harg1 : arg1.IsWhole) (arg2 : Memref sig .tc .vmem S128x761 .f32) (harg2 : arg2.IsWhole) (arg3 : Memref sig .tc .vmem S128x750 .f32) (harg3 : arg3.IsWhole) (arg4 : Memref sig .tc .vmem S11x750 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i) (x0 : Vec F S128x750 .f32) (x1 : Vec F S128x761 .f32) (x2 : Vec F S128x750 .f32) (x3 : Vec F S11x750 .f32) (xs0 : Vec F S1x1 .f32) :
    out1_C_4 c i arg1 harg1 arg2 harg2 arg3 harg3 arg4 harg4 arg5 harg5 arg6 harg6 hc0 hc1 x0 x1 x2 x3 xs0 = step1 xs0 x0 x1 x2 x3 := by
  unfold out1_C_4
  rw [View.read_writes_eq_canon _ _ _ (cover1_C_4 c i arg1 harg1 arg2 harg2 arg3 harg3 arg4 harg4 arg5 harg5 arg6 harg6 hc0 hc1 x0 x1 x2 x3 xs0)]
  unfold kernelRun1_C
  dsimp only
  sl_unfold_run_names
  rw [View.canon_unit_zero hz]
  simp only [View.readCov_unit_zero (S := S1x1) _ hz, View.readAt_eq_ld, harg1.read_unread, harg2.read_unread, harg3.read_unread, harg4.read_unread, harg6.read_unread, View.ld_unit_zero (S := S128x750) hz, View.ld_unit_zero (S := S128x761) hz, View.ld_unit_zero (S := S11x750) hz, View.ld_unit_zero (S := S1x1) hz]
  rfl

section Region
variable (V : (c : Dev nD) → (b : Ref sig .tc) → Buf (Elt F) ((c : Thread nD τ).loc b))

/-! ## The accumulator is the ordered chain of updates -/

/-- The running value after point `n`: the update of zero by point 0's blocks, then of that by point 1's, and so on. -/
def chain1 (c : Dev nD) : (n : ℕ) → n < cfg1.N → Vec F S1x1 .f32
  | 0, h => step1 (zero1 (F := F)) (iblk1 V c 0 ⟨0, h⟩) (iblk1 V c 1 ⟨0, h⟩) (iblk1 V c 2 ⟨0, h⟩) (iblk1 V c 3 ⟨0, h⟩)
  | n + 1, h => step1 (chain1 c n (Nat.lt_of_succ_lt h)) (iblk1 V c 0 ⟨n + 1, h⟩) (iblk1 V c 1 ⟨n + 1, h⟩) (iblk1 V c 2 ⟨n + 1, h⟩) (iblk1 V c 3 ⟨n + 1, h⟩)

/-- What the accumulator holds after point `n` is the chain — by induction on the point. -/
theorem accAt_eq (c : Dev nD) : ∀ (n : ℕ) (h : n < cfg1.N), accAt V c n h = chain1 V c n h
  | 0, h => (accAt_A V c ⟨0, h⟩ rfl (by dsimp only; omega)).trans (sout_A ..)
  | n + 1, h => by
    have hN : cfg1.N = 32 := N1
    have h0 : ¬(⟨n + 1, h⟩ : Fin cfg1.N).val % 32 = 0 := by dsimp only; omega
    by_cases h1 : (⟨n + 1, h⟩ : Fin cfg1.N).val % 32 = 31
    · rw [accAt_C V c ⟨n + 1, h⟩ h0 h1, sout_C]
      show step1 (accAt V c n _) _ _ _ _ = step1 (chain1 V c n _) _ _ _ _
      rw [accAt_eq c n]
    · rw [accAt_B V c ⟨n + 1, h⟩ h0 h1, sout_B]
      show step1 (accAt V c n _) _ _ _ _ = step1 (chain1 V c n _) _ _ _ _
      rw [accAt_eq c n]

/-- The last point. -/
abbrev t1_31 : Fin cfg1.N := ⟨31, by rw [N1]; decide⟩

/-- At the last point the result window's buffer holds the whole chain. -/
theorem out4At_last (c : Dev nD) : out4At V c t1_31.val t1_31.isLt = chain1 V c 31 t1_31.isLt := by
  rw [out4At_C V c t1_31 (by decide) (by decide), out_C]
  show step1 (accAt V c 30 _) _ _ _ _ = step1 (chain1 V c 30 _) _ _ _ _
  rw [accAt_eq V c 30]

/-! ## The region's result array -/

/-- The result: the chain after the last point, as contents of the result array (its one block is the array). -/
abbrev result1 (c : Dev nD) : Buf (Elt F) ((c : Thread nD τ).loc main_v52) := chain1 V c 31 t1_31.isLt

/-- The one write-back, at the last point, writes it. -/
theorem flushed_eq1 (c : Dev nD) (t : Fin cfg1.N) (hf : (cfg1.win 4).flush t = true) :
    (dat1 V c).flushed 4 t = ((cfg1.win 4).blk t).view.read (Elt F) (result1 V c) := by
  have hN : cfg1.N = 32 := N1
  have h31 : t.val = 31 := by have := (flush1_4 t).mp hf; have := t.isLt; omega
  obtain rfl : t = t1_31 := Fin.ext h31
  show (cfg1.win 4).cut (grid1.coords t1_31) ((dat1 V c).after 4 t1_31) = _
  rw [after1_4, out4At_last]
  have hz' : (fun a => win1_4.index t1_31 a * main_v52.ty.shape.size a) = fun _ => 0 := funext fun a => by fin_cases a <;> decide
  exact (Memref.read_access_unit_zero (Elt F) main_v52 hz' (fun a => by rw [congrFun hz' a]; simp) (result1 V c)).symm

/-- So the result array ends holding the chain after the last point: that point's block covers it. -/
theorem final1 (c : Dev nD) : (dat1 V c).arrAt 4 cfg1.N = result1 V c :=
  (dat1 V c).arrAt_eq_of_cover 4 (result1 V c) (flushed_eq1 V c) fun i =>
    ⟨t1_31, (flush1_4 t1_31).mpr rfl, by
      show i ∈ ((View.whole main_v52).slice (win1_4.rect t1_31)).set
      rw [View.set_slice_whole, Rect.mem_set_unit]
      intro a
      have h0 : (i 0 : Nat) < 1 := (i 0).isLt
      have h1 : (i 1 : Nat) < 1 := (i 1).isLt
      match a with
      | ⟨0, _⟩ => show win1_4.index t1_31 0 * win1_4.size 0 ≤ (i 0 : Nat) ∧ (i 0 : Nat) < win1_4.index t1_31 0 * win1_4.size 0 + win1_4.xsize (grid1.coords t1_31) 0
                  rw [show win1_4.index t1_31 0 * win1_4.size 0 = 0 from by decide +kernel, show win1_4.xsize (grid1.coords t1_31) 0 = 1 from by decide +kernel]; omega
      | ⟨1, _⟩ => show win1_4.index t1_31 1 * win1_4.size 1 ≤ (i 1 : Nat) ∧ (i 1 : Nat) < win1_4.index t1_31 1 * win1_4.size 1 + win1_4.xsize (grid1.coords t1_31) 1
                  rw [show win1_4.index t1_31 1 * win1_4.size 1 = 0 from by decide +kernel, show win1_4.xsize (grid1.coords t1_31) 1 = 1 from by decide +kernel]; omega⟩

/-- The inputs' arrays are never written. -/
theorem final1_in (c : Dev nD) (w : Fin cfg1.W) (hw : (cfg1.win w).isOut = false) (n : ℕ) :
    (dat1 V c).arrAt w n = V c (Pipeline.arrRef spec1 w) :=
  ((dat1 V c).arrAt_in w hw n).trans (A_eq1 V c w)

end Region

end Cert.KernelIdeal.R1

end
-- ==== Proof.R1Ideal.lean ====
import proofs.«124353_j3959959847205_1_alg».proof.Proof.R1Value
import Idealize.ShloMosaic.PureOps.Ideal.Laws
import Idealize.ShloMosaic.Lib.ValueLayout
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic Idealize.SL.Sem
open Idealize.ShloMosaic.ValueIdx

section Generic
variable {F : FTy → Type} [FloatOps F]

/-- The `c`-th shifted partial sum of one point, as the body computes it: the block's weighted distances at column
    shift `c`, summed along the lanes and then along the sublanes. -/
def part (c : ℕ) (hs : S128x761.Slices ![0, c] S128x750) (hr : S11x750.Slices ![c, 0] S1x750)
    (v6 : FVec F S128x761 .f32) (v7 : Vec F S128x750 .f32) (v9 : FVec F S11x750 .f32) (v12 : FVec F S128x750 .f32) : FVec F S1x1 .f32 :=
  shapeCast S1x1 (multiReduction .add [0] S1 (shapeCast S128x1 (multiReduction .add [1] S128
    (mulf (exp (divf (subf (broadcast S128x750 (Scalar.ofBits .f32 0x00000000#32)) (addf (maximumf (subf (broadcastTo S128x750 (shapeCast S1x750 (shapeCast S750 (extractStridedSlice S1x750 ![c, 0] v9 hr) shapeCasts_S1x750_S750) shapeCasts_S750_S1x750) broadcasts_S1x750_S128x750) v12) (broadcast S128x750 (Scalar.ofBits .f32 0x00000000#32))) v12)) (broadcast S128x750 (Scalar.ofBits .f32 0x40000000#32)))) (absf (subf v7 (extractStridedSlice S128x750 ![0, c] v6 hs))))
    0x00000000#32 reduces_S128x750_S128 (.inl rfl) rfl) shapeCasts_S128_S128x1) 0x00000000#32 reduces_S128x1_S1 (.inl rfl) rfl) shapeCasts_S1_S1x1

set_option maxHeartbeats 2000000 in
/-- One point's update is the accumulator plus the eleven shifted partial sums added up from zero, in program order. -/
theorem step1_parts (a : Vec F S1x1 .f32) (x0 : Vec F S128x750 .f32) (x1 : Vec F S128x761 .f32) (x2 : Vec F S128x750 .f32) (x3 : Vec F S11x750 .f32) :
    step1 a x0 x1 x2 x3 =
      have v6 : FVec F S128x761 .f32 := shapeCast S128x761 x1 shapeCasts_S128x761_S128x761
      have v9 : FVec F S11x750 .f32 := shapeCast S11x750 x3 shapeCasts_S11x750_S11x750
      have v12 : FVec F S128x750 .f32 := k1_pay5 x0
      shapeCast S1x1 (addf a (addf (addf (addf (addf (addf (addf (addf (addf (addf (addf (addf (broadcast S1x1 (Scalar.ofBits .f32 0x00000000#32)) (part 0 slices_S128x761_o0_0_S128x750 slices_S11x750_o0_0_S1x750 v6 x2 v9 v12)) (part 1 slices_S128x761_o0_1_S128x750 slices_S11x750_o1_0_S1x750 v6 x2 v9 v12)) (part 2 slices_S128x761_o0_2_S128x750 slices_S11x750_o2_0_S1x750 v6 x2 v9 v12)) (part 3 slices_S128x761_o0_3_S128x750 slices_S11x750_o3_0_S1x750 v6 x2 v9 v12)) (part 4 slices_S128x761_o0_4_S128x750 slices_S11x750_o4_0_S1x750 v6 x2 v9 v12)) (part 5 slices_S128x761_o0_5_S128x750 slices_S11x750_o5_0_S1x750 v6 x2 v9 v12)) (part 6 slices_S128x761_o0_6_S128x750 slices_S11x750_o6_0_S1x750 v6 x2 v9 v12)) (part 7 slices_S128x761_o0_7_S128x750 slices_S11x750_o7_0_S1x750 v6 x2 v9 v12)) (part 8 slices_S128x761_o0_8_S128x750 slices_S11x750_o8_0_S1x750 v6 x2 v9 v12)) (part 9 slices_S128x761_o0_9_S128x750 slices_S11x750_o9_0_S1x750 v6 x2 v9 v12)) (part 10 slices_S128x761_o0_10_S128x750 slices_S11x750_o10_0_S1x750 v6 x2 v9 v12))) shapeCasts_S1x1_S1x1 := by
  unfold step1 k1_pay1 k1_pay3 k1_pay4 k1_pay6 k1_pay7 k1_pay8 k1_pay9 k1_pay10 k1_pay11 k1_pay12 k1_pay13 k1_pay14 k1_pay15 k1_pay16 k1_pay17 k1_pay18 k1_pay19 part
  rfl

section Blocks
variable (V : (c : Dev nD) → (b : Ref sig .tc) → Buf (Elt F) ((c : Thread nD τ).loc b))

/-! ## The blocks, index by index -/

theorem idx1_0 : ∀ t : Fin grid1.N, win1_0.index t 0 = t.val ∧ win1_0.index t 1 = 0 := by decide +kernel
/-- Window 0's block at point `t` is rows `128 t … 128 t + 127` of its array. -/
theorem iblk1_0_apply (c : Dev nD) (t : Fin cfg1.N) (r : Fin 128) (j : Fin 750) :
    iblk1 V c 0 t (ix2 r j) = V c main_v51_0 (ix2 ⟨128 * t.val + r.val, by have := t.isLt; have hN : cfg1.N = 32 := N1; omega⟩ j) := by
  have hi := idx1_0 t
  unfold iblk1
  rw [View.read_apply]
  show V c main_v51_0 _ = V c main_v51_0 _
  congr 1
  funext a
  apply Fin.ext
  match a with
  | ⟨0, _⟩ => show win1_0.index t 0 * 128 + 1 * r.val = 128 * t.val + r.val; rw [hi.1]; omega
  | ⟨1, _⟩ => show win1_0.index t 1 * 750 + 1 * j.val = j.val; rw [hi.2]; omega

theorem idx1_1 : ∀ t : Fin grid1.N, win1_1.index t 0 = t.val ∧ win1_1.index t 1 = 0 := by decide +kernel
/-- Window 1's block at point `t` is rows `128 t … 128 t + 127` of its array. -/
theorem iblk1_1_apply (c : Dev nD) (t : Fin cfg1.N) (r : Fin 128) (j : Fin 761) :
    iblk1 V c 1 t (ix2 r j) = V c main_v13 (ix2 ⟨128 * t.val + r.val, by have := t.isLt; have hN : cfg1.N = 32 := N1; omega⟩ j) := by
  have hi := idx1_1 t
  unfold iblk1
  rw [View.read_apply]
  show V c main_v13 _ = V c main_v13 _
  congr 1
  funext a
  apply Fin.ext
  match a with
  | ⟨0, _⟩ => show win1_1.index t 0 * 128 + 1 * r.val = 128 * t.val + r.val; rw [hi.1]; omega
  | ⟨1, _⟩ => show win1_1.index t 1 * 761 + 1 * j.val = j.val; rw [hi.2]; omega

theorem idx1_2 : ∀ t : Fin grid1.N, win1_2.index t 0 = t.val ∧ win1_2.index t 1 = 0 := by decide +kernel
/-- Window 2's block at point `t` is rows `128 t … 128 t + 127` of its array. -/
theorem iblk1_2_apply (c : Dev nD) (t : Fin cfg1.N) (r : Fin 128) (j : Fin 750) :
    iblk1 V c 2 t (ix2 r j) = V c main_arg1 (ix2 ⟨128 * t.val + r.val, by have := t.isLt; have hN : cfg1.N = 32 := N1; omega⟩ j) := by
  have hi := idx1_2 t
  unfold iblk1
  rw [View.read_apply]
  show V c main_arg1 _ = V c main_arg1 _
  congr 1
  funext a
  apply Fin.ext
  match a with
  | ⟨0, _⟩ => show win1_2.index t 0 * 128 + 1 * r.val = 128 * t.val + r.val; rw [hi.1]; omega
  | ⟨1, _⟩ => show win1_2.index t 1 * 750 + 1 * j.val = j.val; rw [hi.2]; omega

theorem idx1_3 : ∀ t : Fin grid1.N, win1_3.index t 0 = 0 ∧ win1_3.index t 1 = 0 := by decide +kernel
/-- Window 3's block is the whole array at every point. -/
theorem iblk1_3_apply (c : Dev nD) (t : Fin cfg1.N) (r : Fin 11) (j : Fin 750) :
    iblk1 V c 3 t (ix2 r j) = V c main_v51_1 (ix2 r j) := by
  have hi := idx1_3 t
  unfold iblk1
  rw [View.read_apply]
  show V c main_v51_1 _ = V c main_v51_1 _
  congr 1
  funext a
  apply Fin.ext
  match a with
  | ⟨0, _⟩ => show win1_3.index t 0 * 11 + 1 * r.val = r.val; rw [hi.1]; omega
  | ⟨1, _⟩ => show win1_3.index t 1 * 750 + 1 * j.val = j.val; rw [hi.2]; omega

end Blocks

end Generic

/-! ## At the ideal values -/

/-- A column `[a]` cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the sublanes of a `[128, 1]` column, at the ideal values. -/
theorem red_rows (src : FVec Ideal S128x1 .f32) (hφ : FKind.Formats .f32) (hacc : (0x00000000#32 : BitVec 32) = 0x00000000#32) (w : Fin 1) :
    multiReduction .add [0] S1 src 0x00000000#32 reduces_S128x1_S1 hφ hacc (ix1 w) = ∑ r : Fin 128, src (ix2 r w) :=
  (Ideal.multiReduction_add_single src 0x00000000#32 reduces_S128x1_S1 hφ hacc (ix1 w)).trans
    (Finset.sum_congr rfl fun r _ => congrArg src (funext fun a => match a with | ⟨0, _⟩ => rfl | ⟨1, _⟩ => rfl))

/-- The sum along the lanes of a `[128, 750]` tile, at the ideal values. -/
theorem red_lanes (src : FVec Ideal S128x750 .f32) (hφ : FKind.Formats .f32) (hacc : (0x00000000#32 : BitVec 32) = 0x00000000#32) (r : Fin 128) :
    multiReduction .add [1] S128 src 0x00000000#32 reduces_S128x750_S128 hφ hacc (ix1 r) = ∑ j : Fin 750, src (ix2 r j) :=
  (Ideal.multiReduction_add_single src 0x00000000#32 reduces_S128x750_S128 hφ hacc (ix1 r)).trans
    (Finset.sum_congr rfl fun j _ => congrArg src (funext fun a => match a with | ⟨0, _⟩ => rfl | ⟨1, _⟩ => rfl))

/-- One element's contribution at column shift `c`: the weight `exp((0 - (max (s - g) 0 + g)) / 2)` of the column sum `s` at
    `(c, j)` against `g` at `(r, j)`, times the distance `|y - z|` of the second input at `(r, j)` from its padded copy at
    `(r, c + j)`. -/
def term (c : ℕ) (hs : S128x761.Slices ![0, c] S128x750) (hr : S11x750.Slices ![c, 0] S1x750)
    (v6 : FVec Ideal S128x761 .f32) (v7 : Vec Ideal S128x750 .f32) (v9 : FVec Ideal S11x750 .f32) (v12 : FVec Ideal S128x750 .f32)
    (r : Fin 128) (j : Fin 750) : EReal :=
  Ideal.exp (Ideal.div (Ideal.ofBits .f32 0x00000000#32 - (max (v9 (ix2 ⟨c + (0 : Fin 1).val, Nat.lt_of_lt_of_le (Nat.add_lt_add_left (0 : Fin 1).isLt c) (hr.2 0)⟩ j) - v12 (ix2 r j)) (Ideal.ofBits .f32 0x00000000#32) + v12 (ix2 r j))) (Ideal.ofBits .f32 0x40000000#32))
    * max (v7 (ix2 r j) - v6 (ix2 r ⟨c + j.val, Nat.lt_of_lt_of_le (Nat.add_lt_add_left j.isLt c) (hs.2 1)⟩)) (-(v7 (ix2 r j) - v6 (ix2 r ⟨c + j.val, Nat.lt_of_lt_of_le (Nat.add_lt_add_left j.isLt c) (hs.2 1)⟩)))

/-- A shifted partial sum is the double sum of its elements' contributions. -/
theorem part_ideal (c : ℕ) (hs : S128x761.Slices ![0, c] S128x750) (hr : S11x750.Slices ![c, 0] S1x750)
    (v6 : FVec Ideal S128x761 .f32) (v7 : Vec Ideal S128x750 .f32) (v9 : FVec Ideal S11x750 .f32) (v12 : FVec Ideal S128x750 .f32) (u w : Fin 1) :
    part c hs hr v6 v7 v9 v12 (ix2 u w) = ∑ r : Fin 128, ∑ j : Fin 750, term c hs hr v6 v7 v9 v12 r j := by
  unfold part
  refine (shapeCast_a_1a_apply _ _ u w).trans ?_
  refine (red_rows _ _ _ w).trans ?_
  refine Finset.sum_congr rfl fun r _ => ?_
  refine (shapeCast_a_a1_apply _ _ r w).trans ?_
  refine (red_lanes _ _ _ r).trans ?_
  refine Finset.sum_congr rfl fun j _ => ?_
  unfold mulf exp divf subf addf maximumf absf broadcast
  dsimp only
  rw [broadcastTo_1b_ab_apply, shapeCast_a_1a_apply, shapeCast_1a_a_apply, slice2_axis0_eq, slice2_axis1_eq]
  rfl

theorem hs_all : ∀ c : Fin 11, S128x761.Slices ![0, c.val] S128x750 := by decide
theorem hr_all : ∀ c : Fin 11, S11x750.Slices ![c.val, 0] S1x750 := by decide

/-- The contribution of element `(r, j)` of a point's blocks at column shift `c`, from the blocks themselves: the window
    maxima `x0` enter through `g = (1 · x0) · x0`. -/
def termc (x0 : Vec Ideal S128x750 .f32) (x1 : Vec Ideal S128x761 .f32) (x2 : Vec Ideal S128x750 .f32) (x3 : Vec Ideal S11x750 .f32)
    (c : Fin 11) (r : Fin 128) (j : Fin 750) : EReal :=
  term c.val (hs_all c) (hr_all c) x1 x2 x3 (k1_pay5 x0) r j

theorem sum11 (f : Fin 11 → EReal) : (((((((((((0 + f 0) + f 1) + f 2) + f 3) + f 4) + f 5) + f 6) + f 7) + f 8) + f 9) + f 10) = ∑ c : Fin 11, f c := by
  simp [Fin.sum_univ_succ, add_assoc]

theorem step1_ideal (a : Vec Ideal S1x1 .f32) (x0 : Vec Ideal S128x750 .f32) (x1 : Vec Ideal S128x761 .f32) (x2 : Vec Ideal S128x750 .f32) (x3 : Vec Ideal S11x750 .f32) (u w : Fin 1) :
    step1 a x0 x1 x2 x3 (ix2 u w) = a (ix2 u w) + ∑ c : Fin 11, ∑ r : Fin 128, ∑ j : Fin 750, termc x0 x1 x2 x3 c r j := by
  rw [step1_parts]
  (try dsimp only)
  rw [shapeCast_self, shapeCast_self, shapeCast_self]
  unfold addf
  (try dsimp only)
  simp only [part_ideal]
  rw [← sum11 (fun c => ∑ r : Fin 128, ∑ j : Fin 750, termc x0 x1 x2 x3 c r j)]
  have h0 : (FloatOps.ofBits .f32 0x00000000#32 : Ideal .f32) = 0 := Ideal.ofBits_zero_f32
  unfold broadcast
  rw [h0]
  rfl

section Region
variable (V : (c : Dev nD) → (b : Ref sig .tc) → Buf (Elt Ideal) ((c : Thread nD τ).loc b))

/-! ## The region's result as one sum -/

/-- One grid point's partial sum: every shift, row and column of its blocks. -/
def pointSum (c : Dev nD) (t : Fin cfg1.N) : EReal :=
  ∑ s : Fin 11, ∑ r : Fin 128, ∑ j : Fin 750, termc (iblk1 V c 0 t) (iblk1 V c 1 t) (iblk1 V c 2 t) (iblk1 V c 3 t) s r j

/-- The reset value is the real zero. -/
theorem zero1_ideal (u w : Fin 1) : (zero1 (F := Ideal)) (ix2 u w) = 0 := by
  unfold zero1 k1_pay2; rw [shapeCast_self]; unfold broadcast; exact Ideal.ofBits_zero_f32

/-- The accumulator after point `n` is the sum of the partial sums of points `0 … n` — by induction on the point. -/
theorem chain1_ideal (c : Dev nD) (u w : Fin 1) : ∀ (n : ℕ) (h : n < cfg1.N),
    chain1 V c n h (ix2 u w) = ∑ t : Fin (n + 1), pointSum V c ⟨t.val, lt_of_le_of_lt (Nat.le_of_lt_succ t.isLt) h⟩
  | 0, h => by
    rw [show chain1 V c 0 h = step1 (zero1 (F := Ideal)) _ _ _ _ from rfl, step1_ideal, zero1_ideal, zero_add]
    exact (Fin.sum_univ_one (fun t : Fin (0 + 1) => pointSum V c ⟨t.val, lt_of_le_of_lt (Nat.le_of_lt_succ t.isLt) h⟩)).symm
  | n + 1, h => by
    rw [show chain1 V c (n + 1) h = step1 (chain1 V c n (Nat.lt_of_succ_lt h)) _ _ _ _ from rfl, step1_ideal, chain1_ideal c u w n]
    exact (Fin.sum_univ_castSucc (fun t : Fin (n + 1 + 1) => pointSum V c ⟨t.val, lt_of_le_of_lt (Nat.le_of_lt_succ t.isLt) h⟩)).symm

/-- THE RESULT: the region leaves in its result array the sum over all 32 points of their partial sums. -/
theorem result1_ideal (c : Dev nD) (u w : Fin 1) :
    result1 V c (ix2 u w) = ∑ t : Fin 32, pointSum V c ⟨t.val, lt_of_lt_of_eq t.isLt N1.symm⟩ :=
  chain1_ideal V c u w 31 t1_31.isLt

end Region

end Cert.KernelIdeal.R1

end
-- ==== Proof.R1Final.lean ====
import proofs.«124353_j3959959847205_1_alg».proof.Proof.R1Ideal
import proofs.«124353_j3959959847205_1_alg».proof.Proof.LibBlocks

set_option maxRecDepth 16384

noncomputable section

namespace Cert.KernelIdeal.R1

open Cert.KernelIdeal Cert.KernelIdeal.Gen
open Idealize.ShloMosaic Idealize.ShloMosaic.TcCoe Idealize.ShloMosaic.Tactic Idealize.SL.Sem
open Idealize.ShloMosaic.ValueIdx
open Cert.Lib.Blocks (rowOf)

/-! ## The region's result, element by element over the entry arrays -/

/-- The body's `g`: the window maximum scaled by the literal one and squared. -/
theorem k1_pay5_apply (x0 : Vec Ideal S128x750 .f32) (r : Fin 128) (j : Fin 750) :
    k1_pay5 x0 (ix2 r j) = (Ideal.ofBits .f32 0x3F800000#32 * x0 (ix2 r j)) * x0 (ix2 r j) := by
  unfold k1_pay5; rw [shapeCast_self]; rfl

/-- One element's contribution from its four scalars: the column sum `ns`, the window maximum `mw`, the second input `y`
    and its shifted padded copy `z`: `exp(-(max (ns - g) 0 + g) / 2) · |y - z|` with `g = (1 · mw) · mw`. -/
def elem (ns mw y z : EReal) : EReal :=
  Ideal.exp (Ideal.div (-(max (ns - (Ideal.ofBits .f32 0x3F800000#32 * mw) * mw) 0 + (Ideal.ofBits .f32 0x3F800000#32 * mw) * mw)) (Ideal.ofBits .f32 0x40000000#32))
    * max (y - z) (-(y - z))

theorem termc_eq (x0 : Vec Ideal S128x750 .f32) (x1 : Vec Ideal S128x761 .f32) (x2 : Vec Ideal S128x750 .f32) (x3 : Vec Ideal S11x750 .f32)
    (s : Fin 11) (r : Fin 128) (j : Fin 750) :
    termc x0 x1 x2 x3 s r j
      = elem (x3 (ix2 s j)) (x0 (ix2 r j)) (x2 (ix2 r j)) (x1 (ix2 r ⟨j.val + s.val, by have := s.isLt; have := j.isLt; omega⟩)) := by
  unfold termc term elem
  rw [k1_pay5_apply, Ideal.ofBits_zero_f32, zero_sub]
  have hcol : (⟨s.val + j.val, Nat.lt_of_lt_of_le (Nat.add_lt_add_left j.isLt s.val) ((hs_all s).2 1)⟩ : Fin 761)
      = ⟨j.val + s.val, by have := s.isLt; have := j.isLt; omega⟩ := Fin.ext (Nat.add_comm _ _)
  rw [hcol]
  rfl

section Region
variable (V : (c : Dev nD) → (b : Ref sig .tc) → Buf (Elt Ideal) ((c : Thread nD τ).loc b))

/-- THE RESULT over the entry arrays: the sum, over the 32 blocks of 128 rows, the 11 shifts and the 750 columns, of the
    elements' contributions — the column sums from the first region's second result, the window maxima from its first,
    the second input, and its padded copy read `s` columns further. -/
theorem result1_rows (c : Dev nD) :
    @Eq EReal (result1 V c (ix2 0 0)) (∑ t : Fin 32, ∑ s : Fin 11, ∑ r : Fin 128, ∑ j : Fin 750,
      elem (V c main_v51_1 (ix2 s j)) (V c main_v51_0 (ix2 (rowOf t r) j)) (V c main_arg1 (ix2 (rowOf t r) j))
        (V c main_v13 (ix2 (rowOf t r) ⟨j.val + s.val, by have := s.isLt; have := j.isLt; omega⟩))) := by
  refine (result1_ideal V c 0 0).trans ?_
  refine Finset.sum_congr (M := EReal) rfl fun t _ => ?_
  unfold pointSum
  refine Finset.sum_congr rfl fun s _ => Finset.sum_congr rfl fun r _ => Finset.sum_congr rfl fun j _ => ?_
  rw [termc_eq, iblk1_3_apply, iblk1_0_apply, iblk1_2_apply, iblk1_1_apply]
  rfl

end Region

end Cert.KernelIdeal.R1

end
-- ==== Proof.KTakeA.lean ====
/-
  The eleven row gathers of the kernel program's host side, each as one function of the buffers it reads.

  Each gather is a stretch of twenty-three host operations over its own temporaries; run over any contents of the
  buffers, the stretch leaves in its result buffer the composed row gather (wrap, gather, fill) of the first
  argument array at the words of its index table's buffer.
-/
import proofs.«124353_j3959959847205_1_alg».proof.Proof.KHost

set_option maxRecDepth 16384

noncomputable section

namespace Cert.KernelIdeal.Host

open Cert.KernelIdeal Cert.KernelIdeal.Gen Cert.KernelIdeal.Run
open Idealize.ShloMosaic Idealize.ShloMosaic.TcCoe Idealize.SL.Sem

variable {F : FTy → Type} [FloatOps F]

set_option maxHeartbeats 4000000 in
/-- Gather 0 over any buffer contents: its result is the row gather of the first argument at index table 0's
    buffer. -/
theorem take0 (W : Valuation τ sig (Elt F)) :
    (StableHlo.after hostOps0_1 W (Proc.devRef .tc main_v28) : FVec F S4096x750 .f32)
      = takeRows (W (Proc.devRef .tc main_arg0)) (W (Proc.devRef .tc main_c)) := by
  after_results_simp
  rfl

set_option maxHeartbeats 4000000 in
/-- Gather 1 over any buffer contents: its result is the row gather of the first argument at index table 1's
    buffer. -/
theorem take1 (W : Valuation τ sig (Elt F)) :
    (StableHlo.after hostOps0_2 W (Proc.devRef .tc main_v29) : FVec F S4096x750 .f32)
      = takeRows (W (Proc.devRef .tc main_arg0)) (W (Proc.devRef .tc main_c_0)) := by
  after_results_simp
  rfl

set_option maxHeartbeats 4000000 in
/-- Gather 2 over any buffer contents: its result is the row gather of the first argument at index table 2's
    buffer. -/
theorem take2 (W : Valuation τ sig (Elt F)) :
    (StableHlo.after hostOps0_3 W (Proc.devRef .tc main_v30) : FVec F S4096x750 .f32)
      = takeRows (W (Proc.devRef .tc main_arg0)) (W (Proc.devRef .tc main_c_1)) := by
  after_results_simp
  rfl

set_option maxHeartbeats 4000000 in
/-- Gather 3 over any buffer contents: its result is the row gather of the first argument at index table 3's
    buffer. -/
theorem take3 (W : Valuation τ sig (Elt F)) :
    (StableHlo.after hostOps0_4 W (Proc.devRef .tc main_v31) : FVec F S4096x750 .f32)
      = takeRows (W (Proc.devRef .tc main_arg0)) (W (Proc.devRef .tc main_c_2)) := by
  after_results_simp
  rfl

set_option maxHeartbeats 4000000 in
/-- Gather 4 over any buffer contents: its result is the row gather of the first argument at index table 4's
    buffer. -/
theorem take4 (W : Valuation τ sig (Elt F)) :
    (StableHlo.after hostOps0_5 W (Proc.devRef .tc main_v32) : FVec F S4096x750 .f32)
      = takeRows (W (Proc.devRef .tc main_arg0)) (W (Proc.devRef .tc main_c_3)) := by
  after_results_simp
  rfl

set_option maxHeartbeats 4000000 in
/-- Gather 5 over any buffer contents: its result is the row gather of the first argument at index table 5's
    buffer. -/
theorem take5 (W : Valuation τ sig (Elt F)) :
    (StableHlo.after hostOps0_6 W (Proc.devRef .tc main_v33) : FVec F S4096x750 .f32)
      = takeRows (W (Proc.devRef .tc main_arg0)) (W (Proc.devRef .tc main_c_4)) := by
  after_results_simp
  rfl

set_option maxHeartbeats 4000000 in
/-- Gather 6 over any buffer contents: its result is the row gather of the first argument at index table 6's
    buffer. -/
theorem take6 (W : Valuation τ sig (Elt F)) :
    (StableHlo.after hostOps0_7 W (Proc.devRef .tc main_v34) : FVec F S4096x750 .f32)
      = takeRows (W (Proc.devRef .tc main_arg0)) (W (Proc.devRef .tc main_c_5)) := by
  after_results_simp
  rfl

set_option maxHeartbeats 4000000 in
/-- Gather 7 over any buffer contents: its result is the row gather of the first argument at index table 7's
    buffer. -/
theorem take7 (W : Valuation τ sig (Elt F)) :
    (StableHlo.after hostOps0_8 W (Proc.devRef .tc main_v35) : FVec F S4096x750 .f32)
      = takeRows (W (Proc.devRef .tc main_arg0)) (W (Proc.devRef .tc main_c_6)) := by
  after_results_simp
  rfl

set_option maxHeartbeats 4000000 in
/-- Gather 8 over any buffer contents: its result is the row gather of the first argument at index table 8's
    buffer. -/
theorem take8 (W : Valuation τ sig (Elt F)) :
    (StableHlo.after hostOps0_9 W (Proc.devRef .tc main_v36) : FVec F S4096x750 .f32)
      = takeRows (W (Proc.devRef .tc main_arg0)) (W (Proc.devRef .tc main_c_7)) := by
  after_results_simp
  rfl

set_option maxHeartbeats 4000000 in
/-- Gather 9 over any buffer contents: its result is the row gather of the first argument at index table 9's
    buffer. -/
theorem take9 (W : Valuation τ sig (Elt F)) :
    (StableHlo.after hostOps0_10 W (Proc.devRef .tc main_v37) : FVec F S4096x750 .f32)
      = takeRows (W (Proc.devRef .tc main_arg0)) (W (Proc.devRef .tc main_c_8)) := by
  after_results_simp
  rfl

set_option maxHeartbeats 4000000 in
/-- Gather 10 over any buffer contents: its result is the row gather of the first argument at index table 10's
    buffer. -/
theorem take10 (W : Valuation τ sig (Elt F)) :
    (StableHlo.after hostOps0_11 W (Proc.devRef .tc main_v38) : FVec F S4096x750 .f32)
      = takeRows (W (Proc.devRef .tc main_arg0)) (W (Proc.devRef .tc main_c_9)) := by
  after_results_simp
  rfl

end Cert.KernelIdeal.Host

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«124353_j3959959847205_1_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.LibAllTrue.lean ====
/-
  All-true masks, and signed index words in a range.

  A reduction by `and` over one-bit words that starts from 1 and meets only 1s is 1 (the converse of reading a
  printed `all` back). For a 32-bit index word read signed: a nonnegative word is left alone by the
  wrap "add the extent where negative", and a word below an extent is at most the extent's predecessor.
-/
import Idealize.ShloMosaic.Lib.ReduceAll

namespace Cert.Lib.AllTrue

open Idealize.ShloMosaic

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi (1#1) (1#1) = 1#1 from by decide]
    exact ih fun n hn => h n (List.mem_cons_of_mem _ hn)

/-- A reduction by `and`, from an initial 1, of an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- A nonnegative index word is not wrapped. -/
theorem wrap_of_nonneg {x y : BitVec 32} (h0 : IntOp.cmpi .sge x 0#32 = 1#1) :
    Scalar.select (IntOp.cmpi .slt x 0#32) y x = x := by
  unfold Scalar.select
  rw [if_neg]
  intro h
  have h1 := IntOp.cmpi_slt.1 h
  have h2 := IntOp.cmpi_sge.1 h0
  omega

/-- Below 253952 is at most 253951. -/
theorem sle_pred {x : BitVec 32} (h : IntOp.cmpi .slt x 253952#32 = 1#1) : IntOp.cmpi .sle x 253951#32 = 1#1 := by
  rw [IntOp.cmpi_sle]
  have h1 := IntOp.cmpi_slt.1 h
  have e1 : (253952#32 : BitVec 32).toInt = 253952 := by decide
  have e2 : (253951#32 : BitVec 32).toInt = 253951 := by decide
  omega

end Cert.Lib.AllTrue
-- ==== Proof.KTakeRows.lean ====
/-
  One row gather of the kernel program's host side, read at an index.

  The gather wraps negative index words by the extent 4096, gathers the rows the wrapped words name (the start
  clamped into the rows), and fills a row with a fixed word where its wrapped word falls outside [0, 4095]. Where
  every index word is a row number r < 4096 written as a 32-bit word, none of this acts: the word is nonnegative
  so it is not wrapped, it lies in range so the mask is all ones and the clamp is the identity, and row b of the
  result is row r of the operand.
-/
import proofs.«124353_j3959959847205_1_alg».proof.Proof.KHost
import proofs.«124353_j3959959847205_1_alg».proof.Proof.LibRowGatherDims
import proofs.«124353_j3959959847205_1_alg».proof.Proof.LibAllTrue
import Idealize.ShloMosaic.Lib.Pipeline.Value

set_option maxRecDepth 16384

noncomputable section

namespace Cert.KernelIdeal.Host

open Cert.KernelIdeal Cert.KernelIdeal.Gen Cert.KernelIdeal.Run
open Idealize.ShloMosaic Idealize.ShloMosaic.TcCoe Idealize.SL.Sem
open Idealize.ShloMosaic.ValueIdx

variable {F : FTy → Type} [FloatOps F]

/-! ## One row gather read at an index -/

/-- A row number below 4096, written as a 32-bit word, reads back signed as itself. -/
theorem toInt_ofNat_row (r : Nat) (h : r < 4096) : (BitVec.ofNat 32 r).toInt = (r : Int) := by
  rw [BitVec.toInt_eq_toNat_of_lt]
  · rw [BitVec.toNat_ofNat, Nat.mod_eq_of_lt (by omega)]
  · rw [BitVec.toNat_ofNat, Nat.mod_eq_of_lt (by omega)]; omega

/-- The index words after the wrap "add 4096 where negative". -/
def wrapIx (ix : IVec S4096 32) : IVec S4096 32 :=
  select (cmpi .slt ix (broadcastInDim S4096 ![] Gen.bcast_S_S4096 (constantI S_ 32 0#32)))
    (addi ix (broadcastInDim S4096 ![] Gen.bcast_S_S4096 (constantI S_ 32 4096#32))) ix

/-- The wrapped words as a column. -/
def colIx (ix : IVec S4096 32) : IVec S4096x1 32 :=
  broadcastInDim S4096x1 ![0] Gen.bcast_S4096_S4096x1_0 (wrapIx ix)

/-- Per row: is the wrapped word inside [0, 4095]? -/
def inRows (ix : IVec S4096 32) : IVec S4096 1 :=
  Host.reduce IntOp.andi
    (andi (cmpi .sge (colIx ix) (broadcastInDim S4096x1 ![] Gen.bcast_S_S4096x1 (constantI S_ 32 0#32)))
      (cmpi .sle (colIx ix) (broadcastInDim S4096x1 ![0, 1] Gen.bcast_S1x1_S4096x1_0_1 (broadcastInDim S1x1 ![1] Gen.bcast_S1_S1x1_1 (constantI S1 32 4095#32)))))
    (constantI S_ 1 1#1) Gen.reducesTo_S4096x1_S4096_d1 Gen.h_S_

theorem takeRows_eq (x : FVec F S4096x750 .f32) (ix : IVec S4096 32) :
    takeRows x ix = select (broadcastInDim S4096x750 ![0] Gen.bcast_S4096_S4096x750_0 (inRows ix))
      (Host.gather gather_S4096x750_S4096x1_S4096x750_1_0_n_n_0_1_1750 x (colIx ix))
      (broadcastInDim S4096x750 ![] Gen.bcast_S_S4096x750 (constant S_ .f32 0x7FC00000#32)) := rfl

section

variable (ix : IVec S4096 32) (ρ : Fin 4096 → Fin 4096) (hix : ∀ b : Fin 4096, ix (ix1 b) = BitVec.ofNat 32 (ρ b).val)
include hix

/-- A word that is a row number is nonnegative, so the wrap leaves it alone. -/
theorem wrapIx_apply (b : Fin 4096) : wrapIx ix (ix1 b) = BitVec.ofNat 32 (ρ b).val := by
  show Scalar.select (IntOp.cmpi .slt (ix (ix1 b)) 0#32) (IntOp.addi (ix (ix1 b)) 4096#32) (ix (ix1 b)) = _
  have h0 : IntOp.cmpi .sge (ix (ix1 b)) 0#32 = 1#1 := by
    rw [hix b, IntOp.cmpi_sge, toInt_ofNat_row _ (ρ b).isLt]
    show (0 : Int) ≤ _
    omega
  rw [Cert.Lib.AllTrue.wrap_of_nonneg h0]
  exact hix b

theorem colIx_apply (b : Fin 4096) (z : Fin 1) : colIx ix (ix2 b z) = BitVec.ofNat 32 (ρ b).val := by
  unfold colIx
  refine (broadcastInDim_apply _ _ _ _ (ix1 b) ?_).trans (wrapIx_apply ix ρ hix b)
  intro a
  match a with
  | ⟨0, _⟩ => rfl

/-- Every wrapped word is inside [0, 4095], so the mask is all ones. -/
theorem inRows_apply (b : Fin 4096) : inRows ix (ix1 b) = 1#1 := by
  unfold inRows
  refine Cert.Lib.AllTrue.reduce_andi_one _ _ _ _ _ rfl fun i => ?_
  show IntOp.andi (IntOp.cmpi .sge (colIx ix i) 0#32) (IntOp.cmpi .sle (colIx ix i) 4095#32) = 1#1
  have hi : i = ix2 (n0 := 4096) (n1 := 1) (i 0) (i 1) := eq_ix2 i
  rw [hi, colIx_apply ix ρ hix (i 0) (i 1)]
  generalize ρ (i 0) = r
  have h1 : IntOp.cmpi .sge (BitVec.ofNat 32 r.val) 0#32 = 1#1 := by
    rw [IntOp.cmpi_sge, toInt_ofNat_row _ r.isLt]
    show (0 : Int) ≤ _
    omega
  have h2 : IntOp.cmpi .sle (BitVec.ofNat 32 r.val) 4095#32 = 1#1 := by
    rw [IntOp.cmpi_sle, toInt_ofNat_row _ r.isLt]
    show _ ≤ (4095 : Int)
    have := r.isLt
    omega
  rw [h1, h2]
  decide

/-- THE ROW GATHER AT AN INDEX: where every index word is a row number, row b of the result is the row of the
    operand that word names. -/
theorem takeRows_apply (x : FVec F S4096x750 .f32) (b : Fin 4096) (t : Fin 750) :
    takeRows x ix (ix2 b t) = x (ix2 (ρ b) t) := by
  rw [takeRows_eq, select_apply]
  have e : broadcastInDim S4096x750 ![0] Gen.bcast_S4096_S4096x750_0 (inRows ix) (ix2 b t) = inRows ix (ix1 b) := by
    refine broadcastInDim_apply _ _ _ _ (ix1 b) ?_
    intro a
    match a with
    | ⟨0, _⟩ => rfl
  rw [e, inRows_apply ix ρ hix b, select_one]
  rw [Cert.Lib.HostIndex.hostGather_rows_apply (by decide) _ rfl rfl rfl rfl rfl rfl rfl]
  refine congrArg x ?_
  refine congrArg (fun r => ix2 r t) (Fin.ext ?_)
  show min (colIx ix (ix2 b 0)).toInt.toNat (4096 - 1) = (ρ b).val
  rw [colIx_apply ix ρ hix b 0, toInt_ofNat_row _ (ρ b).isLt]
  have := (ρ b).isLt
  show min ((ρ b).val : Int).toNat 4095 = (ρ b).val
  rw [Int.toNat_natCast]
  omega

end

end Cert.KernelIdeal.Host

end
-- ==== Proof.KTablesA.lean ====
/-
  The literal index tables lit0, lit1, lit2 of the eleven row gathers, in closed form.

  Table k holds, at entry b, the row (11 b + k) mod 4096. Each table is printed as a tree over the two base-128
  digits of the entry's position, so the closed form is checked by evaluating both sides at every pair of digits
  (32 blocks of 128 entries) and then writing a position b as 128 (b / 128) + b mod 128.
-/
import proofs.«124353_j3959959847205_1_alg».proof.KernelIdeal

namespace Cert.KernelIdeal.Host

open Cert.KernelIdeal

/-- Table 0, block by block: entry 128 q + r is (11 (128 q + r) + 0) mod 4096. -/
theorem lit0t_blk : ∀ q : Fin 32, ∀ r : Fin 128,
    lit0t (128 * q.val + r.val) = BitVec.ofNat 32 ((11 * (128 * q.val + r.val) + 0) % 4096) := by
  decide +kernel

/-- Entry b of table 0 is (11 b + 0) mod 4096. -/
theorem lit0_eq (b : Fin 4096) : lit0 b = BitVec.ofNat 32 ((11 * b.val + 0) % 4096) := by
  obtain ⟨i, hi⟩ := b
  have h : lit0t (128 * (i / 128) + i % 128) = BitVec.ofNat 32 ((11 * (128 * (i / 128) + i % 128) + 0) % 4096) :=
    lit0t_blk ⟨i / 128, by omega⟩ ⟨i % 128, Nat.mod_lt _ (by decide)⟩
  rw [Nat.div_add_mod i 128] at h
  exact h

/-- Table 1, block by block: entry 128 q + r is (11 (128 q + r) + 1) mod 4096. -/
theorem lit1t_blk : ∀ q : Fin 32, ∀ r : Fin 128,
    lit1t (128 * q.val + r.val) = BitVec.ofNat 32 ((11 * (128 * q.val + r.val) + 1) % 4096) := by
  decide +kernel

/-- Entry b of table 1 is (11 b + 1) mod 4096. -/
theorem lit1_eq (b : Fin 4096) : lit1 b = BitVec.ofNat 32 ((11 * b.val + 1) % 4096) := by
  obtain ⟨i, hi⟩ := b
  have h : lit1t (128 * (i / 128) + i % 128) = BitVec.ofNat 32 ((11 * (128 * (i / 128) + i % 128) + 1) % 4096) :=
    lit1t_blk ⟨i / 128, by omega⟩ ⟨i % 128, Nat.mod_lt _ (by decide)⟩
  rw [Nat.div_add_mod i 128] at h
  exact h

/-- Table 2, block by block: entry 128 q + r is (11 (128 q + r) + 2) mod 4096. -/
theorem lit2t_blk : ∀ q : Fin 32, ∀ r : Fin 128,
    lit2t (128 * q.val + r.val) = BitVec.ofNat 32 ((11 * (128 * q.val + r.val) + 2) % 4096) := by
  decide +kernel

/-- Entry b of table 2 is (11 b + 2) mod 4096. -/
theorem lit2_eq (b : Fin 4096) : lit2 b = BitVec.ofNat 32 ((11 * b.val + 2) % 4096) := by
  obtain ⟨i, hi⟩ := b
  have h : lit2t (128 * (i / 128) + i % 128) = BitVec.ofNat 32 ((11 * (128 * (i / 128) + i % 128) + 2) % 4096) :=
    lit2t_blk ⟨i / 128, by omega⟩ ⟨i % 128, Nat.mod_lt _ (by decide)⟩
  rw [Nat.div_add_mod i 128] at h
  exact h

end Cert.KernelIdeal.Host
-- ==== Proof.KTablesB.lean ====
/-
  The literal index tables lit3, lit4, lit5 of the eleven row gathers, in closed form.

  Table k holds, at entry b, the row (11 b + k) mod 4096. Each table is printed as a tree over the two base-128
  digits of the entry's position, so the closed form is checked by evaluating both sides at every pair of digits
  (32 blocks of 128 entries) and then writing a position b as 128 (b / 128) + b mod 128.
-/
import proofs.«124353_j3959959847205_1_alg».proof.KernelIdeal

namespace Cert.KernelIdeal.Host

open Cert.KernelIdeal

/-- Table 3, block by block: entry 128 q + r is (11 (128 q + r) + 3) mod 4096. -/
theorem lit3t_blk : ∀ q : Fin 32, ∀ r : Fin 128,
    lit3t (128 * q.val + r.val) = BitVec.ofNat 32 ((11 * (128 * q.val + r.val) + 3) % 4096) := by
  decide +kernel

/-- Entry b of table 3 is (11 b + 3) mod 4096. -/
theorem lit3_eq (b : Fin 4096) : lit3 b = BitVec.ofNat 32 ((11 * b.val + 3) % 4096) := by
  obtain ⟨i, hi⟩ := b
  have h : lit3t (128 * (i / 128) + i % 128) = BitVec.ofNat 32 ((11 * (128 * (i / 128) + i % 128) + 3) % 4096) :=
    lit3t_blk ⟨i / 128, by omega⟩ ⟨i % 128, Nat.mod_lt _ (by decide)⟩
  rw [Nat.div_add_mod i 128] at h
  exact h

/-- Table 4, block by block: entry 128 q + r is (11 (128 q + r) + 4) mod 4096. -/
theorem lit4t_blk : ∀ q : Fin 32, ∀ r : Fin 128,
    lit4t (128 * q.val + r.val) = BitVec.ofNat 32 ((11 * (128 * q.val + r.val) + 4) % 4096) := by
  decide +kernel

/-- Entry b of table 4 is (11 b + 4) mod 4096. -/
theorem lit4_eq (b : Fin 4096) : lit4 b = BitVec.ofNat 32 ((11 * b.val + 4) % 4096) := by
  obtain ⟨i, hi⟩ := b
  have h : lit4t (128 * (i / 128) + i % 128) = BitVec.ofNat 32 ((11 * (128 * (i / 128) + i % 128) + 4) % 4096) :=
    lit4t_blk ⟨i / 128, by omega⟩ ⟨i % 128, Nat.mod_lt _ (by decide)⟩
  rw [Nat.div_add_mod i 128] at h
  exact h

/-- Table 5, block by block: entry 128 q + r is (11 (128 q + r) + 5) mod 4096. -/
theorem lit5t_blk : ∀ q : Fin 32, ∀ r : Fin 128,
    lit5t (128 * q.val + r.val) = BitVec.ofNat 32 ((11 * (128 * q.val + r.val) + 5) % 4096) := by
  decide +kernel

/-- Entry b of table 5 is (11 b + 5) mod 4096. -/
theorem lit5_eq (b : Fin 4096) : lit5 b = BitVec.ofNat 32 ((11 * b.val + 5) % 4096) := by
  obtain ⟨i, hi⟩ := b
  have h : lit5t (128 * (i / 128) + i % 128) = BitVec.ofNat 32 ((11 * (128 * (i / 128) + i % 128) + 5) % 4096) :=
    lit5t_blk ⟨i / 128, by omega⟩ ⟨i % 128, Nat.mod_lt _ (by decide)⟩
  rw [Nat.div_add_mod i 128] at h
  exact h

end Cert.KernelIdeal.Host
-- ==== Proof.KTablesC.lean ====
/-
  The literal index tables lit6, lit7, lit8 of the eleven row gathers, in closed form.

  Table k holds, at entry b, the row (11 b + k) mod 4096. Each table is printed as a tree over the two base-128
  digits of the entry's position, so the closed form is checked by evaluating both sides at every pair of digits
  (32 blocks of 128 entries) and then writing a position b as 128 (b / 128) + b mod 128.
-/
import proofs.«124353_j3959959847205_1_alg».proof.KernelIdeal

namespace Cert.KernelIdeal.Host

open Cert.KernelIdeal

/-- Table 6, block by block: entry 128 q + r is (11 (128 q + r) + 6) mod 4096. -/
theorem lit6t_blk : ∀ q : Fin 32, ∀ r : Fin 128,
    lit6t (128 * q.val + r.val) = BitVec.ofNat 32 ((11 * (128 * q.val + r.val) + 6) % 4096) := by
  decide +kernel

/-- Entry b of table 6 is (11 b + 6) mod 4096. -/
theorem lit6_eq (b : Fin 4096) : lit6 b = BitVec.ofNat 32 ((11 * b.val + 6) % 4096) := by
  obtain ⟨i, hi⟩ := b
  have h : lit6t (128 * (i / 128) + i % 128) = BitVec.ofNat 32 ((11 * (128 * (i / 128) + i % 128) + 6) % 4096) :=
    lit6t_blk ⟨i / 128, by omega⟩ ⟨i % 128, Nat.mod_lt _ (by decide)⟩
  rw [Nat.div_add_mod i 128] at h
  exact h

/-- Table 7, block by block: entry 128 q + r is (11 (128 q + r) + 7) mod 4096. -/
theorem lit7t_blk : ∀ q : Fin 32, ∀ r : Fin 128,
    lit7t (128 * q.val + r.val) = BitVec.ofNat 32 ((11 * (128 * q.val + r.val) + 7) % 4096) := by
  decide +kernel

/-- Entry b of table 7 is (11 b + 7) mod 4096. -/
theorem lit7_eq (b : Fin 4096) : lit7 b = BitVec.ofNat 32 ((11 * b.val + 7) % 4096) := by
  obtain ⟨i, hi⟩ := b
  have h : lit7t (128 * (i / 128) + i % 128) = BitVec.ofNat 32 ((11 * (128 * (i / 128) + i % 128) + 7) % 4096) :=
    lit7t_blk ⟨i / 128, by omega⟩ ⟨i % 128, Nat.mod_lt _ (by decide)⟩
  rw [Nat.div_add_mod i 128] at h
  exact h

/-- Table 8, block by block: entry 128 q + r is (11 (128 q + r) + 8) mod 4096. -/
theorem lit8t_blk : ∀ q : Fin 32, ∀ r : Fin 128,
    lit8t (128 * q.val + r.val) = BitVec.ofNat 32 ((11 * (128 * q.val + r.val) + 8) % 4096) := by
  decide +kernel

/-- Entry b of table 8 is (11 b + 8) mod 4096. -/
theorem lit8_eq (b : Fin 4096) : lit8 b = BitVec.ofNat 32 ((11 * b.val + 8) % 4096) := by
  obtain ⟨i, hi⟩ := b
  have h : lit8t (128 * (i / 128) + i % 128) = BitVec.ofNat 32 ((11 * (128 * (i / 128) + i % 128) + 8) % 4096) :=
    lit8t_blk ⟨i / 128, by omega⟩ ⟨i % 128, Nat.mod_lt _ (by decide)⟩
  rw [Nat.div_add_mod i 128] at h
  exact h

end Cert.KernelIdeal.Host
-- ==== Proof.KTablesD.lean ====
/-
  The literal index tables lit9, lit10 of the eleven row gathers, in closed form.

  Table k holds, at entry b, the row (11 b + k) mod 4096. Each table is printed as a tree over the two base-128
  digits of the entry's position, so the closed form is checked by evaluating both sides at every pair of digits
  (32 blocks of 128 entries) and then writing a position b as 128 (b / 128) + b mod 128.
-/
import proofs.«124353_j3959959847205_1_alg».proof.KernelIdeal

namespace Cert.KernelIdeal.Host

open Cert.KernelIdeal

/-- Table 9, block by block: entry 128 q + r is (11 (128 q + r) + 9) mod 4096. -/
theorem lit9t_blk : ∀ q : Fin 32, ∀ r : Fin 128,
    lit9t (128 * q.val + r.val) = BitVec.ofNat 32 ((11 * (128 * q.val + r.val) + 9) % 4096) := by
  decide +kernel

/-- Entry b of table 9 is (11 b + 9) mod 4096. -/
theorem lit9_eq (b : Fin 4096) : lit9 b = BitVec.ofNat 32 ((11 * b.val + 9) % 4096) := by
  obtain ⟨i, hi⟩ := b
  have h : lit9t (128 * (i / 128) + i % 128) = BitVec.ofNat 32 ((11 * (128 * (i / 128) + i % 128) + 9) % 4096) :=
    lit9t_blk ⟨i / 128, by omega⟩ ⟨i % 128, Nat.mod_lt _ (by decide)⟩
  rw [Nat.div_add_mod i 128] at h
  exact h

/-- Table 10, block by block: entry 128 q + r is (11 (128 q + r) + 10) mod 4096. -/
theorem lit10t_blk : ∀ q : Fin 32, ∀ r : Fin 128,
    lit10t (128 * q.val + r.val) = BitVec.ofNat 32 ((11 * (128 * q.val + r.val) + 10) % 4096) := by
  decide +kernel

/-- Entry b of table 10 is (11 b + 10) mod 4096. -/
theorem lit10_eq (b : Fin 4096) : lit10 b = BitVec.ofNat 32 ((11 * b.val + 10) % 4096) := by
  obtain ⟨i, hi⟩ := b
  have h : lit10t (128 * (i / 128) + i % 128) = BitVec.ofNat 32 ((11 * (128 * (i / 128) + i % 128) + 10) % 4096) :=
    lit10t_blk ⟨i / 128, by omega⟩ ⟨i % 128, Nat.mod_lt _ (by decide)⟩
  rw [Nat.div_add_mod i 128] at h
  exact h

end Cert.KernelIdeal.Host
-- ==== Proof.KTables.lean ====
/-
  The eleven literal index tables of the row gathers in closed form: entry b of table k is (11 b + k) mod 4096
  (theorems lit0_eq … lit10_eq, proved four modules below, a few tables each).
-/
import proofs.«124353_j3959959847205_1_alg».proof.Proof.KTablesA
import proofs.«124353_j3959959847205_1_alg».proof.Proof.KTablesB
import proofs.«124353_j3959959847205_1_alg».proof.Proof.KTablesC
import proofs.«124353_j3959959847205_1_alg».proof.Proof.KTablesD
-- ==== Proof.KTake.lean ====
/-
  The eleven row gathers of the kernel program's host side, stacked, read at an index.

  Before its first region the program gathers eleven row-permuted copies of its first argument — copy k takes row
  (11 b + k) mod 4096 of the argument as its row b, through a literal index table — and stacks them along a new
  leading axis. Here: each index table's buffer holds its table in every valuation that reads it; each gather's
  result buffer holds the composed gather of the argument at its table; the stacking stretch concatenates them;
  and so entry (k, b, t) of the stacked array is the argument at row (11 b + k) mod 4096, column t.
-/
import proofs.«124353_j3959959847205_1_alg».proof.Proof.KTakeA
import proofs.«124353_j3959959847205_1_alg».proof.Proof.KTakeRows
import proofs.«124353_j3959959847205_1_alg».proof.Proof.KTables
import Idealize.ShloMosaic.Lib.Pipeline.Value
import Idealize.ShloMosaic.Lib.ValueIdx

set_option maxRecDepth 16384

noncomputable section

namespace Cert.KernelIdeal.Host

open Cert.KernelIdeal Cert.KernelIdeal.Gen Cert.KernelIdeal.Run
open Idealize.ShloMosaic Idealize.ShloMosaic.TcCoe Idealize.SL.Sem
open Idealize.ShloMosaic.ValueIdx

variable {F : FTy → Type} [FloatOps F]

/-! ## The eleven gathers stacked -/

/-- Eleven arrays, each given a leading axis of extent one, laid end to end along that axis. -/
def stack11 (y : Fin 11 → FVec F S4096x750 .f32) : FVec F S11x4096x750 .f32 :=
  concatenate S11x4096x750 0
    [⟨S1x4096x750, broadcastInDim S1x4096x750 ![1, 2] Gen.bcast_S4096x750_S1x4096x750_1_2 (y 0)⟩,
     ⟨S1x4096x750, broadcastInDim S1x4096x750 ![1, 2] Gen.bcast_S4096x750_S1x4096x750_1_2 (y 1)⟩,
     ⟨S1x4096x750, broadcastInDim S1x4096x750 ![1, 2] Gen.bcast_S4096x750_S1x4096x750_1_2 (y 2)⟩,
     ⟨S1x4096x750, broadcastInDim S1x4096x750 ![1, 2] Gen.bcast_S4096x750_S1x4096x750_1_2 (y 3)⟩,
     ⟨S1x4096x750, broadcastInDim S1x4096x750 ![1, 2] Gen.bcast_S4096x750_S1x4096x750_1_2 (y 4)⟩,
     ⟨S1x4096x750, broadcastInDim S1x4096x750 ![1, 2] Gen.bcast_S4096x750_S1x4096x750_1_2 (y 5)⟩,
     ⟨S1x4096x750, broadcastInDim S1x4096x750 ![1, 2] Gen.bcast_S4096x750_S1x4096x750_1_2 (y 6)⟩,
     ⟨S1x4096x750, broadcastInDim S1x4096x750 ![1, 2] Gen.bcast_S4096x750_S1x4096x750_1_2 (y 7)⟩,
     ⟨S1x4096x750, broadcastInDim S1x4096x750 ![1, 2] Gen.bcast_S4096x750_S1x4096x750_1_2 (y 8)⟩,
     ⟨S1x4096x750, broadcastInDim S1x4096x750 ![1, 2] Gen.bcast_S4096x750_S1x4096x750_1_2 (y 9)⟩,
     ⟨S1x4096x750, broadcastInDim S1x4096x750 ![1, 2] Gen.bcast_S4096x750_S1x4096x750_1_2 (y 10)⟩]
    Gen.concatenates_S1x4096x750_S1x4096x750_S1x4096x750_S1x4096x750_S1x4096x750_S1x4096x750_S1x4096x750_S1x4096x750_S1x4096x750_S1x4096x750_S1x4096x750_S11x4096x750_d0

/-- An array under a new leading axis of extent one, read at an index. -/
theorem lead_apply (v : FVec F S4096x750 .f32) (b : Fin 4096) (t : Fin 750) :
    broadcastInDim S1x4096x750 ![1, 2] Gen.bcast_S4096x750_S1x4096x750_1_2 v (ix3 0 b t) = v (ix2 b t) := by
  refine broadcastInDim_apply _ _ _ _ (ix2 b t) ?_
  intro a
  match a with
  | ⟨0, _⟩ => rfl
  | ⟨1, _⟩ => rfl

/-- Off the stacking axis an index into a piece and the index into the stack agree. -/
theorem off_axis (k : Fin 11) (b : Fin 4096) (t : Fin 750) (hr : S1x4096x750.rank = S11x4096x750.rank) :
    ∀ a : Fin S1x4096x750.rank, a.cast hr ≠ (0 : Fin S11x4096x750.rank) →
      ((ix3 (0 : Fin 1) b t) a).val = ((ix3 k b t) (a.cast hr)).val := by
  intro a h
  match a, h with
  | ⟨0, _⟩, h => exact absurd rfl h
  | ⟨1, _⟩, _ => rfl
  | ⟨2, _⟩, _ => rfl

/-- Piece k of the stack, at (k, b, t), is array k at (b, t). -/
theorem stack11_apply (y : Fin 11 → FVec F S4096x750 .f32) (k : Fin 11) (b : Fin 4096) (t : Fin 750) :
    stack11 y (ix3 k b t) = y k (ix2 b t) := by
  unfold stack11
  match k with
  | ⟨0, hk⟩ =>
    exact (concatenate_apply_piece 0 _ _ (ix3 ⟨0, hk⟩ b t) 0 (Nat.lt_of_sub_eq_succ rfl) S1x4096x750 _ rfl rfl 0 rfl (ix3 0 b t)
      (off_axis ⟨0, hk⟩ b t rfl) rfl).trans (lead_apply (y ⟨0, hk⟩) b t)
  | ⟨1, hk⟩ =>
    exact (concatenate_apply_piece 0 _ _ (ix3 ⟨1, hk⟩ b t) 1 (Nat.lt_of_sub_eq_succ rfl) S1x4096x750 _ rfl rfl 1 rfl (ix3 0 b t)
      (off_axis ⟨1, hk⟩ b t rfl) rfl).trans (lead_apply (y ⟨1, hk⟩) b t)
  | ⟨2, hk⟩ =>
    exact (concatenate_apply_piece 0 _ _ (ix3 ⟨2, hk⟩ b t) 2 (Nat.lt_of_sub_eq_succ rfl) S1x4096x750 _ rfl rfl 2 rfl (ix3 0 b t)
      (off_axis ⟨2, hk⟩ b t rfl) rfl).trans (lead_apply (y ⟨2, hk⟩) b t)
  | ⟨3, hk⟩ =>
    exact (concatenate_apply_piece 0 _ _ (ix3 ⟨3, hk⟩ b t) 3 (Nat.lt_of_sub_eq_succ rfl) S1x4096x750 _ rfl rfl 3 rfl (ix3 0 b t)
      (off_axis ⟨3, hk⟩ b t rfl) rfl).trans (lead_apply (y ⟨3, hk⟩) b t)
  | ⟨4, hk⟩ =>
    exact (concatenate_apply_piece 0 _ _ (ix3 ⟨4, hk⟩ b t) 4 (Nat.lt_of_sub_eq_succ rfl) S1x4096x750 _ rfl rfl 4 rfl (ix3 0 b t)
      (off_axis ⟨4, hk⟩ b t rfl) rfl).trans (lead_apply (y ⟨4, hk⟩) b t)
  | ⟨5, hk⟩ =>
    exact (concatenate_apply_piece 0 _ _ (ix3 ⟨5, hk⟩ b t) 5 (Nat.lt_of_sub_eq_succ rfl) S1x4096x750 _ rfl rfl 5 rfl (ix3 0 b t)
      (off_axis ⟨5, hk⟩ b t rfl) rfl).trans (lead_apply (y ⟨5, hk⟩) b t)
  | ⟨6, hk⟩ =>
    exact (concatenate_apply_piece 0 _ _ (ix3 ⟨6, hk⟩ b t) 6 (Nat.lt_of_sub_eq_succ rfl) S1x4096x750 _ rfl rfl 6 rfl (ix3 0 b t)
      (off_axis ⟨6, hk⟩ b t rfl) rfl).trans (lead_apply (y ⟨6, hk⟩) b t)
  | ⟨7, hk⟩ =>
    exact (concatenate_apply_piece 0 _ _ (ix3 ⟨7, hk⟩ b t) 7 (Nat.lt_of_sub_eq_succ rfl) S1x4096x750 _ rfl rfl 7 rfl (ix3 0 b t)
      (off_axis ⟨7, hk⟩ b t rfl) rfl).trans (lead_apply (y ⟨7, hk⟩) b t)
  | ⟨8, hk⟩ =>
    exact (concatenate_apply_piece 0 _ _ (ix3 ⟨8, hk⟩ b t) 8 (Nat.lt_of_sub_eq_succ rfl) S1x4096x750 _ rfl rfl 8 rfl (ix3 0 b t)
      (off_axis ⟨8, hk⟩ b t rfl) rfl).trans (lead_apply (y ⟨8, hk⟩) b t)
  | ⟨9, hk⟩ =>
    exact (concatenate_apply_piece 0 _ _ (ix3 ⟨9, hk⟩ b t) 9 (Nat.lt_of_sub_eq_succ rfl) S1x4096x750 _ rfl rfl 9 rfl (ix3 0 b t)
      (off_axis ⟨9, hk⟩ b t rfl) rfl).trans (lead_apply (y ⟨9, hk⟩) b t)
  | ⟨10, hk⟩ =>
    exact (concatenate_apply_piece 0 _ _ (ix3 ⟨10, hk⟩ b t) 10 (Nat.lt_of_sub_eq_succ rfl) S1x4096x750 _ rfl rfl 10 rfl (ix3 0 b t)
      (off_axis ⟨10, hk⟩ b t rfl) rfl).trans (lead_apply (y ⟨10, hk⟩) b t)

/-! ## The index tables' buffers, and each gather's result, in the valuations between the stretches -/

/-- A table's buffer, read at a row, is the table's closed form. -/
theorem tableWord (lit : Fin 4096 → BitVec 32) (k : Nat)
    (h : ∀ b : Fin 4096, lit b = BitVec.ofNat 32 ((11 * b.val + k) % 4096)) (b : Fin 4096) :
    (fun i : S4096.Idx => lit (S4096.rowMajor i)) (ix1 b) = BitVec.ofNat 32 ((11 * b.val + k) % 4096) := by
  have e : (S4096.rowMajor (ix1 b)).val = b.val := Shape.rowMajor_val_one (ix1 b)
  exact (h (S4096.rowMajor (ix1 b))).trans (congrArg (fun n => BitVec.ofNat 32 ((11 * n + k) % 4096)) e)

variable (m : (ℓ : Loc nD τ sig) → Buf (Elt F) ℓ)

theorem V1_c0 (c : Dev nD) : (V1 m c main_c : IVec S4096 32) = fun i => lit0 (S4096.rowMajor i) := by
  show StableHlo.after hostOps0 (V0 m c) (Proc.devRef .tc main_c) = _
  after_results_simp
  rfl

theorem V1_c1 (c : Dev nD) : (V1 m c main_c_0 : IVec S4096 32) = fun i => lit1 (S4096.rowMajor i) := by
  show StableHlo.after hostOps0 (V0 m c) (Proc.devRef .tc main_c_0) = _
  after_results_simp
  rfl

theorem V1_c2 (c : Dev nD) : (V1 m c main_c_1 : IVec S4096 32) = fun i => lit2 (S4096.rowMajor i) := by
  show StableHlo.after hostOps0 (V0 m c) (Proc.devRef .tc main_c_1) = _
  after_results_simp
  rfl

theorem V1_c3 (c : Dev nD) : (V1 m c main_c_2 : IVec S4096 32) = fun i => lit3 (S4096.rowMajor i) := by
  show StableHlo.after hostOps0 (V0 m c) (Proc.devRef .tc main_c_2) = _
  after_results_simp
  rfl

theorem V1_c4 (c : Dev nD) : (V1 m c main_c_3 : IVec S4096 32) = fun i => lit4 (S4096.rowMajor i) := by
  show StableHlo.after hostOps0 (V0 m c) (Proc.devRef .tc main_c_3) = _
  after_results_simp
  rfl

theorem V1_c5 (c : Dev nD) : (V1 m c main_c_4 : IVec S4096 32) = fun i => lit5 (S4096.rowMajor i) := by
  show StableHlo.after hostOps0 (V0 m c) (Proc.devRef .tc main_c_4) = _
  after_results_simp
  rfl

theorem V1_c6 (c : Dev nD) : (V1 m c main_c_5 : IVec S4096 32) = fun i => lit6 (S4096.rowMajor i) := by
  show StableHlo.after hostOps0 (V0 m c) (Proc.devRef .tc main_c_5) = _
  after_results_simp
  rfl

theorem V1_c7 (c : Dev nD) : (V1 m c main_c_6 : IVec S4096 32) = fun i => lit7 (S4096.rowMajor i) := by
  show StableHlo.after hostOps0 (V0 m c) (Proc.devRef .tc main_c_6) = _
  after_results_simp
  rfl

theorem V1_c8 (c : Dev nD) : (V1 m c main_c_7 : IVec S4096 32) = fun i => lit8 (S4096.rowMajor i) := by
  show StableHlo.after hostOps0 (V0 m c) (Proc.devRef .tc main_c_7) = _
  after_results_simp
  rfl

theorem V1_c9 (c : Dev nD) : (V1 m c main_c_8 : IVec S4096 32) = fun i => lit9 (S4096.rowMajor i) := by
  show StableHlo.after hostOps0 (V0 m c) (Proc.devRef .tc main_c_8) = _
  after_results_simp
  rfl

theorem V1_c10 (c : Dev nD) : (V1 m c main_c_9 : IVec S4096 32) = fun i => lit10 (S4096.rowMajor i) := by
  show StableHlo.after hostOps0 (V0 m c) (Proc.devRef .tc main_c_9) = _
  after_results_simp
  rfl

theorem Vin_c0 (c : Dev nD) : (V1 m c main_c : IVec S4096 32) = fun i => lit0 (S4096.rowMajor i) :=
  V1_c0 m c

theorem Vin_arg0_0 (c : Dev nD) : V1 m c main_arg0 = m ((c : Thread nD τ).loc main_arg0) :=
  (V1_of m c main_arg0 (by decide))

/-- Gather 0's result as it stands after its own stretch. -/
theorem Vout_v28 (c : Dev nD) : (V2 m c main_v28 : FVec F S4096x750 .f32)
    = takeRows (m ((c : Thread nD τ).loc main_arg0)) (fun i => lit0 (S4096.rowMajor i)) :=
  (take0 (V1 m c)).trans (congrArg₂ takeRows (Vin_arg0_0 m c) (Vin_c0 m c))

/-- Gather 0's result as the stacking stretch reads it. -/
theorem V12_v28 (c : Dev nD) : (V12 m c main_v28 : FVec F S4096x750 .f32)
    = takeRows (m ((c : Thread nD τ).loc main_arg0)) (fun i => lit0 (S4096.rowMajor i)) :=
  ((V12_of m c main_v28 (by decide)).trans <|
    (V11_of m c main_v28 (by decide)).trans <|
    (V10_of m c main_v28 (by decide)).trans <|
    (V9_of m c main_v28 (by decide)).trans <|
    (V8_of m c main_v28 (by decide)).trans <|
    (V7_of m c main_v28 (by decide)).trans <|
    (V6_of m c main_v28 (by decide)).trans <|
    (V5_of m c main_v28 (by decide)).trans <|
    (V4_of m c main_v28 (by decide)).trans <|
    (V3_of m c main_v28 (by decide))).trans (Vout_v28 m c)

theorem Vin_c1 (c : Dev nD) : (V2 m c main_c_0 : IVec S4096 32) = fun i => lit1 (S4096.rowMajor i) :=
  ((V2_of m c main_c_0 (by decide))).trans (V1_c1 m c)

theorem Vin_arg0_1 (c : Dev nD) : V2 m c main_arg0 = m ((c : Thread nD τ).loc main_arg0) :=
  (V2_of m c main_arg0 (by decide)).trans <|
    (V1_of m c main_arg0 (by decide))

/-- Gather 1's result as it stands after its own stretch. -/
theorem Vout_v29 (c : Dev nD) : (V3 m c main_v29 : FVec F S4096x750 .f32)
    = takeRows (m ((c : Thread nD τ).loc main_arg0)) (fun i => lit1 (S4096.rowMajor i)) :=
  (take1 (V2 m c)).trans (congrArg₂ takeRows (Vin_arg0_1 m c) (Vin_c1 m c))

/-- Gather 1's result as the stacking stretch reads it. -/
theorem V12_v29 (c : Dev nD) : (V12 m c main_v29 : FVec F S4096x750 .f32)
    = takeRows (m ((c : Thread nD τ).loc main_arg0)) (fun i => lit1 (S4096.rowMajor i)) :=
  ((V12_of m c main_v29 (by decide)).trans <|
    (V11_of m c main_v29 (by decide)).trans <|
    (V10_of m c main_v29 (by decide)).trans <|
    (V9_of m c main_v29 (by decide)).trans <|
    (V8_of m c main_v29 (by decide)).trans <|
    (V7_of m c main_v29 (by decide)).trans <|
    (V6_of m c main_v29 (by decide)).trans <|
    (V5_of m c main_v29 (by decide)).trans <|
    (V4_of m c main_v29 (by decide))).trans (Vout_v29 m c)

theorem Vin_c2 (c : Dev nD) : (V3 m c main_c_1 : IVec S4096 32) = fun i => lit2 (S4096.rowMajor i) :=
  ((V3_of m c main_c_1 (by decide)).trans <|
    (V2_of m c main_c_1 (by decide))).trans (V1_c2 m c)

theorem Vin_arg0_2 (c : Dev nD) : V3 m c main_arg0 = m ((c : Thread nD τ).loc main_arg0) :=
  (V3_of m c main_arg0 (by decide)).trans <|
    (V2_of m c main_arg0 (by decide)).trans <|
    (V1_of m c main_arg0 (by decide))

/-- Gather 2's result as it stands after its own stretch. -/
theorem Vout_v30 (c : Dev nD) : (V4 m c main_v30 : FVec F S4096x750 .f32)
    = takeRows (m ((c : Thread nD τ).loc main_arg0)) (fun i => lit2 (S4096.rowMajor i)) :=
  (take2 (V3 m c)).trans (congrArg₂ takeRows (Vin_arg0_2 m c) (Vin_c2 m c))

/-- Gather 2's result as the stacking stretch reads it. -/
theorem V12_v30 (c : Dev nD) : (V12 m c main_v30 : FVec F S4096x750 .f32)
    = takeRows (m ((c : Thread nD τ).loc main_arg0)) (fun i => lit2 (S4096.rowMajor i)) :=
  ((V12_of m c main_v30 (by decide)).trans <|
    (V11_of m c main_v30 (by decide)).trans <|
    (V10_of m c main_v30 (by decide)).trans <|
    (V9_of m c main_v30 (by decide)).trans <|
    (V8_of m c main_v30 (by decide)).trans <|
    (V7_of m c main_v30 (by decide)).trans <|
    (V6_of m c main_v30 (by decide)).trans <|
    (V5_of m c main_v30 (by decide))).trans (Vout_v30 m c)

theorem Vin_c3 (c : Dev nD) : (V4 m c main_c_2 : IVec S4096 32) = fun i => lit3 (S4096.rowMajor i) :=
  ((V4_of m c main_c_2 (by decide)).trans <|
    (V3_of m c main_c_2 (by decide)).trans <|
    (V2_of m c main_c_2 (by decide))).trans (V1_c3 m c)

theorem Vin_arg0_3 (c : Dev nD) : V4 m c main_arg0 = m ((c : Thread nD τ).loc main_arg0) :=
  (V4_of m c main_arg0 (by decide)).trans <|
    (V3_of m c main_arg0 (by decide)).trans <|
    (V2_of m c main_arg0 (by decide)).trans <|
    (V1_of m c main_arg0 (by decide))

/-- Gather 3's result as it stands after its own stretch. -/
theorem Vout_v31 (c : Dev nD) : (V5 m c main_v31 : FVec F S4096x750 .f32)
    = takeRows (m ((c : Thread nD τ).loc main_arg0)) (fun i => lit3 (S4096.rowMajor i)) :=
  (take3 (V4 m c)).trans (congrArg₂ takeRows (Vin_arg0_3 m c) (Vin_c3 m c))

/-- Gather 3's result as the stacking stretch reads it. -/
theorem V12_v31 (c : Dev nD) : (V12 m c main_v31 : FVec F S4096x750 .f32)
    = takeRows (m ((c : Thread nD τ).loc main_arg0)) (fun i => lit3 (S4096.rowMajor i)) :=
  ((V12_of m c main_v31 (by decide)).trans <|
    (V11_of m c main_v31 (by decide)).trans <|
    (V10_of m c main_v31 (by decide)).trans <|
    (V9_of m c main_v31 (by decide)).trans <|
    (V8_of m c main_v31 (by decide)).trans <|
    (V7_of m c main_v31 (by decide)).trans <|
    (V6_of m c main_v31 (by decide))).trans (Vout_v31 m c)

theorem Vin_c4 (c : Dev nD) : (V5 m c main_c_3 : IVec S4096 32) = fun i => lit4 (S4096.rowMajor i) :=
  ((V5_of m c main_c_3 (by decide)).trans <|
    (V4_of m c main_c_3 (by decide)).trans <|
    (V3_of m c main_c_3 (by decide)).trans <|
    (V2_of m c main_c_3 (by decide))).trans (V1_c4 m c)

theorem Vin_arg0_4 (c : Dev nD) : V5 m c main_arg0 = m ((c : Thread nD τ).loc main_arg0) :=
  (V5_of m c main_arg0 (by decide)).trans <|
    (V4_of m c main_arg0 (by decide)).trans <|
    (V3_of m c main_arg0 (by decide)).trans <|
    (V2_of m c main_arg0 (by decide)).trans <|
    (V1_of m c main_arg0 (by decide))

/-- Gather 4's result as it stands after its own stretch. -/
theorem Vout_v32 (c : Dev nD) : (V6 m c main_v32 : FVec F S4096x750 .f32)
    = takeRows (m ((c : Thread nD τ).loc main_arg0)) (fun i => lit4 (S4096.rowMajor i)) :=
  (take4 (V5 m c)).trans (congrArg₂ takeRows (Vin_arg0_4 m c) (Vin_c4 m c))

/-- Gather 4's result as the stacking stretch reads it. -/
theorem V12_v32 (c : Dev nD) : (V12 m c main_v32 : FVec F S4096x750 .f32)
    = takeRows (m ((c : Thread nD τ).loc main_arg0)) (fun i => lit4 (S4096.rowMajor i)) :=
  ((V12_of m c main_v32 (by decide)).trans <|
    (V11_of m c main_v32 (by decide)).trans <|
    (V10_of m c main_v32 (by decide)).trans <|
    (V9_of m c main_v32 (by decide)).trans <|
    (V8_of m c main_v32 (by decide)).trans <|
    (V7_of m c main_v32 (by decide))).trans (Vout_v32 m c)

theorem Vin_c5 (c : Dev nD) : (V6 m c main_c_4 : IVec S4096 32) = fun i => lit5 (S4096.rowMajor i) :=
  ((V6_of m c main_c_4 (by decide)).trans <|
    (V5_of m c main_c_4 (by decide)).trans <|
    (V4_of m c main_c_4 (by decide)).trans <|
    (V3_of m c main_c_4 (by decide)).trans <|
    (V2_of m c main_c_4 (by decide))).trans (V1_c5 m c)

theorem Vin_arg0_5 (c : Dev nD) : V6 m c main_arg0 = m ((c : Thread nD τ).loc main_arg0) :=
  (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    (V1_of m c main_arg0 (by decide))

/-- Gather 5's result as it stands after its own stretch. -/
theorem Vout_v33 (c : Dev nD) : (V7 m c main_v33 : FVec F S4096x750 .f32)
    = takeRows (m ((c : Thread nD τ).loc main_arg0)) (fun i => lit5 (S4096.rowMajor i)) :=
  (take5 (V6 m c)).trans (congrArg₂ takeRows (Vin_arg0_5 m c) (Vin_c5 m c))

/-- Gather 5's result as the stacking stretch reads it. -/
theorem V12_v33 (c : Dev nD) : (V12 m c main_v33 : FVec F S4096x750 .f32)
    = takeRows (m ((c : Thread nD τ).loc main_arg0)) (fun i => lit5 (S4096.rowMajor i)) :=
  ((V12_of m c main_v33 (by decide)).trans <|
    (V11_of m c main_v33 (by decide)).trans <|
    (V10_of m c main_v33 (by decide)).trans <|
    (V9_of m c main_v33 (by decide)).trans <|
    (V8_of m c main_v33 (by decide))).trans (Vout_v33 m c)

theorem Vin_c6 (c : Dev nD) : (V7 m c main_c_5 : IVec S4096 32) = fun i => lit6 (S4096.rowMajor i) :=
  ((V7_of m c main_c_5 (by decide)).trans <|
    (V6_of m c main_c_5 (by decide)).trans <|
    (V5_of m c main_c_5 (by decide)).trans <|
    (V4_of m c main_c_5 (by decide)).trans <|
    (V3_of m c main_c_5 (by decide)).trans <|
    (V2_of m c main_c_5 (by decide))).trans (V1_c6 m c)

theorem Vin_arg0_6 (c : Dev nD) : V7 m c main_arg0 = m ((c : Thread nD τ).loc main_arg0) :=
  (V7_of m c main_arg0 (by decide)).trans <|
    (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    (V1_of m c main_arg0 (by decide))

/-- Gather 6's result as it stands after its own stretch. -/
theorem Vout_v34 (c : Dev nD) : (V8 m c main_v34 : FVec F S4096x750 .f32)
    = takeRows (m ((c : Thread nD τ).loc main_arg0)) (fun i => lit6 (S4096.rowMajor i)) :=
  (take6 (V7 m c)).trans (congrArg₂ takeRows (Vin_arg0_6 m c) (Vin_c6 m c))

/-- Gather 6's result as the stacking stretch reads it. -/
theorem V12_v34 (c : Dev nD) : (V12 m c main_v34 : FVec F S4096x750 .f32)
    = takeRows (m ((c : Thread nD τ).loc main_arg0)) (fun i => lit6 (S4096.rowMajor i)) :=
  ((V12_of m c main_v34 (by decide)).trans <|
    (V11_of m c main_v34 (by decide)).trans <|
    (V10_of m c main_v34 (by decide)).trans <|
    (V9_of m c main_v34 (by decide))).trans (Vout_v34 m c)

theorem Vin_c7 (c : Dev nD) : (V8 m c main_c_6 : IVec S4096 32) = fun i => lit7 (S4096.rowMajor i) :=
  ((V8_of m c main_c_6 (by decide)).trans <|
    (V7_of m c main_c_6 (by decide)).trans <|
    (V6_of m c main_c_6 (by decide)).trans <|
    (V5_of m c main_c_6 (by decide)).trans <|
    (V4_of m c main_c_6 (by decide)).trans <|
    (V3_of m c main_c_6 (by decide)).trans <|
    (V2_of m c main_c_6 (by decide))).trans (V1_c7 m c)

theorem Vin_arg0_7 (c : Dev nD) : V8 m c main_arg0 = m ((c : Thread nD τ).loc main_arg0) :=
  (V8_of m c main_arg0 (by decide)).trans <|
    (V7_of m c main_arg0 (by decide)).trans <|
    (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    (V1_of m c main_arg0 (by decide))

/-- Gather 7's result as it stands after its own stretch. -/
theorem Vout_v35 (c : Dev nD) : (V9 m c main_v35 : FVec F S4096x750 .f32)
    = takeRows (m ((c : Thread nD τ).loc main_arg0)) (fun i => lit7 (S4096.rowMajor i)) :=
  (take7 (V8 m c)).trans (congrArg₂ takeRows (Vin_arg0_7 m c) (Vin_c7 m c))

/-- Gather 7's result as the stacking stretch reads it. -/
theorem V12_v35 (c : Dev nD) : (V12 m c main_v35 : FVec F S4096x750 .f32)
    = takeRows (m ((c : Thread nD τ).loc main_arg0)) (fun i => lit7 (S4096.rowMajor i)) :=
  ((V12_of m c main_v35 (by decide)).trans <|
    (V11_of m c main_v35 (by decide)).trans <|
    (V10_of m c main_v35 (by decide))).trans (Vout_v35 m c)

theorem Vin_c8 (c : Dev nD) : (V9 m c main_c_7 : IVec S4096 32) = fun i => lit8 (S4096.rowMajor i) :=
  ((V9_of m c main_c_7 (by decide)).trans <|
    (V8_of m c main_c_7 (by decide)).trans <|
    (V7_of m c main_c_7 (by decide)).trans <|
    (V6_of m c main_c_7 (by decide)).trans <|
    (V5_of m c main_c_7 (by decide)).trans <|
    (V4_of m c main_c_7 (by decide)).trans <|
    (V3_of m c main_c_7 (by decide)).trans <|
    (V2_of m c main_c_7 (by decide))).trans (V1_c8 m c)

theorem Vin_arg0_8 (c : Dev nD) : V9 m c main_arg0 = m ((c : Thread nD τ).loc main_arg0) :=
  (V9_of m c main_arg0 (by decide)).trans <|
    (V8_of m c main_arg0 (by decide)).trans <|
    (V7_of m c main_arg0 (by decide)).trans <|
    (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    (V1_of m c main_arg0 (by decide))

/-- Gather 8's result as it stands after its own stretch. -/
theorem Vout_v36 (c : Dev nD) : (V10 m c main_v36 : FVec F S4096x750 .f32)
    = takeRows (m ((c : Thread nD τ).loc main_arg0)) (fun i => lit8 (S4096.rowMajor i)) :=
  (take8 (V9 m c)).trans (congrArg₂ takeRows (Vin_arg0_8 m c) (Vin_c8 m c))

/-- Gather 8's result as the stacking stretch reads it. -/
theorem V12_v36 (c : Dev nD) : (V12 m c main_v36 : FVec F S4096x750 .f32)
    = takeRows (m ((c : Thread nD τ).loc main_arg0)) (fun i => lit8 (S4096.rowMajor i)) :=
  ((V12_of m c main_v36 (by decide)).trans <|
    (V11_of m c main_v36 (by decide))).trans (Vout_v36 m c)

theorem Vin_c9 (c : Dev nD) : (V10 m c main_c_8 : IVec S4096 32) = fun i => lit9 (S4096.rowMajor i) :=
  ((V10_of m c main_c_8 (by decide)).trans <|
    (V9_of m c main_c_8 (by decide)).trans <|
    (V8_of m c main_c_8 (by decide)).trans <|
    (V7_of m c main_c_8 (by decide)).trans <|
    (V6_of m c main_c_8 (by decide)).trans <|
    (V5_of m c main_c_8 (by decide)).trans <|
    (V4_of m c main_c_8 (by decide)).trans <|
    (V3_of m c main_c_8 (by decide)).trans <|
    (V2_of m c main_c_8 (by decide))).trans (V1_c9 m c)

theorem Vin_arg0_9 (c : Dev nD) : V10 m c main_arg0 = m ((c : Thread nD τ).loc main_arg0) :=
  (V10_of m c main_arg0 (by decide)).trans <|
    (V9_of m c main_arg0 (by decide)).trans <|
    (V8_of m c main_arg0 (by decide)).trans <|
    (V7_of m c main_arg0 (by decide)).trans <|
    (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    (V1_of m c main_arg0 (by decide))

/-- Gather 9's result as it stands after its own stretch. -/
theorem Vout_v37 (c : Dev nD) : (V11 m c main_v37 : FVec F S4096x750 .f32)
    = takeRows (m ((c : Thread nD τ).loc main_arg0)) (fun i => lit9 (S4096.rowMajor i)) :=
  (take9 (V10 m c)).trans (congrArg₂ takeRows (Vin_arg0_9 m c) (Vin_c9 m c))

/-- Gather 9's result as the stacking stretch reads it. -/
theorem V12_v37 (c : Dev nD) : (V12 m c main_v37 : FVec F S4096x750 .f32)
    = takeRows (m ((c : Thread nD τ).loc main_arg0)) (fun i => lit9 (S4096.rowMajor i)) :=
  ((V12_of m c main_v37 (by decide))).trans (Vout_v37 m c)

theorem Vin_c10 (c : Dev nD) : (V11 m c main_c_9 : IVec S4096 32) = fun i => lit10 (S4096.rowMajor i) :=
  ((V11_of m c main_c_9 (by decide)).trans <|
    (V10_of m c main_c_9 (by decide)).trans <|
    (V9_of m c main_c_9 (by decide)).trans <|
    (V8_of m c main_c_9 (by decide)).trans <|
    (V7_of m c main_c_9 (by decide)).trans <|
    (V6_of m c main_c_9 (by decide)).trans <|
    (V5_of m c main_c_9 (by decide)).trans <|
    (V4_of m c main_c_9 (by decide)).trans <|
    (V3_of m c main_c_9 (by decide)).trans <|
    (V2_of m c main_c_9 (by decide))).trans (V1_c10 m c)

theorem Vin_arg0_10 (c : Dev nD) : V11 m c main_arg0 = m ((c : Thread nD τ).loc main_arg0) :=
  (V11_of m c main_arg0 (by decide)).trans <|
    (V10_of m c main_arg0 (by decide)).trans <|
    (V9_of m c main_arg0 (by decide)).trans <|
    (V8_of m c main_arg0 (by decide)).trans <|
    (V7_of m c main_arg0 (by decide)).trans <|
    (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    (V1_of m c main_arg0 (by decide))

/-- Gather 10's result as it stands after its own stretch. -/
theorem Vout_v38 (c : Dev nD) : (V12 m c main_v38 : FVec F S4096x750 .f32)
    = takeRows (m ((c : Thread nD τ).loc main_arg0)) (fun i => lit10 (S4096.rowMajor i)) :=
  (take10 (V11 m c)).trans (congrArg₂ takeRows (Vin_arg0_10 m c) (Vin_c10 m c))

/-- Gather 10's result as the stacking stretch reads it. -/
theorem V12_v38 (c : Dev nD) : (V12 m c main_v38 : FVec F S4096x750 .f32)
    = takeRows (m ((c : Thread nD τ).loc main_arg0)) (fun i => lit10 (S4096.rowMajor i)) :=
  Vout_v38 m c

/-! ## The stack of the eleven gathers -/

set_option maxHeartbeats 4000000 in
/-- The stacking stretch over any buffer contents: its result is the stack of the eleven gathers' buffers. -/
theorem stackW (W : Valuation τ sig (Elt F)) :
    (StableHlo.after hostOps0_12 W (Proc.devRef .tc main_v50) : FVec F S11x4096x750 .f32)
      = stack11 (![(W (Proc.devRef .tc main_v28) : FVec F S4096x750 .f32),
          (W (Proc.devRef .tc main_v29) : FVec F S4096x750 .f32),
          (W (Proc.devRef .tc main_v30) : FVec F S4096x750 .f32),
          (W (Proc.devRef .tc main_v31) : FVec F S4096x750 .f32),
          (W (Proc.devRef .tc main_v32) : FVec F S4096x750 .f32),
          (W (Proc.devRef .tc main_v33) : FVec F S4096x750 .f32),
          (W (Proc.devRef .tc main_v34) : FVec F S4096x750 .f32),
          (W (Proc.devRef .tc main_v35) : FVec F S4096x750 .f32),
          (W (Proc.devRef .tc main_v36) : FVec F S4096x750 .f32),
          (W (Proc.devRef .tc main_v37) : FVec F S4096x750 .f32),
          (W (Proc.devRef .tc main_v38) : FVec F S4096x750 .f32)] : Fin 11 → FVec F S4096x750 .f32) := by
  after_results_simp
  rfl

/-- Piece 0 of the stack over any buffer contents. -/
theorem stackEntry0 (W : Valuation τ sig (Elt F)) (b : Fin 4096) (t : Fin 750) :
    (StableHlo.after hostOps0_12 W (Proc.devRef .tc main_v50) : FVec F S11x4096x750 .f32) (ix3 (0 : Fin 11) b t)
      = (W (Proc.devRef .tc main_v28) : FVec F S4096x750 .f32) (ix2 b t) :=
  (congrFun (stackW W) (ix3 (0 : Fin 11) b t)).trans (stack11_apply _ (0 : Fin 11) b t)

/-- Piece 1 of the stack over any buffer contents. -/
theorem stackEntry1 (W : Valuation τ sig (Elt F)) (b : Fin 4096) (t : Fin 750) :
    (StableHlo.after hostOps0_12 W (Proc.devRef .tc main_v50) : FVec F S11x4096x750 .f32) (ix3 (1 : Fin 11) b t)
      = (W (Proc.devRef .tc main_v29) : FVec F S4096x750 .f32) (ix2 b t) :=
  (congrFun (stackW W) (ix3 (1 : Fin 11) b t)).trans (stack11_apply _ (1 : Fin 11) b t)

/-- Piece 2 of the stack over any buffer contents. -/
theorem stackEntry2 (W : Valuation τ sig (Elt F)) (b : Fin 4096) (t : Fin 750) :
    (StableHlo.after hostOps0_12 W (Proc.devRef .tc main_v50) : FVec F S11x4096x750 .f32) (ix3 (2 : Fin 11) b t)
      = (W (Proc.devRef .tc main_v30) : FVec F S4096x750 .f32) (ix2 b t) :=
  (congrFun (stackW W) (ix3 (2 : Fin 11) b t)).trans (stack11_apply _ (2 : Fin 11) b t)

/-- Piece 3 of the stack over any buffer contents. -/
theorem stackEntry3 (W : Valuation τ sig (Elt F)) (b : Fin 4096) (t : Fin 750) :
    (StableHlo.after hostOps0_12 W (Proc.devRef .tc main_v50) : FVec F S11x4096x750 .f32) (ix3 (3 : Fin 11) b t)
      = (W (Proc.devRef .tc main_v31) : FVec F S4096x750 .f32) (ix2 b t) :=
  (congrFun (stackW W) (ix3 (3 : Fin 11) b t)).trans (stack11_apply _ (3 : Fin 11) b t)

/-- Piece 4 of the stack over any buffer contents. -/
theorem stackEntry4 (W : Valuation τ sig (Elt F)) (b : Fin 4096) (t : Fin 750) :
    (StableHlo.after hostOps0_12 W (Proc.devRef .tc main_v50) : FVec F S11x4096x750 .f32) (ix3 (4 : Fin 11) b t)
      = (W (Proc.devRef .tc main_v32) : FVec F S4096x750 .f32) (ix2 b t) :=
  (congrFun (stackW W) (ix3 (4 : Fin 11) b t)).trans (stack11_apply _ (4 : Fin 11) b t)

/-- Piece 5 of the stack over any buffer contents. -/
theorem stackEntry5 (W : Valuation τ sig (Elt F)) (b : Fin 4096) (t : Fin 750) :
    (StableHlo.after hostOps0_12 W (Proc.devRef .tc main_v50) : FVec F S11x4096x750 .f32) (ix3 (5 : Fin 11) b t)
      = (W (Proc.devRef .tc main_v33) : FVec F S4096x750 .f32) (ix2 b t) :=
  (congrFun (stackW W) (ix3 (5 : Fin 11) b t)).trans (stack11_apply _ (5 : Fin 11) b t)

/-- Piece 6 of the stack over any buffer contents. -/
theorem stackEntry6 (W : Valuation τ sig (Elt F)) (b : Fin 4096) (t : Fin 750) :
    (StableHlo.after hostOps0_12 W (Proc.devRef .tc main_v50) : FVec F S11x4096x750 .f32) (ix3 (6 : Fin 11) b t)
      = (W (Proc.devRef .tc main_v34) : FVec F S4096x750 .f32) (ix2 b t) :=
  (congrFun (stackW W) (ix3 (6 : Fin 11) b t)).trans (stack11_apply _ (6 : Fin 11) b t)

/-- Piece 7 of the stack over any buffer contents. -/
theorem stackEntry7 (W : Valuation τ sig (Elt F)) (b : Fin 4096) (t : Fin 750) :
    (StableHlo.after hostOps0_12 W (Proc.devRef .tc main_v50) : FVec F S11x4096x750 .f32) (ix3 (7 : Fin 11) b t)
      = (W (Proc.devRef .tc main_v35) : FVec F S4096x750 .f32) (ix2 b t) :=
  (congrFun (stackW W) (ix3 (7 : Fin 11) b t)).trans (stack11_apply _ (7 : Fin 11) b t)

/-- Piece 8 of the stack over any buffer contents. -/
theorem stackEntry8 (W : Valuation τ sig (Elt F)) (b : Fin 4096) (t : Fin 750) :
    (StableHlo.after hostOps0_12 W (Proc.devRef .tc main_v50) : FVec F S11x4096x750 .f32) (ix3 (8 : Fin 11) b t)
      = (W (Proc.devRef .tc main_v36) : FVec F S4096x750 .f32) (ix2 b t) :=
  (congrFun (stackW W) (ix3 (8 : Fin 11) b t)).trans (stack11_apply _ (8 : Fin 11) b t)

/-- Piece 9 of the stack over any buffer contents. -/
theorem stackEntry9 (W : Valuation τ sig (Elt F)) (b : Fin 4096) (t : Fin 750) :
    (StableHlo.after hostOps0_12 W (Proc.devRef .tc main_v50) : FVec F S11x4096x750 .f32) (ix3 (9 : Fin 11) b t)
      = (W (Proc.devRef .tc main_v37) : FVec F S4096x750 .f32) (ix2 b t) :=
  (congrFun (stackW W) (ix3 (9 : Fin 11) b t)).trans (stack11_apply _ (9 : Fin 11) b t)

/-- Piece 10 of the stack over any buffer contents. -/
theorem stackEntry10 (W : Valuation τ sig (Elt F)) (b : Fin 4096) (t : Fin 750) :
    (StableHlo.after hostOps0_12 W (Proc.devRef .tc main_v50) : FVec F S11x4096x750 .f32) (ix3 (10 : Fin 11) b t)
      = (W (Proc.devRef .tc main_v38) : FVec F S4096x750 .f32) (ix2 b t) :=
  (congrFun (stackW W) (ix3 (10 : Fin 11) b t)).trans (stack11_apply _ (10 : Fin 11) b t)

/-- Piece 0 of the stacked array: the first argument at row (11 b + 0) mod 4096. -/
theorem gather0 (c : Dev nD) (b : Fin 4096) (t : Fin 750) :
    (V13 m c main_v50 : FVec F S11x4096x750 .f32) (ix3 (0 : Fin 11) b t)
      = m ((c : Thread nD τ).loc main_arg0) (ix2 ⟨(11 * b.val + 0) % 4096, Nat.mod_lt _ (by decide)⟩ t) :=
  (stackEntry0 (V12 m c) b t).trans <| (congrFun (V12_v28 m c) (ix2 b t)).trans <|
    takeRows_apply _ (fun b => ⟨(11 * b.val + 0) % 4096, Nat.mod_lt _ (by decide)⟩) (tableWord lit0 0 lit0_eq) _ b t

/-- Piece 1 of the stacked array: the first argument at row (11 b + 1) mod 4096. -/
theorem gather1 (c : Dev nD) (b : Fin 4096) (t : Fin 750) :
    (V13 m c main_v50 : FVec F S11x4096x750 .f32) (ix3 (1 : Fin 11) b t)
      = m ((c : Thread nD τ).loc main_arg0) (ix2 ⟨(11 * b.val + 1) % 4096, Nat.mod_lt _ (by decide)⟩ t) :=
  (stackEntry1 (V12 m c) b t).trans <| (congrFun (V12_v29 m c) (ix2 b t)).trans <|
    takeRows_apply _ (fun b => ⟨(11 * b.val + 1) % 4096, Nat.mod_lt _ (by decide)⟩) (tableWord lit1 1 lit1_eq) _ b t

/-- Piece 2 of the stacked array: the first argument at row (11 b + 2) mod 4096. -/
theorem gather2 (c : Dev nD) (b : Fin 4096) (t : Fin 750) :
    (V13 m c main_v50 : FVec F S11x4096x750 .f32) (ix3 (2 : Fin 11) b t)
      = m ((c : Thread nD τ).loc main_arg0) (ix2 ⟨(11 * b.val + 2) % 4096, Nat.mod_lt _ (by decide)⟩ t) :=
  (stackEntry2 (V12 m c) b t).trans <| (congrFun (V12_v30 m c) (ix2 b t)).trans <|
    takeRows_apply _ (fun b => ⟨(11 * b.val + 2) % 4096, Nat.mod_lt _ (by decide)⟩) (tableWord lit2 2 lit2_eq) _ b t

/-- Piece 3 of the stacked array: the first argument at row (11 b + 3) mod 4096. -/
theorem gather3 (c : Dev nD) (b : Fin 4096) (t : Fin 750) :
    (V13 m c main_v50 : FVec F S11x4096x750 .f32) (ix3 (3 : Fin 11) b t)
      = m ((c : Thread nD τ).loc main_arg0) (ix2 ⟨(11 * b.val + 3) % 4096, Nat.mod_lt _ (by decide)⟩ t) :=
  (stackEntry3 (V12 m c) b t).trans <| (congrFun (V12_v31 m c) (ix2 b t)).trans <|
    takeRows_apply _ (fun b => ⟨(11 * b.val + 3) % 4096, Nat.mod_lt _ (by decide)⟩) (tableWord lit3 3 lit3_eq) _ b t

/-- Piece 4 of the stacked array: the first argument at row (11 b + 4) mod 4096. -/
theorem gather4 (c : Dev nD) (b : Fin 4096) (t : Fin 750) :
    (V13 m c main_v50 : FVec F S11x4096x750 .f32) (ix3 (4 : Fin 11) b t)
      = m ((c : Thread nD τ).loc main_arg0) (ix2 ⟨(11 * b.val + 4) % 4096, Nat.mod_lt _ (by decide)⟩ t) :=
  (stackEntry4 (V12 m c) b t).trans <| (congrFun (V12_v32 m c) (ix2 b t)).trans <|
    takeRows_apply _ (fun b => ⟨(11 * b.val + 4) % 4096, Nat.mod_lt _ (by decide)⟩) (tableWord lit4 4 lit4_eq) _ b t

/-- Piece 5 of the stacked array: the first argument at row (11 b + 5) mod 4096. -/
theorem gather5 (c : Dev nD) (b : Fin 4096) (t : Fin 750) :
    (V13 m c main_v50 : FVec F S11x4096x750 .f32) (ix3 (5 : Fin 11) b t)
      = m ((c : Thread nD τ).loc main_arg0) (ix2 ⟨(11 * b.val + 5) % 4096, Nat.mod_lt _ (by decide)⟩ t) :=
  (stackEntry5 (V12 m c) b t).trans <| (congrFun (V12_v33 m c) (ix2 b t)).trans <|
    takeRows_apply _ (fun b => ⟨(11 * b.val + 5) % 4096, Nat.mod_lt _ (by decide)⟩) (tableWord lit5 5 lit5_eq) _ b t

/-- Piece 6 of the stacked array: the first argument at row (11 b + 6) mod 4096. -/
theorem gather6 (c : Dev nD) (b : Fin 4096) (t : Fin 750) :
    (V13 m c main_v50 : FVec F S11x4096x750 .f32) (ix3 (6 : Fin 11) b t)
      = m ((c : Thread nD τ).loc main_arg0) (ix2 ⟨(11 * b.val + 6) % 4096, Nat.mod_lt _ (by decide)⟩ t) :=
  (stackEntry6 (V12 m c) b t).trans <| (congrFun (V12_v34 m c) (ix2 b t)).trans <|
    takeRows_apply _ (fun b => ⟨(11 * b.val + 6) % 4096, Nat.mod_lt _ (by decide)⟩) (tableWord lit6 6 lit6_eq) _ b t

/-- Piece 7 of the stacked array: the first argument at row (11 b + 7) mod 4096. -/
theorem gather7 (c : Dev nD) (b : Fin 4096) (t : Fin 750) :
    (V13 m c main_v50 : FVec F S11x4096x750 .f32) (ix3 (7 : Fin 11) b t)
      = m ((c : Thread nD τ).loc main_arg0) (ix2 ⟨(11 * b.val + 7) % 4096, Nat.mod_lt _ (by decide)⟩ t) :=
  (stackEntry7 (V12 m c) b t).trans <| (congrFun (V12_v35 m c) (ix2 b t)).trans <|
    takeRows_apply _ (fun b => ⟨(11 * b.val + 7) % 4096, Nat.mod_lt _ (by decide)⟩) (tableWord lit7 7 lit7_eq) _ b t

/-- Piece 8 of the stacked array: the first argument at row (11 b + 8) mod 4096. -/
theorem gather8 (c : Dev nD) (b : Fin 4096) (t : Fin 750) :
    (V13 m c main_v50 : FVec F S11x4096x750 .f32) (ix3 (8 : Fin 11) b t)
      = m ((c : Thread nD τ).loc main_arg0) (ix2 ⟨(11 * b.val + 8) % 4096, Nat.mod_lt _ (by decide)⟩ t) :=
  (stackEntry8 (V12 m c) b t).trans <| (congrFun (V12_v36 m c) (ix2 b t)).trans <|
    takeRows_apply _ (fun b => ⟨(11 * b.val + 8) % 4096, Nat.mod_lt _ (by decide)⟩) (tableWord lit8 8 lit8_eq) _ b t

/-- Piece 9 of the stacked array: the first argument at row (11 b + 9) mod 4096. -/
theorem gather9 (c : Dev nD) (b : Fin 4096) (t : Fin 750) :
    (V13 m c main_v50 : FVec F S11x4096x750 .f32) (ix3 (9 : Fin 11) b t)
      = m ((c : Thread nD τ).loc main_arg0) (ix2 ⟨(11 * b.val + 9) % 4096, Nat.mod_lt _ (by decide)⟩ t) :=
  (stackEntry9 (V12 m c) b t).trans <| (congrFun (V12_v37 m c) (ix2 b t)).trans <|
    takeRows_apply _ (fun b => ⟨(11 * b.val + 9) % 4096, Nat.mod_lt _ (by decide)⟩) (tableWord lit9 9 lit9_eq) _ b t

/-- Piece 10 of the stacked array: the first argument at row (11 b + 10) mod 4096. -/
theorem gather10 (c : Dev nD) (b : Fin 4096) (t : Fin 750) :
    (V13 m c main_v50 : FVec F S11x4096x750 .f32) (ix3 (10 : Fin 11) b t)
      = m ((c : Thread nD τ).loc main_arg0) (ix2 ⟨(11 * b.val + 10) % 4096, Nat.mod_lt _ (by decide)⟩ t) :=
  (stackEntry10 (V12 m c) b t).trans <| (congrFun (V12_v38 m c) (ix2 b t)).trans <|
    takeRows_apply _ (fun b => ⟨(11 * b.val + 10) % 4096, Nat.mod_lt _ (by decide)⟩) (tableWord lit10 10 lit10_eq) _ b t

/-- THE STACKED GATHERS AT AN INDEX: entry (k, b, t) of the array the regions read is the first argument at row
    (11 b + k) mod 4096, column t. -/
theorem V13_v50_apply (c : Dev nD) (k : Fin 11) (b : Fin 4096) (t : Fin 750) :
    (V13 m c main_v50 : FVec F S11x4096x750 .f32) (ix3 k b t)
      = m ((c : Thread nD τ).loc main_arg0) (ix2 ⟨(11 * b.val + k.val) % 4096, Nat.mod_lt _ (by decide)⟩ t) :=
  match k with
  | ⟨0, _⟩ => gather0 m c b t
  | ⟨1, _⟩ => gather1 m c b t
  | ⟨2, _⟩ => gather2 m c b t
  | ⟨3, _⟩ => gather3 m c b t
  | ⟨4, _⟩ => gather4 m c b t
  | ⟨5, _⟩ => gather5 m c b t
  | ⟨6, _⟩ => gather6 m c b t
  | ⟨7, _⟩ => gather7 m c b t
  | ⟨8, _⟩ => gather8 m c b t
  | ⟨9, _⟩ => gather9 m c b t
  | ⟨10, _⟩ => gather10 m c b t

end Cert.KernelIdeal.Host

end
-- ==== Proof.RefIdx.lean ====
import proofs.«124353_j3959959847205_1_alg».proof.Proof.RefStages
import Idealize.ShloMosaic.Lib.IdealHost
import Idealize.ShloMosaic.Lib.ValueLayout

noncomputable section
/-! The reference's two gathers read at an index: the start indices' 32-bit arithmetic decoded to natural numbers
    (the window column t + c, the row (11 b + c) mod 4096), and each gather as the operand at the decoded position. -/

namespace Cert.ReferenceIdeal.Hand
open Cert.ReferenceIdeal Cert.ReferenceIdeal.Gen Idealize.ShloMosaic Idealize.ShloMosaic.ValueIdx

/-! ## Words: the gathers' index arithmetic on 32-bit words of small numbers -/

theorem toNat_ofNat_small {n : Nat} (h : n < 2 ^ 31) : (BitVec.ofNat 32 n).toNat = n := by
  rw [BitVec.toNat_ofNat]; exact Nat.mod_eq_of_lt (by omega)

theorem toInt_ofNat_small {n : Nat} (h : n < 2 ^ 31) : (BitVec.ofNat 32 n).toInt = (n : Int) := by
  rw [BitVec.toInt_eq_toNat_of_lt (by rw [toNat_ofNat_small h]; omega), toNat_ofNat_small h]

/-- A small number's word is not negative. -/
theorem slt_zero_small {n : Nat} (h : n < 2 ^ 31) : IntOp.cmpi .slt (BitVec.ofNat 32 n) 0#32 = 0#1 := by
  have e : (BitVec.ofNat 32 n).slt 0#32 = false := by
    rw [BitVec.slt_eq_decide, toInt_ofNat_small h]; simp
  simp only [IntOp.cmpi, e]; rfl

/-- The truncated remainder of a small number's word by 4096 is the remainder's word. -/
theorem remsi_small {n : Nat} (h : n < 2 ^ 31) : IntOp.remsi .host (BitVec.ofNat 32 n) 4096#32 = BitVec.ofNat 32 (n % 4096) := by
  have hc : ¬ IntOp.SDivCorner (BitVec.ofNat 32 n) 4096#32 := by
    intro hh; rcases hh with h0 | ⟨_, h1⟩
    · exact absurd h0 (by decide)
    · exact absurd h1 (by decide)
  unfold IntOp.remsi
  rw [if_neg hc]
  apply BitVec.toInt_inj.mp
  rw [BitVec.toInt_srem, toInt_ofNat_small h, toInt_ofNat_small (by omega : n % 4096 < 2 ^ 31)]
  have : (4096#32 : BitVec 32).toInt = 4096 := by decide
  rw [this, Int.tmod_eq_emod_of_nonneg (by omega)]
  omega

/-- A word moved up by `w` when negative. -/
def wrapWord (w v : BitVec 32) : BitVec 32 := Scalar.select (IntOp.cmpi .slt v 0#32) (IntOp.addi v w) v

theorem wrapWord_small (w : BitVec 32) {n : Nat} (h : n < 2 ^ 31) : wrapWord w (BitVec.ofNat 32 n) = BitVec.ofNat 32 n := by
  unfold wrapWord; rw [slt_zero_small h, select_zero]

/-- The remainder by 4096 with the divisor's sign, as the program spells it on one word. -/
def remWord (v : BitVec 32) : BitVec 32 :=
  Scalar.select
    (IntOp.andi
      (IntOp.cmpi .ne (IntOp.cmpi .slt (IntOp.remsi .host v (Scalar.select (IntOp.cmpi .eq 4096#32 0#32) 1#32 4096#32)) 0#32)
        (IntOp.cmpi .slt (Scalar.select (IntOp.cmpi .eq 4096#32 0#32) 1#32 4096#32) 0#32))
      (IntOp.cmpi .ne (IntOp.remsi .host v (Scalar.select (IntOp.cmpi .eq 4096#32 0#32) 1#32 4096#32)) 0#32))
    (IntOp.addi (IntOp.remsi .host v (Scalar.select (IntOp.cmpi .eq 4096#32 0#32) 1#32 4096#32)) (Scalar.select (IntOp.cmpi .eq 4096#32 0#32) 1#32 4096#32))
    (IntOp.remsi .host v (Scalar.select (IntOp.cmpi .eq 4096#32 0#32) 1#32 4096#32))

theorem remWord_small {n : Nat} (h : n < 2 ^ 31) : remWord (BitVec.ofNat 32 n) = BitVec.ofNat 32 (n % 4096) := by
  have hm : Scalar.select (IntOp.cmpi .eq 4096#32 0#32) 1#32 4096#32 = 4096#32 := by decide
  have h1 : IntOp.cmpi .slt (4096#32 : BitVec 32) 0#32 = 0#1 := by decide
  unfold remWord
  rw [hm, remsi_small h, slt_zero_small (by omega : n % 4096 < 2 ^ 31), h1]
  have h2 : IntOp.cmpi .ne (0#1 : BitVec 1) 0#1 = 0#1 := by decide
  rw [h2]
  have h3 : ∀ x : BitVec 1, IntOp.andi 0#1 x = 0#1 := by decide
  rw [h3, select_zero]

/-! ## The integer stages read at an index -/

theorem winSum_apply (t : Fin 750) (c : Fin 11) :
    winSum (F := Ideal) (ix2 t c) = BitVec.ofNat 32 (t.val + c.val) := by
  rw [BitVec.ofNat_add]; rfl

theorem rowSum_apply (b : Fin 4096) (c : Fin 11) :
    rowSum (F := Ideal) (ix2 b c) = BitVec.ofNat 32 (11 * b.val + c.val) := by
  rw [BitVec.ofNat_add, BitVec.ofNat_mul]; rfl

theorem rowRem_apply (s : IVec S4096x11 32) (j : S4096x11.Idx) : rowRem (F := Ideal) s j = remWord (s j) := rfl

section Bcast
variable {α : Type}

/-- A trailing unit axis added. -/
theorem bcast_ab_ab1_apply {n0 n1 : ℕ} (h0 : n0 ≠ 1) (h1 : n1 ≠ 1)
    (h : (⟨2, ![n0, n1]⟩ : Shape).BroadcastsInDim ⟨3, ![n0, n1, 1]⟩ ![0, 1]) (x : (⟨2, ![n0, n1]⟩ : Shape).Idx → α)
    (a : Fin n0) (b : Fin n1) (u : Fin 1) :
    broadcastInDim ⟨3, ![n0, n1, 1]⟩ ![0, 1] h x (ix3 a b u) = x (ix2 a b) :=
  broadcastInDim_apply _ h x _ _ fun k => match k with
    | ⟨0, _⟩ => (if_neg h0).symm
    | ⟨1, _⟩ => (if_neg h1).symm

/-- A trailing unit axis broadcast. -/
theorem bcast_ab1_abc_apply {n0 n1 n2 : ℕ} (h0 : n0 ≠ 1) (h1 : n1 ≠ 1)
    (h : (⟨3, ![n0, n1, 1]⟩ : Shape).BroadcastsInDim ⟨3, ![n0, n1, n2]⟩ ![0, 1, 2]) (x : (⟨3, ![n0, n1, 1]⟩ : Shape).Idx → α)
    (a : Fin n0) (b : Fin n1) (c : Fin n2) :
    broadcastInDim ⟨3, ![n0, n1, n2]⟩ ![0, 1, 2] h x (ix3 a b c) = x (ix3 a b (0 : Fin 1)) :=
  broadcastInDim_apply _ h x _ _ fun k => match k with
    | ⟨0, _⟩ => (if_neg h0).symm
    | ⟨1, _⟩ => (if_neg h1).symm
    | ⟨2, _⟩ => (if_pos rfl).symm

/-- A leading unit axis added. -/
theorem bcast_bc_1bc_apply {n1 n2 : ℕ} (h1 : n1 ≠ 1) (h2 : n2 ≠ 1)
    (h : (⟨2, ![n1, n2]⟩ : Shape).BroadcastsInDim ⟨3, ![1, n1, n2]⟩ ![1, 2]) (x : (⟨2, ![n1, n2]⟩ : Shape).Idx → α)
    (u : Fin 1) (b : Fin n1) (c : Fin n2) :
    broadcastInDim ⟨3, ![1, n1, n2]⟩ ![1, 2] h x (ix3 u b c) = x (ix2 b c) :=
  broadcastInDim_apply _ h x _ _ fun k => match k with
    | ⟨0, _⟩ => (if_neg h1).symm
    | ⟨1, _⟩ => (if_neg h2).symm

/-- A leading unit axis broadcast. -/
theorem bcast_1bc_abc_apply {n0 n1 n2 : ℕ} (h1 : n1 ≠ 1) (h2 : n2 ≠ 1)
    (h : (⟨3, ![1, n1, n2]⟩ : Shape).BroadcastsInDim ⟨3, ![n0, n1, n2]⟩ ![0, 1, 2]) (x : (⟨3, ![1, n1, n2]⟩ : Shape).Idx → α)
    (a : Fin n0) (b : Fin n1) (c : Fin n2) :
    broadcastInDim ⟨3, ![n0, n1, n2]⟩ ![0, 1, 2] h x (ix3 a b c) = x (ix3 (0 : Fin 1) b c) :=
  broadcastInDim_apply _ h x _ _ fun k => match k with
    | ⟨0, _⟩ => (if_pos rfl).symm
    | ⟨1, _⟩ => (if_neg h1).symm
    | ⟨2, _⟩ => (if_neg h2).symm

end Bcast

theorem winIdx_apply (s : IVec S750x11 32) (t : Fin 750) (c : Fin 11) (u : Fin 1) :
    winIdx (F := Ideal) s (ix3 t c u) = wrapWord 761#32 (s (ix2 t c)) := by
  unfold winIdx
  rw [bcast_ab_ab1_apply (by decide) (by decide)]
  rfl

theorem rowIdx_apply (s : IVec S4096x11 32) (b : Fin 4096) (c : Fin 11) (u : Fin 1) :
    rowIdx (F := Ideal) s (ix3 b c u) = wrapWord 4096#32 (s (ix2 b c)) := by
  unfold rowIdx
  rw [bcast_ab_ab1_apply (by decide) (by decide)]
  rfl

/-- The window gather's start index at (t, c) is the word of t + c. -/
theorem winIdx_winSum (t : Fin 750) (c : Fin 11) (u : Fin 1) :
    winIdx (F := Ideal) (winSum (F := Ideal)) (ix3 t c u) = BitVec.ofNat 32 (t.val + c.val) := by
  rw [winIdx_apply, winSum_apply, wrapWord_small 761#32 (by omega)]

/-- The row gather's start index at (b, c) is the word of (11 b + c) mod 4096. -/
theorem rowIdx_rowRem_rowSum (b : Fin 4096) (c : Fin 11) (u : Fin 1) :
    rowIdx (F := Ideal) (rowRem (F := Ideal) (rowSum (F := Ideal))) (ix3 b c u) = BitVec.ofNat 32 ((11 * b.val + c.val) % 4096) := by
  rw [rowIdx_apply, rowRem_apply, rowSum_apply, remWord_small (by omega), wrapWord_small 4096#32 (by omega)]

/-! ## The two gathers read at an index -/

/-- The window gather at (b, t, c): the operand's row b at the start index (t, c), read signed and clamped into the row. -/
theorem windows_apply (p : FVec Ideal S4096x761 .f32) (idx : IVec S750x11x1 32) (b : Fin 4096) (t : Fin 750) (c : Fin 11) :
    windows (F := Ideal) p idx (ix3 b t c)
      = p (ix2 b ⟨min (idx (ix3 t c (0 : Fin 1))).toInt.toNat 760, by omega⟩) := by
  unfold windows
  show Host.gather gather_S4096x761_S750x11x1_S4096x750x11_0_1_n_n_1_2_40961 p idx (ix3 b t c) = _
  unfold Host.gather
  congr 1
  funext a
  refine Fin.ext ?_
  have hsi : gather_S4096x761_S750x11x1_S4096x750x11_0_1_n_n_1_2_40961.siIdx (ix3 b t c) ⟨0, by decide⟩ = ix3 t c (0 : Fin 1) := by
    funext k; refine Fin.ext ?_
    match k with
    | ⟨0, _⟩ => rfl
    | ⟨1, _⟩ => rfl
    | ⟨2, _⟩ => rfl
  match a with
  | ⟨0, _⟩ =>
    show gather_S4096x761_S750x11x1_S4096x750x11_0_1_n_n_1_2_40961.start (ix3 b t c) idx ⟨0, by decide⟩
      + gather_S4096x761_S750x11x1_S4096x750x11_0_1_n_n_1_2_40961.batchCoord (ix3 b t c) ⟨0, by decide⟩
      + gather_S4096x761_S750x11x1_S4096x750x11_0_1_n_n_1_2_40961.offCoord (ix3 b t c) ⟨0, by decide⟩ = b.val
    rw [GatherDims.batchCoord_eq_zero _ _ _ List.not_mem_nil]
    unfold GatherDims.start GatherDims.offCoord
    rw [dif_neg (by decide), dif_pos (by decide)]
    have key : ∀ k : Fin 3, k = ⟨0, by decide⟩ → 0 + 0 + (ix3 b t c k).val = b.val := by
      intro k hk; subst hk; show 0 + 0 + b.val = b.val; omega
    exact key _ (by decide)
  | ⟨1, _⟩ =>
    show min (idx (gather_S4096x761_S750x11x1_S4096x750x11_0_1_n_n_1_2_40961.siIdx (ix3 b t c) ⟨0, by decide⟩)).toInt.toNat (761 - 1) + 0 + 0 = _
    rw [hsi]
    rfl

/-- The row gather, transposed, at (b, t, c): the operand's column t at the start index (b, c), read signed and clamped. -/
theorem tiled_apply (x : FVec Ideal S4096x750 .f32) (idx : IVec S4096x11x1 32) (b : Fin 4096) (t : Fin 750) (c : Fin 11) :
    tiled (F := Ideal) x idx (ix3 b t c)
      = x (ix2 ⟨min (idx (ix3 b c (0 : Fin 1))).toInt.toNat 4095, by omega⟩ t) := by
  unfold tiled
  show transpose S4096x750x11 [0, 2, 1] (Host.gather gather_S4096x750_S4096x11x1_S4096x11x750_2_0_n_n_0_2_1750 x idx) transposes_S4096x11x750_S4096x750x11_0_2_1 (ix3 b t c) = _
  rw [transpose_ix3_021_apply]
  unfold Host.gather
  congr 1
  funext a
  refine Fin.ext ?_
  have hsi : gather_S4096x750_S4096x11x1_S4096x11x750_2_0_n_n_0_2_1750.siIdx (ix3 b c t) ⟨0, by decide⟩ = ix3 b c (0 : Fin 1) := by
    funext k; refine Fin.ext ?_
    match k with
    | ⟨0, _⟩ => rfl
    | ⟨1, _⟩ => rfl
    | ⟨2, _⟩ => rfl
  match a with
  | ⟨0, _⟩ =>
    show min (idx (gather_S4096x750_S4096x11x1_S4096x11x750_2_0_n_n_0_2_1750.siIdx (ix3 b c t) ⟨0, by decide⟩)).toInt.toNat (4096 - 1) + 0 + 0 = _
    rw [hsi]
    rfl
  | ⟨1, _⟩ =>
    show gather_S4096x750_S4096x11x1_S4096x11x750_2_0_n_n_0_2_1750.start (ix3 b c t) idx ⟨1, by decide⟩
      + gather_S4096x750_S4096x11x1_S4096x11x750_2_0_n_n_0_2_1750.batchCoord (ix3 b c t) ⟨1, by decide⟩
      + gather_S4096x750_S4096x11x1_S4096x11x750_2_0_n_n_0_2_1750.offCoord (ix3 b c t) ⟨1, by decide⟩ = t.val
    rw [GatherDims.batchCoord_eq_zero _ _ _ List.not_mem_nil]
    unfold GatherDims.start GatherDims.offCoord
    rw [dif_neg (by decide), dif_pos (by decide)]
    have key : ∀ k : Fin 3, k = ⟨2, by decide⟩ → 0 + 0 + (ix3 b c t k).val = t.val := by
      intro k hk; subst hk; show 0 + 0 + t.val = t.val; omega
    exact key _ (by decide)

end Cert.ReferenceIdeal.Hand
end
-- ==== Proof.RefRead.lean ====
import proofs.«124353_j3959959847205_1_alg».proof.Proof.RefIdx
import proofs.«124353_j3959959847205_1_alg».proof.Proof.Spec

/-! The reference's staged term read index by index at the ideal values, stage by stage, and composed: it is the
    specified loss of the two arguments and of their padded forms. -/

noncomputable section
open scoped BigOperators
namespace Cert.ReferenceIdeal.Hand
open Cert.ReferenceIdeal Cert.ReferenceIdeal.Gen Idealize.ShloMosaic Idealize.ShloMosaic.ValueIdx

/-! ## The gathers at the decoded positions -/

theorem toNat_toInt_small {n : Nat} (h : n < 2 ^ 31) : (BitVec.ofNat 32 n).toInt.toNat = n := by
  rw [toInt_ofNat_small h]; omega

/-- The windows of a padded array: row b at column t + c. -/
theorem windows_read (p : FVec Ideal S4096x761 .f32) (b : Fin 4096) (t : Fin 750) (c : Fin 11) :
    windows (F := Ideal) p (winIdx (F := Ideal) (winSum (F := Ideal))) (ix3 b t c) = p (ix2 b (Spec.windowCol t c)) := by
  rw [windows_apply]
  refine congrArg p (congrArg (ix2 b) (Fin.ext ?_))
  show min (winIdx (F := Ideal) (winSum (F := Ideal)) (ix3 t c (0 : Fin 1))).toInt.toNat 760 = t.val + c.val
  rw [winIdx_winSum, toNat_toInt_small (by omega)]; omega

/-- The gathered rows: row (11 b + c) mod 4096 at column t. -/
theorem tiled_read (x : FVec Ideal S4096x750 .f32) (b : Fin 4096) (t : Fin 750) (c : Fin 11) :
    tiled (F := Ideal) x (rowIdx (F := Ideal) (rowRem (F := Ideal) (rowSum (F := Ideal)))) (ix3 b t c) = x (ix2 (Spec.windowRow b c) t) := by
  rw [tiled_apply]
  refine congrArg x (congrArg (fun r => ix2 r t) (Fin.ext ?_))
  show min (rowIdx (F := Ideal) (rowRem (F := Ideal) (rowSum (F := Ideal))) (ix3 b c (0 : Fin 1))).toInt.toNat 4095 = (11 * b.val + c.val) % 4096
  rw [rowIdx_rowRem_rowSum, toNat_toInt_small (by omega)]; omega

/-! ## The float stages read at an index -/

theorem lift_axis2 (h : S4096x750x11.Reduces [2] S4096x750) (b : Fin 4096) (t : Fin 750) (k : Fin (S4096x750x11.size 2)) :
    h.lift (ix2 b t) k = ix3 b t (⟨k.val, k.isLt⟩ : Fin 11) := by
  funext a; apply Fin.ext; fin_cases a <;> rfl

theorem lift_axis0 (h : S4096x750x11.Reduces [0] S750x11) (t : Fin 750) (c : Fin 11) (k : Fin (S4096x750x11.size 0)) :
    h.lift (ix2 t c) k = ix3 (⟨k.val, k.isLt⟩ : Fin 4096) t c := by
  funext a; apply Fin.ext; fin_cases a <;> rfl

theorem maxW_apply (tl w : FVec Ideal S4096x750x11 .f32) (b : Fin 4096) (t : Fin 750) :
    maxW (F := Ideal) tl w (ix2 b t)
      = (Finset.univ : Finset (Fin 11)).fold max (Ideal.ofBits .f32 0xFF800000#32) (fun c => tl (ix3 b t c) - w (ix3 b t c)) := by
  have h : S4096x750x11.Reduces [2] S4096x750 := by decide
  unfold maxW
  show Host.reduce FloatOps.maximumf (subf tl w) (constant S_ .f32 0xFF800000#32) reducesTo_S4096x750x11_S4096x750_d2 h_S_ (ix2 b t) = _
  rw [Host.reduce_eq_fold_single FloatOps.maximumf (subf tl w) _ reducesTo_S4096x750x11_S4096x750_d2 h h_S_]
  have hf : ((subf tl w) ∘ h.lift (ix2 b t)) = fun k : Fin 11 => tl (ix3 b t k) - w (ix3 b t k) := funext fun k => by
    show subf tl w (h.lift (ix2 b t) k) = _
    rw [lift_axis2]; rfl
  exact congrArg (fun f => Finset.fold max (Ideal.ofBits .f32 0xFF800000#32) f (Finset.univ : Finset (Fin 11))) hf

theorem normSq_apply (x : FVec Ideal S4096x750 .f32) (w : FVec Ideal S4096x750x11 .f32) (t : Fin 750) (c : Fin 11) :
    normSq (F := Ideal) x w (ix2 t c) = 0 + ∑ b : Fin 4096, (x (ix2 b t) - w (ix3 b t c)) * (x (ix2 b t) - w (ix3 b t c)) := by
  have h : S4096x750x11.Reduces [0] S750x11 := by decide
  unfold normSq
  beta_reduce
  rw [hostReduceAdd_apply, Ideal.hostReduceAdd_single _ h]
  refine congrArg₂ (· + ·) Ideal.ofBits_zero_f32 (Finset.sum_congr rfl fun k _ => ?_)
  rw [lift_axis0, mulf_apply, subf_apply, bcast_ab1_abc_apply (by decide) (by decide), bcast_ab_ab1_apply (by decide) (by decide)]
  rfl

theorem gMaxSq_apply (mw : FVec Ideal S4096x750 .f32) (j : S4096x750.Idx) :
    gMaxSq (F := Ideal) mw j = (Ideal.ofBits .f32 0x3F800000#32 * mw j) * mw j := rfl

theorem expo_apply (n : FVec Ideal S750x11 .f32) (g : FVec Ideal S4096x750 .f32) (b : Fin 4096) (t : Fin 750) (c : Fin 11) :
    expo (F := Ideal) n g (ix3 b t c) = max (n (ix2 t c) - g (ix2 b t)) 0 + g (ix2 b t) := by
  unfold expo
  beta_reduce
  rw [addf_apply, maximumf_apply, subf_apply,
    bcast_1bc_abc_apply (by decide) (by decide), bcast_bc_1bc_apply (by decide) (by decide),
    bcast_ab1_abc_apply (by decide) (by decide), bcast_ab_ab1_apply (by decide) (by decide),
    broadcastInDim_scalar_apply, constant_apply, Ideal.ofBits_zero_f32]

theorem weights_apply (e : FVec Ideal S4096x750x11 .f32) (j : S4096x750x11.Idx) :
    weights (F := Ideal) e j = Ideal.exp (Ideal.div (-(e j)) (Ideal.ofBits .f32 0x40000000#32)) := rfl

theorem absDiff_apply (y : FVec Ideal S4096x750 .f32) (w : FVec Ideal S4096x750x11 .f32) (b : Fin 4096) (t : Fin 750) (c : Fin 11) :
    absDiff (F := Ideal) y w (ix3 b t c) = max (y (ix2 b t) - w (ix3 b t c)) (-(y (ix2 b t) - w (ix3 b t c))) := by
  unfold absDiff
  beta_reduce
  show max (subf _ w (ix3 b t c)) (-(subf _ w (ix3 b t c))) = _
  rw [subf_apply, bcast_ab1_abc_apply (by decide) (by decide), bcast_ab_ab1_apply (by decide) (by decide)]

theorem lossTail_apply (l d : FVec Ideal S_ .f32) (j : S_.Idx) :
    lossTail (F := Ideal) l d j = (l j + Ideal.ofBits .f32 0x3DCCCCCD#32 * d j) * Ideal.ofBits .f32 0x3F800000#32 := rfl

section Sums
variable {M : Type*} [AddCommMonoid M]

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Sums

theorem lossMain_apply (wt d : FVec Ideal S4096x750x11 .f32) (j : S_.Idx) :
    lossMain (F := Ideal) wt d j
      = Ideal.div (0 + ∑ b : Fin 4096, ∑ t : Fin 750, ∑ c : Fin 11, wt (ix3 b t c) * d (ix3 b t c))
          (Ideal.ofBits .f32 0x45800000#32) := by
  unfold lossMain
  beta_reduce
  rw [hostDivf_apply, hostReduceAdd_apply, Ideal.hostReduceAdd_total _ (fun b => b.elim0), sum_idx3]
  exact congrArg₂ Ideal.div (congrArg₂ (· + ·) Ideal.ofBits_zero_f32 rfl) rfl

theorem lift_axis1 (h : S4096x750.Reduces [1] S4096) (b : Fin 4096) (k : Fin (S4096x750.size 1)) :
    h.lift (ix1 b) k = ix2 b (⟨k.val, k.isLt⟩ : Fin 750) := by
  funext a; apply Fin.ext; fin_cases a <;> rfl

theorem diffMean_apply (x y : FVec Ideal S4096x750 .f32) (j : S_.Idx) :
    diffMean (F := Ideal) x y j
      = Ideal.div (0 + ∑ b : Fin 4096, (0 + ∑ t : Fin 750, (x (ix2 b t) - y (ix2 b t)) * (x (ix2 b t) - y (ix2 b t))))
          (Ideal.ofBits .f32 0x45800000#32) := by
  have h : S4096x750.Reduces [1] S4096 := by decide
  unfold diffMean
  beta_reduce
  rw [hostDivf_apply, hostReduceAdd_apply, Ideal.hostReduceAdd_total _ (fun b => b.elim0), sum_idx1]
  refine congrArg₂ Ideal.div (congrArg₂ (· + ·) Ideal.ofBits_zero_f32 (Finset.sum_congr rfl fun b _ => ?_)) rfl
  rw [hostReduceAdd_apply, Ideal.hostReduceAdd_single _ h]
  refine congrArg₂ (· + ·) Ideal.ofBits_zero_f32 (Finset.sum_congr rfl fun k _ => ?_)
  rw [lift_axis1]
  rfl

/-! ## The stages composed, against the specification -/

section Against
variable (a0 a1 : FVec Ideal S4096x750 .f32)

theorem cur_read (b : Fin 4096) (t : Fin 750) (c : Fin 11) :
    (tiled (F := Ideal) a0 (rowIdx (F := Ideal) (rowRem (F := Ideal) (rowSum (F := Ideal))))) (ix3 b t c) - (windows (F := Ideal) (padded (F := Ideal) a0) (winIdx (F := Ideal) (winSum (F := Ideal)))) (ix3 b t c) = Spec.cur (fun b t => a0 (ix2 b t)) (fun b j => padded (F := Ideal) a0 (ix2 b j)) b t c := by
  rw [tiled_read, windows_read]; rfl

theorem maxW_read (b : Fin 4096) (t : Fin 750) :
    (maxW (F := Ideal) (tiled (F := Ideal) a0 (rowIdx (F := Ideal) (rowRem (F := Ideal) (rowSum (F := Ideal))))) (windows (F := Ideal) (padded (F := Ideal) a0) (winIdx (F := Ideal) (winSum (F := Ideal))))) (ix2 b t) = Spec.runningMax (fun b t => a0 (ix2 b t)) (fun b j => padded (F := Ideal) a0 (ix2 b j)) b t := by
  rw [maxW_apply]
  unfold Spec.runningMax
  exact congrArg (fun f => Finset.fold max (Ideal.ofBits .f32 0xFF800000#32) f (Finset.univ : Finset (Fin 11)))
    (funext fun c => cur_read a0 b t c)

theorem normSq_read (t : Fin 750) (c : Fin 11) :
    (normSq (F := Ideal) a0 (windows (F := Ideal) (padded (F := Ideal) a0) (winIdx (F := Ideal) (winSum (F := Ideal))))) (ix2 t c) = Spec.normSq (fun b t => a0 (ix2 b t)) (fun b j => padded (F := Ideal) a0 (ix2 b j)) t c := by
  rw [normSq_apply]
  unfold Spec.normSq
  refine congrArg (0 + ·) (Finset.sum_congr rfl fun b _ => ?_)
  rw [windows_read]

theorem gain_read (b : Fin 4096) (t : Fin 750) :
    (gMaxSq (F := Ideal) (maxW (F := Ideal) (tiled (F := Ideal) a0 (rowIdx (F := Ideal) (rowRem (F := Ideal) (rowSum (F := Ideal))))) (windows (F := Ideal) (padded (F := Ideal) a0) (winIdx (F := Ideal) (winSum (F := Ideal)))))) (ix2 b t) = Spec.gain (fun b t => a0 (ix2 b t)) (fun b j => padded (F := Ideal) a0 (ix2 b j)) b t := by
  rw [gMaxSq_apply, maxW_read]; rfl

theorem expo_read (b : Fin 4096) (t : Fin 750) (c : Fin 11) :
    (expo (F := Ideal) (normSq (F := Ideal) a0 (windows (F := Ideal) (padded (F := Ideal) a0) (winIdx (F := Ideal) (winSum (F := Ideal))))) (gMaxSq (F := Ideal) (maxW (F := Ideal) (tiled (F := Ideal) a0 (rowIdx (F := Ideal) (rowRem (F := Ideal) (rowSum (F := Ideal))))) (windows (F := Ideal) (padded (F := Ideal) a0) (winIdx (F := Ideal) (winSum (F := Ideal))))))) (ix3 b t c) = Spec.expo (fun b t => a0 (ix2 b t)) (fun b j => padded (F := Ideal) a0 (ix2 b j)) b t c := by
  rw [expo_apply, normSq_read, gain_read]; rfl

theorem weight_read (b : Fin 4096) (t : Fin 750) (c : Fin 11) :
    (weights (F := Ideal) (expo (F := Ideal) (normSq (F := Ideal) a0 (windows (F := Ideal) (padded (F := Ideal) a0) (winIdx (F := Ideal) (winSum (F := Ideal))))) (gMaxSq (F := Ideal) (maxW (F := Ideal) (tiled (F := Ideal) a0 (rowIdx (F := Ideal) (rowRem (F := Ideal) (rowSum (F := Ideal))))) (windows (F := Ideal) (padded (F := Ideal) a0) (winIdx (F := Ideal) (winSum (F := Ideal)))))))) (ix3 b t c) = Spec.weight (fun b t => a0 (ix2 b t)) (fun b j => padded (F := Ideal) a0 (ix2 b j)) b t c := by
  rw [weights_apply, expo_read]; rfl

theorem absDiff_read (b : Fin 4096) (t : Fin 750) (c : Fin 11) :
    (absDiff (F := Ideal) a1 (windows (F := Ideal) (padded (F := Ideal) a1) (winIdx (F := Ideal) (winSum (F := Ideal))))) (ix3 b t c) = Spec.absDiff (fun b t => a1 (ix2 b t)) (fun b j => padded (F := Ideal) a1 (ix2 b j)) b t c := by
  rw [absDiff_apply, windows_read]; rfl

/-- The reference's result is the specified loss of the two arguments and their padded forms. -/
theorem refTerm_eq :
    refTerm (F := Ideal) a0 a1
      = fun _ => Spec.loss (fun b t => a0 (ix2 b t)) (fun b t => a1 (ix2 b t)) (fun b j => padded (F := Ideal) a0 (ix2 b j)) (fun b j => padded (F := Ideal) a1 (ix2 b j)) := by
  funext j
  unfold refTerm
  rw [lossTail_apply, lossMain_apply, diffMean_apply]
  unfold Spec.loss Spec.weightedTotal Spec.diffTotal
  simp only [weight_read, absDiff_read]

end Against

end Cert.ReferenceIdeal.Hand
end
-- ==== Proof.Bridge.lean ====
/-
  The idealized kernel's result equals the reference's.

  Region 0 leaves, of the arguments A, B and their padded arrays PA, PB: the window maximum at every (row,
  column) — the left fold over the eleven window columns of A at the permuted row minus PA at the shifted
  column —, the eleven-by-750 squared-norm entries summed over the batch tile by tile, and the total squared
  difference of A and B. Region 1 reads these and leaves the weighted total, again tile by tile. Each is the
  specification's quantity; the last host stretch then makes the specification's loss of them, which is what
  the reference computes.
-/
import proofs.«124353_j3959959847205_1_alg».proof.Proof.BridgeTail
import proofs.«124353_j3959959847205_1_alg».proof.Proof.R0Value
import proofs.«124353_j3959959847205_1_alg».proof.Proof.R1Final
import proofs.«124353_j3959959847205_1_alg».proof.Proof.KTake
import proofs.«124353_j3959959847205_1_alg».proof.Proof.RefRead

set_option maxRecDepth 16384

noncomputable section

open scoped BigOperators

namespace Cert.Bridge

open Idealize.ShloMosaic Idealize.ShloMosaic.ValueIdx Idealize.ShloMosaic.TcCoe Idealize.SL.Sem
open Cert.KernelIdeal Cert.KernelIdeal.Gen Cert.KernelIdeal.Run Cert.KernelIdeal.Host Cert.Lib.Blocks

variable (m : (ℓ : Loc nD τ sig) → Buf (Elt Ideal) ℓ) (c : Dev nD)

/-- The arguments and their padded arrays as plain functions of row and column. -/
abbrev argA : Fin 4096 → Fin 750 → EReal := fun b t => (m ((c : Thread nD τ).loc main_arg0) : FVec Ideal S4096x750 .f32) (ix2 b t)
abbrev argB : Fin 4096 → Fin 750 → EReal := fun b t => (m ((c : Thread nD τ).loc main_arg1) : FVec Ideal S4096x750 .f32) (ix2 b t)
abbrev padA : Fin 4096 → Fin 761 → EReal := fun b j => padded (F := Ideal) (m ((c : Thread nD τ).loc main_arg0)) (ix2 b j)
abbrev padB : Fin 4096 → Fin 761 → EReal := fun b j => padded (F := Ideal) (m ((c : Thread nD τ).loc main_arg1)) (ix2 b j)

/-! ## What region 0 finds -/

theorem E0_apply (b : Fin 4096) (t : Fin 750) : R0.E0 (Ve0 m) c (ix2 b t) = argA m c b t :=
  congrFun (V13_arg0 m c) (ix2 b t)
theorem E1_apply (b : Fin 4096) (t : Fin 750) : R0.E1 (Ve0 m) c (ix2 b t) = argB m c b t :=
  congrFun (V13_arg1 m c) (ix2 b t)
theorem E2_apply (b : Fin 4096) (j : Fin 761) : R0.E2 (Ve0 m) c (ix2 b j) = padA m c b j :=
  congrFun (V13_v27 m c) (ix2 b j)
theorem E3_apply (k : Fin 11) (b : Fin 4096) (t : Fin 750) :
    R0.E3 (Ve0 m) c (ix3 k b t) = argA m c (Cert.Spec.windowRow b k) t :=
  V13_v50_apply m c k b t

/-! ## Region 0's results -/

theorem maxw_spec (b : Fin 4096) (t : Fin 750) :
    @Eq EReal (((R0.dat0 (Ve0 m) c).arrAt 4 cfg0.N : S4096x750.Idx → EReal) (ix2 b t))
      (Cert.Spec.runningMax (argA m c) (padA m c) b t) := by
  rw [← rowOf_div_mod b]
  refine (R0.maxw_rows (Ve0 m) c _ _ t).trans ?_
  rw [runningMax_foldl]
  refine congrArg (fun f => List.foldl f _ _) (funext fun acc => funext fun k => ?_)
  rw [E3_apply, E2_apply]
  rfl

theorem ns_spec (s : Fin 11) (j : Fin 750) :
    @Eq EReal (((R0.dat0 (Ve0 m) c).arrAt 5 cfg0.N : S11x750.Idx → EReal) (ix2 s j))
      (Cert.Spec.normSq (argA m c) (padA m c) j s) := by
  refine (R0.ns_rows (Ve0 m) c s j).trans ?_
  show @Eq EReal _ _
  rw [normSq_blocks]
  refine Finset.sum_congr rfl fun i _ => Finset.sum_congr rfl fun r _ => ?_
  rw [E0_apply, E2_apply]

theorem dsq_spec :
    @Eq EReal (((R0.dat0 (Ve0 m) c).arrAt 6 cfg0.N : S1x1.Idx → EReal) (ix2 0 0))
      (Cert.Spec.diffTotal (argA m c) (argB m c)) := by
  refine (R0.dsq_rows (Ve0 m) c).trans ?_
  show @Eq EReal _ _
  rw [diffTotal_blocks]
  refine Finset.sum_congr rfl fun i _ => Finset.sum_congr rfl fun r _ => Finset.sum_congr rfl fun t _ => ?_
  rw [E0_apply, E1_apply]

/-! ## What region 1 finds -/

theorem e1_ns (s : Fin 11) (j : Fin 750) :
    @Eq EReal ((Ve1 reg0Data m c main_v51_1 : S11x750.Idx → EReal) (ix2 s j)) (Cert.Spec.normSq (argA m c) (padA m c) j s) :=
  (congrFun (W14_arr reg0Data m c 5) (ix2 s j)).trans (ns_spec m c s j)

theorem e1_maxw (b : Fin 4096) (t : Fin 750) :
    @Eq EReal ((Ve1 reg0Data m c main_v51_0 : S4096x750.Idx → EReal) (ix2 b t)) (Cert.Spec.runningMax (argA m c) (padA m c) b t) :=
  (congrFun (W14_arr reg0Data m c 4) (ix2 b t)).trans (maxw_spec m c b t)

theorem e1_arg1 (b : Fin 4096) (t : Fin 750) :
    @Eq EReal ((Ve1 reg0Data m c main_arg1 : S4096x750.Idx → EReal) (ix2 b t)) (argB m c b t) :=
  congrFun ((W14_arr reg0Data m c 1).trans (((reg0Data.dat (Ve0 m) c).arrAt_in 1 rfl _).trans
    ((reg0Data.A_eq (Ve0 m) c 1).trans (V13_arg1 m c)))) (ix2 b t)

theorem e1_v13 (b : Fin 4096) (j : Fin 761) :
    @Eq EReal ((Ve1 reg0Data m c main_v13 : S4096x761.Idx → EReal) (ix2 b j)) (padB m c b j) :=
  (congrFun (W14_of_ne reg0Data m c main_v13 (by decide)) (ix2 b j)).trans (congrFun (V13_v13 m c) (ix2 b j))

/-! ## Region 1's result -/

theorem total_spec :
    @Eq EReal (((R1.dat1 (Ve1 reg0Data m) c).arrAt 4 cfg1.N : S1x1.Idx → EReal) (ix2 0 0))
      (Cert.Spec.weightedTotal (argA m c) (argB m c) (padA m c) (padB m c)) := by
  rw [R1.final1 (Ve1 reg0Data m) c]
  refine (R1.result1_rows (Ve1 reg0Data m) c).trans ?_
  show @Eq EReal _ _
  rw [weightedTotal_blocks]
  refine Finset.sum_congr rfl fun i _ => Finset.sum_congr rfl fun s _ => Finset.sum_congr rfl fun r _ =>
    Finset.sum_congr rfl fun j _ => ?_
  rw [e1_ns m c s j, e1_maxw m c (rowOf i r) j, e1_arg1 m c (rowOf i r) j, e1_v13 m c (rowOf i r) ⟨j.val + s.val, by omega⟩]
  rfl

/-! ## The two results are one -/

/-- THE KEY EQUATION: the kernel's result buffer holds what the reference's does. -/
theorem key :
    lossTail (F := Ideal) ((reg1Data.dat (Ve1 reg0Data m) c).arrAt 4 cfg1.N) ((reg0Data.dat (Ve0 m) c).arrAt 6 cfg0.N)
      = Cert.ReferenceIdeal.Hand.refTerm (F := Ideal) (m ((c : Thread nD τ).loc main_arg0)) (m ((c : Thread nD τ).loc main_arg1)) := by
  rw [Cert.ReferenceIdeal.Hand.refTerm_eq]
  exact lossTail_spec _ _ (argA m c) (argB m c) (padA m c) (padB m c) (total_spec m c) (dsq_spec m c)

end Cert.Bridge

end
-- ==== Proof.lean ====
/-
  The certificate's claim. The word-level kernel program and its idealization are one text read at two float
  instances: two kernel regions over a grid of 32 batch tiles, each carrying a scratch accumulator from tile
  to tile, among host operations that pad the inputs and gather row-permuted copies of the first. Their
  frames come from one run of @main written once for any float instance (the regions' bodies run per control
  case; the host stretches folded over the launch memory). The reference is a host program; its frame is its
  run with the result dropped. The ideal pass rewrote nothing, so the idealization claim is trivial. At the
  ideal instance the kernel's result and the reference's are the same function of the arguments: the same
  per-window maximum, the same sums over the batch, taken tile by tile on one side and at once on the other.
-/
import proofs.«124353_j3959959847205_1_alg».proof.Defs
import proofs.«124353_j3959959847205_1_alg».proof.Proof.Gen.Kernel
import proofs.«124353_j3959959847205_1_alg».proof.Proof.Gen.KernelIdeal
import proofs.«124353_j3959959847205_1_alg».proof.Proof.Gen.ReferenceIdeal
import proofs.«124353_j3959959847205_1_alg».proof.Proof.Gen.Pre_finite_inputs
import proofs.«124353_j3959959847205_1_alg».proof.Proof.WKFrame
import proofs.«124353_j3959959847205_1_alg».proof.Proof.KFrame
import proofs.«124353_j3959959847205_1_alg».proof.Proof.RefRun
import proofs.«124353_j3959959847205_1_alg».proof.Proof.Bridge

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Host.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Host.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Host.lossTail (F := Ideal)
      ((Cert.KernelIdeal.Host.reg1Data.dat (Cert.KernelIdeal.Run.Ve1 Cert.KernelIdeal.Host.reg0Data m) c).arrAt 4 Cert.KernelIdeal.cfg1.N)
      ((Cert.KernelIdeal.Host.reg0Data.dat (Cert.KernelIdeal.Run.Ve0 m) c).arrAt 6 Cert.KernelIdeal.cfg0.N),
    Cert.KernelIdeal.Host.run_result Cert.KernelIdeal.Host.reg0Data Cert.KernelIdeal.Host.reg1Data m ρ, ?_⟩
  refine (θ_run Cert.ReferenceIdeal.defs _ _).mono (fun _ h c => ⟨(h c).1.trans ?_, (h c).2.1, (h c).2.2⟩)
    (Cert.ReferenceIdeal.Hand.run (F := Ideal) m' ρ')
  rw [(hagree c).1, (hagree c).2]
  exact (Cert.Bridge.key m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
